-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "c1_c2_times_400" .f32 0x3F05A0E4#32 ((280239225 / 536870912 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v53_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v53_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v269) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x1024x2048 : Shape := ⟨4, ![1, 2, 1024, 2048]⟩
abbrev S1x1x1024x2048 : Shape := ⟨4, ![1, 1, 1024, 2048]⟩
abbrev S_ : Shape := ⟨0, ![]⟩
abbrev S1x1024x2048 : Shape := ⟨3, ![1, 1024, 2048]⟩
abbrev S1024x2048 : Shape := ⟨2, ![1024, 2048]⟩
abbrev S1 : Shape := ⟨1, ![1]⟩
abbrev S2 : Shape := ⟨1, ![2]⟩
abbrev S2047 : Shape := ⟨1, ![2047]⟩
abbrev S1024 : Shape := ⟨1, ![1024]⟩
abbrev S2048 : Shape := ⟨1, ![2048]⟩

class Facts : Prop where
  bcast_S_S1x1x1024x2048 : S_.BroadcastsInDim S1x1x1024x2048 (![] : Fin 0 → Fin S1x1x1024x2048.rank)
  reducesTo_S1x1x1024x2048_S_d0_1_2_3 : S1x1x1024x2048.ReducesTo [0, 1, 2, 3] S_
  h_S_ : 0 < S_.numel
  bcast_S_S1x2x1024x2048 : S_.BroadcastsInDim S1x2x1024x2048 (![] : Fin 0 → Fin S1x2x1024x2048.rank)
  reducesTo_S1x2x1024x2048_S_d0_1_2_3 : S1x2x1024x2048.ReducesTo [0, 1, 2, 3] S_
  slices_S1x2x1024x2048_S1x1x1024x2048_0_1_0_0 : S1x2x1024x2048.Slices ![0, 1, 0, 0] S1x1x1024x2048
  shapeCasts_S1x1x1024x2048_S1x1024x2048 : S1x1x1024x2048.ShapeCasts S1x1024x2048
  shapeCasts_S1x1024x2048_S1024x2048 : S1x1024x2048.ShapeCasts S1024x2048
  bcast_S_S1 : S_.BroadcastsInDim S1 (![] : Fin 0 → Fin S1.rank)
  concatenates_S1_S1_S2_d0 : Shape.Concatenates [S1, S1] S2 0
  bcast_S_S2047 : S_.BroadcastsInDim S2047 (![] : Fin 0 → Fin S2047.rank)
  bcast_S_S1024 : S_.BroadcastsInDim S1024 (![] : Fin 0 → Fin S1024.rank)
  bcast_S_S2048 : S_.BroadcastsInDim S2048 (![] : Fin 0 → Fin S2048.rank)
  bcast_S_S1024x2048 : S_.BroadcastsInDim S1024x2048 (![] : Fin 0 → Fin S1024x2048.rank)
  bcast_S1024x2048_S1x1x1024x2048_2_3 : S1024x2048.BroadcastsInDim S1x1x1024x2048 (![2, 3] : Fin 2 → Fin S1x1x1024x2048.rank)
  scatter_S1024x2048_S2_S2047_0_0_01_0_wf : ScatterDims.WF S1024x2048 S2 S2047 [0] [0] [0, 1] 0
  scatter_S1024x2048_S1_S1024_0_1_1_0_wf : ScatterDims.WF S1024x2048 S1 S1024 [0] [1] [1] 0
  scatter_S1024x2048_S1_S2048_0_0_0_0_wf : ScatterDims.WF S1024x2048 S1 S2048 [0] [0] [0] 0

variable [Facts]

def scatter_S1024x2048_S2_S2047_0_0_01_0 : ScatterDims S1024x2048 S2 S2047 where
  updateWindowDims := [0]
  insertedWindowDims := [0]
  scatterDimsToOperandDims := [0, 1]
  indexVectorDim := 0
  wf := scatter_S1024x2048_S2_S2047_0_0_01_0_wf
def scatter_S1024x2048_S1_S1024_0_1_1_0 : ScatterDims S1024x2048 S1 S1024 where
  updateWindowDims := [0]
  insertedWindowDims := [1]
  scatterDimsToOperandDims := [1]
  indexVectorDim := 0
  wf := scatter_S1024x2048_S1_S1024_0_1_1_0_wf
def scatter_S1024x2048_S1_S2048_0_0_0_0 : ScatterDims S1024x2048 S1 S2048 where
  updateWindowDims := [0]
  insertedWindowDims := [0]
  scatterDimsToOperandDims := [0]
  indexVectorDim := 0
  wf := scatter_S1024x2048_S1_S2048_0_0_0_0_wf
def fn_part3 {F : FTy → Type} [FloatOps F] (main_v18 : IVec S_ 1) (main_v48 : FVec F S1x1x1024x2048 .f32) : IVec S_ 1 :=
  let main_cst_21 : FVec F S_ .f32 := constant S_ .f32 0x00000000#32
  let main_v49 : FVec F S_ .f32 := (fun x v => Host.reduceAdd x v reducesTo_S1x1x1024x2048_S_d0_1_2_3 h_S_) main_v48 main_cst_21
  let main_cst_22 : FVec F S_ .f32 := constant S_ .f32 0x00000000#32
  let main_v50 : IVec S_ 1 := cmpf .oge main_v49 main_cst_22
  let main_v51 : IVec S_ 1 := andi main_v18 main_v50
  main_v51

def fn_part2 {F : FTy → Type} [FloatOps F] (main_arg2 : FVec F S1x1x1024x2048 .f32) (main_v18 : IVec S_ 1) (main_v31 : IVec S1024x2048 32) (main_v32 : IVec S1 32) : IVec S_ 1 :=
  let main_c_13 : IVec S_ 32 := constantI S_ 32 0#32
  let main_v33 : IVec S1024 32 := broadcastInDim S1024 ![] bcast_S_S1024 main_c_13
  let main_v34 : IVec S1024x2048 32 := (fun x i u => Host.scatter scatter_S1024x2048_S1_S1024_0_1_1_0 (fun _ b => b) x i u) main_v31 main_v32 main_v33
  let main_c_14 : IVec S_ 32 := constantI S_ 32 2047#32
  let main_v35 : IVec S1 32 := broadcastInDim S1 ![] bcast_S_S1 main_c_14
  let main_c_15 : IVec S_ 32 := constantI S_ 32 3#32
  let main_v36 : IVec S1024 32 := broadcastInDim S1024 ![] bcast_S_S1024 main_c_15
  let main_v37 : IVec S1024x2048 32 := (fun x i u => Host.scatter scatter_S1024x2048_S1_S1024_0_1_1_0 (fun _ b => b) x i u) main_v34 main_v35 main_v36
  let main_c_16 : IVec S_ 32 := constantI S_ 32 0#32
  let main_v38 : IVec S1 32 := broadcastInDim S1 ![] bcast_S_S1 main_c_16
  let main_c_17 : IVec S_ 32 := constantI S_ 32 3#32
  let main_v39 : IVec S2048 32 := broadcastInDim S2048 ![] bcast_S_S2048 main_c_17
  let main_v40 : IVec S1024x2048 32 := (fun x i u => Host.scatter scatter_S1024x2048_S1_S2048_0_0_0_0 (fun _ b => b) x i u) main_v37 main_v38 main_v39
  let main_c_18 : IVec S_ 32 := constantI S_ 32 1023#32
  let main_v41 : IVec S1 32 := broadcastInDim S1 ![] bcast_S_S1 main_c_18
  let main_c_19 : IVec S_ 32 := constantI S_ 32 3#32
  let main_v42 : IVec S2048 32 := broadcastInDim S2048 ![] bcast_S_S2048 main_c_19
  let main_v43 : IVec S1024x2048 32 := (fun x i u => Host.scatter scatter_S1024x2048_S1_S2048_0_0_0_0 (fun _ b => b) x i u) main_v40 main_v41 main_v42
  let main_c_20 : IVec S_ 32 := constantI S_ 32 3#32
  let main_v44 : IVec S1024x2048 32 := broadcastInDim S1024x2048 ![] bcast_S_S1024x2048 main_c_20
  let main_v45 : IVec S1024x2048 1 := cmpi .sgt main_v43 main_v44
  let main_v46 : FVec F S1024x2048 .f32 := uitofp .f32 main_v45
  let main_v47 : FVec F S1x1x1024x2048 .f32 := broadcastInDim S1x1x1024x2048 ![2, 3] bcast_S1024x2048_S1x1x1024x2048_2_3 main_v46
  let main_v48 : FVec F S1x1x1024x2048 .f32 := mulf main_arg2 main_v47
  fn_part3 (F := F) main_v18 main_v48

def fn_part1 {F : FTy → Type} [FloatOps F] (main_arg0 : IVec S1x2x1024x2048 32) (main_arg2 : FVec F S1x1x1024x2048 .f32) (main_v13 : IVec S_ 1) (main_v16 : IVec S1x2x1024x2048 1) : IVec S_ 1 :=
  let main_c_5 : IVec S_ 1 := constantI S_ 1 1#1
  let main_v17 : IVec S_ 1 := (fun x v => Host.reduce IntOp.andi x v reducesTo_S1x2x1024x2048_S_d0_1_2_3 h_S_) main_v16 main_c_5
  let main_v18 : IVec S_ 1 := andi main_v13 main_v17
  let main_v19 : IVec S1x1x1024x2048 32 := (extractStridedSlice S1x1x1024x2048 ![0, 1, 0, 0] · slices_S1x2x1024x2048_S1x1x1024x2048_0_1_0_0) main_arg0
  let main_v20 : IVec S1x1024x2048 32 := shapeCast S1x1024x2048 main_v19 shapeCasts_S1x1x1024x2048_S1x1024x2048
  let main_v21 : IVec S1024x2048 32 := shapeCast S1024x2048 main_v20 shapeCasts_S1x1024x2048_S1024x2048
  let main_c_6 : IVec S_ 32 := constantI S_ 32 1#32
  let main_v22 : IVec S1 32 := broadcastInDim S1 ![] bcast_S_S1 main_c_6
  let main_c_7 : IVec S_ 32 := constantI S_ 32 1#32
  let main_v23 : IVec S1 32 := broadcastInDim S1 ![] bcast_S_S1 main_c_7
  let main_v24 : IVec S2 32 := (fun a b => concatenate S2 0 [⟨S1, a⟩, ⟨S1, b⟩] concatenates_S1_S1_S2_d0) main_v22 main_v23
  let main_c_8 : IVec S_ 32 := constantI S_ 32 0#32
  let main_v25 : IVec S2047 32 := broadcastInDim S2047 ![] bcast_S_S2047 main_c_8
  let main_v26 : IVec S1024x2048 32 := (fun x i u => Host.scatter scatter_S1024x2048_S2_S2047_0_0_01_0 (fun _ b => b) x i u) main_v21 main_v24 main_v25
  let main_c_9 : IVec S_ 32 := constantI S_ 32 1022#32
  let main_v27 : IVec S1 32 := broadcastInDim S1 ![] bcast_S_S1 main_c_9
  let main_c_10 : IVec S_ 32 := constantI S_ 32 1#32
  let main_v28 : IVec S1 32 := broadcastInDim S1 ![] bcast_S_S1 main_c_10
  let main_v29 : IVec S2 32 := (fun a b => concatenate S2 0 [⟨S1, a⟩, ⟨S1, b⟩] concatenates_S1_S1_S2_d0) main_v27 main_v28
  let main_c_11 : IVec S_ 32 := constantI S_ 32 0#32
  let main_v30 : IVec S2047 32 := broadcastInDim S2047 ![] bcast_S_S2047 main_c_11
  let main_v31 : IVec S1024x2048 32 := (fun x i u => Host.scatter scatter_S1024x2048_S2_S2047_0_0_01_0 (fun _ b => b) x i u) main_v26 main_v29 main_v30
  let main_c_12 : IVec S_ 32 := constantI S_ 32 1#32
  let main_v32 : IVec S1 32 := broadcastInDim S1 ![] bcast_S_S1 main_c_12
  fn_part2 (F := F) main_arg2 main_v18 main_v31 main_v32

def fn {F : FTy → Type} [FloatOps F] (main_arg0 : IVec S1x2x1024x2048 32) (main_arg1 : FVec F S1x1x1024x2048 .f32) (main_arg2 : FVec F S1x1x1024x2048 .f32) (main_arg3 : FVec F S1x1x1024x2048 .f32) (main_arg4 : FVec F S1x2x1024x2048 .f32) : IVec S_ 1 :=
  let main_v0 : FVec F S1x1x1024x2048 .f32 := Host.absf main_arg1
  let main_cst : FVec F S_ .f32 := constant S_ .f32 0x7F800000#32
  let main_v1 : FVec F S1x1x1024x2048 .f32 := broadcastInDim S1x1x1024x2048 ![] bcast_S_S1x1x1024x2048 main_cst
  let main_v2 : IVec S1x1x1024x2048 1 := cmpf .olt main_v0 main_v1
  let main_c : IVec S_ 1 := constantI S_ 1 1#1
  let main_v3 : IVec S_ 1 := (fun x v => Host.reduce IntOp.andi x v reducesTo_S1x1x1024x2048_S_d0_1_2_3 h_S_) main_v2 main_c
  let main_v4 : FVec F S1x1x1024x2048 .f32 := Host.absf main_arg2
  let main_cst_0 : FVec F S_ .f32 := constant S_ .f32 0x7F800000#32
  let main_v5 : FVec F S1x1x1024x2048 .f32 := broadcastInDim S1x1x1024x2048 ![] bcast_S_S1x1x1024x2048 main_cst_0
  let main_v6 : IVec S1x1x1024x2048 1 := cmpf .olt main_v4 main_v5
  let main_c_1 : IVec S_ 1 := constantI S_ 1 1#1
  let main_v7 : IVec S_ 1 := (fun x v => Host.reduce IntOp.andi x v reducesTo_S1x1x1024x2048_S_d0_1_2_3 h_S_) main_v6 main_c_1
  let main_v8 : IVec S_ 1 := andi main_v3 main_v7
  let main_v9 : FVec F S1x1x1024x2048 .f32 := Host.absf main_arg3
  let main_cst_2 : FVec F S_ .f32 := constant S_ .f32 0x7F800000#32
  let main_v10 : FVec F S1x1x1024x2048 .f32 := broadcastInDim S1x1x1024x2048 ![] bcast_S_S1x1x1024x2048 main_cst_2
  let main_v11 : IVec S1x1x1024x2048 1 := cmpf .olt main_v9 main_v10
  let main_c_3 : IVec S_ 1 := constantI S_ 1 1#1
  let main_v12 : IVec S_ 1 := (fun x v => Host.reduce IntOp.andi x v reducesTo_S1x1x1024x2048_S_d0_1_2_3 h_S_) main_v11 main_c_3
  let main_v13 : IVec S_ 1 := andi main_v8 main_v12
  let main_v14 : FVec F S1x2x1024x2048 .f32 := Host.absf main_arg4
  let main_cst_4 : FVec F S_ .f32 := constant S_ .f32 0x7F800000#32
  let main_v15 : FVec F S1x2x1024x2048 .f32 := broadcastInDim S1x2x1024x2048 ![] bcast_S_S1x2x1024x2048 main_cst_4
  let main_v16 : IVec S1x2x1024x2048 1 := cmpf .olt main_v14 main_v15
  fn_part1 (F := F) main_arg0 main_arg2 main_v13 main_v16
-- ==== Kernel.lean ====
abbrev S1x2x1024x2048 : Shape := ⟨4, ![1, 2, 1024, 2048]⟩
abbrev S1x1x1024x2048 : Shape := ⟨4, ![1, 1, 1024, 2048]⟩
abbrev S1024x2048 : Shape := ⟨2, ![1024, 2048]⟩
abbrev S_ : Shape := ⟨0, ![]⟩
abbrev S1x2048 : Shape := ⟨2, ![1, 2048]⟩
abbrev S8x2048 : Shape := ⟨2, ![8, 2048]⟩
abbrev S1032x2048 : Shape := ⟨2, ![1032, 2048]⟩
abbrev S1040x2048 : Shape := ⟨2, ![1040, 2048]⟩
abbrev S1040x1 : Shape := ⟨2, ![1040, 1]⟩
abbrev S1040x2049 : Shape := ⟨2, ![1040, 2049]⟩
abbrev S1040x2050 : Shape := ⟨2, ![1040, 2050]⟩
abbrev S1040x2176 : Shape := ⟨2, ![1040, 2176]⟩
abbrev S1x1 : Shape := ⟨2, ![1, 1]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S64x2048 : Shape := ⟨2, ![64, 2048]⟩
abbrev S80x2176 : Shape := ⟨2, ![80, 2176]⟩
abbrev S80x2050 : Shape := ⟨2, ![80, 2050]⟩
abbrev S64x2050 : Shape := ⟨2, ![64, 2050]⟩
abbrev S64 : Shape := ⟨1, ![64]⟩
abbrev S64x1 : Shape := ⟨2, ![64, 1]⟩

abbrev nBuf : Space → Nat
  | .hbm => 123
  | .vmem => 25
  | .smem => 0
  | _ => 0

abbrev bufTy : (tb : Table) → Fin (tcTables nBuf tb) → BufTy
  | .hbm, ⟨0, _⟩ => ⟨S1x2x1024x2048, .i32⟩
  | .hbm, ⟨1, _⟩ => ⟨S1x1x1024x2048, .f32⟩
  | .hbm, ⟨2, _⟩ => ⟨S1x1x1024x2048, .f32⟩
  | .hbm, ⟨3, _⟩ => ⟨S1x1x1024x2048, .f32⟩
  | .hbm, ⟨4, _⟩ => ⟨S1x2x1024x2048, .f32⟩
  | .hbm, ⟨5, _⟩ => ⟨S1x1x1024x2048, .i32⟩
  | .hbm, ⟨6, _⟩ => ⟨S1024x2048, .i32⟩
  | .hbm, ⟨7, _⟩ => ⟨S1x1x1024x2048, .i32⟩
  | .hbm, ⟨8, _⟩ => ⟨S1024x2048, .i32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1x1x1024x2048, .f32⟩
  | .hbm, ⟨13, _⟩ => ⟨S1024x2048, .f32⟩
  | .hbm, ⟨14, _⟩ => ⟨S1x1x1024x2048, .f32⟩
  | .hbm, ⟨15, _⟩ => ⟨S1024x2048, .f32⟩
  | .hbm, ⟨16, _⟩ => ⟨S1024x2048, .i32⟩
  | .hbm, ⟨17, _⟩ => ⟨S1024x2048, .i32⟩
  | .hbm, ⟨18, _⟩ => ⟨S_, .i32⟩
  | .hbm, ⟨19, _⟩ => ⟨S1024x2048, .i32⟩
  | .hbm, ⟨20, _⟩ => ⟨S1024x2048, .i1⟩
  | .hbm, ⟨21, _⟩ => ⟨S_, .i32⟩
  | .hbm, ⟨22, _⟩ => ⟨S1024x2048, .i32⟩
  | .hbm, ⟨23, _⟩ => ⟨S1024x2048, .i1⟩
  | .hbm, ⟨24, _⟩ => ⟨S1024x2048, .i1⟩
  | .hbm, ⟨25, _⟩ => ⟨S_, .i32⟩
  | .hbm, ⟨26, _⟩ => ⟨S_, .i32⟩
  | .hbm, ⟨27, _⟩ => ⟨S1024x2048, .i32⟩
  | .hbm, ⟨28, _⟩ => ⟨S1024x2048, .i32⟩
  | .hbm, ⟨29, _⟩ => ⟨S_, .i32⟩
  | .hbm, ⟨30, _⟩ => ⟨S1024x2048, .i32⟩
  | .hbm, ⟨31, _⟩ => ⟨S1024x2048, .i1⟩
  | .hbm, ⟨32, _⟩ => ⟨S_, .i32⟩
  | .hbm, ⟨33, _⟩ => ⟨S1024x2048, .i32⟩
  | .hbm, ⟨34, _⟩ => ⟨S1024x2048, .i1⟩
  | .hbm, ⟨35, _⟩ => ⟨S1024x2048, .i1⟩
  | .hbm, ⟨36, _⟩ => ⟨S_, .i32⟩
  | .hbm, ⟨37, _⟩ => ⟨S_, .i32⟩
  | .hbm, ⟨38, _⟩ => ⟨S1024x2048, .i32⟩
  | .hbm, ⟨39, _⟩ => ⟨S1024x2048, .i32⟩
  | .hbm, ⟨40, _⟩ => ⟨S_, .i32⟩
  | .hbm, ⟨41, _⟩ => ⟨S1024x2048, .i32⟩
  | .hbm, ⟨42, _⟩ => ⟨S1024x2048, .i1⟩
  | .hbm, ⟨43, _⟩ => ⟨S_, .i32⟩
  | .hbm, ⟨44, _⟩ => ⟨S_, .i32⟩
  | .hbm, ⟨45, _⟩ => ⟨S1024x2048, .i32⟩
  | .hbm, ⟨46, _⟩ => ⟨S1024x2048, .i32⟩
  | .hbm, ⟨47, _⟩ => ⟨S_, .i32⟩
  | .hbm, ⟨48, _⟩ => ⟨S1024x2048, .i32⟩
  | .hbm, ⟨49, _⟩ => ⟨S1024x2048, .i1⟩
  | .hbm, ⟨50, _⟩ => ⟨S_, .i32⟩
  | .hbm, ⟨51, _⟩ => ⟨S_, .i32⟩
  | .hbm, ⟨52, _⟩ => ⟨S1024x2048, .i32⟩
  | .hbm, ⟨53, _⟩ => ⟨S1024x2048, .i32⟩
  | .hbm, ⟨54, _⟩ => ⟨S_, .i32⟩
  | .hbm, ⟨55, _⟩ => ⟨S1024x2048, .i32⟩
  | .hbm, ⟨56, _⟩ => ⟨S1024x2048, .i1⟩
  | .hbm, ⟨57, _⟩ => ⟨S_, .i32⟩
  | .hbm, ⟨58, _⟩ => ⟨S_, .i32⟩
  | .hbm, ⟨59, _⟩ => ⟨S1024x2048, .i32⟩
  | .hbm, ⟨60, _⟩ => ⟨S1024x2048, .i32⟩
  | .hbm, ⟨61, _⟩ => ⟨S_, .i32⟩
  | .hbm, ⟨62, _⟩ => ⟨S1024x2048, .i32⟩
  | .hbm, ⟨63, _⟩ => ⟨S1024x2048, .i1⟩
  | .hbm, ⟨64, _⟩ => ⟨S_, .i32⟩
  | .hbm, ⟨65, _⟩ => ⟨S_, .i32⟩
  | .hbm, ⟨66, _⟩ => ⟨S1024x2048, .i32⟩
  | .hbm, ⟨67, _⟩ => ⟨S1024x2048, .i32⟩
  | .hbm, ⟨68, _⟩ => ⟨S1024x2048, .f32⟩
  | .hbm, ⟨69, _⟩ => ⟨S_, .i32⟩
  | .hbm, ⟨70, _⟩ => ⟨S1024x2048, .i32⟩
  | .hbm, ⟨71, _⟩ => ⟨S1024x2048, .i1⟩
  | .hbm, ⟨72, _⟩ => ⟨S_, .f32⟩
  | .hbm, ⟨73, _⟩ => ⟨S_, .f32⟩
  | .hbm, ⟨74, _⟩ => ⟨S1024x2048, .f32⟩
  | .hbm, ⟨75, _⟩ => ⟨S1024x2048, .f32⟩
  | .hbm, ⟨76, _⟩ => ⟨S_, .i32⟩
  | .hbm, ⟨77, _⟩ => ⟨S1024x2048, .i32⟩
  | .hbm, ⟨78, _⟩ => ⟨S1024x2048, .i1⟩
  | .hbm, ⟨79, _⟩ => ⟨S_, .f32⟩
  | .hbm, ⟨80, _⟩ => ⟨S_, .f32⟩
  | .hbm, ⟨81, _⟩ => ⟨S1024x2048, .f32⟩
  | .hbm, ⟨82, _⟩ => ⟨S1024x2048, .f32⟩
  | .hbm, ⟨83, _⟩ => ⟨S_, .i32⟩
  | .hbm, ⟨84, _⟩ => ⟨S1024x2048, .i32⟩
  | .hbm, ⟨85, _⟩ => ⟨S1024x2048, .i1⟩
  | .hbm, ⟨86, _⟩ => ⟨S1024x2048, .f32⟩
  | .hbm, ⟨87, _⟩ => ⟨S1024x2048, .f32⟩
  | .hbm, ⟨88, _⟩ => ⟨S_, .i32⟩
  | .hbm, ⟨89, _⟩ => ⟨S1x2048, .f32⟩
  | .hbm, ⟨90, _⟩ => ⟨S8x2048, .f32⟩
  | .hbm, ⟨91, _⟩ => ⟨S8x2048, .f32⟩
  | .hbm, ⟨92, _⟩ => ⟨S1032x2048, .f32⟩
  | .hbm, ⟨93, _⟩ => ⟨S1x2048, .f32⟩
  | .hbm, ⟨94, _⟩ => ⟨S8x2048, .f32⟩
  | .hbm, ⟨95, _⟩ => ⟨S8x2048, .f32⟩
  | .hbm, ⟨96, _⟩ => ⟨S1040x2048, .f32⟩
  | .hbm, ⟨97, _⟩ => ⟨S1040x1, .f32⟩
  | .hbm, ⟨98, _⟩ => ⟨S1040x1, .f32⟩
  | .hbm, ⟨99, _⟩ => ⟨S1040x1, .f32⟩
  | .hbm, ⟨100, _⟩ => ⟨S1040x2049, .f32⟩
  | .hbm, ⟨101, _⟩ => ⟨S1040x1, .f32⟩
  | .hbm, ⟨102, _⟩ => ⟨S1040x1, .f32⟩
  | .hbm, ⟨103, _⟩ => ⟨S1040x1, .f32⟩
  | .hbm, ⟨104, _⟩ => ⟨S1040x2050, .f32⟩
  | .hbm, ⟨105, _⟩ => ⟨S_, .i32⟩
  | .hbm, ⟨106, _⟩ => ⟨S_, .f32⟩
  | .hbm, ⟨107, _⟩ => ⟨S1040x2176, .f32⟩
  | .hbm, ⟨108, _⟩ => ⟨S1x1, .f32⟩
  | .hbm, ⟨109, _⟩ => ⟨S_, .f32⟩
  | .hbm, ⟨110, _⟩ => ⟨S1x1, .f32⟩
  | .hbm, ⟨111, _⟩ => ⟨S1x1, .f32⟩
  | .hbm, ⟨112, _⟩ => ⟨S1024x2048, .i32⟩
  | .hbm, ⟨113, _⟩ => ⟨S1x1, .f32⟩
  | .hbm, ⟨114, _⟩ => ⟨S1x1, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S1x1x1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .i32⟩
  | .local _ .vmem, ⟨3, _⟩ => ⟨S128x2048, .i32⟩
  | .local _ .vmem, ⟨4, _⟩ => ⟨S1x1, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .i32⟩
  | .local _ .vmem, ⟨16, _⟩ => ⟨S64x2048, .i32⟩
  | .local _ .vmem, ⟨17, _⟩ => ⟨S64x2048, .f32⟩
  | .local _ .vmem, ⟨18, _⟩ => ⟨S64x2048, .f32⟩
  | .local _ .vmem, ⟨19, _⟩ => ⟨S1x1, .f32⟩
  | .local _ .vmem, ⟨20, _⟩ => ⟨S64x2048, .i32⟩
  | .local _ .vmem, ⟨21, _⟩ => ⟨S64x2048, .i32⟩
  | .local _ .vmem, ⟨22, _⟩ => ⟨S1x1, .f32⟩
  | .local _ .vmem, ⟨23, _⟩ => ⟨S1x1, .f32⟩
  | .local _ .vmem, ⟨24, _⟩ => ⟨S80x2176, .f32⟩
  | _, _ => ⟨S1x2x1024x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_call2_v0 : Ref sig .tc := ⟨.hbm, 44, rfl⟩
abbrev main_call2_v1 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_call3_v0 : Ref sig .tc := ⟨.hbm, 51, rfl⟩
abbrev main_call3_v1 : Ref sig .tc := ⟨.hbm, 52, rfl⟩
abbrev main_v30 : Ref sig .tc := ⟨.hbm, 53, rfl⟩
abbrev main_c_9 : Ref sig .tc := ⟨.hbm, 54, rfl⟩
abbrev main_v31 : Ref sig .tc := ⟨.hbm, 55, rfl⟩
abbrev main_v32 : Ref sig .tc := ⟨.hbm, 56, rfl⟩
abbrev main_c_10 : Ref sig .tc := ⟨.hbm, 57, rfl⟩
abbrev main_call4_v0 : Ref sig .tc := ⟨.hbm, 58, rfl⟩
abbrev main_call4_v1 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_c_12 : Ref sig .tc := ⟨.hbm, 64, rfl⟩
abbrev main_call5_v0 : Ref sig .tc := ⟨.hbm, 65, rfl⟩
abbrev main_call5_v1 : Ref sig .tc := ⟨.hbm, 66, rfl⟩
abbrev main_v36 : Ref sig .tc := ⟨.hbm, 67, rfl⟩
abbrev main_v37 : Ref sig .tc := ⟨.hbm, 68, rfl⟩
abbrev main_c_13 : Ref sig .tc := ⟨.hbm, 69, rfl⟩
abbrev main_v38 : Ref sig .tc := ⟨.hbm, 70, rfl⟩
abbrev main_v39 : Ref sig .tc := ⟨.hbm, 71, rfl⟩
abbrev main_cst : Ref sig .tc := ⟨.hbm, 72, rfl⟩
abbrev main_call6_v0 : Ref sig .tc := ⟨.hbm, 73, rfl⟩
abbrev main_call6_v1 : Ref sig .tc := ⟨.hbm, 74, rfl⟩
abbrev main_v40 : Ref sig .tc := ⟨.hbm, 75, rfl⟩
abbrev main_c_14 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_call7_v0 : Ref sig .tc := ⟨.hbm, 80, rfl⟩
abbrev main_call7_v1 : Ref sig .tc := ⟨.hbm, 81, rfl⟩
abbrev main_v43 : Ref sig .tc := ⟨.hbm, 82, rfl⟩
abbrev main_c_16 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_c_17 : Ref sig .tc := ⟨.hbm, 88, rfl⟩
abbrev main_call8_v0 : Ref sig .tc := ⟨.hbm, 89, rfl⟩
abbrev main_call8_v1 : Ref sig .tc := ⟨.hbm, 90, rfl⟩
abbrev main_call8_v2 : Ref sig .tc := ⟨.hbm, 91, rfl⟩
abbrev main_call8_v3 : Ref sig .tc := ⟨.hbm, 92, rfl⟩
abbrev main_call8_v4 : Ref sig .tc := ⟨.hbm, 93, rfl⟩
abbrev main_call8_v5 : Ref sig .tc := ⟨.hbm, 94, rfl⟩
abbrev main_call8_v6 : Ref sig .tc := ⟨.hbm, 95, rfl⟩
abbrev main_call8_v7 : Ref sig .tc := ⟨.hbm, 96, rfl⟩
abbrev main_call8_v8 : Ref sig .tc := ⟨.hbm, 97, rfl⟩
abbrev main_call8_v9 : Ref sig .tc := ⟨.hbm, 98, rfl⟩
abbrev main_call8_v10 : Ref sig .tc := ⟨.hbm, 99, rfl⟩
abbrev main_call8_v11 : Ref sig .tc := ⟨.hbm, 100, rfl⟩
abbrev main_call8_v12 : Ref sig .tc := ⟨.hbm, 101, rfl⟩
abbrev main_call8_v13 : Ref sig .tc := ⟨.hbm, 102, rfl⟩
abbrev main_call8_v14 : Ref sig .tc := ⟨.hbm, 103, rfl⟩
abbrev main_v48 : Ref sig .tc := ⟨.hbm, 104, rfl⟩
abbrev main_c_18 : Ref sig .tc := ⟨.hbm, 105, rfl⟩
abbrev main_call9_v0 : Ref sig .tc := ⟨.hbm, 106, rfl⟩
abbrev main_v49 : Ref sig .tc := ⟨.hbm, 107, rfl⟩
abbrev main_v50 : Ref sig .tc := ⟨.hbm, 108, rfl⟩
abbrev main_cst_19 : Ref sig .tc := ⟨.hbm, 109, rfl⟩
abbrev main_v51 : Ref sig .tc := ⟨.hbm, 110, rfl⟩
abbrev main_v52 : Ref sig .tc := ⟨.hbm, 111, rfl⟩
abbrev main_v53_0 : Ref sig .tc := ⟨.hbm, 112, rfl⟩
abbrev main_v53_1 : Ref sig .tc := ⟨.hbm, 113, rfl⟩
abbrev main_v53_2 : Ref sig .tc := ⟨.hbm, 114, rfl⟩
abbrev main_v54 : Ref sig .tc := ⟨.hbm, 115, rfl⟩
abbrev main_cst_20 : Ref sig .tc := ⟨.hbm, 116, rfl⟩
abbrev main_v55 : Ref sig .tc := ⟨.hbm, 117, rfl⟩
abbrev main_v56 : Ref sig .tc := ⟨.hbm, 118, rfl⟩
abbrev main_cst_21 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg10_0 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem10_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def k1_mult1 (i : grid1.Coords) : BitVec 32 :=
  let arg0 : BitVec 32 := BitVec.ofNat 32 (i 0).val
  let c64_i32 : BitVec 32 := 64#32
  let v3 : BitVec 32 := Scalar.muli arg0 c64_i32
  v3
def k1_off1 (i : grid1.Coords) : Fin 2 → Nat :=
  let arg0 : BitVec 32 := BitVec.ofNat 32 (i 0).val
  let c64_i32 : BitVec 32 := 64#32
  let v3 : BitVec 32 := Scalar.muli arg0 c64_i32
  let v4 : BitVec 32 := v3
  let c0_i32_1 : BitVec 32 := 0#32
  ![v4.toNat, 0]
def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x2048 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S64x2048 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  slices_S1x2x1024x2048_S1x1x1024x2048_0_0_0_0 : S1x2x1024x2048.Slices ![0, 0, 0, 0] S1x1x1024x2048
  shapeCasts_S1x1x1024x2048_S1024x2048 : S1x1x1024x2048.ShapeCasts S1024x2048
  slices_S1x2x1024x2048_S1x1x1024x2048_0_1_0_0 : S1x2x1024x2048.Slices ![0, 1, 0, 0] S1x1x1024x2048
  bcast_S_S1024x2048 : S_.BroadcastsInDim S1024x2048 (![] : Fin 0 → Fin S1024x2048.rank)
  slices_S1024x2048_S1x2048_0_0 : S1024x2048.Slices ![0, 0] S1x2048
  slices_S1024x2048_S8x2048_1_0 : S1024x2048.Slices ![1, 0] S8x2048
  concatenates_S8x2048_S1024x2048_S1032x2048_d0 : Shape.Concatenates [S8x2048, S1024x2048] S1032x2048 0
  slices_S1032x2048_S1x2048_1031_0 : S1032x2048.Slices ![1031, 0] S1x2048
  slices_S1032x2048_S8x2048_1023_0 : S1032x2048.Slices ![1023, 0] S8x2048
  concatenates_S1032x2048_S8x2048_S1040x2048_d0 : Shape.Concatenates [S1032x2048, S8x2048] S1040x2048 0
  slices_S1040x2048_S1040x1_0_0 : S1040x2048.Slices ![0, 0] S1040x1
  slices_S1040x2048_S1040x1_0_1 : S1040x2048.Slices ![0, 1] S1040x1
  concatenates_S1040x1_S1040x2048_S1040x2049_d1 : Shape.Concatenates [S1040x1, S1040x2048] S1040x2049 1
  slices_S1040x2049_S1040x1_0_2048 : S1040x2049.Slices ![0, 2048] S1040x1
  slices_S1040x2049_S1040x1_0_2047 : S1040x2049.Slices ![0, 2047] S1040x1
  concatenates_S1040x2049_S1040x1_S1040x2050_d1 : Shape.Concatenates [S1040x2049, S1040x1] S1040x2050 1
  pads_S1040x2050_S1040x2176_000_01260 : S1040x2050.Pads (![0, 0] : Fin 2 → Nat) ![0, 126] ![0, 0] S1040x2176
  h_S_ : 0 < S_.numel
  inb_S1x1_S1x1_0_0 : ∀ a, (![0, 0] : Fin 2 → Nat) a + S1x1.size a ≤ S1x1.size a
  h_S1x1 : 0 < S1x1.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  natLt_1_32 : 1 < 32
  reduces_S128x2048_S128 : S128x2048.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  inb_S80x2176_S80x2176_0_0 : ∀ a, (![0, 0] : Fin 2 → Nat) a + S80x2176.size a ≤ S80x2176.size a
  h_S80x2176 : 0 < S80x2176.numel
  slices_S80x2176_o0_0_S80x2050 : S80x2176.Slices ![0, 0] S80x2050
  slices_S80x2050_o7_1_S64x2048 : S80x2050.Slices ![7, 1] S64x2048
  slices_S80x2050_o9_1_S64x2048 : S80x2050.Slices ![9, 1] S64x2048
  slices_S80x2050_o8_0_S64x2050 : S80x2050.Slices ![8, 0] S64x2050
  slices_S64x2050_o0_2_S64x2048 : S64x2050.Slices ![0, 2] S64x2048
  slices_S64x2050_o0_0_S64x2048 : S64x2050.Slices ![0, 0] S64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  broadcasts_S1x1_S64x2048 : S1x1.Broadcasts S64x2048
  reduces_S64x2048_S64 : S64x2048.Reduces [1] S64
  shapeCasts_S64_S64x1 : S64.ShapeCasts S64x1
  reduces_S64x1_S1 : S64x1.Reduces [0] S1
  shapeCasts_S1x1_S_ : S1x1.ShapeCasts S_
  shapeCasts_S1024x2048_S1x1x1024x2048 : S1024x2048.ShapeCasts S1x1x1024x2048
  hcc1_scratch1 : 24 + S_.numel ≤ 25
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S1024x2048.size a
  hwx0_0 : ∀ i : grid0.Coords, EltTy.bits .f32 = 32 ∨ (Rect.block (s := S1024x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S1024x2048.size a
  hwx0_1 : ∀ i : grid0.Coords, EltTy.bits .i32 = 32 ∨ (Rect.block (s := S1024x2048) S128x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  k1_mult1_dvd : ∀ i : grid1.Coords, 64 ∣ (k1_mult1 i).toNat
  k1_off1_inb : ∀ i : grid1.Coords, ∀ a, (k1_off1 i) a + S80x2176.size a ≤ S1040x2176.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S64x2048.size a ≤ S1024x2048.size a
  hwx1_0 : ∀ i : grid1.Coords, EltTy.bits .f32 = 32 ∨ (Rect.block (s := S1024x2048) S64x2048.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S64x2048.size a ≤ S1024x2048.size a
  hwx1_1 : ∀ i : grid1.Coords, EltTy.bits .f32 = 32 ∨ (Rect.block (s := S1024x2048) S64x2048.size (cc1_transform_2 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S64x2048.size a ≤ S1024x2048.size a
  hwx1_2 : ∀ i : grid1.Coords, EltTy.bits .f32 = 32 ∨ (Rect.block (s := S1024x2048) S64x2048.size (cc1_transform_3 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_4 i = cc1_transform_4 i'
  hinb1_3 : ∀ (i : grid1.Coords) a, (cc1_transform_4 i a + 1) * S64x2048.size a ≤ S1024x2048.size a
  hwx1_3 : ∀ i : grid1.Coords, EltTy.bits .f32 = 32 ∨ (Rect.block (s := S1024x2048) S64x2048.size (cc1_transform_4 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_5 i = cc1_transform_5 i'
  hinb1_4 : ∀ (i : grid1.Coords) a, (cc1_transform_5 i a + 1) * S64x2048.size a ≤ S1024x2048.size a
  hwx1_4 : ∀ i : grid1.Coords, EltTy.bits .f32 = 32 ∨ (Rect.block (s := S1024x2048) S64x2048.size (cc1_transform_5 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_6 i = cc1_transform_6 i'
  hinb1_5 : ∀ (i : grid1.Coords) a, (cc1_transform_6 i a + 1) * S64x2048.size a ≤ S1024x2048.size a
  hwx1_5 : ∀ i : grid1.Coords, EltTy.bits .i32 = 32 ∨ (Rect.block (s := S1024x2048) S64x2048.size (cc1_transform_6 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_7 i = cc1_transform_7 i'
  hinb1_6 : ∀ (i : grid1.Coords) a, (cc1_transform_7 i a + 1) * S64x2048.size a ≤ S1024x2048.size a
  hwx1_6 : ∀ i : grid1.Coords, EltTy.bits .f32 = 32 ∨ (Rect.block (s := S1024x2048) S64x2048.size (cc1_transform_7 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_8 i = cc1_transform_8 i'
  hinb1_7 : ∀ (i : grid1.Coords) a, (cc1_transform_8 i a + 1) * S1x1.size a ≤ S1x1.size a
  hwx1_7 : ∀ i : grid1.Coords, EltTy.bits .f32 = 32 ∨ (Rect.block (s := S1x1) S1x1.size (cc1_transform_8 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_9 i = cc1_transform_9 i'
  hinb1_8 : ∀ (i : grid1.Coords) a, (cc1_transform_9 i a + 1) * S64x2048.size a ≤ S1024x2048.size a
  hwx1_8 : ∀ i : grid1.Coords, EltTy.bits .i32 = 32 ∨ (Rect.block (s := S1024x2048) S64x2048.size (cc1_transform_9 i) (hinb1_8 i)).WholeWords (EltTy.packing .i32)
  hstage1_9 : ∀ j, (stage1_9 j).IsWhole
  nbuf1_9 : grid1.bufCount reads1_9 true = 1
  hreads1_9 : ∀ i i' : grid1.Coords, (∀ a, reads1_9 a = true → i a = i' a) → cc1_transform_10 i = cc1_transform_10 i'
  hinb1_9 : ∀ (i : grid1.Coords) a, (cc1_transform_10 i a + 1) * S1x1.size a ≤ S1x1.size a
  hwx1_9 : ∀ i : grid1.Coords, EltTy.bits .f32 = 32 ∨ (Rect.block (s := S1x1) S1x1.size (cc1_transform_10 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_11 i = cc1_transform_11 i'
  hinb1_10 : ∀ (i : grid1.Coords) a, (cc1_transform_11 i a + 1) * S1x1.size a ≤ S1x1.size a
  hwx1_10 : ∀ i : grid1.Coords, EltTy.bits .f32 = 32 ∨ (Rect.block (s := S1x1) S1x1.size (cc1_transform_11 i) (hinb1_10 i)).WholeWords (EltTy.packing .f32)

variable [Facts₀]

abbrev cc1_scratch1 : DmaSems sig S_ := SemArray.consecutive 24 S_ hcc1_scratch1

abbrev win0_0 : Pipeline.Window sig grid0 :=
  Pipeline.Window.ofSpec (Memref.whole main_v5) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S64x2048.size cc1_transform_1 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x2048.size cc1_transform_2 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S64x2048.size cc1_transform_3 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S64x2048.size cc1_transform_4 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S64x2048.size cc1_transform_5 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v36) S64x2048.size cc1_transform_6 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43) S64x2048.size cc1_transform_7 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v52) S1x1.size cc1_transform_8 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v53_0) S64x2048.size cc1_transform_9 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v53_1) S1x1.size cc1_transform_10 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v53_2) S1x1.size cc1_transform_11 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S1x2x1024x2048 : Shape := ⟨4, ![1, 2, 1024, 2048]⟩
abbrev S1x1x1024x2048 : Shape := ⟨4, ![1, 1, 1024, 2048]⟩
abbrev S1x1024x2048 : Shape := ⟨3, ![1, 1024, 2048]⟩
abbrev S1024x2048 : Shape := ⟨2, ![1024, 2048]⟩
abbrev S_ : Shape := ⟨0, ![]⟩
abbrev S1 : Shape := ⟨1, ![1]⟩
abbrev S1x2048 : Shape := ⟨2, ![1, 2048]⟩
abbrev S2 : Shape := ⟨1, ![2]⟩
abbrev S2047 : Shape := ⟨1, ![2047]⟩
abbrev S1024 : Shape := ⟨1, ![1024]⟩
abbrev S2048 : Shape := ⟨1, ![2048]⟩
abbrev S1x1x1x2048 : Shape := ⟨4, ![1, 1, 1, 2048]⟩
abbrev S1x1x1025x2048 : Shape := ⟨4, ![1, 1, 1025, 2048]⟩
abbrev S1x1x1026x2048 : Shape := ⟨4, ![1, 1, 1026, 2048]⟩
abbrev S1x1x1026x1 : Shape := ⟨4, ![1, 1, 1026, 1]⟩
abbrev S1x1x1026x2049 : Shape := ⟨4, ![1, 1, 1026, 2049]⟩
abbrev S1x1x1026x2050 : Shape := ⟨4, ![1, 1, 1026, 2050]⟩

abbrev nBuf : Space → Nat
  | .hbm => 441
  | .vmem => 0
  | .smem => 0
  | _ => 0

abbrev hbmTy0_0 (i : Nat) : BufTy := match i % 128 with
  | 0 => ⟨S1x2x1024x2048, .i32⟩
  | 1 => ⟨S1x1x1024x2048, .f32⟩
  | 2 => ⟨S1x1x1024x2048, .f32⟩
  | 3 => ⟨S1x1x1024x2048, .f32⟩
  | 4 => ⟨S1x2x1024x2048, .f32⟩
  | 5 => ⟨S1x1x1024x2048, .f32⟩
  | 6 => ⟨S1x1024x2048, .f32⟩
  | 7 => ⟨S1x1x1024x2048, .f32⟩
  | 8 => ⟨S1x1024x2048, .f32⟩
  | 9 => ⟨S1x1x1024x2048, .i32⟩
  | 10 => ⟨S1x1024x2048, .i32⟩
  | 11 => ⟨S1024x2048, .i32⟩
  | 12 => ⟨S1x1x1024x2048, .i32⟩
  | 13 => ⟨S1x1024x2048, .i32⟩
  | 14 => ⟨S1x1024x2048, .f32⟩
  | 15 => ⟨S_, .i32⟩
  | 16 => ⟨S1, .i32⟩
  | 17 => ⟨S_, .f32⟩
  | 18 => ⟨S1x2048, .f32⟩
  | 19 => ⟨S1x1024x2048, .f32⟩
  | 20 => ⟨S_, .i32⟩
  | 21 => ⟨S1, .i32⟩
  | 22 => ⟨S_, .f32⟩
  | 23 => ⟨S1x2048, .f32⟩
  | 24 => ⟨S1x1024x2048, .f32⟩
  | 25 => ⟨S_, .i32⟩
  | 26 => ⟨S1, .i32⟩
  | 27 => ⟨S_, .i32⟩
  | 28 => ⟨S1, .i32⟩
  | 29 => ⟨S2, .i32⟩
  | 30 => ⟨S_, .i32⟩
  | 31 => ⟨S2047, .i32⟩
  | 32 => ⟨S1024x2048, .i32⟩
  | 33 => ⟨S_, .i32⟩
  | 34 => ⟨S1, .i32⟩
  | 35 => ⟨S_, .i32⟩
  | 36 => ⟨S1, .i32⟩
  | 37 => ⟨S2, .i32⟩
  | 38 => ⟨S_, .i32⟩
  | 39 => ⟨S2047, .i32⟩
  | 40 => ⟨S1024x2048, .i32⟩
  | 41 => ⟨S_, .i32⟩
  | 42 => ⟨S1, .i32⟩
  | 43 => ⟨S_, .i32⟩
  | 44 => ⟨S1024, .i32⟩
  | 45 => ⟨S1024x2048, .i32⟩
  | 46 => ⟨S_, .i32⟩
  | 47 => ⟨S1, .i32⟩
  | 48 => ⟨S_, .i32⟩
  | 49 => ⟨S1024, .i32⟩
  | 50 => ⟨S1024x2048, .i32⟩
  | 51 => ⟨S_, .i32⟩
  | 52 => ⟨S1, .i32⟩
  | 53 => ⟨S_, .i32⟩
  | 54 => ⟨S2048, .i32⟩
  | 55 => ⟨S1024x2048, .i32⟩
  | 56 => ⟨S_, .i32⟩
  | 57 => ⟨S1, .i32⟩
  | 58 => ⟨S_, .i32⟩
  | 59 => ⟨S2048, .i32⟩
  | 60 => ⟨S1024x2048, .i32⟩
  | 61 => ⟨S_, .i32⟩
  | 62 => ⟨S1024x2048, .i32⟩
  | 63 => ⟨S1024x2048, .i1⟩
  | 64 => ⟨S1024x2048, .f32⟩
  | 65 => ⟨S1x1x1024x2048, .f32⟩
  | 66 => ⟨S1x1x1024x2048, .f32⟩
  | 67 => ⟨S_, .i32⟩
  | 68 => ⟨S1024x2048, .i32⟩
  | 69 => ⟨S1024x2048, .i1⟩
  | 70 => ⟨S1024x2048, .f32⟩
  | 71 => ⟨S1x1x1024x2048, .f32⟩
  | 72 => ⟨S1x1x1024x2048, .f32⟩
  | 73 => ⟨S_, .i32⟩
  | 74 => ⟨S1x1x1x2048, .f32⟩
  | 75 => ⟨S1x1x1x2048, .f32⟩
  | 76 => ⟨S1x1x1x2048, .f32⟩
  | 77 => ⟨S1x1x1025x2048, .f32⟩
  | 78 => ⟨S1x1x1x2048, .f32⟩
  | 79 => ⟨S1x1x1x2048, .f32⟩
  | 80 => ⟨S1x1x1x2048, .f32⟩
  | 81 => ⟨S1x1x1026x2048, .f32⟩
  | 82 => ⟨S1x1x1026x1, .f32⟩
  | 83 => ⟨S1x1x1026x1, .f32⟩
  | 84 => ⟨S1x1x1026x1, .f32⟩
  | 85 => ⟨S1x1x1026x2049, .f32⟩
  | 86 => ⟨S1x1x1026x1, .f32⟩
  | 87 => ⟨S1x1x1026x1, .f32⟩
  | 88 => ⟨S1x1x1026x1, .f32⟩
  | 89 => ⟨S1x1x1026x2050, .f32⟩
  | 90 => ⟨S_, .f32⟩
  | 91 => ⟨S1x1x1024x2048, .f32⟩
  | 92 => ⟨S1x1x1024x2048, .f32⟩
  | 93 => ⟨S_, .f32⟩
  | 94 => ⟨S1x1x1024x2048, .f32⟩
  | 95 => ⟨S1x1x1024x2048, .f32⟩
  | 96 => ⟨S_, .f32⟩
  | 97 => ⟨S1x1x1024x2048, .f32⟩
  | 98 => ⟨S1x1x1024x2048, .f32⟩
  | 99 => ⟨S1x1x1024x2048, .f32⟩
  | 100 => ⟨S_, .f32⟩
  | 101 => ⟨S1x1x1024x2048, .f32⟩
  | 102 => ⟨S1x1x1024x2048, .f32⟩
  | 103 => ⟨S1x1x1024x2048, .f32⟩
  | 104 => ⟨S1x1x1024x2048, .f32⟩
  | 105 => ⟨S1x1x1024x2048, .f32⟩
  | 106 => ⟨S_, .f32⟩
  | 107 => ⟨S1x1x1024x2048, .f32⟩
  | 108 => ⟨S1x1x1024x2048, .f32⟩
  | 109 => ⟨S1x1x1024x2048, .f32⟩
  | 110 => ⟨S_, .f32⟩
  | 111 => ⟨S1x1x1024x2048, .f32⟩
  | 112 => ⟨S1x1x1024x2048, .f32⟩
  | 113 => ⟨S_, .f32⟩
  | 114 => ⟨S1x1x1024x2048, .f32⟩
  | 115 => ⟨S1x1x1024x2048, .f32⟩
  | 116 => ⟨S_, .f32⟩
  | 117 => ⟨S1x1x1024x2048, .f32⟩
  | 118 => ⟨S1x1x1024x2048, .f32⟩
  | 119 => ⟨S_, .f32⟩
  | 120 => ⟨S1x1x1024x2048, .f32⟩
  | 121 => ⟨S1x1x1024x2048, .f32⟩
  | 122 => ⟨S1x1x1024x2048, .f32⟩
  | 123 => ⟨S_, .f32⟩
  | 124 => ⟨S1x1x1024x2048, .f32⟩
  | 125 => ⟨S1x1x1024x2048, .f32⟩
  | 126 => ⟨S1x1x1024x2048, .f32⟩
  | 127 => ⟨S1x1x1024x2048, .f32⟩
  | _ => ⟨S1x2x1024x2048, .i32⟩

abbrev hbmTy0_1 (i : Nat) : BufTy := match i % 128 with
  | 0 => ⟨S1x1x1024x2048, .f32⟩
  | 1 => ⟨S_, .f32⟩
  | 2 => ⟨S1x1x1024x2048, .f32⟩
  | 3 => ⟨S1x1x1024x2048, .f32⟩
  | 4 => ⟨S1x1x1024x2048, .f32⟩
  | 5 => ⟨S_, .f32⟩
  | 6 => ⟨S1x1x1024x2048, .f32⟩
  | 7 => ⟨S1x1x1024x2048, .f32⟩
  | 8 => ⟨S_, .f32⟩
  | 9 => ⟨S1x1x1024x2048, .f32⟩
  | 10 => ⟨S1x1x1024x2048, .f32⟩
  | 11 => ⟨S_, .f32⟩
  | 12 => ⟨S1x1x1024x2048, .f32⟩
  | 13 => ⟨S1x1x1024x2048, .f32⟩
  | 14 => ⟨S_, .f32⟩
  | 15 => ⟨S1x1x1024x2048, .f32⟩
  | 16 => ⟨S1x1x1024x2048, .f32⟩
  | 17 => ⟨S_, .f32⟩
  | 18 => ⟨S1x1x1024x2048, .f32⟩
  | 19 => ⟨S1x1x1024x2048, .f32⟩
  | 20 => ⟨S1x1x1024x2048, .f32⟩
  | 21 => ⟨S_, .f32⟩
  | 22 => ⟨S1x1x1024x2048, .f32⟩
  | 23 => ⟨S1x1x1024x2048, .f32⟩
  | 24 => ⟨S_, .f32⟩
  | 25 => ⟨S1x1x1024x2048, .f32⟩
  | 26 => ⟨S1x1x1024x2048, .f32⟩
  | 27 => ⟨S1x1x1024x2048, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S1x1x1024x2048, .f32⟩
  | 44 => ⟨S1x1x1024x2048, .f32⟩
  | 45 => ⟨S1x1x1024x2048, .f32⟩
  | 46 => ⟨S_, .f32⟩
  | 47 => ⟨S1x1x1024x2048, .f32⟩
  | 48 => ⟨S1x1x1024x2048, .f32⟩
  | 49 => ⟨S_, .f32⟩
  | 50 => ⟨S1x1x1024x2048, .f32⟩
  | 51 => ⟨S1x1x1024x2048, .f32⟩
  | 52 => ⟨S1x1x1024x2048, .f32⟩
  | 53 => ⟨S1x1x1024x2048, .f32⟩
  | 54 => ⟨S1x1x1024x2048, .f32⟩
  | 55 => ⟨S1x1x1024x2048, .f32⟩
  | 56 => ⟨S1x1x1024x2048, .f32⟩
  | 57 => ⟨S1x1x1024x2048, .f32⟩
  | 58 => ⟨S_, .f32⟩
  | 59 => ⟨S1x1x1024x2048, .f32⟩
  | 60 => ⟨S1x1x1024x2048, .f32⟩
  | 61 => ⟨S1x1x1024x2048, .f32⟩
  | 62 => ⟨S1x1x1024x2048, .f32⟩
  | 63 => ⟨S1x1x1024x2048, .f32⟩
  | 64 => ⟨S_, .f32⟩
  | 65 => ⟨S1x1x1024x2048, .f32⟩
  | 66 => ⟨S1x1x1024x2048, .f32⟩
  | 67 => ⟨S1x1x1024x2048, .f32⟩
  | 68 => ⟨S1x1x1024x2048, .f32⟩
  | 69 => ⟨S1x1x1024x2048, .f32⟩
  | 70 => ⟨S1x1x1024x2048, .f32⟩
  | 71 => ⟨S1x1x1024x2048, .f32⟩
  | 72 => ⟨S1x1x1024x2048, .f32⟩
  | 73 => ⟨S1x1x1024x2048, .f32⟩
  | 74 => ⟨S1x1x1024x2048, .f32⟩
  | 75 => ⟨S1x1x1024x2048, .f32⟩
  | 76 => ⟨S1x1x1024x2048, .f32⟩
  | 77 => ⟨S1x1x1024x2048, .f32⟩
  | 78 => ⟨S1x1x1024x2048, .f32⟩
  | 79 => ⟨S1x1x1024x2048, .f32⟩
  | 80 => ⟨S_, .f32⟩
  | 81 => ⟨S1x1x1024x2048, .f32⟩
  | 82 => ⟨S1x1x1024x2048, .f32⟩
  | 83 => ⟨S1x1x1024x2048, .f32⟩
  | 84 => ⟨S_, .f32⟩
  | 85 => ⟨S1x1x1024x2048, .f32⟩
  | 86 => ⟨S1x1x1024x2048, .f32⟩
  | 87 => ⟨S_, .f32⟩
  | 88 => ⟨S1x1x1024x2048, .f32⟩
  | 89 => ⟨S1x1x1024x2048, .f32⟩
  | 90 => ⟨S1x1x1024x2048, .f32⟩
  | 91 => ⟨S_, .f32⟩
  | 92 => ⟨S1x1x1024x2048, .f32⟩
  | 93 => ⟨S1x1x1024x2048, .f32⟩
  | 94 => ⟨S1x1x1024x2048, .f32⟩
  | 95 => ⟨S_, .f32⟩
  | 96 => ⟨S1x1x1024x2048, .f32⟩
  | 97 => ⟨S1x1x1024x2048, .f32⟩
  | 98 => ⟨S_, .f32⟩
  | 99 => ⟨S1x1x1024x2048, .f32⟩
  | 100 => ⟨S1x1x1024x2048, .f32⟩
  | 101 => ⟨S_, .f32⟩
  | 102 => ⟨S1x1x1024x2048, .f32⟩
  | 103 => ⟨S1x1x1024x2048, .f32⟩
  | 104 => ⟨S1x1x1024x2048, .f32⟩
  | 105 => ⟨S_, .f32⟩
  | 106 => ⟨S1x1x1024x2048, .f32⟩
  | 107 => ⟨S1x1x1024x2048, .f32⟩
  | 108 => ⟨S1x1x1024x2048, .f32⟩
  | 109 => ⟨S_, .f32⟩
  | 110 => ⟨S1x1x1024x2048, .f32⟩
  | 111 => ⟨S1x1x1024x2048, .f32⟩
  | 112 => ⟨S1x1x1024x2048, .f32⟩
  | 113 => ⟨S_, .f32⟩
  | 114 => ⟨S1x1x1024x2048, .f32⟩
  | 115 => ⟨S1x1x1024x2048, .f32⟩
  | 116 => ⟨S1x1x1024x2048, .f32⟩
  | 117 => ⟨S1x1x1024x2048, .f32⟩
  | 118 => ⟨S1x1x1024x2048, .f32⟩
  | 119 => ⟨S_, .f32⟩
  | 120 => ⟨S1x1x1024x2048, .f32⟩
  | 121 => ⟨S1x1x1024x2048, .f32⟩
  | 122 => ⟨S1x1x1024x2048, .f32⟩
  | 123 => ⟨S1x1x1024x2048, .f32⟩
  | 124 => ⟨S_, .f32⟩
  | 125 => ⟨S1x1x1024x2048, .f32⟩
  | 126 => ⟨S1x1x1024x2048, .f32⟩
  | 127 => ⟨S1x1x1024x2048, .f32⟩
  | _ => ⟨S1x2x1024x2048, .i32⟩

abbrev hbmTy0_2 (i : Nat) : BufTy := match i % 128 with
  | 0 => ⟨S1x1x1024x2048, .f32⟩
  | 1 => ⟨S_, .f32⟩
  | 2 => ⟨S1x1x1024x2048, .f32⟩
  | 3 => ⟨S1x1x1024x2048, .f32⟩
  | 4 => ⟨S1x1x1024x2048, .f32⟩
  | 5 => ⟨S1x1x1024x2048, .f32⟩
  | 6 => ⟨S1x1x1024x2048, .f32⟩
  | 7 => ⟨S_, .f32⟩
  | 8 => ⟨S1x1x1024x2048, .f32⟩
  | 9 => ⟨S1x1x1024x2048, .f32⟩
  | 10 => ⟨S1x1x1024x2048, .f32⟩
  | 11 => ⟨S_, .f32⟩
  | 12 => ⟨S1x1x1024x2048, .f32⟩
  | 13 => ⟨S_, .i32⟩
  | 14 => ⟨S1024x2048, .i32⟩
  | 15 => ⟨S_, .i32⟩
  | 16 => ⟨S1024x2048, .i32⟩
  | 17 => ⟨S1024x2048, .i1⟩
  | 18 => ⟨S_, .i32⟩
  | 19 => ⟨S_, .i32⟩
  | 20 => ⟨S1024x2048, .i32⟩
  | 21 => ⟨S1024x2048, .i32⟩
  | 22 => ⟨S1024x2048, .f32⟩
  | 23 => ⟨S_, .f32⟩
  | 24 => ⟨S1x1x1024x2048, .f32⟩
  | 25 => ⟨S1x1x1024x2048, .f32⟩
  | 26 => ⟨S1x1x1024x2048, .f32⟩
  | 27 => ⟨S1x1x1024x2048, .f32⟩
  | 28 => ⟨S1x1x1024x2048, .f32⟩
  | 29 => ⟨S_, .i32⟩
  | 30 => ⟨S1024x2048, .i32⟩
  | 31 => ⟨S1024x2048, .i1⟩
  | 32 => ⟨S_, .i32⟩
  | 33 => ⟨S_, .i32⟩
  | 34 => ⟨S1024x2048, .i32⟩
  | 35 => ⟨S1024x2048, .i32⟩
  | 36 => ⟨S1024x2048, .f32⟩
  | 37 => ⟨S_, .f32⟩
  | 38 => ⟨S1x1x1024x2048, .f32⟩
  | 39 => ⟨S1x1x1024x2048, .f32⟩
  | 40 => ⟨S1x1x1024x2048, .f32⟩
  | 41 => ⟨S1x1x1024x2048, .f32⟩
  | 42 => ⟨S1x1x1024x2048, .f32⟩
  | 43 => ⟨S_, .i32⟩
  | 44 => ⟨S1024x2048, .i32⟩
  | 45 => ⟨S1024x2048, .i1⟩
  | 46 => ⟨S_, .i32⟩
  | 47 => ⟨S_, .i32⟩
  | 48 => ⟨S1024x2048, .i32⟩
  | 49 => ⟨S1024x2048, .i32⟩
  | 50 => ⟨S1024x2048, .f32⟩
  | 51 => ⟨S_, .f32⟩
  | 52 => ⟨S1x1x1024x2048, .f32⟩
  | 53 => ⟨S1x1x1024x2048, .f32⟩
  | 54 => ⟨S1x1x1024x2048, .f32⟩
  | 55 => ⟨S1x1x1024x2048, .f32⟩
  | 56 => ⟨S1x1x1024x2048, .f32⟩
  | 57 => ⟨S_, .i32⟩
  | 58 => ⟨S1024x2048, .i32⟩
  | 59 => ⟨S1024x2048, .i1⟩
  | 60 => ⟨S_, .i32⟩
  | 61 => ⟨S_, .i32⟩
  | 62 => ⟨S1024x2048, .i32⟩
  | 63 => ⟨S1024x2048, .i32⟩
  | 64 => ⟨S1024x2048, .f32⟩
  | 65 => ⟨S1x1x1024x2048, .f32⟩
  | 66 => ⟨S1x1x1024x2048, .f32⟩
  | 67 => ⟨S1x1x1024x2048, .f32⟩
  | 68 => ⟨S1x1x1024x2048, .f32⟩
  | 69 => ⟨S_, .i32⟩
  | 70 => ⟨S1024x2048, .i32⟩
  | 71 => ⟨S1024x2048, .i1⟩
  | 72 => ⟨S_, .i32⟩
  | 73 => ⟨S_, .i32⟩
  | 74 => ⟨S1024x2048, .i32⟩
  | 75 => ⟨S1024x2048, .i32⟩
  | 76 => ⟨S1024x2048, .f32⟩
  | 77 => ⟨S1x1x1024x2048, .f32⟩
  | 78 => ⟨S1x1x1024x2048, .f32⟩
  | 79 => ⟨S1x1x1024x2048, .f32⟩
  | 80 => ⟨S1x1x1024x2048, .f32⟩
  | 81 => ⟨S_, .i32⟩
  | 82 => ⟨S1024x2048, .i32⟩
  | 83 => ⟨S1024x2048, .i1⟩
  | 84 => ⟨S_, .i32⟩
  | 85 => ⟨S_, .i32⟩
  | 86 => ⟨S1024x2048, .i32⟩
  | 87 => ⟨S1024x2048, .i32⟩
  | 88 => ⟨S1024x2048, .f32⟩
  | 89 => ⟨S1x1x1024x2048, .f32⟩
  | 90 => ⟨S1x1x1024x2048, .f32⟩
  | 91 => ⟨S1x1x1024x2048, .f32⟩
  | 92 => ⟨S1x1x1024x2048, .f32⟩
  | 93 => ⟨S_, .i32⟩
  | 94 => ⟨S1024x2048, .i32⟩
  | 95 => ⟨S1024x2048, .i1⟩
  | 96 => ⟨S_, .i32⟩
  | 97 => ⟨S_, .i32⟩
  | 98 => ⟨S1024x2048, .i32⟩
  | 99 => ⟨S1024x2048, .i32⟩
  | 100 => ⟨S1024x2048, .f32⟩
  | 101 => ⟨S1x1x1024x2048, .f32⟩
  | 102 => ⟨S1x1x1024x2048, .f32⟩
  | 103 => ⟨S1x1x1024x2048, .f32⟩
  | 104 => ⟨S1x1x1024x2048, .f32⟩
  | 105 => ⟨S_, .i32⟩
  | 106 => ⟨S1024x2048, .i32⟩
  | 107 => ⟨S1024x2048, .i1⟩
  | 108 => ⟨S_, .i32⟩
  | 109 => ⟨S_, .i32⟩
  | 110 => ⟨S1024x2048, .i32⟩
  | 111 => ⟨S1024x2048, .i32⟩
  | 112 => ⟨S1024x2048, .f32⟩
  | 113 => ⟨S1x1x1024x2048, .f32⟩
  | 114 => ⟨S1x1x1024x2048, .f32⟩
  | 115 => ⟨S1x1x1024x2048, .f32⟩
  | 116 => ⟨S1x1x1024x2048, .f32⟩
  | 117 => ⟨S_, .i32⟩
  | 118 => ⟨S1024x2048, .i32⟩
  | 119 => ⟨S1024x2048, .i1⟩
  | 120 => ⟨S_, .i32⟩
  | 121 => ⟨S_, .i32⟩
  | 122 => ⟨S1024x2048, .i32⟩
  | 123 => ⟨S1024x2048, .i32⟩
  | 124 => ⟨S1024x2048, .f32⟩
  | 125 => ⟨S1x1x1024x2048, .f32⟩
  | 126 => ⟨S1x1x1024x2048, .f32⟩
  | 127 => ⟨S1x1x1024x2048, .f32⟩
  | _ => ⟨S1x2x1024x2048, .i32⟩

abbrev hbmTy0_3 (i : Nat) : BufTy := match i % 128 with
  | 0 => ⟨S1x1x1024x2048, .f32⟩
  | 1 => ⟨S_, .i32⟩
  | 2 => ⟨S1024x2048, .i32⟩
  | 3 => ⟨S1024x2048, .i1⟩
  | 4 => ⟨S_, .i32⟩
  | 5 => ⟨S_, .i32⟩
  | 6 => ⟨S1024x2048, .i32⟩
  | 7 => ⟨S1024x2048, .i32⟩
  | 8 => ⟨S1024x2048, .f32⟩
  | 9 => ⟨S1x1x1024x2048, .f32⟩
  | 10 => ⟨S1x1x1024x2048, .f32⟩
  | 11 => ⟨S1x1x1024x2048, .f32⟩
  | 12 => ⟨S1x1x1024x2048, .f32⟩
  | 13 => ⟨S_, .i32⟩
  | 14 => ⟨S1024x2048, .i32⟩
  | 15 => ⟨S1024x2048, .i1⟩
  | 16 => ⟨S_, .i32⟩
  | 17 => ⟨S_, .i32⟩
  | 18 => ⟨S1024x2048, .i32⟩
  | 19 => ⟨S1024x2048, .i32⟩
  | 20 => ⟨S1024x2048, .f32⟩
  | 21 => ⟨S1x1x1024x2048, .f32⟩
  | 22 => ⟨S1x1x1024x2048, .f32⟩
  | 23 => ⟨S1x1x1024x2048, .f32⟩
  | 24 => ⟨S1x1x1024x2048, .f32⟩
  | 25 => ⟨S_, .f32⟩
  | 26 => ⟨S1x1024x2048, .f32⟩
  | 27 => ⟨S1x1024x2048, .f32⟩
  | 28 => ⟨S1x1024x2048, .f32⟩
  | 29 => ⟨S_, .f32⟩
  | 30 => ⟨S1x1024x2048, .f32⟩
  | 31 => ⟨S1x1024x2048, .f32⟩
  | 32 => ⟨S_, .f32⟩
  | 33 => ⟨S1x1024x2048, .f32⟩
  | 34 => ⟨S1x1024x2048, .f32⟩
  | 35 => ⟨S_, .f32⟩
  | 36 => ⟨S1x1024x2048, .f32⟩
  | 37 => ⟨S1x1024x2048, .f32⟩
  | 38 => ⟨S1x1x1024x2048, .f32⟩
  | 39 => ⟨S1x1x1024x2048, .f32⟩
  | 40 => ⟨S1x1x1024x2048, .f32⟩
  | 41 => ⟨S_, .f32⟩
  | 42 => ⟨S_, .f32⟩
  | 43 => ⟨S_, .f32⟩
  | 44 => ⟨S_, .f32⟩
  | 45 => ⟨S_, .f32⟩
  | 46 => ⟨S1024x2048, .f32⟩
  | 47 => ⟨S1024x2048, .f32⟩
  | 48 => ⟨S1x1x1024x2048, .f32⟩
  | 49 => ⟨S1x1x1024x2048, .f32⟩
  | 50 => ⟨S1x1x1024x2048, .f32⟩
  | 51 => ⟨S1x1x1024x2048, .f32⟩
  | 52 => ⟨S_, .f32⟩
  | 53 => ⟨S_, .f32⟩
  | 54 => ⟨S_, .f32⟩
  | 55 => ⟨S_, .f32⟩
  | 56 => ⟨S_, .f32⟩
  | _ => ⟨S1x2x1024x2048, .i32⟩

abbrev hbmTy (i : Nat) : BufTy := match i / 128 with
  | 0 => hbmTy0_0 i
  | 1 => hbmTy0_1 i
  | 2 => hbmTy0_2 i
  | 3 => hbmTy0_3 i
  | _ => ⟨S1x2x1024x2048, .i32⟩

abbrev bufTy : (tb : Table) → Fin (tcTables nBuf tb) → BufTy
  | .hbm, ⟨i, _⟩ => hbmTy i
  | _, _ => ⟨S1x2x1024x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_c_9 : Ref sig .tc := ⟨.hbm, 43, rfl⟩
abbrev main_v27 : Ref sig .tc := ⟨.hbm, 44, rfl⟩
abbrev main_v28 : Ref sig .tc := ⟨.hbm, 45, rfl⟩
abbrev main_c_10 : Ref sig .tc := ⟨.hbm, 46, rfl⟩
abbrev main_v29 : Ref sig .tc := ⟨.hbm, 47, rfl⟩
abbrev main_c_11 : Ref sig .tc := ⟨.hbm, 48, rfl⟩
abbrev main_v30 : Ref sig .tc := ⟨.hbm, 49, rfl⟩
abbrev main_v31 : Ref sig .tc := ⟨.hbm, 50, rfl⟩
abbrev main_c_12 : Ref sig .tc := ⟨.hbm, 51, rfl⟩
abbrev main_v32 : Ref sig .tc := ⟨.hbm, 52, rfl⟩
abbrev main_c_13 : Ref sig .tc := ⟨.hbm, 53, rfl⟩
abbrev main_v33 : Ref sig .tc := ⟨.hbm, 54, rfl⟩
abbrev main_v34 : Ref sig .tc := ⟨.hbm, 55, rfl⟩
abbrev main_c_14 : Ref sig .tc := ⟨.hbm, 56, rfl⟩
abbrev main_v35 : Ref sig .tc := ⟨.hbm, 57, rfl⟩
abbrev main_c_15 : Ref sig .tc := ⟨.hbm, 58, rfl⟩
abbrev main_v36 : Ref sig .tc := ⟨.hbm, 59, rfl⟩
abbrev main_v37 : Ref sig .tc := ⟨.hbm, 60, rfl⟩
abbrev main_c_16 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_17 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_18 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_v12 : Ref sig .tc := ⟨.hbm, 86, rfl⟩
abbrev main_call0_v13 : Ref sig .tc := ⟨.hbm, 87, rfl⟩
abbrev main_call0_v14 : Ref sig .tc := ⟨.hbm, 88, rfl⟩
abbrev main_v48 : Ref sig .tc := ⟨.hbm, 89, rfl⟩
abbrev main_cst_19 : Ref sig .tc := ⟨.hbm, 90, rfl⟩
abbrev main_v49 : Ref sig .tc := ⟨.hbm, 91, rfl⟩
abbrev main_v50 : Ref sig .tc := ⟨.hbm, 92, rfl⟩
abbrev main_cst_20 : Ref sig .tc := ⟨.hbm, 93, rfl⟩
abbrev main_v51 : Ref sig .tc := ⟨.hbm, 94, rfl⟩
abbrev main_v52 : Ref sig .tc := ⟨.hbm, 95, rfl⟩
abbrev main_cst_21 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_22 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_23 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_24 : Ref sig .tc := ⟨.hbm, 110, rfl⟩
abbrev main_v64 : Ref sig .tc := ⟨.hbm, 111, rfl⟩
abbrev main_v65 : Ref sig .tc := ⟨.hbm, 112, rfl⟩
abbrev main_cst_25 : Ref sig .tc := ⟨.hbm, 113, rfl⟩
abbrev main_v66 : Ref sig .tc := ⟨.hbm, 114, rfl⟩
abbrev main_v67 : Ref sig .tc := ⟨.hbm, 115, rfl⟩
abbrev main_cst_26 : Ref sig .tc := ⟨.hbm, 116, rfl⟩
abbrev main_v68 : Ref sig .tc := ⟨.hbm, 117, rfl⟩
abbrev main_v69 : Ref sig .tc := ⟨.hbm, 118, rfl⟩
abbrev main_cst_27 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_28 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_29 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_30 : Ref sig .tc := ⟨.hbm, 133, rfl⟩
abbrev main_v81 : Ref sig .tc := ⟨.hbm, 134, rfl⟩
abbrev main_v82 : Ref sig .tc := ⟨.hbm, 135, rfl⟩
abbrev main_cst_31 : Ref sig .tc := ⟨.hbm, 136, rfl⟩
abbrev main_v83 : Ref sig .tc := ⟨.hbm, 137, rfl⟩
abbrev main_v84 : Ref sig .tc := ⟨.hbm, 138, rfl⟩
abbrev main_cst_32 : Ref sig .tc := ⟨.hbm, 139, rfl⟩
abbrev main_v85 : Ref sig .tc := ⟨.hbm, 140, rfl⟩
abbrev main_v86 : Ref sig .tc := ⟨.hbm, 141, rfl⟩
abbrev main_cst_33 : Ref sig .tc := ⟨.hbm, 142, rfl⟩
abbrev main_v87 : Ref sig .tc := ⟨.hbm, 143, rfl⟩
abbrev main_v88 : Ref sig .tc := ⟨.hbm, 144, rfl⟩
abbrev main_cst_34 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_35 : Ref sig .tc := ⟨.hbm, 149, rfl⟩
abbrev main_v92 : Ref sig .tc := ⟨.hbm, 150, rfl⟩
abbrev main_v93 : Ref sig .tc := ⟨.hbm, 151, rfl⟩
abbrev main_cst_36 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_37 : Ref sig .tc := ⟨.hbm, 156, rfl⟩
abbrev main_v97 : Ref sig .tc := ⟨.hbm, 157, rfl⟩
abbrev main_cst_38 : Ref sig .tc := ⟨.hbm, 158, rfl⟩
abbrev main_v98 : Ref sig .tc := ⟨.hbm, 159, rfl⟩
abbrev main_cst_39 : Ref sig .tc := ⟨.hbm, 160, rfl⟩
abbrev main_v99 : Ref sig .tc := ⟨.hbm, 161, rfl⟩
abbrev main_cst_40 : Ref sig .tc := ⟨.hbm, 162, rfl⟩
abbrev main_v100 : Ref sig .tc := ⟨.hbm, 163, rfl⟩
abbrev main_cst_41 : Ref sig .tc := ⟨.hbm, 164, rfl⟩
abbrev main_v101 : Ref sig .tc := ⟨.hbm, 165, rfl⟩
abbrev main_cst_42 : Ref sig .tc := ⟨.hbm, 166, rfl⟩
abbrev main_v102 : Ref sig .tc := ⟨.hbm, 167, rfl⟩
abbrev main_cst_43 : Ref sig .tc := ⟨.hbm, 168, rfl⟩
abbrev main_v103 : Ref sig .tc := ⟨.hbm, 169, rfl⟩
abbrev main_cst_44 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_cst_45 : Ref sig .tc := ⟨.hbm, 174, rfl⟩
abbrev main_v107 : Ref sig .tc := ⟨.hbm, 175, rfl⟩
abbrev main_v108 : Ref sig .tc := ⟨.hbm, 176, rfl⟩
abbrev main_cst_46 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_cst_47 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_cst_48 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_cst_49 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_cst_50 : Ref sig .tc := ⟨.hbm, 212, rfl⟩
abbrev main_v140 : Ref sig .tc := ⟨.hbm, 213, rfl⟩
abbrev main_v141 : Ref sig .tc := ⟨.hbm, 214, rfl⟩
abbrev main_cst_51 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_cst_52 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_cst_53 : Ref sig .tc := ⟨.hbm, 223, rfl⟩
abbrev main_v148 : Ref sig .tc := ⟨.hbm, 224, rfl⟩
abbrev main_v149 : Ref sig .tc := ⟨.hbm, 225, rfl⟩
abbrev main_cst_54 : Ref sig .tc := ⟨.hbm, 226, rfl⟩
abbrev main_v150 : Ref sig .tc := ⟨.hbm, 227, rfl⟩
abbrev main_v151 : Ref sig .tc := ⟨.hbm, 228, rfl⟩
abbrev main_cst_55 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_cst_56 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_57 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_cst_58 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_cst_59 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_cst_60 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_cst_61 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_cst_62 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_cst_63 : Ref sig .tc := ⟨.hbm, 267, rfl⟩
abbrev main_v182 : Ref sig .tc := ⟨.hbm, 268, rfl⟩
abbrev main_c_64 : Ref sig .tc := ⟨.hbm, 269, rfl⟩
abbrev main_v183 : Ref sig .tc := ⟨.hbm, 270, rfl⟩
abbrev main_c_65 : Ref sig .tc := ⟨.hbm, 271, rfl⟩
abbrev main_v184 : Ref sig .tc := ⟨.hbm, 272, rfl⟩
abbrev main_v185 : Ref sig .tc := ⟨.hbm, 273, rfl⟩
abbrev main_c_66 : Ref sig .tc := ⟨.hbm, 274, rfl⟩
abbrev main_call1_v0 : Ref sig .tc := ⟨.hbm, 275, rfl⟩
abbrev main_call1_v1 : Ref sig .tc := ⟨.hbm, 276, rfl⟩
abbrev main_v186 : Ref sig .tc := ⟨.hbm, 277, rfl⟩
abbrev main_v187 : Ref sig .tc := ⟨.hbm, 278, rfl⟩
abbrev main_cst_67 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_c_68 : Ref sig .tc := ⟨.hbm, 285, rfl⟩
abbrev main_v193 : Ref sig .tc := ⟨.hbm, 286, rfl⟩
abbrev main_v194 : Ref sig .tc := ⟨.hbm, 287, rfl⟩
abbrev main_c_69 : Ref sig .tc := ⟨.hbm, 288, rfl⟩
abbrev main_call2_v0 : Ref sig .tc := ⟨.hbm, 289, rfl⟩
abbrev main_call2_v1 : Ref sig .tc := ⟨.hbm, 290, rfl⟩
abbrev main_v195 : Ref sig .tc := ⟨.hbm, 291, rfl⟩
abbrev main_v196 : Ref sig .tc := ⟨.hbm, 292, rfl⟩
abbrev main_cst_70 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_c_71 : Ref sig .tc := ⟨.hbm, 299, rfl⟩
abbrev main_v202 : Ref sig .tc := ⟨.hbm, 300, rfl⟩
abbrev main_v203 : Ref sig .tc := ⟨.hbm, 301, rfl⟩
abbrev main_c_72 : Ref sig .tc := ⟨.hbm, 302, rfl⟩
abbrev main_call3_v0 : Ref sig .tc := ⟨.hbm, 303, rfl⟩
abbrev main_call3_v1 : Ref sig .tc := ⟨.hbm, 304, rfl⟩
abbrev main_v204 : Ref sig .tc := ⟨.hbm, 305, rfl⟩
abbrev main_v205 : Ref sig .tc := ⟨.hbm, 306, rfl⟩
abbrev main_cst_73 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_c_74 : Ref sig .tc := ⟨.hbm, 313, rfl⟩
abbrev main_v211 : Ref sig .tc := ⟨.hbm, 314, rfl⟩
abbrev main_v212 : Ref sig .tc := ⟨.hbm, 315, rfl⟩
abbrev main_c_75 : Ref sig .tc := ⟨.hbm, 316, rfl⟩
abbrev main_call4_v0 : Ref sig .tc := ⟨.hbm, 317, rfl⟩
abbrev main_call4_v1 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_c_76 : Ref sig .tc := ⟨.hbm, 325, rfl⟩
abbrev main_v219 : Ref sig .tc := ⟨.hbm, 326, rfl⟩
abbrev main_v220 : Ref sig .tc := ⟨.hbm, 327, rfl⟩
abbrev main_c_77 : Ref sig .tc := ⟨.hbm, 328, rfl⟩
abbrev main_call5_v0 : Ref sig .tc := ⟨.hbm, 329, rfl⟩
abbrev main_call5_v1 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_c_78 : Ref sig .tc := ⟨.hbm, 337, rfl⟩
abbrev main_v227 : Ref sig .tc := ⟨.hbm, 338, rfl⟩
abbrev main_v228 : Ref sig .tc := ⟨.hbm, 339, rfl⟩
abbrev main_c_79 : Ref sig .tc := ⟨.hbm, 340, rfl⟩
abbrev main_call6_v0 : Ref sig .tc := ⟨.hbm, 341, rfl⟩
abbrev main_call6_v1 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_c_80 : Ref sig .tc := ⟨.hbm, 349, rfl⟩
abbrev main_v235 : Ref sig .tc := ⟨.hbm, 350, rfl⟩
abbrev main_v236 : Ref sig .tc := ⟨.hbm, 351, rfl⟩
abbrev main_c_81 : Ref sig .tc := ⟨.hbm, 352, rfl⟩
abbrev main_call7_v0 : Ref sig .tc := ⟨.hbm, 353, rfl⟩
abbrev main_call7_v1 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_v242 : Ref sig .tc := ⟨.hbm, 360, rfl⟩
abbrev main_c_82 : Ref sig .tc := ⟨.hbm, 361, rfl⟩
abbrev main_v243 : Ref sig .tc := ⟨.hbm, 362, rfl⟩
abbrev main_v244 : Ref sig .tc := ⟨.hbm, 363, rfl⟩
abbrev main_c_83 : Ref sig .tc := ⟨.hbm, 364, rfl⟩
abbrev main_call8_v0 : Ref sig .tc := ⟨.hbm, 365, rfl⟩
abbrev main_call8_v1 : Ref sig .tc := ⟨.hbm, 366, rfl⟩
abbrev main_v245 : Ref sig .tc := ⟨.hbm, 367, rfl⟩
abbrev main_v246 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_c_84 : Ref sig .tc := ⟨.hbm, 373, rfl⟩
abbrev main_v251 : Ref sig .tc := ⟨.hbm, 374, rfl⟩
abbrev main_v252 : Ref sig .tc := ⟨.hbm, 375, rfl⟩
abbrev main_c_85 : Ref sig .tc := ⟨.hbm, 376, rfl⟩
abbrev main_call9_v0 : Ref sig .tc := ⟨.hbm, 377, rfl⟩
abbrev main_call9_v1 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_v258 : Ref sig .tc := ⟨.hbm, 384, rfl⟩
abbrev main_c_86 : Ref sig .tc := ⟨.hbm, 385, rfl⟩
abbrev main_v259 : Ref sig .tc := ⟨.hbm, 386, rfl⟩
abbrev main_v260 : Ref sig .tc := ⟨.hbm, 387, rfl⟩
abbrev main_c_87 : Ref sig .tc := ⟨.hbm, 388, rfl⟩
abbrev main_call10_v0 : Ref sig .tc := ⟨.hbm, 389, rfl⟩
abbrev main_call10_v1 : Ref sig .tc := ⟨.hbm, 390, rfl⟩
abbrev main_v261 : Ref sig .tc := ⟨.hbm, 391, rfl⟩
abbrev main_v262 : Ref sig .tc := ⟨.hbm, 392, rfl⟩
abbrev main_v263 : Ref sig .tc := ⟨.hbm, 393, rfl⟩
abbrev main_v264 : Ref sig .tc := ⟨.hbm, 394, rfl⟩
abbrev main_v265 : Ref sig .tc := ⟨.hbm, 395, rfl⟩
abbrev main_v266 : Ref sig .tc := ⟨.hbm, 396, rfl⟩
abbrev main_c_88 : Ref sig .tc := ⟨.hbm, 397, rfl⟩
abbrev main_v267 : Ref sig .tc := ⟨.hbm, 398, rfl⟩
abbrev main_v268 : Ref sig .tc := ⟨.hbm, 399, rfl⟩
abbrev main_c_89 : Ref sig .tc := ⟨.hbm, 400, rfl⟩
abbrev main_call11_v0 : Ref sig .tc := ⟨.hbm, 401, rfl⟩
abbrev main_call11_v1 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_v274 : Ref sig .tc := ⟨.hbm, 408, rfl⟩
abbrev main_cst_90 : Ref sig .tc := ⟨.hbm, 409, rfl⟩
abbrev main_v275 : Ref sig .tc := ⟨.hbm, 410, rfl⟩
abbrev main_v276 : Ref sig .tc := ⟨.hbm, 411, rfl⟩
abbrev main_v277 : Ref sig .tc := ⟨.hbm, 412, rfl⟩
abbrev main_cst_91 : Ref sig .tc := ⟨.hbm, 413, rfl⟩
abbrev main_v278 : Ref sig .tc := ⟨.hbm, 414, rfl⟩
abbrev main_v279 : Ref sig .tc := ⟨.hbm, 415, rfl⟩
abbrev main_cst_92 : Ref sig .tc := ⟨.hbm, 416, rfl⟩
abbrev main_v280 : Ref sig .tc := ⟨.hbm, 417, rfl⟩
abbrev main_v281 : Ref sig .tc := ⟨.hbm, 418, rfl⟩
abbrev main_cst_93 : Ref sig .tc := ⟨.hbm, 419, rfl⟩
abbrev main_v282 : Ref sig .tc := ⟨.hbm, 420, rfl⟩
abbrev main_v283 : Ref sig .tc := ⟨.hbm, 421, rfl⟩
abbrev main_v284 : Ref sig .tc := ⟨.hbm, 422, rfl⟩
abbrev main_v285 : Ref sig .tc := ⟨.hbm, 423, rfl⟩
abbrev main_v286 : Ref sig .tc := ⟨.hbm, 424, rfl⟩
abbrev main_cst_94 : Ref sig .tc := ⟨.hbm, 425, rfl⟩
abbrev main_v287 : Ref sig .tc := ⟨.hbm, 426, rfl⟩
abbrev main_cst_95 : Ref sig .tc := ⟨.hbm, 427, rfl⟩
abbrev main_v288 : Ref sig .tc := ⟨.hbm, 428, rfl⟩
abbrev main_cst_96 : Ref sig .tc := ⟨.hbm, 429, rfl⟩
abbrev main_v289 : Ref sig .tc := ⟨.hbm, 430, rfl⟩
abbrev main_v290 : Ref sig .tc := ⟨.hbm, 431, rfl⟩
abbrev main_v291 : Ref sig .tc := ⟨.hbm, 432, rfl⟩
abbrev main_v292 : Ref sig .tc := ⟨.hbm, 433, rfl⟩
abbrev main_v293 : Ref sig .tc := ⟨.hbm, 434, rfl⟩
abbrev main_v294 : Ref sig .tc := ⟨.hbm, 435, rfl⟩
abbrev main_cst_97 : Ref sig .tc := ⟨.hbm, 436, rfl⟩
abbrev main_v295 : Ref sig .tc := ⟨.hbm, 437, rfl⟩
abbrev main_cst_98 : Ref sig .tc := ⟨.hbm, 438, rfl⟩
abbrev main_v296 : Ref sig .tc := ⟨.hbm, 439, rfl⟩
abbrev main_v297 : Ref sig .tc := ⟨.hbm, 440, rfl⟩

abbrev nD : Nat := 1
abbrev τ : Topo := Topo.v7x

variable {F : FTy → Type} [FloatOps F]

class Facts₀ : Prop where
  slices_S1x2x1024x2048_S1x1x1024x2048_0_0_0_0 : S1x2x1024x2048.Slices ![0, 0, 0, 0] S1x1x1024x2048
  shapeCasts_S1x1x1024x2048_S1x1024x2048 : S1x1x1024x2048.ShapeCasts S1x1024x2048
  slices_S1x2x1024x2048_S1x1x1024x2048_0_1_0_0 : S1x2x1024x2048.Slices ![0, 1, 0, 0] S1x1x1024x2048
  shapeCasts_S1x1024x2048_S1024x2048 : S1x1024x2048.ShapeCasts S1024x2048
  bcast_S_S1 : S_.BroadcastsInDim S1 (![] : Fin 0 → Fin S1.rank)
  bcast_S_S1x2048 : S_.BroadcastsInDim S1x2048 (![] : Fin 0 → Fin S1x2048.rank)
  concatenates_S1_S1_S2_d0 : Shape.Concatenates [S1, S1] S2 0
  bcast_S_S2047 : S_.BroadcastsInDim S2047 (![] : Fin 0 → Fin S2047.rank)
  bcast_S_S1024 : S_.BroadcastsInDim S1024 (![] : Fin 0 → Fin S1024.rank)
  bcast_S_S2048 : S_.BroadcastsInDim S2048 (![] : Fin 0 → Fin S2048.rank)
  bcast_S_S1024x2048 : S_.BroadcastsInDim S1024x2048 (![] : Fin 0 → Fin S1024x2048.rank)
  bcast_S1024x2048_S1x1x1024x2048_2_3 : S1024x2048.BroadcastsInDim S1x1x1024x2048 (![2, 3] : Fin 2 → Fin S1x1x1024x2048.rank)
  slices_S1x1x1024x2048_S1x1x1x2048_0_0_0_0 : S1x1x1024x2048.Slices ![0, 0, 0, 0] S1x1x1x2048
  slices_S1x1x1024x2048_S1x1x1x2048_0_0_1_0 : S1x1x1024x2048.Slices ![0, 0, 1, 0] S1x1x1x2048
  concatenates_S1x1x1x2048_S1x1x1024x2048_S1x1x1025x2048_d2 : Shape.Concatenates [S1x1x1x2048, S1x1x1024x2048] S1x1x1025x2048 2
  slices_S1x1x1025x2048_S1x1x1x2048_0_0_1024_0 : S1x1x1025x2048.Slices ![0, 0, 1024, 0] S1x1x1x2048
  slices_S1x1x1025x2048_S1x1x1x2048_0_0_1023_0 : S1x1x1025x2048.Slices ![0, 0, 1023, 0] S1x1x1x2048
  concatenates_S1x1x1025x2048_S1x1x1x2048_S1x1x1026x2048_d2 : Shape.Concatenates [S1x1x1025x2048, S1x1x1x2048] S1x1x1026x2048 2
  slices_S1x1x1026x2048_S1x1x1026x1_0_0_0_0 : S1x1x1026x2048.Slices ![0, 0, 0, 0] S1x1x1026x1
  slices_S1x1x1026x2048_S1x1x1026x1_0_0_0_1 : S1x1x1026x2048.Slices ![0, 0, 0, 1] S1x1x1026x1
  concatenates_S1x1x1026x1_S1x1x1026x2048_S1x1x1026x2049_d3 : Shape.Concatenates [S1x1x1026x1, S1x1x1026x2048] S1x1x1026x2049 3
  slices_S1x1x1026x2049_S1x1x1026x1_0_0_0_2048 : S1x1x1026x2049.Slices ![0, 0, 0, 2048] S1x1x1026x1
  slices_S1x1x1026x2049_S1x1x1026x1_0_0_0_2047 : S1x1x1026x2049.Slices ![0, 0, 0, 2047] S1x1x1026x1
  concatenates_S1x1x1026x2049_S1x1x1026x1_S1x1x1026x2050_d3 : Shape.Concatenates [S1x1x1026x2049, S1x1x1026x1] S1x1x1026x2050 3
  bcast_S_S1x1x1024x2048 : S_.BroadcastsInDim S1x1x1024x2048 (![] : Fin 0 → Fin S1x1x1024x2048.rank)
  reducesTo_S1x1x1024x2048_S_d0_1_2_3 : S1x1x1024x2048.ReducesTo [0, 1, 2, 3] S_
  h_S_ : 0 < S_.numel
  slices_S1x1x1026x2050_S1x1x1024x2048_0_0_1_2 : S1x1x1026x2050.Slices ![0, 0, 1, 2] S1x1x1024x2048
  slices_S1x1x1026x2050_S1x1x1024x2048_0_0_1_0 : S1x1x1026x2050.Slices ![0, 0, 1, 0] S1x1x1024x2048
  slices_S1x1x1026x2050_S1x1x1024x2048_0_0_2_1 : S1x1x1026x2050.Slices ![0, 0, 2, 1] S1x1x1024x2048
  slices_S1x1x1026x2050_S1x1x1024x2048_0_0_0_1 : S1x1x1026x2050.Slices ![0, 0, 0, 1] S1x1x1024x2048
  bcast_S1x1024x2048_S1x1x1024x2048_1_2_3 : S1x1024x2048.BroadcastsInDim S1x1x1024x2048 (![1, 2, 3] : Fin 3 → Fin S1x1x1024x2048.rank)
  slices_S1x1x1026x2050_S1x1x1024x2048_0_0_1_1 : S1x1x1026x2050.Slices ![0, 0, 1, 1] S1x1x1024x2048
  bcast_S_S1x1024x2048 : S_.BroadcastsInDim S1x1024x2048 (![] : Fin 0 → Fin S1x1024x2048.rank)
  bcast_S1x1024x2048_S1x1x1024x2048_0_2_3 : S1x1024x2048.BroadcastsInDim S1x1x1024x2048 (![0, 2, 3] : Fin 3 → Fin S1x1x1024x2048.rank)
  scatter_S1x1024x2048_S1_S1x2048_01_1_1_0_wf : ScatterDims.WF S1x1024x2048 S1 S1x2048 [0, 1] [1] [1] 0
  scatter_S1024x2048_S2_S2047_0_0_01_0_wf : ScatterDims.WF S1024x2048 S2 S2047 [0] [0] [0, 1] 0
  scatter_S1024x2048_S1_S1024_0_1_1_0_wf : ScatterDims.WF S1024x2048 S1 S1024 [0] [1] [1] 0
  scatter_S1024x2048_S1_S2048_0_0_0_0_wf : ScatterDims.WF S1024x2048 S1 S2048 [0] [0] [0] 0

variable [Facts₀]

def scatter_S1x1024x2048_S1_S1x2048_01_1_1_0 : ScatterDims S1x1024x2048 S1 S1x2048 where
  updateWindowDims := [0, 1]
  insertedWindowDims := [1]
  scatterDimsToOperandDims := [1]
  indexVectorDim := 0
  wf := scatter_S1x1024x2048_S1_S1x2048_01_1_1_0_wf
def scatter_S1024x2048_S2_S2047_0_0_01_0 : ScatterDims S1024x2048 S2 S2047 where
  updateWindowDims := [0]
  insertedWindowDims := [0]
  scatterDimsToOperandDims := [0, 1]
  indexVectorDim := 0
  wf := scatter_S1024x2048_S2_S2047_0_0_01_0_wf
def scatter_S1024x2048_S1_S1024_0_1_1_0 : ScatterDims S1024x2048 S1 S1024 where
  updateWindowDims := [0]
  insertedWindowDims := [1]
  scatterDimsToOperandDims := [1]
  indexVectorDim := 0
  wf := scatter_S1024x2048_S1_S1024_0_1_1_0_wf
def scatter_S1024x2048_S1_S2048_0_0_0_0 : ScatterDims S1024x2048 S1 S2048 where
  updateWindowDims := [0]
  insertedWindowDims := [0]
  scatterDimsToOperandDims := [0]
  indexVectorDim := 0
  wf := scatter_S1024x2048_S1_S2048_0_0_0_0_wf

class Facts : Prop extends Facts₀ where

variable [Facts]
-- ==== Proof.RefOps.lean ====
/-
  The reference program's @main as lists of host operations, one list per printed window of @main, in
  order: every statement of a window is one entry, and a call of a module-local function (the reflecting
  pad and its two flips, the scalar-or-array select) is replaced by that function's own operations
  written at the call's buffers. Beside each list: that every operation touches TensorCore buffers only,
  and the list of the buffers the window writes.
-/
import proofs.«161081_j59665685676148_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Window 0 of @main: 60 operations. -/
abbrev ops_part0 : List (HloOp τ sig (Elt F)) :=
  [ StableHlo.unary main_arg4 main_v0 ((extractStridedSlice S1x1x1024x2048 ![0, 0, 0, 0] · slices_S1x2x1024x2048_S1x1x1024x2048_0_0_0_0) : (⟨S1x2x1024x2048, .f32⟩ : BufTy).Contents (Elt F) → (⟨S1x1x1024x2048, .f32⟩ : BufTy).Contents (Elt F)),
    StableHlo.reshape main_v0 main_v1 rfl shapeCasts_S1x1x1024x2048_S1x1024x2048,
    StableHlo.unary main_arg4 main_v2 ((extractStridedSlice S1x1x1024x2048 ![0, 1, 0, 0] · slices_S1x2x1024x2048_S1x1x1024x2048_0_1_0_0) : (⟨S1x2x1024x2048, .f32⟩ : BufTy).Contents (Elt F) → (⟨S1x1x1024x2048, .f32⟩ : BufTy).Contents (Elt F)),
    StableHlo.reshape main_v2 main_v3 rfl shapeCasts_S1x1x1024x2048_S1x1024x2048,
    StableHlo.unary main_arg0 main_v4 ((extractStridedSlice S1x1x1024x2048 ![0, 1, 0, 0] · slices_S1x2x1024x2048_S1x1x1024x2048_0_1_0_0) : (⟨S1x2x1024x2048, .i32⟩ : BufTy).Contents (Elt F) → (⟨S1x1x1024x2048, .i32⟩ : BufTy).Contents (Elt F)),
    StableHlo.reshape main_v4 main_v5 rfl shapeCasts_S1x1x1024x2048_S1x1024x2048,
    StableHlo.reshape main_v5 main_v6 rfl shapeCasts_S1x1024x2048_S1024x2048,
    StableHlo.unary main_arg0 main_v7 ((extractStridedSlice S1x1x1024x2048 ![0, 0, 0, 0] · slices_S1x2x1024x2048_S1x1x1024x2048_0_0_0_0) : (⟨S1x2x1024x2048, .i32⟩ : BufTy).Contents (Elt F) → (⟨S1x1x1024x2048, .i32⟩ : BufTy).Contents (Elt F)),
    StableHlo.reshape main_v7 main_v8 rfl shapeCasts_S1x1x1024x2048_S1x1024x2048,
    StableHlo.unary main_v8 main_v9 (sitofp .f32 : (⟨S1x1024x2048, .i32⟩ : BufTy).Contents (Elt F) → (⟨S1x1024x2048, .f32⟩ : BufTy).Contents (Elt F)),
    StableHlo.nullary main_c (constantI S_ 32 0#32),
    StableHlo.unary main_c main_v10 (broadcastInDim S1 ![] bcast_S_S1 : (⟨S_, .i32⟩ : BufTy).Contents (Elt F) → (⟨S1, .i32⟩ : BufTy).Contents (Elt F)),
    StableHlo.nullary main_cst (constant S_ .f32 0x3F800000#32),
    StableHlo.unary main_cst main_v11 (broadcastInDim S1x2048 ![] bcast_S_S1x2048 : (⟨S_, .f32⟩ : BufTy).Contents (Elt F) → (⟨S1x2048, .f32⟩ : BufTy).Contents (Elt F)),
    StableHlo.ternary main_v9 main_v10 main_v11 main_v12 ((fun x i u => Host.scatter scatter_S1x1024x2048_S1_S1x2048_01_1_1_0 (fun _ b => b) x i u) : (⟨S1x1024x2048, .f32⟩ : BufTy).Contents (Elt F) → (⟨S1, .i32⟩ : BufTy).Contents (Elt F) → (⟨S1x2048, .f32⟩ : BufTy).Contents (Elt F) → (⟨S1x1024x2048, .f32⟩ : BufTy).Contents (Elt F)),
    StableHlo.nullary main_c_0 (constantI S_ 32 1023#32),
    StableHlo.unary main_c_0 main_v13 (broadcastInDim S1 ![] bcast_S_S1 : (⟨S_, .i32⟩ : BufTy).Contents (Elt F) → (⟨S1, .i32⟩ : BufTy).Contents (Elt F)),
    StableHlo.nullary main_cst_1 (constant S_ .f32 0x3F800000#32),
    StableHlo.unary main_cst_1 main_v14 (broadcastInDim S1x2048 ![] bcast_S_S1x2048 : (⟨S_, .f32⟩ : BufTy).Contents (Elt F) → (⟨S1x2048, .f32⟩ : BufTy).Contents (Elt F)),
    StableHlo.ternary main_v12 main_v13 main_v14 main_v15 ((fun x i u => Host.scatter scatter_S1x1024x2048_S1_S1x2048_01_1_1_0 (fun _ b => b) x i u) : (⟨S1x1024x2048, .f32⟩ : BufTy).Contents (Elt F) → (⟨S1, .i32⟩ : BufTy).Contents (Elt F) → (⟨S1x2048, .f32⟩ : BufTy).Contents (Elt F) → (⟨S1x1024x2048, .f32⟩ : BufTy).Contents (Elt F)),
    StableHlo.nullary main_c_2 (constantI S_ 32 1#32),
    StableHlo.unary main_c_2 main_v16 (broadcastInDim S1 ![] bcast_S_S1 : (⟨S_, .i32⟩ : BufTy).Contents (Elt F) → (⟨S1, .i32⟩ : BufTy).Contents (Elt F)),
    StableHlo.nullary main_c_3 (constantI S_ 32 1#32),
    StableHlo.unary main_c_3 main_v17 (broadcastInDim S1 ![] bcast_S_S1 : (⟨S_, .i32⟩ : BufTy).Contents (Elt F) → (⟨S1, .i32⟩ : BufTy).Contents (Elt F)),
    StableHlo.binary main_v16 main_v17 main_v18 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_c_4 (constantI S_ 32 0#32),
    StableHlo.unary main_c_4 main_v19 (broadcastInDim S2047 ![] bcast_S_S2047 : (⟨S_, .i32⟩ : BufTy).Contents (Elt F) → (⟨S2047, .i32⟩ : BufTy).Contents (Elt F)),
    StableHlo.ternary main_v6 main_v18 main_v19 main_v20 ((fun x i u => Host.scatter scatter_S1024x2048_S2_S2047_0_0_01_0 (fun _ b => b) x i u) : (⟨S1024x2048, .i32⟩ : BufTy).Contents (Elt F) → (⟨S2, .i32⟩ : BufTy).Contents (Elt F) → (⟨S2047, .i32⟩ : BufTy).Contents (Elt F) → (⟨S1024x2048, .i32⟩ : BufTy).Contents (Elt F)),
    StableHlo.nullary main_c_5 (constantI S_ 32 1022#32),
    StableHlo.unary main_c_5 main_v21 (broadcastInDim S1 ![] bcast_S_S1 : (⟨S_, .i32⟩ : BufTy).Contents (Elt F) → (⟨S1, .i32⟩ : BufTy).Contents (Elt F)),
    StableHlo.nullary main_c_6 (constantI S_ 32 1#32),
    StableHlo.unary main_c_6 main_v22 (broadcastInDim S1 ![] bcast_S_S1 : (⟨S_, .i32⟩ : BufTy).Contents (Elt F) → (⟨S1, .i32⟩ : BufTy).Contents (Elt F)),
    StableHlo.binary main_v21 main_v22 main_v23 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_c_7 (constantI S_ 32 0#32),
    StableHlo.unary main_c_7 main_v24 (broadcastInDim S2047 ![] bcast_S_S2047 : (⟨S_, .i32⟩ : BufTy).Contents (Elt F) → (⟨S2047, .i32⟩ : BufTy).Contents (Elt F)),
    StableHlo.ternary main_v20 main_v23 main_v24 main_v25 ((fun x i u => Host.scatter scatter_S1024x2048_S2_S2047_0_0_01_0 (fun _ b => b) x i u) : (⟨S1024x2048, .i32⟩ : BufTy).Contents (Elt F) → (⟨S2, .i32⟩ : BufTy).Contents (Elt F) → (⟨S2047, .i32⟩ : BufTy).Contents (Elt F) → (⟨S1024x2048, .i32⟩ : BufTy).Contents (Elt F)),
    StableHlo.nullary main_c_8 (constantI S_ 32 1#32),
    StableHlo.unary main_c_8 main_v26 (broadcastInDim S1 ![] bcast_S_S1 : (⟨S_, .i32⟩ : BufTy).Contents (Elt F) → (⟨S1, .i32⟩ : BufTy).Contents (Elt F)),
    StableHlo.nullary main_c_9 (constantI S_ 32 0#32),
    StableHlo.unary main_c_9 main_v27 (broadcastInDim S1024 ![] bcast_S_S1024 : (⟨S_, .i32⟩ : BufTy).Contents (Elt F) → (⟨S1024, .i32⟩ : BufTy).Contents (Elt F)),
    StableHlo.ternary main_v25 main_v26 main_v27 main_v28 ((fun x i u => Host.scatter scatter_S1024x2048_S1_S1024_0_1_1_0 (fun _ b => b) x i u) : (⟨S1024x2048, .i32⟩ : BufTy).Contents (Elt F) → (⟨S1, .i32⟩ : BufTy).Contents (Elt F) → (⟨S1024, .i32⟩ : BufTy).Contents (Elt F) → (⟨S1024x2048, .i32⟩ : BufTy).Contents (Elt F)),
    StableHlo.nullary main_c_10 (constantI S_ 32 2047#32),
    StableHlo.unary main_c_10 main_v29 (broadcastInDim S1 ![] bcast_S_S1 : (⟨S_, .i32⟩ : BufTy).Contents (Elt F) → (⟨S1, .i32⟩ : BufTy).Contents (Elt F)),
    StableHlo.nullary main_c_11 (constantI S_ 32 3#32),
    StableHlo.unary main_c_11 main_v30 (broadcastInDim S1024 ![] bcast_S_S1024 : (⟨S_, .i32⟩ : BufTy).Contents (Elt F) → (⟨S1024, .i32⟩ : BufTy).Contents (Elt F)),
    StableHlo.ternary main_v28 main_v29 main_v30 main_v31 ((fun x i u => Host.scatter scatter_S1024x2048_S1_S1024_0_1_1_0 (fun _ b => b) x i u) : (⟨S1024x2048, .i32⟩ : BufTy).Contents (Elt F) → (⟨S1, .i32⟩ : BufTy).Contents (Elt F) → (⟨S1024, .i32⟩ : BufTy).Contents (Elt F) → (⟨S1024x2048, .i32⟩ : BufTy).Contents (Elt F)),
    StableHlo.nullary main_c_12 (constantI S_ 32 0#32),
    StableHlo.unary main_c_12 main_v32 (broadcastInDim S1 ![] bcast_S_S1 : (⟨S_, .i32⟩ : BufTy).Contents (Elt F) → (⟨S1, .i32⟩ : BufTy).Contents (Elt F)),
    StableHlo.nullary main_c_13 (constantI S_ 32 3#32),
    StableHlo.unary main_c_13 main_v33 (broadcastInDim S2048 ![] bcast_S_S2048 : (⟨S_, .i32⟩ : BufTy).Contents (Elt F) → (⟨S2048, .i32⟩ : BufTy).Contents (Elt F)),
    StableHlo.ternary main_v31 main_v32 main_v33 main_v34 ((fun x i u => Host.scatter scatter_S1024x2048_S1_S2048_0_0_0_0 (fun _ b => b) x i u) : (⟨S1024x2048, .i32⟩ : BufTy).Contents (Elt F) → (⟨S1, .i32⟩ : BufTy).Contents (Elt F) → (⟨S2048, .i32⟩ : BufTy).Contents (Elt F) → (⟨S1024x2048, .i32⟩ : BufTy).Contents (Elt F)),
    StableHlo.nullary main_c_14 (constantI S_ 32 1023#32),
    StableHlo.unary main_c_14 main_v35 (broadcastInDim S1 ![] bcast_S_S1 : (⟨S_, .i32⟩ : BufTy).Contents (Elt F) → (⟨S1, .i32⟩ : BufTy).Contents (Elt F)),
    StableHlo.nullary main_c_15 (constantI S_ 32 3#32),
    StableHlo.unary main_c_15 main_v36 (broadcastInDim S2048 ![] bcast_S_S2048 : (⟨S_, .i32⟩ : BufTy).Contents (Elt F) → (⟨S2048, .i32⟩ : BufTy).Contents (Elt F)),
    StableHlo.ternary main_v34 main_v35 main_v36 main_v37 ((fun x i u => Host.scatter scatter_S1024x2048_S1_S2048_0_0_0_0 (fun _ b => b) x i u) : (⟨S1024x2048, .i32⟩ : BufTy).Contents (Elt F) → (⟨S1, .i32⟩ : BufTy).Contents (Elt F) → (⟨S2048, .i32⟩ : BufTy).Contents (Elt F) → (⟨S1024x2048, .i32⟩ : BufTy).Contents (Elt F)),
    StableHlo.nullary main_c_16 (constantI S_ 32 3#32),
    StableHlo.unary main_c_16 main_v38 (broadcastInDim S1024x2048 ![] bcast_S_S1024x2048 : (⟨S_, .i32⟩ : BufTy).Contents (Elt F) → (⟨S1024x2048, .i32⟩ : BufTy).Contents (Elt F)),
    StableHlo.binary main_v37 main_v38 main_v39 (cmpi .sgt : (⟨S1024x2048, .i32⟩ : BufTy).Contents (Elt F) → (⟨S1024x2048, .i32⟩ : BufTy).Contents (Elt F) → (⟨S1024x2048, .i1⟩ : BufTy).Contents (Elt F)),
    StableHlo.unary main_v39 main_v40 (uitofp .f32 : (⟨S1024x2048, .i1⟩ : BufTy).Contents (Elt F) → (⟨S1024x2048, .f32⟩ : BufTy).Contents (Elt F)) ]

set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., unary_bufs_sub .., reshape_bufs_sub .., reshape_bufs_sub .., unary_bufs_sub .., reshape_bufs_sub .., unary_bufs_sub .., nullary_bufs_sub .., unary_bufs_sub .., nullary_bufs_sub .., unary_bufs_sub .., ternary_bufs_sub .., nullary_bufs_sub .., unary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., ternary_bufs_sub .., nullary_bufs_sub .., unary_bufs_sub .., nullary_bufs_sub .., unary_bufs_sub .., ternary_bufs_sub .., nullary_bufs_sub .., unary_bufs_sub .., nullary_bufs_sub .., unary_bufs_sub .., ternary_bufs_sub .., nullary_bufs_sub .., unary_bufs_sub .., nullary_bufs_sub .., unary_bufs_sub .., ternary_bufs_sub .., nullary_bufs_sub .., unary_bufs_sub .., nullary_bufs_sub .., unary_bufs_sub .., ternary_bufs_sub .., nullary_bufs_sub .., unary_bufs_sub .., binary_bufs_sub .., unary_bufs_sub ..⟩

/-- The buffers window 0 writes, in order. -/
abbrev ops_part0_W : List (Ref sig .tc) := [main_v0, main_v1, main_v2, main_v3, main_v4, main_v5, main_v6, main_v7, main_v8, main_v9, main_c, main_v10, main_cst, main_v11, main_v12, main_c_0, main_v13, main_cst_1, main_v14, main_v15, main_c_2, main_v16, main_c_3, main_v17, main_v18, main_c_4, main_v19, main_v20, main_c_5, main_v21, main_c_6, main_v22, main_v23, main_c_7, main_v24, main_v25, main_c_8, main_v26, main_c_9, main_v27, main_v28, main_c_10, main_v29, main_c_11, main_v30, main_v31, main_c_12, main_v32, main_c_13, main_v33, main_v34, main_c_14, main_v35, main_c_15, main_v36, main_v37, main_c_16, main_v38, main_v39, main_v40]

/-- Window 1 of @main: 75 operations. -/
abbrev ops_part1 : List (HloOp τ sig (Elt F)) :=
  [ StableHlo.unary main_v40 main_v41 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_arg2 main_v41 main_v42 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_17 (constantI S_ 32 1#32),
    StableHlo.unary main_c_17 main_v43 (broadcastInDim S1024x2048 ![] bcast_S_S1024x2048 : (⟨S_, .i32⟩ : BufTy).Contents (Elt F) → (⟨S1024x2048, .i32⟩ : BufTy).Contents (Elt F)),
    StableHlo.binary main_v37 main_v43 main_v44 (cmpi .ne : (⟨S1024x2048, .i32⟩ : BufTy).Contents (Elt F) → (⟨S1024x2048, .i32⟩ : BufTy).Contents (Elt F) → (⟨S1024x2048, .i1⟩ : BufTy).Contents (Elt F)),
    StableHlo.unary main_v44 main_v45 (uitofp .f32 : (⟨S1024x2048, .i1⟩ : BufTy).Contents (Elt F) → (⟨S1024x2048, .f32⟩ : BufTy).Contents (Elt F)),
    StableHlo.unary main_v45 main_v46 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_arg3 main_v46 main_v47 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_18 (constantI S_ 32 0#32),
    StableHlo.TRef.unary (.of main_v47 : StableHlo.TRef sig ⟨S1x1x1024x2048, .f32⟩) main_call0.v0 (extractStridedSlice S1x1x1x2048 ![0, 0, 0, 0] · slices_S1x1x1024x2048_S1x1x1x2048_0_0_0_0),
    StableHlo.TRef.unary (.of main_v47 : StableHlo.TRef sig ⟨S1x1x1024x2048, .f32⟩) main_call0.v1 (extractStridedSlice S1x1x1x2048 ![0, 0, 1, 0] · slices_S1x1x1024x2048_S1x1x1x2048_0_0_1_0),
    StableHlo.TRef.unary main_call0.v1 main_call0.call0.v0 (Host.reverse [2]),
    StableHlo.TRef.binary main_call0.call0.v0 (.of main_v47 : StableHlo.TRef sig ⟨S1x1x1024x2048, .f32⟩) main_call0.v3 (fun a b => concatenate S1x1x1025x2048 2 [⟨S1x1x1x2048, a⟩, ⟨S1x1x1024x2048, b⟩] concatenates_S1x1x1x2048_S1x1x1024x2048_S1x1x1025x2048_d2),
    StableHlo.TRef.unary main_call0.v3 main_call0.v4 (extractStridedSlice S1x1x1x2048 ![0, 0, 1024, 0] · slices_S1x1x1025x2048_S1x1x1x2048_0_0_1024_0),
    StableHlo.TRef.unary main_call0.v3 main_call0.v5 (extractStridedSlice S1x1x1x2048 ![0, 0, 1023, 0] · slices_S1x1x1025x2048_S1x1x1x2048_0_0_1023_0),
    StableHlo.TRef.unary main_call0.v5 main_call0.call1.v0 (Host.reverse [2]),
    StableHlo.TRef.binary main_call0.v3 main_call0.call1.v0 main_call0.v7 (fun a b => concatenate S1x1x1026x2048 2 [⟨S1x1x1025x2048, a⟩, ⟨S1x1x1x2048, b⟩] concatenates_S1x1x1025x2048_S1x1x1x2048_S1x1x1026x2048_d2),
    StableHlo.TRef.unary main_call0.v7 main_call0.v8 (extractStridedSlice S1x1x1026x1 ![0, 0, 0, 0] · slices_S1x1x1026x2048_S1x1x1026x1_0_0_0_0),
    StableHlo.TRef.unary main_call0.v7 main_call0.v9 (extractStridedSlice S1x1x1026x1 ![0, 0, 0, 1] · slices_S1x1x1026x2048_S1x1x1026x1_0_0_0_1),
    StableHlo.TRef.unary main_call0.v9 main_call0.call2.v0 (Host.reverse [3]),
    StableHlo.TRef.binary main_call0.call2.v0 main_call0.v7 main_call0.v11 (fun a b => concatenate S1x1x1026x2049 3 [⟨S1x1x1026x1, a⟩, ⟨S1x1x1026x2048, b⟩] concatenates_S1x1x1026x1_S1x1x1026x2048_S1x1x1026x2049_d3),
    StableHlo.TRef.unary main_call0.v11 main_call0.v12 (extractStridedSlice S1x1x1026x1 ![0, 0, 0, 2048] · slices_S1x1x1026x2049_S1x1x1026x1_0_0_0_2048),
    StableHlo.TRef.unary main_call0.v11 main_call0.v13 (extractStridedSlice S1x1x1026x1 ![0, 0, 0, 2047] · slices_S1x1x1026x2049_S1x1x1026x1_0_0_0_2047),
    StableHlo.TRef.unary main_call0.v13 main_call0.call3.v0 (Host.reverse [3]),
    StableHlo.TRef.binary main_call0.v11 main_call0.call3.v0 main_call0.v15 (fun a b => concatenate S1x1x1026x2050 3 [⟨S1x1x1026x2049, a⟩, ⟨S1x1x1026x1, b⟩] concatenates_S1x1x1026x2049_S1x1x1026x1_S1x1x1026x2050_d3),
    StableHlo.nullary main_cst_19 (constant S_ .f32 0x43889333#32),
    StableHlo.unary main_cst_19 main_v49 (broadcastInDim S1x1x1024x2048 ![] bcast_S_S1x1x1024x2048 : (⟨S_, .f32⟩ : BufTy).Contents (Elt F) → (⟨S1x1x1024x2048, .f32⟩ : BufTy).Contents (Elt F)),
    StableHlo.binary main_v47 main_v49 main_v50 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_20 (constant S_ .f32 0x3B00E8C9#32),
    StableHlo.unary main_cst_20 main_v51 (broadcastInDim S1x1x1024x2048 ![] bcast_S_S1x1x1024x2048 : (⟨S_, .f32⟩ : BufTy).Contents (Elt F) → (⟨S1x1x1024x2048, .f32⟩ : BufTy).Contents (Elt F)),
    StableHlo.binary main_v51 main_v50 main_v52 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_21 (constant S_ .f32 0x41E0E148#32),
    StableHlo.unary main_cst_21 main_v53 (broadcastInDim S1x1x1024x2048 ![] bcast_S_S1x1x1024x2048 : (⟨S_, .f32⟩ : BufTy).Contents (Elt F) → (⟨S1x1x1024x2048, .f32⟩ : BufTy).Contents (Elt F)),
    StableHlo.binary main_v53 main_v52 main_v54 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v50 main_v50 main_v55 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_22 (constant S_ .f32 0x36A120DE#32),
    StableHlo.unary main_cst_22 main_v56 (broadcastInDim S1x1x1024x2048 ![] bcast_S_S1x1x1024x2048 : (⟨S_, .f32⟩ : BufTy).Contents (Elt F) → (⟨S1x1x1024x2048, .f32⟩ : BufTy).Contents (Elt F)),
    StableHlo.binary main_v56 main_v55 main_v57 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v54 main_v57 main_v58 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v50 main_v50 main_v59 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v59 main_v50 main_v60 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_23 (constant S_ .f32 0x31071A3D#32),
    StableHlo.unary main_cst_23 main_v61 (broadcastInDim S1x1x1024x2048 ![] bcast_S_S1x1x1024x2048 : (⟨S_, .f32⟩ : BufTy).Contents (Elt F) → (⟨S1x1x1024x2048, .f32⟩ : BufTy).Contents (Elt F)),
    StableHlo.binary main_v61 main_v60 main_v62 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v58 main_v62 main_v63 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_24 (constant S_ .f32 0x41E7C28F#32),
    StableHlo.unary main_cst_24 main_v64 (broadcastInDim S1x1x1024x2048 ![] bcast_S_S1x1x1024x2048 : (⟨S_, .f32⟩ : BufTy).Contents (Elt F) → (⟨S1x1x1024x2048, .f32⟩ : BufTy).Contents (Elt F)),
    StableHlo.binary main_v63 main_v64 main_v65 (Host.divf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_25 (constant S_ .f32 0x447A0000#32),
    StableHlo.unary main_cst_25 main_v66 (broadcastInDim S1x1x1024x2048 ![] bcast_S_S1x1x1024x2048 : (⟨S_, .f32⟩ : BufTy).Contents (Elt F) → (⟨S1x1x1024x2048, .f32⟩ : BufTy).Contents (Elt F)),
    StableHlo.binary main_v65 main_v66 main_v67 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_26 (constant S_ .f32 0x3AFC0D2C#32),
    StableHlo.unary main_cst_26 main_v68 (broadcastInDim S1x1x1024x2048 ![] bcast_S_S1x1x1024x2048 : (⟨S_, .f32⟩ : BufTy).Contents (Elt F) → (⟨S1x1x1024x2048, .f32⟩ : BufTy).Contents (Elt F)),
    StableHlo.binary main_v68 main_v50 main_v69 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_27 (constant S_ .f32 0x4200F5C3#32),
    StableHlo.unary main_cst_27 main_v70 (broadcastInDim S1x1x1024x2048 ![] bcast_S_S1x1x1024x2048 : (⟨S_, .f32⟩ : BufTy).Contents (Elt F) → (⟨S1x1x1024x2048, .f32⟩ : BufTy).Contents (Elt F)),
    StableHlo.binary main_v70 main_v69 main_v71 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v50 main_v50 main_v72 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_28 (constant S_ .f32 0x3730FFE8#32),
    StableHlo.unary main_cst_28 main_v73 (broadcastInDim S1x1x1024x2048 ![] bcast_S_S1x1x1024x2048 : (⟨S_, .f32⟩ : BufTy).Contents (Elt F) → (⟨S1x1x1024x2048, .f32⟩ : BufTy).Contents (Elt F)),
    StableHlo.binary main_v73 main_v72 main_v74 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v71 main_v74 main_v75 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v50 main_v50 main_v76 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v76 main_v50 main_v77 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_29 (constant S_ .f32 0x31770BE9#32),
    StableHlo.unary main_cst_29 main_v78 (broadcastInDim S1x1x1024x2048 ![] bcast_S_S1x1x1024x2048 : (⟨S_, .f32⟩ : BufTy).Contents (Elt F) → (⟨S1x1x1024x2048, .f32⟩ : BufTy).Contents (Elt F)),
    StableHlo.binary main_v78 main_v77 main_v79 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v75 main_v79 main_v80 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_30 (constant S_ .f32 0x41901EB8#32),
    StableHlo.unary main_cst_30 main_v81 (broadcastInDim S1x1x1024x2048 ![] bcast_S_S1x1x1024x2048 : (⟨S_, .f32⟩ : BufTy).Contents (Elt F) → (⟨S1x1x1024x2048, .f32⟩ : BufTy).Contents (Elt F)),
    StableHlo.binary main_v80 main_v81 main_v82 (Host.divf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_31 (constant S_ .f32 0x447A0000#32),
    StableHlo.unary main_cst_31 main_v83 (broadcastInDim S1x1x1024x2048 ![] bcast_S_S1x1x1024x2048 : (⟨S_, .f32⟩ : BufTy).Contents (Elt F) → (⟨S1x1x1024x2048, .f32⟩ : BufTy).Contents (Elt F)),
    StableHlo.binary main_v82 main_v83 main_v84 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_32 (constant S_ .f32 0x42386666#32) ]

set_option maxRecDepth 8192 in
theorem ops_part1_sub : (ops_part1 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub ..⟩

/-- The buffers window 1 writes, in order. -/
abbrev ops_part1_W : List (Ref sig .tc) := [main_v41, main_v42, main_c_17, main_v43, main_v44, main_v45, main_v46, main_v47, main_c_18, main_call0.v0.ref, main_call0.v1.ref, main_call0.call0.v0.ref, main_call0.v3.ref, main_call0.v4.ref, main_call0.v5.ref, main_call0.call1.v0.ref, main_call0.v7.ref, main_call0.v8.ref, main_call0.v9.ref, main_call0.call2.v0.ref, main_call0.v11.ref, main_call0.v12.ref, main_call0.v13.ref, main_call0.call3.v0.ref, main_call0.v15.ref, main_cst_19, main_v49, main_v50, main_cst_20, main_v51, main_v52, main_cst_21, main_v53, main_v54, main_v55, main_cst_22, main_v56, main_v57, main_v58, main_v59, main_v60, main_cst_23, main_v61, main_v62, main_v63, main_cst_24, main_v64, main_v65, main_cst_25, main_v66, main_v67, main_cst_26, main_v68, main_v69, main_cst_27, main_v70, main_v71, main_v72, main_cst_28, main_v73, main_v74, main_v75, main_v76, main_v77, main_cst_29, main_v78, main_v79, main_v80, main_cst_30, main_v81, main_v82, main_cst_31, main_v83, main_v84, main_cst_32]

/-- Window 2 of @main: 60 operations. -/
abbrev ops_part2 : List (HloOp τ sig (Elt F)) :=
  [ StableHlo.unary main_cst_32 main_v85 (broadcastInDim S1x1x1024x2048 ![] bcast_S_S1x1x1024x2048 : (⟨S_, .f32⟩ : BufTy).Contents (Elt F) → (⟨S1x1x1024x2048, .f32⟩ : BufTy).Contents (Elt F)),
    StableHlo.binary main_v50 main_v85 main_v86 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_33 (constant S_ .f32 0x456E8666#32),
    StableHlo.unary main_cst_33 main_v87 (broadcastInDim S1x1x1024x2048 ![] bcast_S_S1x1x1024x2048 : (⟨S_, .f32⟩ : BufTy).Contents (Elt F) → (⟨S1x1x1024x2048, .f32⟩ : BufTy).Contents (Elt F)),
    StableHlo.binary main_v87 main_v86 main_v88 (Host.divf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_34 (constant S_ .f32 0x41B9999A#32),
    StableHlo.unary main_cst_34 main_v89 (broadcastInDim S1x1x1024x2048 ![] bcast_S_S1x1x1024x2048 : (⟨S_, .f32⟩ : BufTy).Contents (Elt F) → (⟨S1x1x1024x2048, .f32⟩ : BufTy).Contents (Elt F)),
    StableHlo.binary main_v89 main_v88 main_v90 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v90 main_v91 (Host.exp : (⟨S1x1x1024x2048, .f32⟩ : BufTy).Contents (Elt F) → (⟨S1x1x1024x2048, .f32⟩ : BufTy).Contents (Elt F)),
    StableHlo.nullary main_cst_35 (constant S_ .f32 0x3F1F3A15#32),
    StableHlo.unary main_cst_35 main_v92 (broadcastInDim S1x1x1024x2048 ![] bcast_S_S1x1x1024x2048 : (⟨S_, .f32⟩ : BufTy).Contents (Elt F) → (⟨S1x1x1024x2048, .f32⟩ : BufTy).Contents (Elt F)),
    StableHlo.binary main_v92 main_v91 main_v93 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_36 (constant S_ .f32 0x47C5E680#32),
    StableHlo.unary main_cst_36 main_v94 (broadcastInDim S1x1x1024x2048 ![] bcast_S_S1x1x1024x2048 : (⟨S_, .f32⟩ : BufTy).Contents (Elt F) → (⟨S1x1x1024x2048, .f32⟩ : BufTy).Contents (Elt F)),
    StableHlo.binary main_v94 main_v91 main_v95 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v93 main_v95 main_v96 (Host.divf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_37 (constant S_ .f32 0x00000000#32),
    StableHlo.binary main_v42 main_cst_37 main_v97 ((fun x v => Host.reduceAdd x v reducesTo_S1x1x1024x2048_S_d0_1_2_3 h_S_) : (⟨S1x1x1024x2048, .f32⟩ : BufTy).Contents (Elt F) → (⟨S_, .f32⟩ : BufTy).Contents (Elt F) → (⟨S_, .f32⟩ : BufTy).Contents (Elt F)),
    StableHlo.nullary main_cst_38 (constant S_ .f32 0x4A000000#32),
    StableHlo.binary main_v97 main_cst_38 main_v98 (Host.divf : (⟨S_, .f32⟩ : BufTy).Contents (Elt F) → (⟨S_, .f32⟩ : BufTy).Contents (Elt F) → (⟨S_, .f32⟩ : BufTy).Contents (Elt F)),
    StableHlo.nullary main_cst_39 (constant S_ .f32 0x4283F02F#32),
    StableHlo.binary main_v98 main_cst_39 main_v99 (Host.divf : (⟨S_, .f32⟩ : BufTy).Contents (Elt F) → (⟨S_, .f32⟩ : BufTy).Contents (Elt F) → (⟨S_, .f32⟩ : BufTy).Contents (Elt F)),
    StableHlo.nullary main_cst_40 (constant S_ .f32 0x3F000000#32),
    StableHlo.binary main_v99 main_cst_40 main_v100 (Host.powf : (⟨S_, .f32⟩ : BufTy).Contents (Elt F) → (⟨S_, .f32⟩ : BufTy).Contents (Elt F) → (⟨S_, .f32⟩ : BufTy).Contents (Elt F)),
    StableHlo.nullary main_cst_41 (constant S_ .f32 0x3AAB0B61#32),
    StableHlo.binary main_cst_41 main_v100 main_v101 (mulf : (⟨S_, .f32⟩ : BufTy).Contents (Elt F) → (⟨S_, .f32⟩ : BufTy).Contents (Elt F) → (⟨S_, .f32⟩ : BufTy).Contents (Elt F)),
    StableHlo.nullary main_cst_42 (constant S_ .f32 0x43C80000#32),
    StableHlo.binary main_v101 main_cst_42 main_v102 (mulf : (⟨S_, .f32⟩ : BufTy).Contents (Elt F) → (⟨S_, .f32⟩ : BufTy).Contents (Elt F) → (⟨S_, .f32⟩ : BufTy).Contents (Elt F)),
    StableHlo.nullary main_cst_43 (constant S_ .f32 0x3F800000#32),
    StableHlo.binary main_v102 main_cst_43 main_v103 (mulf : (⟨S_, .f32⟩ : BufTy).Contents (Elt F) → (⟨S_, .f32⟩ : BufTy).Contents (Elt F) → (⟨S_, .f32⟩ : BufTy).Contents (Elt F)),
    StableHlo.nullary main_cst_44 (constant S_ .f32 0x3BED9168#32),
    StableHlo.unary main_cst_44 main_v104 (broadcastInDim S1x1x1024x2048 ![] bcast_S_S1x1x1024x2048 : (⟨S_, .f32⟩ : BufTy).Contents (Elt F) → (⟨S1x1x1024x2048, .f32⟩ : BufTy).Contents (Elt F)),
    StableHlo.binary main_v84 main_v104 main_v105 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v67 main_v105 main_v106 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_45 (constant S_ .f32 0x43960000#32),
    StableHlo.unary main_cst_45 main_v107 (broadcastInDim S1x1x1024x2048 ![] bcast_S_S1x1x1024x2048 : (⟨S_, .f32⟩ : BufTy).Contents (Elt F) → (⟨S1x1x1024x2048, .f32⟩ : BufTy).Contents (Elt F)),
    StableHlo.binary main_v107 main_v106 main_v108 (Host.divf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_46 (constant S_ .f32 0x3BED9168#32),
    StableHlo.unary main_cst_46 main_v109 (broadcastInDim S1x1x1024x2048 ![] bcast_S_S1x1x1024x2048 : (⟨S_, .f32⟩ : BufTy).Contents (Elt F) → (⟨S1x1x1024x2048, .f32⟩ : BufTy).Contents (Elt F)),
    StableHlo.binary main_v96 main_v109 main_v110 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v108 main_v110 main_v111 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v103 main_v112 (broadcastInDim S1x1x1024x2048 ![] bcast_S_S1x1x1024x2048 : (⟨S_, .f32⟩ : BufTy).Contents (Elt F) → (⟨S1x1x1024x2048, .f32⟩ : BufTy).Contents (Elt F)),
    StableHlo.binary main_v111 main_v112 main_v113 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v48 main_v114 ((extractStridedSlice S1x1x1024x2048 ![0, 0, 1, 2] · slices_S1x1x1026x2050_S1x1x1024x2048_0_0_1_2) : (⟨S1x1x1026x2050, .f32⟩ : BufTy).Contents (Elt F) → (⟨S1x1x1024x2048, .f32⟩ : BufTy).Contents (Elt F)),
    StableHlo.unary main_v48 main_v115 ((extractStridedSlice S1x1x1024x2048 ![0, 0, 1, 0] · slices_S1x1x1026x2050_S1x1x1024x2048_0_0_1_0) : (⟨S1x1x1026x2050, .f32⟩ : BufTy).Contents (Elt F) → (⟨S1x1x1024x2048, .f32⟩ : BufTy).Contents (Elt F)),
    StableHlo.binary main_v114 main_v115 main_v116 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_47 (constant S_ .f32 0x3F000000#32),
    StableHlo.unary main_cst_47 main_v117 (broadcastInDim S1x1x1024x2048 ![] bcast_S_S1x1x1024x2048 : (⟨S_, .f32⟩ : BufTy).Contents (Elt F) → (⟨S1x1x1024x2048, .f32⟩ : BufTy).Contents (Elt F)),
    StableHlo.binary main_v117 main_v116 main_v118 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v48 main_v119 ((extractStridedSlice S1x1x1024x2048 ![0, 0, 2, 1] · slices_S1x1x1026x2050_S1x1x1024x2048_0_0_2_1) : (⟨S1x1x1026x2050, .f32⟩ : BufTy).Contents (Elt F) → (⟨S1x1x1024x2048, .f32⟩ : BufTy).Contents (Elt F)),
    StableHlo.unary main_v48 main_v120 ((extractStridedSlice S1x1x1024x2048 ![0, 0, 0, 1] · slices_S1x1x1026x2050_S1x1x1024x2048_0_0_0_1) : (⟨S1x1x1026x2050, .f32⟩ : BufTy).Contents (Elt F) → (⟨S1x1x1024x2048, .f32⟩ : BufTy).Contents (Elt F)),
    StableHlo.binary main_v119 main_v120 main_v121 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_48 (constant S_ .f32 0x3F000000#32),
    StableHlo.unary main_cst_48 main_v122 (broadcastInDim S1x1x1024x2048 ![] bcast_S_S1x1x1024x2048 : (⟨S_, .f32⟩ : BufTy).Contents (Elt F) → (⟨S1x1x1024x2048, .f32⟩ : BufTy).Contents (Elt F)),
    StableHlo.binary main_v122 main_v121 main_v123 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v1 main_v124 (broadcastInDim S1x1x1024x2048 ![1, 2, 3] bcast_S1x1024x2048_S1x1x1024x2048_1_2_3 : (⟨S1x1024x2048, .f32⟩ : BufTy).Contents (Elt F) → (⟨S1x1x1024x2048, .f32⟩ : BufTy).Contents (Elt F)),
    StableHlo.binary main_v124 main_v118 main_v125 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v3 main_v126 (broadcastInDim S1x1x1024x2048 ![1, 2, 3] bcast_S1x1024x2048_S1x1x1024x2048_1_2_3 : (⟨S1x1024x2048, .f32⟩ : BufTy).Contents (Elt F) → (⟨S1x1x1024x2048, .f32⟩ : BufTy).Contents (Elt F)),
    StableHlo.binary main_v126 main_v123 main_v127 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v125 main_v127 main_v128 (addf : (⟨S1x1x1024x2048, .f32⟩ : BufTy).Contents (Elt F) → (⟨S1x1x1024x2048, .f32⟩ : BufTy).Contents (Elt F) → (⟨S1x1x1024x2048, .f32⟩ : BufTy).Contents (Elt F)) ]

set_option maxRecDepth 8192 in
theorem ops_part2_sub : (ops_part2 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub ..⟩

/-- The buffers window 2 writes, in order. -/
abbrev ops_part2_W : List (Ref sig .tc) := [main_v85, main_v86, main_cst_33, main_v87, main_v88, main_cst_34, main_v89, main_v90, main_v91, main_cst_35, main_v92, main_v93, main_cst_36, main_v94, main_v95, main_v96, main_cst_37, main_v97, main_cst_38, main_v98, main_cst_39, main_v99, main_cst_40, main_v100, main_cst_41, main_v101, main_cst_42, main_v102, main_cst_43, main_v103, main_cst_44, main_v104, main_v105, main_v106, main_cst_45, main_v107, main_v108, main_cst_46, main_v109, main_v110, main_v111, main_v112, main_v113, main_v114, main_v115, main_v116, main_cst_47, main_v117, main_v118, main_v119, main_v120, main_v121, main_cst_48, main_v122, main_v123, main_v124, main_v125, main_v126, main_v127, main_v128]

/-- Window 3 of @main: 60 operations. -/
abbrev ops_part3 : List (HloOp τ sig (Elt F)) :=
  [ StableHlo.unary main_v48 main_v129 ((extractStridedSlice S1x1x1024x2048 ![0, 0, 1, 2] · slices_S1x1x1026x2050_S1x1x1024x2048_0_0_1_2) : (⟨S1x1x1026x2050, .f32⟩ : BufTy).Contents (Elt F) → (⟨S1x1x1024x2048, .f32⟩ : BufTy).Contents (Elt F)),
    StableHlo.unary main_v48 main_v130 ((extractStridedSlice S1x1x1024x2048 ![0, 0, 1, 0] · slices_S1x1x1026x2050_S1x1x1024x2048_0_0_1_0) : (⟨S1x1x1026x2050, .f32⟩ : BufTy).Contents (Elt F) → (⟨S1x1x1024x2048, .f32⟩ : BufTy).Contents (Elt F)),
    StableHlo.binary main_v129 main_v130 main_v131 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v48 main_v132 ((extractStridedSlice S1x1x1024x2048 ![0, 0, 2, 1] · slices_S1x1x1026x2050_S1x1x1024x2048_0_0_2_1) : (⟨S1x1x1026x2050, .f32⟩ : BufTy).Contents (Elt F) → (⟨S1x1x1024x2048, .f32⟩ : BufTy).Contents (Elt F)),
    StableHlo.binary main_v131 main_v132 main_v133 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v48 main_v134 ((extractStridedSlice S1x1x1024x2048 ![0, 0, 0, 1] · slices_S1x1x1026x2050_S1x1x1024x2048_0_0_0_1) : (⟨S1x1x1026x2050, .f32⟩ : BufTy).Contents (Elt F) → (⟨S1x1x1024x2048, .f32⟩ : BufTy).Contents (Elt F)),
    StableHlo.binary main_v133 main_v134 main_v135 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v48 main_v136 ((extractStridedSlice S1x1x1024x2048 ![0, 0, 1, 1] · slices_S1x1x1026x2050_S1x1x1024x2048_0_0_1_1) : (⟨S1x1x1026x2050, .f32⟩ : BufTy).Contents (Elt F) → (⟨S1x1x1024x2048, .f32⟩ : BufTy).Contents (Elt F)),
    StableHlo.nullary main_cst_49 (constant S_ .f32 0x40800000#32),
    StableHlo.unary main_cst_49 main_v137 (broadcastInDim S1x1x1024x2048 ![] bcast_S_S1x1x1024x2048 : (⟨S_, .f32⟩ : BufTy).Contents (Elt F) → (⟨S1x1x1024x2048, .f32⟩ : BufTy).Contents (Elt F)),
    StableHlo.binary main_v137 main_v136 main_v138 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v135 main_v138 main_v139 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_50 (constant S_ .f32 0x00000000#32),
    StableHlo.unary main_cst_50 main_v140 (broadcastInDim S1x1x1024x2048 ![] bcast_S_S1x1x1024x2048 : (⟨S_, .f32⟩ : BufTy).Contents (Elt F) → (⟨S1x1x1024x2048, .f32⟩ : BufTy).Contents (Elt F)),
    StableHlo.binary main_v140 main_v139 main_v141 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_51 (constant S_ .f32 0x3B400000#32),
    StableHlo.unary main_cst_51 main_v142 (broadcastInDim S1x1x1024x2048 ![] bcast_S_S1x1x1024x2048 : (⟨S_, .f32⟩ : BufTy).Contents (Elt F) → (⟨S1x1x1024x2048, .f32⟩ : BufTy).Contents (Elt F)),
    StableHlo.binary main_v141 main_v142 main_v143 (Host.divf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v128 main_v143 main_v144 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_52 (constant S_ .f32 0x3A83126F#32),
    StableHlo.unary main_cst_52 main_v145 (broadcastInDim S1x1x1024x2048 ![] bcast_S_S1x1x1024x2048 : (⟨S_, .f32⟩ : BufTy).Contents (Elt F) → (⟨S1x1x1024x2048, .f32⟩ : BufTy).Contents (Elt F)),
    StableHlo.binary main_v145 main_v144 main_v146 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_arg1 main_v146 main_v147 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_53 (constant S_ .f32 0x3A83126F#32),
    StableHlo.unary main_cst_53 main_v148 (broadcastInDim S1x1x1024x2048 ![] bcast_S_S1x1x1024x2048 : (⟨S_, .f32⟩ : BufTy).Contents (Elt F) → (⟨S1x1x1024x2048, .f32⟩ : BufTy).Contents (Elt F)),
    StableHlo.binary main_v148 main_v113 main_v149 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_54 (constant S_ .f32 0x4283F02F#32),
    StableHlo.unary main_cst_54 main_v150 (broadcastInDim S1x1x1024x2048 ![] bcast_S_S1x1x1024x2048 : (⟨S_, .f32⟩ : BufTy).Contents (Elt F) → (⟨S1x1x1024x2048, .f32⟩ : BufTy).Contents (Elt F)),
    StableHlo.binary main_v150 main_v149 main_v151 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_55 (constant S_ .f32 0x3F610000#32),
    StableHlo.unary main_cst_55 main_v152 (broadcastInDim S1x1x1024x2048 ![] bcast_S_S1x1x1024x2048 : (⟨S_, .f32⟩ : BufTy).Contents (Elt F) → (⟨S1x1x1024x2048, .f32⟩ : BufTy).Contents (Elt F)),
    StableHlo.binary main_v152 main_v118 main_v153 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v153 main_v151 main_v154 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_56 (constant S_ .f32 0xBF610000#32),
    StableHlo.unary main_cst_56 main_v155 (broadcastInDim S1x1x1024x2048 ![] bcast_S_S1x1x1024x2048 : (⟨S_, .f32⟩ : BufTy).Contents (Elt F) → (⟨S1x1x1024x2048, .f32⟩ : BufTy).Contents (Elt F)),
    StableHlo.binary main_v155 main_v123 main_v156 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v156 main_v151 main_v157 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_57 (constant S_ .f32 0xBF610000#32),
    StableHlo.unary main_cst_57 main_v158 (broadcastInDim S1x1x1024x2048 ![] bcast_S_S1x1x1024x2048 : (⟨S_, .f32⟩ : BufTy).Contents (Elt F) → (⟨S1x1x1024x2048, .f32⟩ : BufTy).Contents (Elt F)),
    StableHlo.binary main_v158 main_v118 main_v159 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v159 main_v151 main_v160 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_58 (constant S_ .f32 0x3F610000#32),
    StableHlo.unary main_cst_58 main_v161 (broadcastInDim S1x1x1024x2048 ![] bcast_S_S1x1x1024x2048 : (⟨S_, .f32⟩ : BufTy).Contents (Elt F) → (⟨S1x1x1024x2048, .f32⟩ : BufTy).Contents (Elt F)),
    StableHlo.binary main_v161 main_v123 main_v162 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v162 main_v151 main_v163 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v118 main_v164 (Host.negf : (⟨S1x1x1024x2048, .f32⟩ : BufTy).Contents (Elt F) → (⟨S1x1x1024x2048, .f32⟩ : BufTy).Contents (Elt F)),
    StableHlo.binary main_v164 main_v123 main_v165 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_59 (constant S_ .f32 0x3F610000#32),
    StableHlo.unary main_cst_59 main_v166 (broadcastInDim S1x1x1024x2048 ![] bcast_S_S1x1x1024x2048 : (⟨S_, .f32⟩ : BufTy).Contents (Elt F) → (⟨S1x1x1024x2048, .f32⟩ : BufTy).Contents (Elt F)),
    StableHlo.binary main_v166 main_v165 main_v167 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v167 main_v151 main_v168 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v123 main_v118 main_v169 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_60 (constant S_ .f32 0x3F610000#32),
    StableHlo.unary main_cst_60 main_v170 (broadcastInDim S1x1x1024x2048 ![] bcast_S_S1x1x1024x2048 : (⟨S_, .f32⟩ : BufTy).Contents (Elt F) → (⟨S1x1x1024x2048, .f32⟩ : BufTy).Contents (Elt F)),
    StableHlo.binary main_v170 main_v169 main_v171 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v171 main_v151 main_v172 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v118 main_v123 main_v173 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_61 (constant S_ .f32 0x3F610000#32),
    StableHlo.unary main_cst_61 main_v174 (broadcastInDim S1x1x1024x2048 ![] bcast_S_S1x1x1024x2048 : (⟨S_, .f32⟩ : BufTy).Contents (Elt F) → (⟨S1x1x1024x2048, .f32⟩ : BufTy).Contents (Elt F)),
    StableHlo.binary main_v174 main_v173 main_v175 (mulf : (⟨S1x1x1024x2048, .f32⟩ : BufTy).Contents (Elt F) → (⟨S1x1x1024x2048, .f32⟩ : BufTy).Contents (Elt F) → (⟨S1x1x1024x2048, .f32⟩ : BufTy).Contents (Elt F)) ]

set_option maxRecDepth 8192 in
theorem ops_part3_sub : (ops_part3 : List (HloOp τ sig (Elt F))).Forall fun op => op.bufs ⊆ tcRefs τ sig :=
  ⟨unary_bufs_sub .., unary_bufs_sub .., binary_bufs_sub .., unary_bufs_sub .., binary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub ..⟩

/-- The buffers window 3 writes, in order. -/
abbrev ops_part3_W : List (Ref sig .tc) := [main_v129, main_v130, main_v131, main_v132, main_v133, main_v134, main_v135, main_v136, main_cst_49, main_v137, main_v138, main_v139, main_cst_50, main_v140, main_v141, main_cst_51, main_v142, main_v143, main_v144, main_cst_52, main_v145, main_v146, main_v147, main_cst_53, main_v148, main_v149, main_cst_54, main_v150, main_v151, main_cst_55, main_v152, main_v153, main_v154, main_cst_56, main_v155, main_v156, main_v157, main_cst_57, main_v158, main_v159, main_v160, main_cst_58, main_v161, main_v162, main_v163, main_v164, main_v165, main_cst_59, main_v166, main_v167, main_v168, main_v169, main_cst_60, main_v170, main_v171, main_v172, main_v173, main_cst_61, main_v174, main_v175]

/-- Window 4 of @main: 68 operations. -/
abbrev ops_part4 : List (HloOp τ sig (Elt F)) :=
  [ StableHlo.binary main_v175 main_v151 main_v176 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v118 main_v177 (Host.negf : (⟨S1x1x1024x2048, .f32⟩ : BufTy).Contents (Elt F) → (⟨S1x1x1024x2048, .f32⟩ : BufTy).Contents (Elt F)),
    StableHlo.binary main_v177 main_v123 main_v178 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_62 (constant S_ .f32 0x3F610000#32),
    StableHlo.unary main_cst_62 main_v179 (broadcastInDim S1x1x1024x2048 ![] bcast_S_S1x1x1024x2048 : (⟨S_, .f32⟩ : BufTy).Contents (Elt F) → (⟨S1x1x1024x2048, .f32⟩ : BufTy).Contents (Elt F)),
    StableHlo.binary main_v179 main_v178 main_v180 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v180 main_v151 main_v181 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_63 (constant S_ .f32 0x00000000#32),
    StableHlo.unary main_cst_63 main_v182 (broadcastInDim S1x1x1024x2048 ![] bcast_S_S1x1x1024x2048 : (⟨S_, .f32⟩ : BufTy).Contents (Elt F) → (⟨S1x1x1024x2048, .f32⟩ : BufTy).Contents (Elt F)),
    StableHlo.nullary main_c_64 (constantI S_ 32 0#32),
    StableHlo.unary main_c_64 main_v183 (broadcastInDim S1024x2048 ![] bcast_S_S1024x2048 : (⟨S_, .i32⟩ : BufTy).Contents (Elt F) → (⟨S1024x2048, .i32⟩ : BufTy).Contents (Elt F)),
    StableHlo.nullary main_c_65 (constantI S_ 32 0#32),
    StableHlo.unary main_c_65 main_v184 (broadcastInDim S1024x2048 ![] bcast_S_S1024x2048 : (⟨S_, .i32⟩ : BufTy).Contents (Elt F) → (⟨S1024x2048, .i32⟩ : BufTy).Contents (Elt F)),
    StableHlo.binary main_v37 main_v184 main_v185 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_66 (constantI S_ 32 0#32),
    StableHlo.TRef.unary (.of main_c_66 : StableHlo.TRef sig ⟨S_, .i32⟩) main_call1.v0 id,
    StableHlo.TRef.unary main_call1.v0 main_call1.v1 (broadcastInDim S1024x2048 ![] bcast_S_S1024x2048),
    StableHlo.TRef.ternary (.of main_v185 : StableHlo.TRef sig ⟨S1024x2048, .i1⟩) main_call1.v1 (.of main_v183 : StableHlo.TRef sig ⟨S1024x2048, .i32⟩) main_call1.v2 select,
    StableHlo.unary main_v185 main_v187 (uitofp .f32 : (⟨S1024x2048, .i1⟩ : BufTy).Contents (Elt F) → (⟨S1024x2048, .f32⟩ : BufTy).Contents (Elt F)),
    StableHlo.nullary main_cst_67 (constant S_ .f32 0x00000000#32),
    StableHlo.unary main_cst_67 main_v188 (broadcastInDim S1x1x1024x2048 ![] bcast_S_S1x1x1024x2048 : (⟨S_, .f32⟩ : BufTy).Contents (Elt F) → (⟨S1x1x1024x2048, .f32⟩ : BufTy).Contents (Elt F)),
    StableHlo.binary main_v147 main_v188 main_v189 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v187 main_v190 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v190 main_v189 main_v191 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v182 main_v191 main_v192 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_68 (constantI S_ 32 2#32),
    StableHlo.unary main_c_68 main_v193 (broadcastInDim S1024x2048 ![] bcast_S_S1024x2048 : (⟨S_, .i32⟩ : BufTy).Contents (Elt F) → (⟨S1024x2048, .i32⟩ : BufTy).Contents (Elt F)),
    StableHlo.binary main_v37 main_v193 main_v194 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_69 (constantI S_ 32 2#32),
    StableHlo.TRef.unary (.of main_c_69 : StableHlo.TRef sig ⟨S_, .i32⟩) main_call2.v0 id,
    StableHlo.TRef.unary main_call2.v0 main_call2.v1 (broadcastInDim S1024x2048 ![] bcast_S_S1024x2048),
    StableHlo.TRef.ternary (.of main_v194 : StableHlo.TRef sig ⟨S1024x2048, .i1⟩) main_call2.v1 (.of main_v186 : StableHlo.TRef sig ⟨S1024x2048, .i32⟩) main_call2.v2 select,
    StableHlo.unary main_v194 main_v196 (uitofp .f32 : (⟨S1024x2048, .i1⟩ : BufTy).Contents (Elt F) → (⟨S1024x2048, .f32⟩ : BufTy).Contents (Elt F)),
    StableHlo.nullary main_cst_70 (constant S_ .f32 0x00000000#32),
    StableHlo.unary main_cst_70 main_v197 (broadcastInDim S1x1x1024x2048 ![] bcast_S_S1x1x1024x2048 : (⟨S_, .f32⟩ : BufTy).Contents (Elt F) → (⟨S1x1x1024x2048, .f32⟩ : BufTy).Contents (Elt F)),
    StableHlo.binary main_v147 main_v197 main_v198 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v196 main_v199 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v199 main_v198 main_v200 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v192 main_v200 main_v201 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_71 (constantI S_ 32 3#32),
    StableHlo.unary main_c_71 main_v202 (broadcastInDim S1024x2048 ![] bcast_S_S1024x2048 : (⟨S_, .i32⟩ : BufTy).Contents (Elt F) → (⟨S1024x2048, .i32⟩ : BufTy).Contents (Elt F)),
    StableHlo.binary main_v37 main_v202 main_v203 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_72 (constantI S_ 32 3#32),
    StableHlo.TRef.unary (.of main_c_72 : StableHlo.TRef sig ⟨S_, .i32⟩) main_call3.v0 id,
    StableHlo.TRef.unary main_call3.v0 main_call3.v1 (broadcastInDim S1024x2048 ![] bcast_S_S1024x2048),
    StableHlo.TRef.ternary (.of main_v203 : StableHlo.TRef sig ⟨S1024x2048, .i1⟩) main_call3.v1 (.of main_v195 : StableHlo.TRef sig ⟨S1024x2048, .i32⟩) main_call3.v2 select,
    StableHlo.unary main_v203 main_v205 (uitofp .f32 : (⟨S1024x2048, .i1⟩ : BufTy).Contents (Elt F) → (⟨S1024x2048, .f32⟩ : BufTy).Contents (Elt F)),
    StableHlo.nullary main_cst_73 (constant S_ .f32 0x00000000#32),
    StableHlo.unary main_cst_73 main_v206 (broadcastInDim S1x1x1024x2048 ![] bcast_S_S1x1x1024x2048 : (⟨S_, .f32⟩ : BufTy).Contents (Elt F) → (⟨S1x1x1024x2048, .f32⟩ : BufTy).Contents (Elt F)),
    StableHlo.binary main_v147 main_v206 main_v207 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v205 main_v208 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v208 main_v207 main_v209 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v201 main_v209 main_v210 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_74 (constantI S_ 32 4#32),
    StableHlo.unary main_c_74 main_v211 (broadcastInDim S1024x2048 ![] bcast_S_S1024x2048 : (⟨S_, .i32⟩ : BufTy).Contents (Elt F) → (⟨S1024x2048, .i32⟩ : BufTy).Contents (Elt F)),
    StableHlo.binary main_v37 main_v211 main_v212 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_75 (constantI S_ 32 4#32),
    StableHlo.TRef.unary (.of main_c_75 : StableHlo.TRef sig ⟨S_, .i32⟩) main_call4.v0 id,
    StableHlo.TRef.unary main_call4.v0 main_call4.v1 (broadcastInDim S1024x2048 ![] bcast_S_S1024x2048),
    StableHlo.TRef.ternary (.of main_v212 : StableHlo.TRef sig ⟨S1024x2048, .i1⟩) main_call4.v1 (.of main_v204 : StableHlo.TRef sig ⟨S1024x2048, .i32⟩) main_call4.v2 select,
    StableHlo.unary main_v212 main_v214 (uitofp .f32 : (⟨S1024x2048, .i1⟩ : BufTy).Contents (Elt F) → (⟨S1024x2048, .f32⟩ : BufTy).Contents (Elt F)),
    StableHlo.binary main_v147 main_v154 main_v215 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v214 main_v216 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v216 main_v215 main_v217 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v210 main_v217 main_v218 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_76 (constantI S_ 32 5#32),
    StableHlo.unary main_c_76 main_v219 (broadcastInDim S1024x2048 ![] bcast_S_S1024x2048 : (⟨S_, .i32⟩ : BufTy).Contents (Elt F) → (⟨S1024x2048, .i32⟩ : BufTy).Contents (Elt F)),
    StableHlo.binary main_v37 main_v219 main_v220 (cmpi .eq : (⟨S1024x2048, .i32⟩ : BufTy).Contents (Elt F) → (⟨S1024x2048, .i32⟩ : BufTy).Contents (Elt F) → (⟨S1024x2048, .i1⟩ : BufTy).Contents (Elt F)) ]

set_option maxRecDepth 8192 in
theorem ops_part4_sub : (ops_part4 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., unary_bufs_sub .., nullary_bufs_sub .., unary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., nullary_bufs_sub .., unary_bufs_sub .., binary_bufs_sub ..⟩

/-- The buffers window 4 writes, in order. -/
abbrev ops_part4_W : List (Ref sig .tc) := [main_v176, main_v177, main_v178, main_cst_62, main_v179, main_v180, main_v181, main_cst_63, main_v182, main_c_64, main_v183, main_c_65, main_v184, main_v185, main_c_66, main_call1.v0.ref, main_call1.v1.ref, main_call1.v2.ref, main_v187, main_cst_67, main_v188, main_v189, main_v190, main_v191, main_v192, main_c_68, main_v193, main_v194, main_c_69, main_call2.v0.ref, main_call2.v1.ref, main_call2.v2.ref, main_v196, main_cst_70, main_v197, main_v198, main_v199, main_v200, main_v201, main_c_71, main_v202, main_v203, main_c_72, main_call3.v0.ref, main_call3.v1.ref, main_call3.v2.ref, main_v205, main_cst_73, main_v206, main_v207, main_v208, main_v209, main_v210, main_c_74, main_v211, main_v212, main_c_75, main_call4.v0.ref, main_call4.v1.ref, main_call4.v2.ref, main_v214, main_v215, main_v216, main_v217, main_v218, main_c_76, main_v219, main_v220]

/-- Window 5 of @main: 72 operations. -/
abbrev ops_part5 : List (HloOp τ sig (Elt F)) :=
  [ StableHlo.nullary main_c_77 (constantI S_ 32 5#32),
    StableHlo.TRef.unary (.of main_c_77 : StableHlo.TRef sig ⟨S_, .i32⟩) main_call5.v0 id,
    StableHlo.TRef.unary main_call5.v0 main_call5.v1 (broadcastInDim S1024x2048 ![] bcast_S_S1024x2048),
    StableHlo.TRef.ternary (.of main_v220 : StableHlo.TRef sig ⟨S1024x2048, .i1⟩) main_call5.v1 (.of main_v213 : StableHlo.TRef sig ⟨S1024x2048, .i32⟩) main_call5.v2 select,
    StableHlo.unary main_v220 main_v222 (uitofp .f32 : (⟨S1024x2048, .i1⟩ : BufTy).Contents (Elt F) → (⟨S1024x2048, .f32⟩ : BufTy).Contents (Elt F)),
    StableHlo.binary main_v147 main_v157 main_v223 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v222 main_v224 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v224 main_v223 main_v225 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v218 main_v225 main_v226 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_78 (constantI S_ 32 6#32),
    StableHlo.unary main_c_78 main_v227 (broadcastInDim S1024x2048 ![] bcast_S_S1024x2048 : (⟨S_, .i32⟩ : BufTy).Contents (Elt F) → (⟨S1024x2048, .i32⟩ : BufTy).Contents (Elt F)),
    StableHlo.binary main_v37 main_v227 main_v228 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_79 (constantI S_ 32 6#32),
    StableHlo.TRef.unary (.of main_c_79 : StableHlo.TRef sig ⟨S_, .i32⟩) main_call6.v0 id,
    StableHlo.TRef.unary main_call6.v0 main_call6.v1 (broadcastInDim S1024x2048 ![] bcast_S_S1024x2048),
    StableHlo.TRef.ternary (.of main_v228 : StableHlo.TRef sig ⟨S1024x2048, .i1⟩) main_call6.v1 (.of main_v221 : StableHlo.TRef sig ⟨S1024x2048, .i32⟩) main_call6.v2 select,
    StableHlo.unary main_v228 main_v230 (uitofp .f32 : (⟨S1024x2048, .i1⟩ : BufTy).Contents (Elt F) → (⟨S1024x2048, .f32⟩ : BufTy).Contents (Elt F)),
    StableHlo.binary main_v147 main_v160 main_v231 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v230 main_v232 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v232 main_v231 main_v233 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v226 main_v233 main_v234 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_80 (constantI S_ 32 7#32),
    StableHlo.unary main_c_80 main_v235 (broadcastInDim S1024x2048 ![] bcast_S_S1024x2048 : (⟨S_, .i32⟩ : BufTy).Contents (Elt F) → (⟨S1024x2048, .i32⟩ : BufTy).Contents (Elt F)),
    StableHlo.binary main_v37 main_v235 main_v236 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_81 (constantI S_ 32 7#32),
    StableHlo.TRef.unary (.of main_c_81 : StableHlo.TRef sig ⟨S_, .i32⟩) main_call7.v0 id,
    StableHlo.TRef.unary main_call7.v0 main_call7.v1 (broadcastInDim S1024x2048 ![] bcast_S_S1024x2048),
    StableHlo.TRef.ternary (.of main_v236 : StableHlo.TRef sig ⟨S1024x2048, .i1⟩) main_call7.v1 (.of main_v229 : StableHlo.TRef sig ⟨S1024x2048, .i32⟩) main_call7.v2 select,
    StableHlo.unary main_v236 main_v238 (uitofp .f32 : (⟨S1024x2048, .i1⟩ : BufTy).Contents (Elt F) → (⟨S1024x2048, .f32⟩ : BufTy).Contents (Elt F)),
    StableHlo.binary main_v147 main_v163 main_v239 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v238 main_v240 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v240 main_v239 main_v241 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v234 main_v241 main_v242 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_82 (constantI S_ 32 8#32),
    StableHlo.unary main_c_82 main_v243 (broadcastInDim S1024x2048 ![] bcast_S_S1024x2048 : (⟨S_, .i32⟩ : BufTy).Contents (Elt F) → (⟨S1024x2048, .i32⟩ : BufTy).Contents (Elt F)),
    StableHlo.binary main_v37 main_v243 main_v244 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_83 (constantI S_ 32 8#32),
    StableHlo.TRef.unary (.of main_c_83 : StableHlo.TRef sig ⟨S_, .i32⟩) main_call8.v0 id,
    StableHlo.TRef.unary main_call8.v0 main_call8.v1 (broadcastInDim S1024x2048 ![] bcast_S_S1024x2048),
    StableHlo.TRef.ternary (.of main_v244 : StableHlo.TRef sig ⟨S1024x2048, .i1⟩) main_call8.v1 (.of main_v237 : StableHlo.TRef sig ⟨S1024x2048, .i32⟩) main_call8.v2 select,
    StableHlo.unary main_v244 main_v246 (uitofp .f32 : (⟨S1024x2048, .i1⟩ : BufTy).Contents (Elt F) → (⟨S1024x2048, .f32⟩ : BufTy).Contents (Elt F)),
    StableHlo.binary main_v147 main_v168 main_v247 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v246 main_v248 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v248 main_v247 main_v249 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v242 main_v249 main_v250 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_84 (constantI S_ 32 9#32),
    StableHlo.unary main_c_84 main_v251 (broadcastInDim S1024x2048 ![] bcast_S_S1024x2048 : (⟨S_, .i32⟩ : BufTy).Contents (Elt F) → (⟨S1024x2048, .i32⟩ : BufTy).Contents (Elt F)),
    StableHlo.binary main_v37 main_v251 main_v252 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_85 (constantI S_ 32 9#32),
    StableHlo.TRef.unary (.of main_c_85 : StableHlo.TRef sig ⟨S_, .i32⟩) main_call9.v0 id,
    StableHlo.TRef.unary main_call9.v0 main_call9.v1 (broadcastInDim S1024x2048 ![] bcast_S_S1024x2048),
    StableHlo.TRef.ternary (.of main_v252 : StableHlo.TRef sig ⟨S1024x2048, .i1⟩) main_call9.v1 (.of main_v245 : StableHlo.TRef sig ⟨S1024x2048, .i32⟩) main_call9.v2 select,
    StableHlo.unary main_v252 main_v254 (uitofp .f32 : (⟨S1024x2048, .i1⟩ : BufTy).Contents (Elt F) → (⟨S1024x2048, .f32⟩ : BufTy).Contents (Elt F)),
    StableHlo.binary main_v147 main_v172 main_v255 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v254 main_v256 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v256 main_v255 main_v257 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v250 main_v257 main_v258 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_86 (constantI S_ 32 10#32),
    StableHlo.unary main_c_86 main_v259 (broadcastInDim S1024x2048 ![] bcast_S_S1024x2048 : (⟨S_, .i32⟩ : BufTy).Contents (Elt F) → (⟨S1024x2048, .i32⟩ : BufTy).Contents (Elt F)),
    StableHlo.binary main_v37 main_v259 main_v260 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_87 (constantI S_ 32 10#32),
    StableHlo.TRef.unary (.of main_c_87 : StableHlo.TRef sig ⟨S_, .i32⟩) main_call10.v0 id,
    StableHlo.TRef.unary main_call10.v0 main_call10.v1 (broadcastInDim S1024x2048 ![] bcast_S_S1024x2048),
    StableHlo.TRef.ternary (.of main_v260 : StableHlo.TRef sig ⟨S1024x2048, .i1⟩) main_call10.v1 (.of main_v253 : StableHlo.TRef sig ⟨S1024x2048, .i32⟩) main_call10.v2 select,
    StableHlo.unary main_v260 main_v262 (uitofp .f32 : (⟨S1024x2048, .i1⟩ : BufTy).Contents (Elt F) → (⟨S1024x2048, .f32⟩ : BufTy).Contents (Elt F)),
    StableHlo.binary main_v147 main_v176 main_v263 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v262 main_v264 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v264 main_v263 main_v265 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v258 main_v265 main_v266 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_c_88 (constantI S_ 32 11#32),
    StableHlo.unary main_c_88 main_v267 (broadcastInDim S1024x2048 ![] bcast_S_S1024x2048 : (⟨S_, .i32⟩ : BufTy).Contents (Elt F) → (⟨S1024x2048, .i32⟩ : BufTy).Contents (Elt F)),
    StableHlo.binary main_v37 main_v267 main_v268 (cmpi .eq : (⟨S1024x2048, .i32⟩ : BufTy).Contents (Elt F) → (⟨S1024x2048, .i32⟩ : BufTy).Contents (Elt F) → (⟨S1024x2048, .i1⟩ : BufTy).Contents (Elt F)) ]

set_option maxRecDepth 8192 in
theorem ops_part5_sub : (ops_part5 : List (HloOp τ sig (Elt F))).Forall fun op => op.bufs ⊆ tcRefs τ sig :=
  ⟨nullary_bufs_sub .., unary_bufs_sub .., unary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., nullary_bufs_sub .., unary_bufs_sub .., binary_bufs_sub ..⟩

/-- The buffers window 5 writes, in order. -/
abbrev ops_part5_W : List (Ref sig .tc) := [main_c_77, main_call5.v0.ref, main_call5.v1.ref, main_call5.v2.ref, main_v222, main_v223, main_v224, main_v225, main_v226, main_c_78, main_v227, main_v228, main_c_79, main_call6.v0.ref, main_call6.v1.ref, main_call6.v2.ref, main_v230, main_v231, main_v232, main_v233, main_v234, main_c_80, main_v235, main_v236, main_c_81, main_call7.v0.ref, main_call7.v1.ref, main_call7.v2.ref, main_v238, main_v239, main_v240, main_v241, main_v242, main_c_82, main_v243, main_v244, main_c_83, main_call8.v0.ref, main_call8.v1.ref, main_call8.v2.ref, main_v246, main_v247, main_v248, main_v249, main_v250, main_c_84, main_v251, main_v252, main_c_85, main_call9.v0.ref, main_call9.v1.ref, main_call9.v2.ref, main_v254, main_v255, main_v256, main_v257, main_v258, main_c_86, main_v259, main_v260, main_c_87, main_call10.v0.ref, main_call10.v1.ref, main_call10.v2.ref, main_v262, main_v263, main_v264, main_v265, main_v266, main_c_88, main_v267, main_v268]

/-- Window 6 of @main: 41 operations. -/
abbrev ops_part6 : List (HloOp τ sig (Elt F)) :=
  [ StableHlo.nullary main_c_89 (constantI S_ 32 11#32),
    StableHlo.TRef.unary (.of main_c_89 : StableHlo.TRef sig ⟨S_, .i32⟩) main_call11.v0 id,
    StableHlo.TRef.unary main_call11.v0 main_call11.v1 (broadcastInDim S1024x2048 ![] bcast_S_S1024x2048),
    StableHlo.TRef.ternary (.of main_v268 : StableHlo.TRef sig ⟨S1024x2048, .i1⟩) main_call11.v1 (.of main_v261 : StableHlo.TRef sig ⟨S1024x2048, .i32⟩) main_call11.v2 select,
    StableHlo.unary main_v268 main_v270 (uitofp .f32 : (⟨S1024x2048, .i1⟩ : BufTy).Contents (Elt F) → (⟨S1024x2048, .f32⟩ : BufTy).Contents (Elt F)),
    StableHlo.binary main_v147 main_v181 main_v271 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.unary main_v270 main_v272 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v272 main_v271 main_v273 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v266 main_v273 main_v274 (addf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_90 (constant S_ .f32 0x3F800000#32),
    StableHlo.unary main_cst_90 main_v275 (broadcastInDim S1x1024x2048 ![] bcast_S_S1x1024x2048 : (⟨S_, .f32⟩ : BufTy).Contents (Elt F) → (⟨S1x1024x2048, .f32⟩ : BufTy).Contents (Elt F)),
    StableHlo.binary main_v15 main_v275 main_v276 (subf : (⟨S1x1024x2048, .f32⟩ : BufTy).Contents (Elt F) → (⟨S1x1024x2048, .f32⟩ : BufTy).Contents (Elt F) → (⟨S1x1024x2048, .f32⟩ : BufTy).Contents (Elt F)),
    StableHlo.unary main_v276 main_v277 (Host.absf : (⟨S1x1024x2048, .f32⟩ : BufTy).Contents (Elt F) → (⟨S1x1024x2048, .f32⟩ : BufTy).Contents (Elt F)),
    StableHlo.nullary main_cst_91 (constant S_ .f32 0x3F800000#32),
    StableHlo.unary main_cst_91 main_v278 (broadcastInDim S1x1024x2048 ![] bcast_S_S1x1024x2048 : (⟨S_, .f32⟩ : BufTy).Contents (Elt F) → (⟨S1x1024x2048, .f32⟩ : BufTy).Contents (Elt F)),
    StableHlo.binary main_v278 main_v277 main_v279 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_92 (constant S_ .f32 0x3F610000#32),
    StableHlo.unary main_cst_92 main_v280 (broadcastInDim S1x1024x2048 ![] bcast_S_S1x1024x2048 : (⟨S_, .f32⟩ : BufTy).Contents (Elt F) → (⟨S1x1024x2048, .f32⟩ : BufTy).Contents (Elt F)),
    StableHlo.binary main_v279 main_v280 main_v281 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_93 (constant S_ .f32 0x3B400000#32),
    StableHlo.unary main_cst_93 main_v282 (broadcastInDim S1x1024x2048 ![] bcast_S_S1x1024x2048 : (⟨S_, .f32⟩ : BufTy).Contents (Elt F) → (⟨S1x1024x2048, .f32⟩ : BufTy).Contents (Elt F)),
    StableHlo.binary main_v281 main_v282 main_v283 (mulf : (⟨S1x1024x2048, .f32⟩ : BufTy).Contents (Elt F) → (⟨S1x1024x2048, .f32⟩ : BufTy).Contents (Elt F) → (⟨S1x1024x2048, .f32⟩ : BufTy).Contents (Elt F)),
    StableHlo.unary main_v283 main_v284 (broadcastInDim S1x1x1024x2048 ![0, 2, 3] bcast_S1x1024x2048_S1x1x1024x2048_0_2_3 : (⟨S1x1024x2048, .f32⟩ : BufTy).Contents (Elt F) → (⟨S1x1x1024x2048, .f32⟩ : BufTy).Contents (Elt F)),
    StableHlo.binary main_v274 main_v284 main_v285 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v285 main_v285 main_v286 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_94 (constant S_ .f32 0x00000000#32),
    StableHlo.binary main_v286 main_cst_94 main_v287 ((fun x v => Host.reduceAdd x v reducesTo_S1x1x1024x2048_S_d0_1_2_3 h_S_) : (⟨S1x1x1024x2048, .f32⟩ : BufTy).Contents (Elt F) → (⟨S_, .f32⟩ : BufTy).Contents (Elt F) → (⟨S_, .f32⟩ : BufTy).Contents (Elt F)),
    StableHlo.nullary main_cst_95 (constant S_ .f32 0x4A000000#32),
    StableHlo.binary main_v287 main_cst_95 main_v288 (Host.divf : (⟨S_, .f32⟩ : BufTy).Contents (Elt F) → (⟨S_, .f32⟩ : BufTy).Contents (Elt F) → (⟨S_, .f32⟩ : BufTy).Contents (Elt F)),
    StableHlo.nullary main_cst_96 (constant S_ .f32 0x4283F02F#32),
    StableHlo.unary main_cst_96 main_v289 (broadcastInDim S1024x2048 ![] bcast_S_S1024x2048 : (⟨S_, .f32⟩ : BufTy).Contents (Elt F) → (⟨S1024x2048, .f32⟩ : BufTy).Contents (Elt F)),
    StableHlo.binary main_v289 main_v40 main_v290 (mulf : (⟨S1024x2048, .f32⟩ : BufTy).Contents (Elt F) → (⟨S1024x2048, .f32⟩ : BufTy).Contents (Elt F) → (⟨S1024x2048, .f32⟩ : BufTy).Contents (Elt F)),
    StableHlo.unary main_v290 main_v291 (broadcastInDim S1x1x1024x2048 ![2, 3] bcast_S1024x2048_S1x1x1024x2048_2_3 : (⟨S1024x2048, .f32⟩ : BufTy).Contents (Elt F) → (⟨S1x1x1024x2048, .f32⟩ : BufTy).Contents (Elt F)),
    StableHlo.binary main_v291 main_v113 main_v292 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v292 main_v42 main_v293 (subf : (⟨S1x1x1024x2048, .f32⟩ : BufTy).Contents (Elt F) → (⟨S1x1x1024x2048, .f32⟩ : BufTy).Contents (Elt F) → (⟨S1x1x1024x2048, .f32⟩ : BufTy).Contents (Elt F)),
    StableHlo.binary main_v293 main_v293 main_v294 (mulf : (⟨S1x1x1024x2048, .f32⟩ : BufTy).Contents (Elt F) → (⟨S1x1x1024x2048, .f32⟩ : BufTy).Contents (Elt F) → (⟨S1x1x1024x2048, .f32⟩ : BufTy).Contents (Elt F)),
    StableHlo.nullary main_cst_97 (constant S_ .f32 0x00000000#32),
    StableHlo.binary main_v294 main_cst_97 main_v295 ((fun x v => Host.reduceAdd x v reducesTo_S1x1x1024x2048_S_d0_1_2_3 h_S_) : (⟨S1x1x1024x2048, .f32⟩ : BufTy).Contents (Elt F) → (⟨S_, .f32⟩ : BufTy).Contents (Elt F) → (⟨S_, .f32⟩ : BufTy).Contents (Elt F)),
    StableHlo.nullary main_cst_98 (constant S_ .f32 0x4A000000#32),
    StableHlo.binary main_v295 main_cst_98 main_v296 (Host.divf : (⟨S_, .f32⟩ : BufTy).Contents (Elt F) → (⟨S_, .f32⟩ : BufTy).Contents (Elt F) → (⟨S_, .f32⟩ : BufTy).Contents (Elt F)),
    StableHlo.binary main_v288 main_v296 main_v297 (addf : (⟨S_, .f32⟩ : BufTy).Contents (Elt F) → (⟨S_, .f32⟩ : BufTy).Contents (Elt F) → (⟨S_, .f32⟩ : BufTy).Contents (Elt F)) ]

set_option maxRecDepth 8192 in
theorem ops_part6_sub : (ops_part6 : List (HloOp τ sig (Elt F))).Forall fun op => op.bufs ⊆ tcRefs τ sig :=
  ⟨nullary_bufs_sub .., unary_bufs_sub .., unary_bufs_sub .., ternary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., binary_bufs_sub .., nullary_bufs_sub .., unary_bufs_sub .., binary_bufs_sub .., unary_bufs_sub .., binary_bufs_sub .., binary_bufs_sub .., binary_bufs_sub .., nullary_bufs_sub .., binary_bufs_sub .., nullary_bufs_sub .., binary_bufs_sub .., binary_bufs_sub ..⟩

/-- The buffers window 6 writes, in order. -/
abbrev ops_part6_W : List (Ref sig .tc) := [main_c_89, main_call11.v0.ref, main_call11.v1.ref, main_call11.v2.ref, main_v270, main_v271, main_v272, main_v273, main_v274, main_cst_90, main_v275, main_v276, main_v277, main_cst_91, main_v278, main_v279, main_cst_92, main_v280, main_v281, main_cst_93, main_v282, main_v283, main_v284, main_v285, main_v286, main_cst_94, main_v287, main_cst_95, main_v288, main_cst_96, main_v289, main_v290, main_v291, main_v292, main_v293, main_v294, main_cst_97, main_v295, main_cst_98, main_v296, main_v297]

end Cert.ReferenceIdeal.RefOps

end
-- ==== Proof.RefRun.lean ====
/-
  The reference program runs, and leaves its arguments as they were.

  Its @main is one straight line of host operations (the lists of the table module, window after window, the
  module-local functions written out at their calls). A straight line of host operations always terminates
  without a fault, and afterwards every buffer holds the fold of the operations' results over the launch
  contents. No operation of the line writes an argument array: each window's written buffers are listed, and
  no argument is in any list, so the fold leaves the arguments untouched.
-/
import proofs.«161081_j59665685676148_2_alg».proof.Proof.RefOps
import Idealize.ShloMosaic.Lib.Pipeline.Frame

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- All of @main's operations: the windows' lists in order. -/
abbrev ops : List (HloOp τ sig (Elt F)) :=
  ops_part0 ++ (ops_part1 ++ (ops_part2 ++ (ops_part3 ++ (ops_part4 ++ (ops_part5 ++ ops_part6)))))

/-! ## Each window is its list, run in order -/

set_option maxRecDepth 16384 in
theorem main_part0_eq (c : Dev nD) : main_part0 (F := F) c = seq ops_part0 := rfl
set_option maxRecDepth 16384 in
theorem main_part1_eq (c : Dev nD) : main_part1 (F := F) c = seq ops_part1 := rfl
set_option maxRecDepth 16384 in
theorem main_part2_eq (c : Dev nD) : main_part2 (F := F) c = seq ops_part2 := rfl
set_option maxRecDepth 16384 in
theorem main_part3_eq (c : Dev nD) : main_part3 (F := F) c = seq ops_part3 := rfl
set_option maxRecDepth 16384 in
theorem main_part4_eq (c : Dev nD) : main_part4 (F := F) c = seq ops_part4 := rfl
set_option maxRecDepth 16384 in
theorem main_part5_eq (c : Dev nD) : main_part5 (F := F) c = seq ops_part5 := rfl
set_option maxRecDepth 16384 in
theorem main_part6_eq (c : Dev nD) : main_part6 (F := F) c = seq ops_part6 := rfl

/-- @main is the whole line. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h]

/-! ## No operation allocates, and none writes an argument -/

set_option maxRecDepth 16384 in
theorem ops_part0_fresh : (ops_part0 : List (HloOp τ sig (Elt F))).Forall fun op => op.fresh = ∅ := by
  simp only [List.Forall]; repeat' constructor
set_option maxRecDepth 16384 in
theorem ops_part1_fresh : (ops_part1 : List (HloOp τ sig (Elt F))).Forall fun op => op.fresh = ∅ := by
  simp only [List.Forall]; repeat' constructor
set_option maxRecDepth 16384 in
theorem ops_part2_fresh : (ops_part2 : List (HloOp τ sig (Elt F))).Forall fun op => op.fresh = ∅ := by
  simp only [List.Forall]; repeat' constructor
set_option maxRecDepth 16384 in
theorem ops_part3_fresh : (ops_part3 : List (HloOp τ sig (Elt F))).Forall fun op => op.fresh = ∅ := by
  simp only [List.Forall]; repeat' constructor
set_option maxRecDepth 16384 in
theorem ops_part4_fresh : (ops_part4 : List (HloOp τ sig (Elt F))).Forall fun op => op.fresh = ∅ := by
  simp only [List.Forall]; repeat' constructor
set_option maxRecDepth 16384 in
theorem ops_part5_fresh : (ops_part5 : List (HloOp τ sig (Elt F))).Forall fun op => op.fresh = ∅ := by
  simp only [List.Forall]; repeat' constructor
set_option maxRecDepth 16384 in
theorem ops_part6_fresh : (ops_part6 : List (HloOp τ sig (Elt F))).Forall fun op => op.fresh = ∅ := by
  simp only [List.Forall]; repeat' constructor

/-- No operation of the line allocates a buffer: each determines its result. -/
theorem ops_fresh : ∀ op ∈ (ops : List (HloOp τ sig (Elt F))), op.fresh = ∅ := fun op h => by
  simp only [ops, List.mem_append] at h
  rcases h with h | h | h | h | h | h | h
  exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h, List.forall_iff_forall_mem.mp ops_part6_fresh op h]

set_option maxRecDepth 16384 in
/-- Window 0's operations write only the buffers listed for it. -/
theorem ops_part0_writes : (ops_part0 : List (HloOp τ sig (Elt F))).Forall fun op => op.writes ⊆ (ops_part0_W.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
set_option maxRecDepth 16384 in
/-- Window 1's operations write only the buffers listed for it. -/
theorem ops_part1_writes : (ops_part1 : List (HloOp τ sig (Elt F))).Forall fun op => op.writes ⊆ (ops_part1_W.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
set_option maxRecDepth 16384 in
/-- Window 2's operations write only the buffers listed for it. -/
theorem ops_part2_writes : (ops_part2 : List (HloOp τ sig (Elt F))).Forall fun op => op.writes ⊆ (ops_part2_W.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
set_option maxRecDepth 16384 in
/-- Window 3's operations write only the buffers listed for it. -/
theorem ops_part3_writes : (ops_part3 : List (HloOp τ sig (Elt F))).Forall fun op => op.writes ⊆ (ops_part3_W.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
set_option maxRecDepth 16384 in
/-- Window 4's operations write only the buffers listed for it. -/
theorem ops_part4_writes : (ops_part4 : List (HloOp τ sig (Elt F))).Forall fun op => op.writes ⊆ (ops_part4_W.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
set_option maxRecDepth 16384 in
/-- Window 5's operations write only the buffers listed for it. -/
theorem ops_part5_writes : (ops_part5 : List (HloOp τ sig (Elt F))).Forall fun op => op.writes ⊆ (ops_part5_W.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
set_option maxRecDepth 16384 in
/-- Window 6's operations write only the buffers listed for it. -/
theorem ops_part6_writes : (ops_part6 : List (HloOp τ sig (Elt F))).Forall fun op => op.writes ⊆ (ops_part6_W.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))

/-- A buffer that no window lists as written holds after the whole line what it held before. -/
theorem after_ops_keep (V : Valuation τ sig (Elt F)) (r : Ref sig .tc)
    (h0 : r ∉ ops_part0_W)
    (h1 : r ∉ ops_part1_W)
    (h2 : r ∉ ops_part2_W)
    (h3 : r ∉ ops_part3_W)
    (h4 : r ∉ ops_part4_W)
    (h5 : r ∉ ops_part5_W)
    (h6 : r ∉ ops_part6_W) :
    after ops V (Proc.devRef .tc r) = V (Proc.devRef .tc r) := by
  simp only [ops, StableHlo.after_append]
  rw [after_of_writes_sub ops_part6 _ ops_part6_writes h6, after_of_writes_sub ops_part5 _ ops_part5_writes h5,
    after_of_writes_sub ops_part4 _ ops_part4_writes h4, after_of_writes_sub ops_part3 _ ops_part3_writes h3,
    after_of_writes_sub ops_part2 _ ops_part2_writes h2, after_of_writes_sub ops_part1 _ ops_part1_writes h1,
    after_of_writes_sub ops_part0 _ ops_part0_writes h0]

/-! ## The run -/

/-- From any memory with zero counters every weakly fair execution of the reference's @main terminates, nothing
    faulting, and every buffer ends at the fold of the line's operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The arguments end as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_arg0).trans (after_ops_keep _ main_arg0 (by decide) (by decide) (by decide) (by decide) (by decide) (by decide) (by decide)),
     (h c main_arg1).trans (after_ops_keep _ main_arg1 (by decide) (by decide) (by decide) (by decide) (by decide) (by decide) (by decide)),
     (h c main_arg2).trans (after_ops_keep _ main_arg2 (by decide) (by decide) (by decide) (by decide) (by decide) (by decide) (by decide)),
     (h c main_arg3).trans (after_ops_keep _ main_arg3 (by decide) (by decide) (by decide) (by decide) (by decide) (by decide) (by decide)),
     (h c main_arg4).trans (after_ops_keep _ main_arg4 (by decide) (by decide) (by decide) (by decide) (by decide) (by decide) (by decide))⟩)
    (run m ρ)

end Cert.ReferenceIdeal.RefRun

end
-- ==== Proof.LibSqrtPow.lean ====
/-
  The square root as a power, on the extended reals.

  At the ideal instance the square root of an extended real that is not negative is its power with
  exponent 1/2: both are the real square root on the finite non-negative numbers, and both fix +∞.
  Below zero the two differ (the root is the bottom element there, the power is the real `rpow`'s
  value), so the hypothesis `0 ≤ x` is needed. Also here: the f32 word of `0.5` denotes `1/2`.
-/
import Idealize.ShloMosaic.PureOps.Ideal

noncomputable section

namespace Cert.LibSqrtPow

open Idealize.ShloMosaic

/-- The f32 word `0x3F000000` (`0.5`) denotes the real `1/2`. -/
theorem ofBits_half : Ideal.ofBits .f32 0x3F000000#32 = ((1 / 2 : ℝ) : EReal) := by
  simp [Ideal.ofBits, Ideal.ieee, -EReal.coe_mul]; norm_num

/-- For `0 ≤ x` the square root of `x` is `x` to the power `1/2`: on a finite `x` this is
    `Real.sqrt_eq_rpow`, and at `+∞` both sides are `+∞` (the exponent is positive). -/
theorem sqrt_eq_pow_half (x : EReal) (hx : 0 ≤ x) :
    Ideal.sqrt x = Ideal.pow x ((1 / 2 : ℝ) : EReal) := by
  induction x using EReal.rec with
  | bot => exact absurd hx (by simp)
  | top =>
    have h : (0 : EReal) < ((1 / 2 : ℝ) : EReal) := by exact_mod_cast (by norm_num : (0 : ℝ) < 1 / 2)
    show (⊤ : EReal) = if (0 : EReal) < ((1 / 2 : ℝ) : EReal) then ⊤
      else if ((1 / 2 : ℝ) : EReal) = 0 then 1 else 0
    rw [if_pos h]
  | coe r =>
    have hr : ¬ r < 0 := not_lt.mpr (by exact_mod_cast hx)
    show (if r < 0 then (⊥ : EReal) else (Real.sqrt r : EReal)) = ((Real.rpow r (1 / 2) : ℝ) : EReal)
    rw [if_neg hr, Real.sqrt_eq_rpow]
    rfl

end Cert.LibSqrtPow

end
-- ==== Proof.KernelRun.lean ====
/-
  The idealized kernel's program runs, and every result buffer ends at the final contents of the run's fold.

  @main is twenty stretches of host operations, the reducing kernel's region, one more stretch (the division of the
  sum by the number of cells), the main kernel's region, and the host tail. The buffer contents at each boundary
  are a fold from the launch memory: a stretch applies its operations, a region replaces its windows' arrays by what
  its write-backs leave. The run below is the frame's run with the final contents also read at the three results.
-/
import proofs.«161081_j59665685676148_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- Every weakly fair execution of @main terminates, nothing faulting; the three results end at the last boundary's
    contents and the arguments as launched. -/
theorem run_values : θ_run defs (onTc (τ := τ) (main (F := F))) ⟨m, fun _ => 0, ρ⟩ (fun r => ∀ c : Dev nD,
      r.2.mem ((c.tc : Thread nD τ).loc main_v58) = W24 m ρ c (Proc.devRef .tc main_v58)
      ∧ r.2.mem ((c.tc : Thread nD τ).loc main_v59) = W24 m ρ c (Proc.devRef .tc main_v59)
      ∧ r.2.mem ((c.tc : Thread nD τ).loc main_v53_0) = W24 m ρ c (Proc.devRef .tc main_v53_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v58 (by decide)), h c _ (mem_uc main_v59 (by decide)), h c _ (mem_uc main_v53_0 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c)⟩)

end Cert.KernelIdeal.Run

end
-- ==== Proof.KerTile.lean ====
/-
  One grid point of the main pass as functions of what it loads.

  The point loads nine things: the 80-row slab `xp` of the padded temperature field that its halo transfer brought
  in, the block's boundary codes `b`, and the blocks of the water content, the masked temperature, the initial
  temperature, the two flow components and the geometry, and the one-element mean water content. From them it
  forms, cell by cell, the squared energy residual `esqT`, the squared water residual's three ingredients and the
  equation codes `codeT`; it then adds the block's sum of each squared residual to a running total. The body's
  arithmetic is cut into named pieces by the generated skeleton; the definitions below only compose them in the
  order the skeleton does.
-/
import proofs.«161081_j59665685676148_2_alg».proof.Proof.Gen.KernelIdeal.Frame
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.Sem

variable {F : FTy → Type} [FloatOps F] [Named F]

section Compose

variable (xp : Vec F S80x2176 .f32) (b : Vec F S64x2048 .i32) (wcb hb hi u v g : Vec F S64x2048 .f32) (mean : Vec F S1x1 .f32)

/-- Half the vertical difference of the slab, on the block. -/
abbrev dyT : FVec F S64x2048 .f32 := k1_pay6 xp
/-- Half the horizontal difference. -/
abbrev dxT : FVec F S64x2048 .f32 := k1_pay7 xp
/-- The codes as loaded. -/
abbrev bT : IVec S64x2048 32 := k1_pay8 b
/-- The water mask and the masked water content. -/
abbrev wmT : FVec F S64x2048 .f32 := k1_pay9 b
abbrev wcT : FVec F S64x2048 .f32 := k1_pay10 b wcb
/-- The evaporation rate of each cell. -/
abbrev mdotT : FVec F S64x2048 .f32 :=
  k1_pay20 (k1_pay17 (k1_pay11 hb)) (k1_pay18 (k1_pay11 hb)) (k1_pay19 (k1_pay11 hb)) (Scalar.ofBits .f32 0x456E8666#32) mean
/-- The advected initial temperature. -/
abbrev advT : FVec F S64x2048 .f32 := k1_pay21 (dyT xp) (dxT xp) (k1_pay12 hi) (k1_pay13 u) (k1_pay14 v)
/-- The water term. -/
abbrev wcvT : FVec F S64x2048 .f32 :=
  k1_pay22 (k1_pay17 (k1_pay11 hb)) (k1_pay18 (k1_pay11 hb)) (k1_pay19 (k1_pay11 hb)) (Scalar.ofBits .f32 0x456E8666#32) mean

/-- The sum so far of the residuals of the codes 0, 2, 3, 4. -/
abbrev sum4T : FVec F S64x2048 .f32 :=
  k1_pay29 (dxT xp) (bT b) (advT xp hi u v) (wcvT hb mean) (k1_pay23 (F := F)) (k1_pay24 (bT b))
/-- … through the codes 5, 6, 7, 8. -/
abbrev sum8T : FVec F S64x2048 .f32 :=
  k1_pay38 (dyT xp) (dxT xp) (bT b) (advT xp hi u v) (wcvT hb mean) (sum4T xp b hb hi u v mean)
    (k1_pay31 (dyT xp) (wcvT hb mean)) (k1_pay33 (F := F) (bT b))
/-- The squared energy residual of each cell of the block. -/
abbrev esqT : FVec F S64x2048 .f32 :=
  k1_pay44 (dyT xp) (dxT xp) (bT b) (k1_pay15 g) (advT xp hi u v) (wcvT hb mean) (sum8T xp b hb hi u v mean)
    (k1_pay39 (bT b)) (k1_pay40 (dyT xp) (dxT xp) (wcvT hb mean))
/-- The equation codes of the block. -/
abbrev codeT : IVec S64x2048 32 :=
  k1_pay43 (bT b) (k1_pay37 (bT b) (k1_pay32 (bT b) (k1_pay25 (bT b)))) (k1_pay39 (bT b))
/-- The running energy total after this point, from the total `acc` before it. -/
abbrev eaccT (acc : Vec F S1x1 .f32) : FVec F S1x1 .f32 := k1_pay1 (esqT xp b hb hi u v g mean) acc
/-- The running water total after this point. -/
abbrev waccT (acc : Vec F S1x1 .f32) : FVec F S1x1 .f32 :=
  k1_pay2 (wmT b) (wcT b wcb) (mdotT hb mean) (k1_pay45 (F := F)) acc

end Compose

theorem hz2 : (![0, 0] : Fin 2 → Nat) = fun _ => 0 := funext fun a => by fin_cases a <;> rfl

/-- The 80 rows of the padded field that point `i`'s halo transfer copies: rows `64 i` to `64 i + 79`, all columns. -/
def slab (c : Dev nD) (i : grid1.Coords) (fh : HbBuf1 (F := F) c hbM1_0) : Vec F S80x2176 .f32 :=
  View.read (Elt F) ((Memref.whole main_v49 : Memref sig .tc .hbm S1040x2176 .f32).slice
    (Rect.unit (s := S1040x2176) (k1_off1 i) S80x2176.size (k1_off1_inb i)) (fun _ => rfl)).view fh

/-- A whole-buffer load after ONE whole-buffer store reads what was stored. -/
theorem readCov_whole {sig' : RefSig} {κ : Kind} {sp : Space} {S : Shape} {e : EltTy} (v : View sig' κ sp S e)
    {off : Fin S.rank → Nat} (h : off = fun _ => 0) (inb : ∀ a, off a + S.size a ≤ S.size a) (w : S.Idx → Elt F e) :
    v.readCov [(⟨Rect.whole S, w⟩ : View.Piece (Elt F) S e)] (Rect.unit off S.size inb).toLoadRect = w := by
  subst h
  exact View.readCov_unit_zero v rfl inb w

section Cases

variable (c : Dev nD) (i : grid1.Coords) (arg2 : Memref sig .tc .vmem S64x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .i32) (harg7 : arg7.IsWhole) (arg8 : Memref sig .tc .vmem S64x2048 .f32) (harg8 : arg8.IsWhole) (arg9 : Memref sig .tc .vmem S1x1 .f32) (harg9 : arg9.IsWhole) (arg10 : Memref sig .tc .vmem S64x2048 .i32) (harg10 : arg10.IsWhole) (arg11 : Memref sig .tc .vmem S1x1 .f32) (harg11 : arg11.IsWhole) (arg12 : Memref sig .tc .vmem S1x1 .f32) (harg12 : arg12.IsWhole) (arg13 : Memref sig .tc .vmem S80x2176 .f32) (harg13 : arg13.IsWhole) (x0 : Vec F S64x2048 .f32) (x1 : Vec F S64x2048 .f32) (x2 : Vec F S64x2048 .f32) (x3 : Vec F S64x2048 .f32) (x4 : Vec F S64x2048 .f32) (x5 : Vec F S64x2048 .i32) (x6 : Vec F S64x2048 .f32) (x7 : Vec F S1x1 .f32) (fh0 : HbBuf1 (F := F) c hbM1_0)

/-- Point 0, the energy total: the body zeroes the total, then adds the block's sum to the zero it reads back. -/
theorem out_A_9 (hc0 : cond1_0 i) :
    out1_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 fh0
      = eaccT (slab c i fh0) x5 x0 x1 x2 x3 x6 x7 (k1_pay3 (F := F)) := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 fh0)]
  unfold kernelRun1_A
  dsimp only
  sl_unfold_words
  rw [View.canon_cons_unit_zero (S := S1x1) hz2, View.readCov_unit_zero (S := S1x1) _ hz2]
  simp only [readCov_whole (S := S80x2176) _ hz2, View.readAt_eq_ld, harg2.read_unread, harg3.read_unread, harg4.read_unread, harg5.read_unread,
    harg6.read_unread, harg7.read_unread, harg8.read_unread, harg9.read_unread, View.ld_unit_zero (S := S64x2048) hz2,
    View.ld_unit_zero (S := S1x1) hz2]
  rfl

/-- Point 0, the water total: zeroed, then the block's sum added to the zero read back. -/
theorem out_A_10 (hc0 : cond1_0 i) :
    out1_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 fh0
      = waccT x5 x4 x0 x7 (k1_pay4 (F := F)) := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 fh0)]
  unfold kernelRun1_A
  dsimp only
  sl_unfold_words
  rw [View.canon_cons_unit_zero (S := S1x1) hz2, View.readCov_unit_zero (S := S1x1) _ hz2]
  simp only [readCov_whole (S := S80x2176) _ hz2, View.readAt_eq_ld, harg2.read_unread, harg3.read_unread, harg4.read_unread, harg5.read_unread,
    harg6.read_unread, harg7.read_unread, harg8.read_unread, harg9.read_unread, harg11.read_unread, harg12.read_unread,
    View.ld_unit_zero (S := S64x2048) hz2, View.ld_unit_zero (S := S1x1) hz2]

/-- Point 0, the codes: one store of the whole block. -/
theorem out_A_8 (hc0 : cond1_0 i) :
    out1_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 fh0 = codeT x5 := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 fh0)]
  unfold kernelRun1_A
  dsimp only
  sl_unfold_words
  rw [View.canon_unit_zero (S := S64x2048) hz2]
  simp only [readCov_whole (S := S80x2176) _ hz2, View.readAt_eq_ld, harg2.read_unread, harg3.read_unread, harg4.read_unread, harg5.read_unread,
    harg6.read_unread, harg7.read_unread, harg8.read_unread, harg9.read_unread, harg11.read_unread, harg12.read_unread,
    View.ld_unit_zero (S := S64x2048) hz2, View.ld_unit_zero (S := S1x1) hz2]

variable (xo9 xo10 : Vec F S1x1 .f32)

/-- A later point, the energy total: the block's sum added to the total the point before left. -/
theorem out_B_9 (hc0 : ¬cond1_0 i) :
    out1_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 fh0
      = eaccT (slab c i fh0) x5 x0 x1 x2 x3 x6 x7 xo9 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 fh0)]
  unfold kernelRun1_B
  dsimp only
  sl_unfold_words
  rw [View.canon_unit_zero (S := S1x1) hz2]
  simp only [readCov_whole (S := S80x2176) _ hz2, View.readAt_eq_ld, harg2.read_unread, harg3.read_unread, harg4.read_unread, harg5.read_unread,
    harg6.read_unread, harg7.read_unread, harg8.read_unread, harg9.read_unread, harg11.read_unread, harg12.read_unread,
    View.ld_unit_zero (S := S64x2048) hz2, View.ld_unit_zero (S := S1x1) hz2]
  rfl

/-- A later point, the water total. -/
theorem out_B_10 (hc0 : ¬cond1_0 i) :
    out1_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 fh0
      = waccT x5 x4 x0 x7 xo10 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 fh0)]
  unfold kernelRun1_B
  dsimp only
  sl_unfold_words
  rw [View.canon_unit_zero (S := S1x1) hz2]
  simp only [readCov_whole (S := S80x2176) _ hz2, View.readAt_eq_ld, harg2.read_unread, harg3.read_unread, harg4.read_unread, harg5.read_unread,
    harg6.read_unread, harg7.read_unread, harg8.read_unread, harg9.read_unread, harg11.read_unread, harg12.read_unread,
    View.ld_unit_zero (S := S64x2048) hz2, View.ld_unit_zero (S := S1x1) hz2]

/-- A later point, the codes. -/
theorem out_B_8 (hc0 : ¬cond1_0 i) :
    out1_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 fh0 = codeT x5 := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 fh0)]
  unfold kernelRun1_B
  dsimp only
  sl_unfold_words
  rw [View.canon_unit_zero (S := S64x2048) hz2]
  simp only [readCov_whole (S := S80x2176) _ hz2, View.readAt_eq_ld, harg2.read_unread, harg3.read_unread, harg4.read_unread, harg5.read_unread,
    harg6.read_unread, harg7.read_unread, harg8.read_unread, harg9.read_unread, harg11.read_unread, harg12.read_unread,
    View.ld_unit_zero (S := S64x2048) hz2, View.ld_unit_zero (S := S1x1) hz2]

end Cases

end Cert.KernelIdeal.Tile

end
-- ==== Proof.KerAcc.lean ====
/-
  What the main pass's three outputs hold after each grid point, in closed form.

  After point `n` the codes' staging buffer holds point `n`'s block of equation codes; the two totals' buffers hold
  running sums: zero plus the block sums of the squared residuals of the points `0 … n`, added in point order. The
  generated recursion over the points, which applies the body's found pieces case by case, is this recursion.
-/
import proofs.«161081_j59665685676148_2_alg».proof.Proof.KerTile

set_option maxRecDepth 16384

noncomputable section

namespace Cert.KernelIdeal.Acc

open Cert.KernelIdeal Cert.KernelIdeal.Gen Cert.KernelIdeal.Tile
open Idealize.ShloMosaic Idealize.ShloMosaic.TcCoe Idealize.ShloMosaic.Tactic
open Idealize.SL Idealize.SL.Sem

variable {F : FTy → Type} [FloatOps F] [Named F]
variable (V : (c : Dev nD) → (b : Ref sig .tc) → Buf (Elt F) ((c : Thread nD τ).loc b))

/-- Point `t`'s new energy total from the total before it. -/
def eAt (c : Dev nD) (t : Fin cfg1.N) (acc : Vec F S1x1 .f32) : Vec F S1x1 .f32 :=
  eaccT (slab c (grid1.coords t) (V c main_v49)) (iblk1 V c 5 t) (iblk1 V c 0 t) (iblk1 V c 1 t) (iblk1 V c 2 t)
    (iblk1 V c 3 t) (iblk1 V c 6 t) (iblk1 V c 7 t) acc

/-- Point `t`'s new water total from the total before it. -/
def wAt (c : Dev nD) (t : Fin cfg1.N) (acc : Vec F S1x1 .f32) : Vec F S1x1 .f32 :=
  waccT (iblk1 V c 5 t) (iblk1 V c 4 t) (iblk1 V c 0 t) (iblk1 V c 7 t) acc

/-- The energy total after point `n`. -/
def chainE (c : Dev nD) : (n : ℕ) → n < cfg1.N → Vec F S1x1 .f32
  | 0, h => eAt V c ⟨0, h⟩ (k1_pay3 (F := F))
  | n + 1, h => eAt V c ⟨n + 1, h⟩ (chainE c n (Nat.lt_of_succ_lt h))

/-- The water total after point `n`. -/
def chainW (c : Dev nD) : (n : ℕ) → n < cfg1.N → Vec F S1x1 .f32
  | 0, h => wAt V c ⟨0, h⟩ (k1_pay4 (F := F))
  | n + 1, h => wAt V c ⟨n + 1, h⟩ (chainW c n (Nat.lt_of_succ_lt h))

set_option backward.isDefEq.respectTransparency.types false in
/-- The staging buffers after point `n`: the point's codes, and the two running totals. -/
theorem outsAt_eq (c : Dev nD) : ∀ (n : ℕ) (h : n < cfg1.N),
    outsAt1 V c n h = (codeT (iblk1 V c 5 ⟨n, h⟩), chainE V c n h, chainW V c n h)
  | 0, h => by
    rw [outsAt1_A V c ⟨0, h⟩ rfl, out_A_8, out_A_9, out_A_10]
    rfl
  | n + 1, h => by
    have hN : cfg1.N = 16 := N_1
    have hB : ¬(⟨n + 1, h⟩ : Fin cfg1.N).val % 16 = 0 := by dsimp only; omega
    rw [outsAt1_B V c ⟨n + 1, h⟩ hB, out_B_8, out_B_9, out_B_10]
    show (_, eaccT _ _ _ _ _ _ _ _ (outsAt1 V c n _).2.1, waccT _ _ _ _ (outsAt1 V c n _).2.2) = _
    rw [outsAt_eq c n]
    rfl

end Cert.KernelIdeal.Acc

end
-- ==== Proof.KerBlocks.lean ====
/-
  The blocks of the main pass at a grid point, as reads of the arrays the pass is entered with.

  Point `t` works on rows `64 t … 64 t + 63`: element (p, q) of each input block is the array's element (64 t + p, q).
  The mean water content is one element, the same at every point. The halo slab the body copies in is rows
  `64 t … 64 t + 79` of the padded field, all 2176 columns.
-/
import proofs.«161081_j59665685676148_2_alg».proof.Proof.KerTile
import Idealize.ShloMosaic.Lib.ValueIdx

set_option maxRecDepth 16384

noncomputable section

namespace Cert.KernelIdeal.Blocks

open Cert.KernelIdeal Cert.KernelIdeal.Gen Cert.KernelIdeal.Tile
open Idealize.ShloMosaic Idealize.ShloMosaic.TcCoe Idealize.ShloMosaic.ValueIdx
open Idealize.SL Idealize.SL.Sem

variable {F : FTy → Type} [FloatOps F] [Named F]
variable (V : (c : Dev nD) → (b : Ref sig .tc) → Buf (Elt F) ((c : Thread nD τ).loc b))

/-- The printed index maps, decided over the grid: every 64-row window sits at block row `t`, block column 0; the
    mean's window at block (0, 0); and the halo transfer starts at row `64 t`, column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ k1_off1 (grid1.coords t) (0 : Fin 2) = 64 * t.val ∧ k1_off1 (grid1.coords t) (1 : Fin 2) = 0 :=
  (by decide +kernel : ∀ t : Fin grid1.N, _)

theorem t_lt (t : Fin cfg1.N) : t.val < 16 := by
  have h := t.isLt
  have hN : cfg1.N = 16 := N_1
  omega

set_option backward.isDefEq.respectTransparency.types false in
/-- Element (p, q) of window 0's block at point `t`. -/
theorem iblk0_apply (c : Dev nD) (t : Fin cfg1.N) (p : Fin 64) (q : Fin 2048) :
    (iblk1 V c 0 t : Vec F S64x2048 .f32) (ix2 p q)
      = (V c main_v47 : Vec F S1024x2048 .f32) (ix2 ⟨64 * t.val + p.val, by have := t_lt t; omega⟩ q) := by
  have h := idx_facts t
  unfold iblk1
  rw [View.read_apply, cast_eq]
  refine congrArg (V c main_v47) ?_
  funext a; apply Fin.ext
  match a with
  | ⟨0, _⟩ => show win1_0.index t (0 : Fin 2) * 64 + 1 * p.val = 64 * t.val + p.val; omega
  | ⟨1, _⟩ => show win1_0.index t (1 : Fin 2) * 2048 + 1 * q.val = q.val; omega

set_option backward.isDefEq.respectTransparency.types false in
/-- Element (p, q) of window 1's block at point `t`. -/
theorem iblk1_apply (c : Dev nD) (t : Fin cfg1.N) (p : Fin 64) (q : Fin 2048) :
    (iblk1 V c 1 t : Vec F S64x2048 .f32) (ix2 p q)
      = (V c main_v4 : Vec F S1024x2048 .f32) (ix2 ⟨64 * t.val + p.val, by have := t_lt t; omega⟩ q) := by
  have h := idx_facts t
  unfold iblk1
  rw [View.read_apply, cast_eq]
  refine congrArg (V c main_v4) ?_
  funext a; apply Fin.ext
  match a with
  | ⟨0, _⟩ => show win1_1.index t (0 : Fin 2) * 64 + 1 * p.val = 64 * t.val + p.val; omega
  | ⟨1, _⟩ => show win1_1.index t (1 : Fin 2) * 2048 + 1 * q.val = q.val; omega

set_option backward.isDefEq.respectTransparency.types false in
/-- Element (p, q) of window 2's block at point `t`. -/
theorem iblk2_apply (c : Dev nD) (t : Fin cfg1.N) (p : Fin 64) (q : Fin 2048) :
    (iblk1 V c 2 t : Vec F S64x2048 .f32) (ix2 p q)
      = (V c main_v8 : Vec F S1024x2048 .f32) (ix2 ⟨64 * t.val + p.val, by have := t_lt t; omega⟩ q) := by
  have h := idx_facts t
  unfold iblk1
  rw [View.read_apply, cast_eq]
  refine congrArg (V c main_v8) ?_
  funext a; apply Fin.ext
  match a with
  | ⟨0, _⟩ => show win1_2.index t (0 : Fin 2) * 64 + 1 * p.val = 64 * t.val + p.val; omega
  | ⟨1, _⟩ => show win1_2.index t (1 : Fin 2) * 2048 + 1 * q.val = q.val; omega

set_option backward.isDefEq.respectTransparency.types false in
/-- Element (p, q) of window 3's block at point `t`. -/
theorem iblk3_apply (c : Dev nD) (t : Fin cfg1.N) (p : Fin 64) (q : Fin 2048) :
    (iblk1 V c 3 t : Vec F S64x2048 .f32) (ix2 p q)
      = (V c main_v10 : Vec F S1024x2048 .f32) (ix2 ⟨64 * t.val + p.val, by have := t_lt t; omega⟩ q) := by
  have h := idx_facts t
  unfold iblk1
  rw [View.read_apply, cast_eq]
  refine congrArg (V c main_v10) ?_
  funext a; apply Fin.ext
  match a with
  | ⟨0, _⟩ => show win1_3.index t (0 : Fin 2) * 64 + 1 * p.val = 64 * t.val + p.val; omega
  | ⟨1, _⟩ => show win1_3.index t (1 : Fin 2) * 2048 + 1 * q.val = q.val; omega

set_option backward.isDefEq.respectTransparency.types false in
/-- Element (p, q) of window 4's block at point `t`. -/
theorem iblk4_apply (c : Dev nD) (t : Fin cfg1.N) (p : Fin 64) (q : Fin 2048) :
    (iblk1 V c 4 t : Vec F S64x2048 .f32) (ix2 p q)
      = (V c main_v5 : Vec F S1024x2048 .f32) (ix2 ⟨64 * t.val + p.val, by have := t_lt t; omega⟩ q) := by
  have h := idx_facts t
  unfold iblk1
  rw [View.read_apply, cast_eq]
  refine congrArg (V c main_v5) ?_
  funext a; apply Fin.ext
  match a with
  | ⟨0, _⟩ => show win1_4.index t (0 : Fin 2) * 64 + 1 * p.val = 64 * t.val + p.val; omega
  | ⟨1, _⟩ => show win1_4.index t (1 : Fin 2) * 2048 + 1 * q.val = q.val; omega

set_option backward.isDefEq.respectTransparency.types false in
/-- Element (p, q) of window 5's block at point `t`. -/
theorem iblk5_apply (c : Dev nD) (t : Fin cfg1.N) (p : Fin 64) (q : Fin 2048) :
    (iblk1 V c 5 t : Vec F S64x2048 .i32) (ix2 p q)
      = (V c main_v36 : Vec F S1024x2048 .i32) (ix2 ⟨64 * t.val + p.val, by have := t_lt t; omega⟩ q) := by
  have h := idx_facts t
  unfold iblk1
  rw [View.read_apply, cast_eq]
  refine congrArg (V c main_v36) ?_
  funext a; apply Fin.ext
  match a with
  | ⟨0, _⟩ => show win1_5.index t (0 : Fin 2) * 64 + 1 * p.val = 64 * t.val + p.val; omega
  | ⟨1, _⟩ => show win1_5.index t (1 : Fin 2) * 2048 + 1 * q.val = q.val; omega

set_option backward.isDefEq.respectTransparency.types false in
/-- Element (p, q) of window 6's block at point `t`. -/
theorem iblk6_apply (c : Dev nD) (t : Fin cfg1.N) (p : Fin 64) (q : Fin 2048) :
    (iblk1 V c 6 t : Vec F S64x2048 .f32) (ix2 p q)
      = (V c main_v43 : Vec F S1024x2048 .f32) (ix2 ⟨64 * t.val + p.val, by have := t_lt t; omega⟩ q) := by
  have h := idx_facts t
  unfold iblk1
  rw [View.read_apply, cast_eq]
  refine congrArg (V c main_v43) ?_
  funext a; apply Fin.ext
  match a with
  | ⟨0, _⟩ => show win1_6.index t (0 : Fin 2) * 64 + 1 * p.val = 64 * t.val + p.val; omega
  | ⟨1, _⟩ => show win1_6.index t (1 : Fin 2) * 2048 + 1 * q.val = q.val; omega

set_option backward.isDefEq.respectTransparency.types false in
/-- The mean's block is the one-element array. -/
theorem iblk7_apply (c : Dev nD) (t : Fin cfg1.N) :
    (iblk1 V c 7 t : Vec F S1x1 .f32) (ix2 0 0) = (V c main_v52 : Vec F S1x1 .f32) (ix2 0 0) := by
  have h := idx_facts t
  unfold iblk1
  rw [View.read_apply, cast_eq]
  refine congrArg (V c main_v52) ?_
  funext a; apply Fin.ext
  match a with
  | ⟨0, _⟩ => show win1_7.index t (0 : Fin 2) * 1 + 1 * 0 = 0; omega
  | ⟨1, _⟩ => show win1_7.index t (1 : Fin 2) * 1 + 1 * 0 = 0; omega

/-- Element (k, j) of the halo slab at point `t` is the padded field's element (64 t + k, j). -/
theorem slab_apply (c : Dev nD) (t : Fin cfg1.N) (fh : HbBuf1 (F := F) c hbM1_0) (k : Fin 80) (j : Fin 2176) :
    slab c (grid1.coords t) fh (ix2 k j)
      = (fh : Vec F S1040x2176 .f32) (ix2 ⟨64 * t.val + k.val, by have := t_lt t; omega⟩ j) := by
  have h := idx_facts t
  unfold slab
  rw [View.read_apply, cast_eq]
  refine congrArg fh ?_
  funext a; apply Fin.ext
  match a with
  | ⟨0, _⟩ => show k1_off1 (grid1.coords t) (0 : Fin 2) + 1 * k.val = 64 * t.val + k.val; omega
  | ⟨1, _⟩ => show k1_off1 (grid1.coords t) (1 : Fin 2) + 1 * j.val = j.val; omega

end Cert.KernelIdeal.Blocks

end
-- ==== Proof.Spec.lean ====
/-
  The specification: what both programs compute, as functions of the five argument arrays, index by index.

  The grid has 1024 rows and 2048 columns. Per cell (r, c):
  * the boundary code `bcode`: the second layout channel after six overwrites, applied in order — row 1 from column 1
    on gets 0, row 1022 from column 1 on gets 0, column 1 gets 0, column 2047 gets 3, row 0 gets 3, row 1023 gets 3
    (a later overwrite wins);
  * the geometry `geom`: the first layout channel as a float, rows 0 and 1023 set to 1;
  * the masked temperature `hbc`: the temperature where the code is not 1, else 0;
  * the water mask `wmask` (1 where the code exceeds 3, signed, else 0) and the masked water content `wcbc`;
  * the centred differences `dxv`, `dyv` of the masked temperature, reflected at the border (the neighbour of
    column 0 to the left is column 1, of column 2047 to the right column 2046, and the same for rows);
  * the evaporation rate `mdot` from the local temperature and one global number, the mean masked water content;
  * the residual of the boundary equation the code selects, its square `esq`, and the water residual's square `wsq`.
  The results: the sum of `esq` over the cells divided by their number plus the same of `wsq`; the masked
  temperature; and the code itself where it is one of 0, 2, …, 11 and 0 where it is 1 or anything else.

  Float literals stay the 32-bit words the programs print; every operation is the exact one on the extended reals.
  The arithmetic is written in the order the kernel applies it.
-/
import Idealize.ShloMosaic.PureOps.Ideal
import Idealize.ShloMosaic.Lib.ValueIdx

noncomputable section

namespace Cert.Spec

open Idealize.ShloMosaic Idealize.ShloMosaic.ValueIdx

/-- The layout's shape, and the flow's: two channels of 1024 x 2048. -/
abbrev S2 : Shape := ⟨4, ![1, 2, 1024, 2048]⟩
/-- The one-channel fields' shape. -/
abbrev S1 : Shape := ⟨4, ![1, 1, 1024, 2048]⟩
/-- The grid. -/
abbrev SG : Shape := ⟨2, ![1024, 2048]⟩
/-- A scalar. -/
abbrev S0 : Shape := ⟨0, ![]⟩

/-- The extended real an f32 word denotes. -/
abbrev lit (w : BitVec 32) : EReal := Ideal.ofBits .f32 w

/-! ## The cell's inputs -/

section Cells

variable (lay : S2.Idx → BitVec 32) (hini wc heat : S1.Idx → EReal) (flow : S2.Idx → EReal)

/-- The boundary code after the six overwrites. -/
def bcode (r : Fin 1024) (c : Fin 2048) : BitVec 32 :=
  if r.val = 1023 then 3#32 else if r.val = 0 then 3#32 else if c.val = 2047 then 3#32 else if c.val = 1 then 0#32
  else if r.val = 1022 ∧ 1 ≤ c.val then 0#32 else if r.val = 1 ∧ 1 ≤ c.val then 0#32 else lay (ix4 0 1 r c)

/-- The geometry channel as a float, its first and last row set to 1. -/
def geom (r : Fin 1024) (c : Fin 2048) : EReal :=
  if r.val = 1023 then lit 0x3F800000#32 else if r.val = 0 then lit 0x3F800000#32
  else FloatOps.sitofp (F := Ideal) .f32 (lay (ix4 0 0 r c))

/-- 1 where the bit is set, else 0. -/
def ind (p : Prop) [Decidable p] : EReal := if p then 1 else 0

/-- The temperature, zeroed where the code is 1. -/
def hbc (r : Fin 1024) (c : Fin 2048) : EReal := heat (ix4 0 0 r c) * ind (bcode lay r c ≠ 1#32)

/-- 1 where the code exceeds 3 (signed). -/
def wmask (r : Fin 1024) (c : Fin 2048) : EReal := ind ((3#32).slt (bcode lay r c) = true)

/-- The water content where the code exceeds 3. -/
def wcbc (r : Fin 1024) (c : Fin 2048) : EReal := wc (ix4 0 0 r c) * wmask lay r c

/-- Row `k - 1` of the grid reflected at the border, for `k` from 0 to 1025: row -1 is row 1, row 1024 is row 1022. -/
def rowR (k : ℕ) : Fin 1024 := if k = 0 then 1 else if h : k - 1 < 1024 then ⟨k - 1, h⟩ else 1022

/-- Column `k - 1` reflected at the border, for `k` from 0 to 2049. -/
def colR (k : ℕ) : Fin 2048 := if k = 0 then 1 else if h : k - 1 < 2048 then ⟨k - 1, h⟩ else 2046

/-- Half the difference of the right and the left neighbour. -/
def dxv (r : Fin 1024) (c : Fin 2048) : EReal :=
  lit 0x3F000000#32 * (hbc lay heat r (colR (c.val + 2)) - hbc lay heat r (colR c.val))

/-- Half the difference of the lower and the upper neighbour. -/
def dyv (r : Fin 1024) (c : Fin 2048) : EReal :=
  lit 0x3F000000#32 * (hbc lay heat (rowR (r.val + 2)) c - hbc lay heat (rowR r.val) c)

/-- Row `i - 8` of the grid reflected at the border, for `i` from 0 to 1039: rows -8 … -1 are rows 8 … 1, rows 1024 … 1031
    are rows 1022 … 1015. -/
def rowR8 (i : ℕ) : Fin 1024 :=
  if h : i < 8 then ⟨8 - i, by omega⟩ else if h2 : i - 8 < 1024 then ⟨i - 8, h2⟩ else ⟨2054 - i, by omega⟩

/-- The padded temperature field the main pass reads its halo from: eight reflected rows above and below, one
    reflected column left and right, zeros from column 2050 up to 2176. -/
def xpbig (i : Fin 1040) (j : Fin 2176) : EReal :=
  if j.val < 2050 then hbc lay heat (rowR8 i.val) (colR j.val) else 0

/-- The sum of the masked water content over the grid, from 0. -/
def wsum : EReal := 0 + ∑ r : Fin 1024, ∑ c : Fin 2048, wcbc lay wc r c

/-- Its mean: the sum over 2^21 cells. -/
def wmean : EReal := Ideal.div (wsum lay wc) (lit 0x4A000000#32)

end Cells

/-! ## The physics of one cell -/

/-- The absolute temperature. -/
def tabs (hb : EReal) : EReal := hb + lit 0x43889333#32

/-- The heat capacity of dry air, a cubic in the temperature over 28.97, times 1000. -/
def cpa (t : EReal) : EReal :=
  Ideal.div (((lit 0x41E0E148#32 + lit 0x3B00E8C9#32 * t) + (lit 0x36A120DE#32 * t) * t) - ((lit 0x31071A3D#32 * t) * t) * t)
    (lit 0x41E7C28F#32) * lit 0x447A0000#32

/-- The heat capacity of vapour, a cubic over 18.015, times 1000. -/
def cpv (t : EReal) : EReal :=
  Ideal.div (((lit 0x4200F5C3#32 + lit 0x3AFC0D2C#32 * t) + (lit 0x3730FFE8#32 * t) * t) - ((lit 0x31770BE9#32 * t) * t) * t)
    (lit 0x41901EB8#32) * lit 0x447A0000#32

/-- The saturation pressure `exp (23.2 - 3816.4 / (t - 46.1))`. -/
def pvap (t : EReal) : EReal := Ideal.exp (lit 0x41B9999A#32 - Ideal.div (lit 0x456E8666#32) (t - lit 0x42386666#32))

/-- The vapour fraction. -/
def xvap (t : EReal) : EReal := Ideal.div (lit 0x3F1F3A15#32 * pvap t) (lit 0x47C5E680#32 - pvap t)

/-- The porosity factor of the mean water content: the named constant `400 * D` times the square root of the mean over
    the reference content. -/
def porous (mean : EReal) : EReal :=
  ((280239225 / 536870912 : ℝ) : EReal) * Ideal.sqrt (Ideal.div mean (lit 0x4283F02F#32))

/-- The evaporation rate. -/
def mdot (hb mean : EReal) : EReal :=
  (Ideal.div (lit 0x43960000#32) (cpa (tabs hb) + cpv (tabs hb) * lit 0x3BED9168#32) * (xvap (tabs hb) - lit 0x3BED9168#32))
    * porous mean

/-- The advected initial temperature. -/
def adv (hi u v dx dy : EReal) : EReal := hi - lit 0x3A83126F#32 * (u * dx + v * dy)

/-- The water term `wc0 - 0.001 * m`. -/
def wcv (m : EReal) : EReal := lit 0x4283F02F#32 - lit 0x3A83126F#32 * m

/-- The flux constant `300 * h`, and its negative. -/
abbrev flux : EReal := lit 0x3F610000#32
abbrev nflux : EReal := lit 0xBF610000#32

/-- The boundary term the code selects, added to the advected temperature (codes 0, 2, 3: zero). -/
def extra (k : ℕ) (dx dy w : EReal) : EReal :=
  match k with
  | 4 => flux * dx + w
  | 5 => nflux * dy + w
  | 6 => nflux * dx + w
  | 7 => flux * dy + w
  | 8 => flux * ((lit 0x00000000#32 - dx) + dy) + w
  | 9 => flux * (dy + dx) + w
  | 10 => flux * (dx - dy) + w
  | 11 => flux * ((lit 0x00000000#32 - dx) - dy) + w
  | _ => lit 0x00000000#32

/-- The codes that select an equation, in the order the sum runs. -/
def codes : List ℕ := [0, 2, 3, 4, 5, 6, 7, 8, 9, 10, 11]

/-- The selected equation's left side: over the codes in order, from 0, the indicator of the code times the advected
    temperature plus the code's term. -/
def lossEq (b : BitVec 32) (ad dx dy w : EReal) : EReal :=
  codes.foldl (fun acc k => acc + ind (b = BitVec.ofNat 32 k) * (ad + extra k dx dy w)) (lit 0x00000000#32)

/-- The source term `|geom - 1| * 300h * h`. -/
def src (g : EReal) : EReal :=
  ((lit 0x3F800000#32 * max (g - lit 0x3F800000#32) (-(g - lit 0x3F800000#32))) * lit 0x3F610000#32) * lit 0x3B400000#32

/-- The code where it selects an equation, else 0. -/
def eqcode (b : BitVec 32) : BitVec 32 :=
  codes.foldl (fun acc k => if b = BitVec.ofNat 32 k then BitVec.ofNat 32 k else acc) 0#32

/-! ## The results -/

section Results

variable (lay : S2.Idx → BitVec 32) (hini wc heat : S1.Idx → EReal) (flow : S2.Idx → EReal)

/-- The evaporation rate of a cell. -/
def mdotAt (r : Fin 1024) (c : Fin 2048) : EReal := mdot (hbc lay heat r c) (wmean lay wc)

/-- The squared energy residual of a cell. -/
def esq (r : Fin 1024) (c : Fin 2048) : EReal :=
  let e := lossEq (bcode lay r c)
      (adv (hini (ix4 0 0 r c)) (flow (ix4 0 0 r c)) (flow (ix4 0 1 r c)) (dxv lay heat r c) (dyv lay heat r c))
      (dxv lay heat r c) (dyv lay heat r c) (wcv (mdotAt lay wc heat r c)) - src (geom lay r c)
  e * e

/-- The squared water residual of a cell. -/
def wsq (r : Fin 1024) (c : Fin 2048) : EReal :=
  let e := (lit 0x4283F02F#32 * wmask lay r c - mdotAt lay wc heat r c) - wcbc lay wc r c
  e * e

/-- The total loss: the two mean squares. -/
def loss : EReal :=
  Ideal.div (0 + ∑ r : Fin 1024, ∑ c : Fin 2048, esq lay hini wc heat flow r c) (lit 0x4A000000#32)
    + Ideal.div (0 + ∑ r : Fin 1024, ∑ c : Fin 2048, wsq lay wc heat r c) (lit 0x4A000000#32)

/-- The first result: the loss, a scalar. -/
def out0 : S0.Idx → EReal := fun _ => loss lay hini wc heat flow

/-- The second result: the masked temperature. -/
def out1 : S1.Idx → EReal := fun j => hbc lay heat (j 2) (j 3)

/-- The third result: the equation codes. -/
def out2 : SG.Idx → BitVec 32 := fun j => eqcode (bcode lay (j 0) (j 1))

end Results

end Cert.Spec

end
-- ==== Proof.SpecCell.lean ====
/-
  The squared residuals of one cell as functions of the cell's own numbers: its boundary code, the initial
  temperature, the two flow components, the two centred differences, the masked temperature, the geometry value, the
  water content and the mean water content. The specification's per-cell quantities are these functions at the
  cell's inputs.
-/
import proofs.«161081_j59665685676148_2_alg».proof.Proof.Spec

noncomputable section

namespace Cert.Spec

open Idealize.ShloMosaic Idealize.ShloMosaic.ValueIdx

/-- The selected equation's residual: its left side minus the source term. -/
def resid (b : BitVec 32) (ad dx dy w g : EReal) : EReal := lossEq b ad dx dy w - src g

/-- The squared energy residual of a cell. -/
def esqCell (b : BitVec 32) (hi u v dx dy hb g mean : EReal) : EReal :=
  resid b (adv hi u v dx dy) dx dy (wcv (mdot hb mean)) g * resid b (adv hi u v dx dy) dx dy (wcv (mdot hb mean)) g

/-- The water residual of a cell. -/
def wres (b : BitVec 32) (w hb mean : EReal) : EReal :=
  (lit 0x4283F02F#32 * ind ((3#32).slt b = true) - mdot hb mean) - w * ind ((3#32).slt b = true)

/-- The squared water residual of a cell. -/
def wsqCell (b : BitVec 32) (w hb mean : EReal) : EReal := wres b w hb mean * wres b w hb mean

variable (lay : S2.Idx → BitVec 32) (hini wc heat : S1.Idx → EReal) (flow : S2.Idx → EReal)

theorem esq_eq (r : Fin 1024) (c : Fin 2048) :
    esq lay hini wc heat flow r c
      = esqCell (bcode lay r c) (hini (ix4 0 0 r c)) (flow (ix4 0 0 r c)) (flow (ix4 0 1 r c)) (dxv lay heat r c)
          (dyv lay heat r c) (hbc lay heat r c) (geom lay r c) (wmean lay wc) := rfl

theorem wsq_eq (r : Fin 1024) (c : Fin 2048) :
    wsq lay wc heat r c = wsqCell (bcode lay r c) (wc (ix4 0 0 r c)) (hbc lay heat r c) (wmean lay wc) := rfl

end Cert.Spec

end
-- ==== Proof.KerCell.lean ====
/-
  One cell of a block of the main pass, at the ideal instance: the block's squared residuals at an index are the
  specification's cell functions of the loaded values at that index.

  Every operation of the body is elementwise except the slices of the halo slab, so an element of each piece is
  the same scalar expression of the operands' elements. An equality test turned into a float through a
  zero-extension is the indicator of the equality.
-/
import proofs.«161081_j59665685676148_2_alg».proof.Proof.KerTile
import proofs.«161081_j59665685676148_2_alg».proof.Proof.SpecCell
import Idealize.ShloMosaic.Lib.ValueIdx

set_option maxRecDepth 16384

noncomputable section

namespace Cert.KernelIdeal.Cell

open Cert.KernelIdeal Cert.KernelIdeal.Gen Cert.KernelIdeal.Tile Cert.Spec
open Idealize.ShloMosaic Idealize.ShloMosaic.TcCoe Idealize.ShloMosaic.ValueIdx

/-- The float of a zero-extended equality test is the indicator of the equality. -/
theorem ind_eq (x k : BitVec 32) :
    FloatOps.sitofp (F := Ideal) .f32 ((IntOp.cmpi .eq x k).setWidth 32) = ind (x = k) := by
  unfold IntOp.cmpi ind
  by_cases h : x = k
  · have hb : (x == k) = true := by simp [h]
    rw [if_pos h]
    show ((((BitVec.ofBool (x == k)).setWidth 32).toInt : ℝ) : EReal) = 1
    rw [hb]
    have : ((BitVec.ofBool true).setWidth 32).toInt = 1 := by decide
    rw [this]; simp
  · have hb : (x == k) = false := beq_false_of_ne h
    rw [if_neg h]
    show ((((BitVec.ofBool (x == k)).setWidth 32).toInt : ℝ) : EReal) = 0
    rw [hb]
    have : ((BitVec.ofBool false).setWidth 32).toInt = 0 := by decide
    rw [this]; simp

/-- The float of a zero-extended signed comparison `3 < x` is its indicator. -/
theorem ind_sgt3 (x : BitVec 32) :
    FloatOps.sitofp (F := Ideal) .f32 ((IntOp.cmpi .sgt x 3#32).setWidth 32) = ind ((3#32).slt x = true) := by
  unfold IntOp.cmpi ind
  by_cases h : (3#32).slt x = true
  · rw [if_pos h]
    show ((((BitVec.ofBool ((3#32).slt x)).setWidth 32).toInt : ℝ) : EReal) = 1
    rw [h]
    have : ((BitVec.ofBool true).setWidth 32).toInt = 1 := by decide
    rw [this]; simp
  · have hb : (3#32).slt x = false := by simpa using h
    rw [if_neg h]
    show ((((BitVec.ofBool ((3#32).slt x)).setWidth 32).toInt : ℝ) : EReal) = 0
    rw [hb]
    have : ((BitVec.ofBool false).setWidth 32).toInt = 0 := by decide
    rw [this]; simp

section Resid

variable (dy dx g ad w : FVec Ideal S64x2048 .f32) (b : IVec S64x2048 32) (y : S64x2048.Idx)

/-- The block's squared energy residual at an index, from the block's differences, codes, geometry, advected
    temperature and water term: the selected equation's residual, squared. -/
theorem esq_core :
    k1_pay44 dy dx b g ad w
        (k1_pay38 dy dx b ad w (k1_pay29 dx b ad w (k1_pay23 (F := Ideal)) (k1_pay24 b)) (k1_pay31 dy w) (k1_pay33 (F := Ideal) b))
        (k1_pay39 b) (k1_pay40 dy dx w) y
      = resid (b y) (ad y) (dx y) (dy y) (w y) (g y) * resid (b y) (ad y) (dx y) (dy y) (w y) (g y) := by
  unfold k1_pay44 k1_pay42 k1_pay41 k1_pay40 k1_pay39 k1_pay38 k1_pay36 k1_pay35 k1_pay34 k1_pay33 k1_pay31 k1_pay30 k1_pay29
    k1_pay28 k1_pay27 k1_pay26 k1_pay24 k1_pay23
  simp only [mulf_apply, addf_apply, subf_apply, broadcast_apply, sitofp_apply, extui_apply, cmpi, ind_eq,
    resid, lossEq, codes, List.foldl, extra, src]
  rfl

end Resid

end Cert.KernelIdeal.Cell

end
-- ==== Proof.KerCell2.lean ====
/-
  The remaining pieces of a block of the main pass at an index, at the ideal instance: the advected temperature, the
  water term (the evaporation rate from the cell's temperature and the mean water content), the two centred
  differences as reads of the halo slab, and the two masks.
-/
import proofs.«161081_j59665685676148_2_alg».proof.Proof.KerCell
import Idealize.ShloMosaic.Lib.Pipeline.Value
import Idealize.ShloMosaic.PureOps.IdealRules

set_option maxRecDepth 16384

noncomputable section

namespace Cert.KernelIdeal.Cell

open Cert.KernelIdeal Cert.KernelIdeal.Gen Cert.KernelIdeal.Tile Cert.Spec
open Idealize.ShloMosaic Idealize.ShloMosaic.TcCoe Idealize.ShloMosaic.ValueIdx

/-- The kernel's named literal denotes `400 * D`. -/
theorem named_val :
    Named.named (F := Ideal) κ "c1_c2_times_400" (φ := .f32) 0x3F05A0E4#32 = ((280239225 / 536870912 : ℝ) : EReal) :=
  IdealRules.named_const.ideal_named_scalar _ _ _ _ rfl

variable (xp : FVec Ideal S80x2176 .f32) (b : Vec Ideal S64x2048 .i32) (wcb hb hi u v g : FVec Ideal S64x2048 .f32)
  (mean : FVec Ideal S1x1 .f32)

/-- The advected temperature of a cell. -/
theorem advT_apply (y : S64x2048.Idx) : advT (F := Ideal) xp hi u v y = adv (hi y) (u y) (v y) (dxT (F := Ideal) xp y) (dyT (F := Ideal) xp y) := by
  unfold advT k1_pay21 k1_pay12 k1_pay13 k1_pay14
  simp only [mulf_apply, addf_apply, subf_apply, broadcast_apply, shapeCast_self, adv]
  rfl

/-- A one-element vector broadcast to the block reads its element everywhere. -/
theorem bcast11 (x : FVec Ideal S1x1 .f32) (y : S64x2048.Idx) :
    broadcastTo S64x2048 x broadcasts_S1x1_S64x2048 y = x (ix2 0 0) :=
  broadcastTo_apply x _ y (ix2 0 0) (fun a => by fin_cases a <;> rfl)

/-- The evaporation rate of a cell. -/
theorem mdotT_apply (y : S64x2048.Idx) : mdotT (F := Ideal) hb mean y = mdot (hb y) (mean (ix2 0 0)) := by
  unfold mdotT k1_pay20 k1_pay19 k1_pay18 k1_pay17 k1_pay16 k1_pay11
  simp only [mulf_apply, addf_apply, subf_apply, divf_apply, broadcast_apply, shapeCast_self, bcast11, named_val,
    mdot, porous, cpa, cpv, xvap, pvap, tabs]
  rfl

/-- The water term of a cell. -/
theorem wcvT_apply (y : S64x2048.Idx) : wcvT (F := Ideal) hb mean y = wcv (mdot (hb y) (mean (ix2 0 0))) := by
  have h := mdotT_apply hb mean y
  unfold mdotT at h
  unfold wcvT k1_pay22
  simp only [mulf_apply, subf_apply, broadcast_apply, wcv, h]
  rfl

/-- The water mask of a cell. -/
theorem wmT_apply (y : S64x2048.Idx) : wmT (F := Ideal) b y = ind ((3#32).slt (b y) = true) := by
  unfold wmT k1_pay9 k1_pay8
  simp only [sitofp_apply, extui_apply, cmpi, broadcast_apply, shapeCast_self, ind_sgt3]

/-- The masked water content of a cell. -/
theorem wcT_apply (y : S64x2048.Idx) : wcT (F := Ideal) b wcb y = wcb y * ind ((3#32).slt (b y) = true) := by
  have h := wmT_apply b y
  unfold wmT at h
  unfold wcT k1_pay10
  simp only [mulf_apply, shapeCast_self, h]

/-- The geometry block is read as it is. -/
theorem geomT_eq : k1_pay15 g = g := by
  unfold k1_pay15; simp only [shapeCast_self]

/-- The codes block is read as it is. -/
theorem bT_eq : bT b = b := by
  unfold bT k1_pay8; simp only [shapeCast_self]

end Cert.KernelIdeal.Cell

end
-- ==== Proof.LibSlice2.lean ====
/-
  A unit-stride slice of a rank-2 array read at a pair of coordinates: entry (p, q) of the slice that starts at
  (o₀, o₁) is entry (o₀ + p, o₁ + q) of the array.
-/
import Idealize.ShloMosaic.Lib.Pipeline.Value
import Idealize.ShloMosaic.Lib.ValueIdx

namespace Cert.LibSlice2

open Idealize.ShloMosaic Idealize.ShloMosaic.ValueIdx

/-- Entry `(p, q)` of the slice at offsets `(o₀, o₁)` is entry `(o₀ + p, o₁ + q)` of the array. -/
theorem slice2_apply {α : Type} {m n m' n' : ℕ} (o₀ o₁ : ℕ) (x : (⟨2, ![m, n]⟩ : Shape).Idx → α)
    (h : (⟨2, ![m, n]⟩ : Shape).Slices ![o₀, o₁] ⟨2, ![m', n']⟩) (p : Fin m') (q : Fin n')
    (hp : o₀ + p.val < m) (hq : o₁ + q.val < n) :
    extractStridedSlice ⟨2, ![m', n']⟩ ![o₀, o₁] x h (ix2 p q) = x (ix2 ⟨o₀ + p.val, hp⟩ ⟨o₁ + q.val, hq⟩) :=
  extractStridedSlice_apply _ x h _ _ fun a => by
    match a with
    | ⟨0, _⟩ => rfl
    | ⟨1, _⟩ => rfl

end Cert.LibSlice2
-- ==== Proof.KerCell3.lean ====
/-
  The two centred differences of a block of the main pass as reads of the halo slab, at the ideal instance.

  The slab holds 80 rows of the padded field; the block's row `p` is the slab's row `p + 8` and its column `q` is the
  slab's column `q + 1`. The vertical difference of cell (p, q) is half of slab (p + 9, q + 1) minus slab (p + 7, q + 1);
  the horizontal one half of slab (p + 8, q + 2) minus slab (p + 8, q).
-/
import proofs.«161081_j59665685676148_2_alg».proof.Proof.KerTile
import proofs.«161081_j59665685676148_2_alg».proof.Proof.LibSlice2
import proofs.«161081_j59665685676148_2_alg».proof.Proof.Spec

set_option maxRecDepth 16384

noncomputable section

namespace Cert.KernelIdeal.Cell

open Cert.KernelIdeal Cert.KernelIdeal.Gen Cert.KernelIdeal.Tile Cert.Spec Cert.LibSlice2
open Idealize.ShloMosaic Idealize.ShloMosaic.TcCoe Idealize.ShloMosaic.ValueIdx

variable (xp : FVec Ideal S80x2176 .f32)

/-- The vertical difference of cell (p, q). -/
theorem dyT_apply (p : Fin 64) (q : Fin 2048) :
    dyT (F := Ideal) xp (ix2 p q)
      = lit 0x3F000000#32 * (xp (ix2 ⟨0 + (9 + p.val), by omega⟩ ⟨0 + (1 + q.val), by omega⟩)
          - xp (ix2 ⟨0 + (7 + p.val), by omega⟩ ⟨0 + (1 + q.val), by omega⟩)) := by
  unfold dyT k1_pay6 k1_pay5
  simp only [mulf_apply, subf_apply, broadcast_apply]
  rw [slice2_apply 9 1 _ _ p q (by omega) (by omega), slice2_apply 7 1 _ _ p q (by omega) (by omega),
    slice2_apply 0 0 xp _ ⟨9 + p.val, by omega⟩ ⟨1 + q.val, by omega⟩ (by omega) (by omega),
    slice2_apply 0 0 xp _ ⟨7 + p.val, by omega⟩ ⟨1 + q.val, by omega⟩ (by omega) (by omega)]
  rfl

/-- The horizontal difference of cell (p, q). -/
theorem dxT_apply (p : Fin 64) (q : Fin 2048) :
    dxT (F := Ideal) xp (ix2 p q)
      = lit 0x3F000000#32 * (xp (ix2 ⟨0 + (8 + (0 + p.val)), by omega⟩ ⟨0 + (0 + (2 + q.val)), by omega⟩)
          - xp (ix2 ⟨0 + (8 + (0 + p.val)), by omega⟩ ⟨0 + (0 + (0 + q.val)), by omega⟩)) := by
  unfold dxT k1_pay7 k1_pay5
  simp only [mulf_apply, subf_apply, broadcast_apply]
  rw [slice2_apply 0 2 _ _ p q (by omega) (by omega), slice2_apply 0 0 _ _ p q (by omega) (by omega),
    slice2_apply 8 0 _ _ ⟨0 + p.val, by omega⟩ ⟨2 + q.val, by omega⟩ (by omega) (by omega),
    slice2_apply 8 0 _ _ ⟨0 + p.val, by omega⟩ ⟨0 + q.val, by omega⟩ (by omega) (by omega),
    slice2_apply 0 0 xp _ ⟨8 + (0 + p.val), by omega⟩ ⟨0 + (2 + q.val), by omega⟩ (by omega) (by omega),
    slice2_apply 0 0 xp _ ⟨8 + (0 + p.val), by omega⟩ ⟨0 + (0 + q.val), by omega⟩ (by omega) (by omega)]
  rfl

end Cert.KernelIdeal.Cell

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.KerSum.lean ====
/-
  The block sums of the main pass at the ideal instance.

  The body sums a 64 x 2048 block first along the lanes, then along the rows (keeping a unit axis in between), and
  adds the one number to the running total. On the extended reals the two reductions are plain sums, so the new
  total is the old one plus the double sum of the block's entries.
-/
import proofs.«161081_j59665685676148_2_alg».proof.Proof.KerTile
import proofs.«161081_j59665685676148_2_alg».proof.Proof.LibKeepdims
import Idealize.ShloMosaic.PureOps.Ideal.Laws
import Idealize.ShloMosaic.Lib.ValueIdx

set_option maxRecDepth 16384

noncomputable section

namespace Cert.KernelIdeal.Sum

open Cert.KernelIdeal Cert.KernelIdeal.Gen Cert.KernelIdeal.Tile
open Idealize.ShloMosaic Idealize.ShloMosaic.TcCoe Idealize.ShloMosaic.ValueIdx

/-- The one index of a 1 x 1 array. -/
theorem idx11 (y : S1x1.Idx) : y = ix2 0 0 := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)

/-- The lane sum of a block at row `r`. -/
theorem lanes (E : FVec Ideal S64x2048 .f32) (h : S64x2048.Reduces [1] S64) (hφ : FKind.Formats .f32)
    (hacc : (0x00000000#32 : BitVec 32) = 0x00000000#32) (r : Fin 64) :
    multiReduction .add [1] S64 E 0x00000000#32 h hφ hacc (ix1 r) = ∑ q : Fin 2048, E (ix2 r q) := by
  refine (Ideal.multiReduction_add_single E 0x00000000#32 h hφ hacc (ix1 r)).trans ?_
  refine Finset.sum_congr rfl fun q _ => congrArg E ?_
  funext a
  match a with
  | ⟨0, _⟩ => rfl
  | ⟨1, _⟩ => rfl

/-- The row sum of a 64 x 1 column. -/
theorem rows (C : FVec Ideal S64x1 .f32) (h : S64x1.Reduces [0] S1) (hφ : FKind.Formats .f32)
    (hacc : (0x00000000#32 : BitVec 32) = 0x00000000#32) :
    multiReduction .add [0] S1 C 0x00000000#32 h hφ hacc (ix1 0) = ∑ p : Fin 64, C (ix2 p 0) := by
  refine (Ideal.multiReduction_add_single C 0x00000000#32 h hφ hacc (ix1 0)).trans ?_
  refine Finset.sum_congr rfl fun p _ => congrArg C ?_
  funext a
  match a with
  | ⟨0, _⟩ => rfl
  | ⟨1, _⟩ => rfl

/-- The running energy total after a block: the total before plus the block's double sum. -/
theorem pay1_apply (E : FVec Ideal S64x2048 .f32) (acc : FVec Ideal S1x1 .f32) (y : S1x1.Idx) :
    k1_pay1 E acc y = acc (ix2 0 0) + ∑ p : Fin 64, ∑ q : Fin 2048, E (ix2 p q) := by
  rw [idx11 y]
  unfold k1_pay1
  simp only [addf_apply, shapeCast_self]
  rw [shapeCast_a_a1_apply (a := 1) _ _ 0 0, rows]
  refine congrArg (acc (ix2 0 0) + ·) (Finset.sum_congr rfl fun p _ => ?_)
  rw [shapeCast_a_a1_apply (a := 64) _ _ p 0, lanes]

/-- The running water total after a block, from the block's mask, masked content and rate. -/
theorem pay2_apply (wm wcm md cw : FVec Ideal S64x2048 .f32) (acc : FVec Ideal S1x1 .f32) (y : S1x1.Idx) :
    k1_pay2 wm wcm md cw acc y
      = acc (ix2 0 0) + ∑ p : Fin 64, ∑ q : Fin 2048,
          ((cw (ix2 p q) * wm (ix2 p q) - md (ix2 p q)) - wcm (ix2 p q)) * ((cw (ix2 p q) * wm (ix2 p q) - md (ix2 p q)) - wcm (ix2 p q)) := by
  rw [idx11 y]
  unfold k1_pay2
  simp only [addf_apply, shapeCast_self]
  rw [shapeCast_a_a1_apply (a := 1) _ _ 0 0, rows]
  refine congrArg (acc (ix2 0 0) + ·) (Finset.sum_congr rfl fun p _ => ?_)
  rw [shapeCast_a_a1_apply (a := 64) _ _ p 0, lanes]
  refine Finset.sum_congr rfl fun q _ => ?_
  simp only [mulf_apply, subf_apply]

end Cert.KernelIdeal.Sum

end
-- ==== Proof.SpecPad.lean ====
/-
  The padded field against the centred differences.

  Row `i` of the padded field is row `i - 8` of the grid reflected at the border, so for a grid row `r` the padded
  rows `r + 7`, `r + 8`, `r + 9` are the upper neighbour, the row itself and the lower neighbour; padded column `k` is
  column `k - 1` reflected. Hence the differences of the padded field around (r + 8, q + 1) are the specification's.
-/
import proofs.«161081_j59665685676148_2_alg».proof.Proof.Spec

noncomputable section

namespace Cert.Spec

open Idealize.ShloMosaic Idealize.ShloMosaic.ValueIdx

theorem rowR8_mid (r : Fin 1024) : rowR8 (r.val + 8) = r := by
  have hr := r.isLt
  unfold rowR8
  split
  · omega
  · split
    · exact Fin.ext (by show r.val + 8 - 8 = r.val; omega)
    · omega

theorem rowR8_up (r : Fin 1024) : rowR8 (r.val + 7) = rowR r.val := by
  have hr := r.isLt
  unfold rowR8 rowR
  by_cases h0 : r.val = 0
  · rw [dif_pos (by omega), if_pos h0]
    exact Fin.ext (by show 8 - (r.val + 7) = 1; omega)
  · rw [dif_neg (by omega), dif_pos (by omega), if_neg h0, dif_pos (by omega)]
    exact Fin.ext (by show r.val + 7 - 8 = r.val - 1; omega)

theorem rowR8_down (r : Fin 1024) : rowR8 (r.val + 9) = rowR (r.val + 2) := by
  have hr := r.isLt
  unfold rowR8 rowR
  by_cases h1 : r.val = 1023
  · rw [dif_neg (by omega), dif_neg (by omega), if_neg (by omega), dif_neg (by omega)]
    exact Fin.ext (by show 2054 - (r.val + 9) = 1022; omega)
  · rw [dif_neg (by omega), dif_pos (by omega), if_neg (by omega), dif_pos (by omega)]
    exact Fin.ext (by show r.val + 9 - 8 = r.val + 2 - 1; omega)

theorem colR_mid (q : Fin 2048) : colR (q.val + 1) = q := by
  have hq := q.isLt
  unfold colR
  rw [if_neg (by omega), dif_pos (by omega)]
  exact Fin.ext (by show q.val + 1 - 1 = q.val; omega)

variable (lay : S2.Idx → BitVec 32) (heat : S1.Idx → EReal)

theorem xpbig_val (i : Fin 1040) (j : Fin 2176) (hj : j.val < 2050) :
    xpbig lay heat i j = hbc lay heat (rowR8 i.val) (colR j.val) := if_pos hj

/-- The horizontal difference of the padded field around (r + 8, q + 1). -/
theorem dx_xpbig (r : Fin 1024) (q : Fin 2048) (i : Fin 1040) (j2 j0 : Fin 2176) (hi : i.val = r.val + 8)
    (h2 : j2.val = q.val + 2) (h0 : j0.val = q.val) :
    lit 0x3F000000#32 * (xpbig lay heat i j2 - xpbig lay heat i j0) = dxv lay heat r q := by
  have hq := q.isLt
  rw [xpbig_val lay heat i j2 (by omega), xpbig_val lay heat i j0 (by omega), hi, rowR8_mid, h2, h0]
  rfl

/-- The vertical difference of the padded field around (r + 8, q + 1). -/
theorem dy_xpbig (r : Fin 1024) (q : Fin 2048) (i9 i7 : Fin 1040) (j : Fin 2176) (h9 : i9.val = r.val + 9)
    (h7 : i7.val = r.val + 7) (hj : j.val = q.val + 1) :
    lit 0x3F000000#32 * (xpbig lay heat i9 j - xpbig lay heat i7 j) = dyv lay heat r q := by
  have hq := q.isLt
  rw [xpbig_val lay heat i9 j (by omega), xpbig_val lay heat i7 j (by omega), h9, h7, rowR8_down, rowR8_up, hj, colR_mid]
  rfl

end Cert.Spec

end
-- ==== Proof.KerValue.lean ====
/-
  The main pass's totals at the ideal instance, in the specification's terms.

  Given what the nine arrays the pass is entered with hold (the padded field, the masked temperature, the initial
  temperature, the two flow components, the water content, the boundary codes, the geometry and the mean water
  content, each as the specification names it), a grid point adds to the energy total the sum over its 64 rows and
  2048 columns of the specification's squared energy residual, and to the water total the same of the squared water
  residual.
-/
import proofs.«161081_j59665685676148_2_alg».proof.Proof.KerAcc
import proofs.«161081_j59665685676148_2_alg».proof.Proof.KerBlocks
import proofs.«161081_j59665685676148_2_alg».proof.Proof.KerCell2
import proofs.«161081_j59665685676148_2_alg».proof.Proof.KerCell3
import proofs.«161081_j59665685676148_2_alg».proof.Proof.KerSum
import proofs.«161081_j59665685676148_2_alg».proof.Proof.SpecPad

set_option maxRecDepth 16384

noncomputable section

namespace Cert.KernelIdeal.Value

open Cert.KernelIdeal Cert.KernelIdeal.Gen Cert.KernelIdeal.Tile Cert.KernelIdeal.Acc Cert.KernelIdeal.Blocks
  Cert.KernelIdeal.Cell Cert.KernelIdeal.Sum
open Idealize.ShloMosaic Idealize.ShloMosaic.TcCoe Idealize.ShloMosaic.ValueIdx

variable (lay : Cert.Spec.S2.Idx → BitVec 32) (hini wc heat : Cert.Spec.S1.Idx → EReal) (flow : Cert.Spec.S2.Idx → EReal)
variable (V : (c : Dev nD) → (b : Ref sig .tc) → Buf (Elt Ideal) ((c : Thread nD τ).loc b)) (c : Dev nD)

/-- What the arrays the main pass is entered with hold, in the specification's terms. -/
structure Entry : Prop where
  xp : (V c main_v49 : S1040x2176.Idx → EReal) = (fun j => Cert.Spec.xpbig lay heat (j 0) (j 1))
  hb : (V c main_v47 : S1024x2048.Idx → EReal) = (fun j => Cert.Spec.hbc lay heat (j 0) (j 1))
  hi : (V c main_v4 : S1024x2048.Idx → EReal) = (fun j => hini (ix4 0 0 (j 0) (j 1)))
  u : (V c main_v8 : S1024x2048.Idx → EReal) = (fun j => flow (ix4 0 0 (j 0) (j 1)))
  v : (V c main_v10 : S1024x2048.Idx → EReal) = (fun j => flow (ix4 0 1 (j 0) (j 1)))
  w : (V c main_v5 : S1024x2048.Idx → EReal) = (fun j => wc (ix4 0 0 (j 0) (j 1)))
  b : (V c main_v36 : S1024x2048.Idx → BitVec 32) = (fun j => Cert.Spec.bcode lay (j 0) (j 1))
  g : (V c main_v43 : S1024x2048.Idx → EReal) = (fun j => Cert.Spec.geom lay (j 0) (j 1))
  mean : (V c main_v52 : S1x1.Idx → EReal) = (fun _ => Cert.Spec.wmean lay wc)

variable {lay hini wc heat flow V c}

theorem ix2_fst {n0 n1 : ℕ} (a : Fin n0) (b : Fin n1) : (ix2 a b) (0 : Fin 2) = a := rfl
theorem ix2_snd {n0 n1 : ℕ} (a : Fin n0) (b : Fin n1) : (ix2 a b) (1 : Fin 2) = b := rfl

/-- The grid row of block row `p` at point `t`. -/
abbrev rowOf (t : Fin cfg1.N) (p : Fin 64) : Fin 1024 := ⟨64 * t.val + p.val, by have := t_lt t; omega⟩

set_option backward.isDefEq.respectTransparency.types false in
/-- A cell's squared energy residual in the block of point `t`. -/
theorem esq_cell (E : Entry lay hini wc heat flow V c) (t : Fin cfg1.N) (p : Fin 64) (q : Fin 2048) :
    esqT (F := Ideal) (slab c (grid1.coords t) (V c main_v49)) (iblk1 V c 5 t) (iblk1 V c 0 t) (iblk1 V c 1 t) (iblk1 V c 2 t)
        (iblk1 V c 3 t) (iblk1 V c 6 t) (iblk1 V c 7 t) (ix2 p q)
      = Cert.Spec.esq lay hini wc heat flow (rowOf t p) q := by
  have ht := t_lt t
  rw [Cert.Spec.esq_eq]
  refine (esq_core _ _ _ _ _ _ (ix2 p q)).trans ?_
  rw [advT_apply, wcvT_apply, dxT_apply, dyT_apply, bT_eq, geomT_eq]
  rw [iblk5_apply, iblk0_apply, iblk1_apply, iblk2_apply, iblk3_apply, iblk6_apply, iblk7_apply]
  simp only [slab_apply]
  rw [E.xp, E.hb, E.hi, E.u, E.v, E.b, E.g, E.mean]
  simp only [ix2_fst, ix2_snd]
  rw [Cert.Spec.dx_xpbig lay heat (rowOf t p) q _ _ _ (by show 64 * t.val + (0 + (8 + (0 + p.val))) = 64 * t.val + p.val + 8; omega)
      (by show 0 + (0 + (2 + q.val)) = q.val + 2; omega) (by show 0 + (0 + (0 + q.val)) = q.val; omega),
    Cert.Spec.dy_xpbig lay heat (rowOf t p) q _ _ _ (by show 64 * t.val + (0 + (9 + p.val)) = 64 * t.val + p.val + 9; omega)
      (by show 64 * t.val + (0 + (7 + p.val)) = 64 * t.val + p.val + 7; omega) (by show 0 + (1 + q.val) = q.val + 1; omega)]
  rfl

set_option backward.isDefEq.respectTransparency.types false in
/-- A cell's squared water residual in the block of point `t`. -/
theorem wsq_cell (E : Entry lay hini wc heat flow V c) (t : Fin cfg1.N) (p : Fin 64) (q : Fin 2048) :
    ((k1_pay45 (F := Ideal) (ix2 p q) * wmT (F := Ideal) (iblk1 V c 5 t) (ix2 p q) - mdotT (F := Ideal) (iblk1 V c 0 t) (iblk1 V c 7 t) (ix2 p q))
        - wcT (F := Ideal) (iblk1 V c 5 t) (iblk1 V c 4 t) (ix2 p q))
      * ((k1_pay45 (F := Ideal) (ix2 p q) * wmT (F := Ideal) (iblk1 V c 5 t) (ix2 p q) - mdotT (F := Ideal) (iblk1 V c 0 t) (iblk1 V c 7 t) (ix2 p q))
        - wcT (F := Ideal) (iblk1 V c 5 t) (iblk1 V c 4 t) (ix2 p q))
      = Cert.Spec.wsq lay wc heat (rowOf t p) q := by
  have ht := t_lt t
  rw [Cert.Spec.wsq_eq, wmT_apply, wcT_apply, mdotT_apply]
  rw [iblk5_apply, iblk4_apply, iblk0_apply, iblk7_apply]
  rw [E.hb, E.w, E.b, E.mean]
  simp only [ix2_fst, ix2_snd]
  rfl

/-- What point `t` adds to the energy total. -/
theorem eAt_apply (E : Entry lay hini wc heat flow V c) (t : Fin cfg1.N) (acc : Vec Ideal S1x1 .f32) :
    eAt V c t acc (ix2 0 0)
      = acc (ix2 0 0) + ∑ p : Fin 64, ∑ q : Fin 2048, Cert.Spec.esq lay hini wc heat flow (rowOf t p) q := by
  unfold eAt
  refine (pay1_apply _ _ _).trans ?_
  exact congrArg (acc (ix2 0 0) + ·) (Finset.sum_congr rfl fun p _ => Finset.sum_congr rfl fun q _ => esq_cell E t p q)

/-- What point `t` adds to the water total. -/
theorem wAt_apply (E : Entry lay hini wc heat flow V c) (t : Fin cfg1.N) (acc : Vec Ideal S1x1 .f32) :
    wAt V c t acc (ix2 0 0)
      = acc (ix2 0 0) + ∑ p : Fin 64, ∑ q : Fin 2048, Cert.Spec.wsq lay wc heat (rowOf t p) q := by
  unfold wAt
  refine (pay2_apply _ _ _ _ _ _).trans ?_
  exact congrArg (acc (ix2 0 0) + ·) (Finset.sum_congr rfl fun p _ => Finset.sum_congr rfl fun q _ => wsq_cell E t p q)

end Cert.KernelIdeal.Value

end
-- ==== Proof.KerFinal.lean ====
/-
  The main pass's two totals as arrays: what the result arrays of the energy total and of the water total hold
  after the last grid point.

  Each total lives in one 1 x 1 block that never moves; the pipeline writes it back once, after point 15, and that
  block is the whole array. So the array ends at the running total after point 15.
-/
import proofs.«161081_j59665685676148_2_alg».proof.Proof.KerAcc

set_option maxRecDepth 16384

noncomputable section

namespace Cert.KernelIdeal.Final

open Cert.KernelIdeal Cert.KernelIdeal.Gen Cert.KernelIdeal.Tile Cert.KernelIdeal.Acc
open Idealize.ShloMosaic Idealize.ShloMosaic.TcCoe Idealize.ShloMosaic.Tactic
open Idealize.SL Idealize.SL.Sem
open Idealize.ShloMosaic.Pipeline (Dat)

variable {F : FTy → Type} [FloatOps F] [Named F]
variable (V : (c : Dev nD) → (b : Ref sig .tc) → Buf (Elt F) ((c : Thread nD τ).loc b))

theorem h15 : 15 < cfg1.N := by rw [show cfg1.N = 16 from N_1]; decide

/-- The energy total after the last point, as contents of its result array. -/
abbrev resultE (c : Dev nD) : Buf (Elt F) ((c : Thread nD τ).loc main_v53_1) := chainE V c 15 h15
/-- The water total after the last point, as contents of its result array. -/
abbrev resultW (c : Dev nD) : Buf (Elt F) ((c : Thread nD τ).loc main_v53_2) := chainW V c 15 h15

/-- The one write-back of the energy total, at point 15, writes the running total: block (0, 0) of the 1 x 1 array
    read through zero offsets is the array. -/
theorem flushedE_eq (c : Dev nD) (t : Fin cfg1.N) (hf : (cfg1.win 9).flush t = true) :
    (dat1 V c).flushed 9 t = ((cfg1.win 9).blk t).view.read (Elt F) (resultE V c) := by
  have hN : cfg1.N = 16 := N_1
  have h3 : t.val = 15 := by have := (flush1_9 t).mp hf; have := t.isLt; omega
  obtain rfl : t = ⟨15, h15⟩ := Fin.ext h3
  show (cfg1.win 9).cut (grid1.coords ⟨15, h15⟩) ((dat1 V c).after 9 ⟨15, h15⟩) = _
  rw [after1_9, outsAt_eq]
  have hz' : (fun a => win1_9.index ⟨15, h15⟩ a * main_v53_1.ty.shape.size a) = fun _ => 0 :=
    funext fun a => by fin_cases a <;> decide +kernel
  exact (Memref.read_access_unit_zero (Elt F) main_v53_1 hz' (fun a => by rw [congrFun hz' a]; simp) (resultE V c)).symm

/-- The result array of the energy total ends at the running total after point 15. -/
theorem finalE (c : Dev nD) : (dat1 V c).arrAt 9 cfg1.N = resultE V c :=
  (dat1 V c).arrAt_eq_of_cover 9 (resultE V c) (flushedE_eq V c) fun i =>
    ⟨⟨15, h15⟩, (flush1_9 ⟨15, h15⟩).mpr rfl, by
      show i ∈ ((View.whole main_v53_1).slice (win1_9.rect ⟨15, h15⟩)).set
      rw [View.set_slice_whole, Rect.mem_set_unit]
      intro a
      have h0 : (i 0 : Nat) < 1 := (i 0).isLt
      have h1 : (i 1 : Nat) < 1 := (i 1).isLt
      match a with
      | ⟨0, _⟩ => show win1_9.index ⟨15, h15⟩ 0 * win1_9.size 0 ≤ (i 0 : Nat) ∧ (i 0 : Nat) < win1_9.index ⟨15, h15⟩ 0 * win1_9.size 0 + win1_9.xsize (grid1.coords ⟨15, h15⟩) 0
                  rw [show win1_9.index ⟨15, h15⟩ 0 * win1_9.size 0 = 0 from by decide +kernel, show win1_9.xsize (grid1.coords ⟨15, h15⟩) 0 = 1 from by decide +kernel]; omega
      | ⟨1, _⟩ => show win1_9.index ⟨15, h15⟩ 1 * win1_9.size 1 ≤ (i 1 : Nat) ∧ (i 1 : Nat) < win1_9.index ⟨15, h15⟩ 1 * win1_9.size 1 + win1_9.xsize (grid1.coords ⟨15, h15⟩) 1
                  rw [show win1_9.index ⟨15, h15⟩ 1 * win1_9.size 1 = 0 from by decide +kernel, show win1_9.xsize (grid1.coords ⟨15, h15⟩) 1 = 1 from by decide +kernel]; omega⟩

/-- The one write-back of the water total. -/
theorem flushedW_eq (c : Dev nD) (t : Fin cfg1.N) (hf : (cfg1.win 10).flush t = true) :
    (dat1 V c).flushed 10 t = ((cfg1.win 10).blk t).view.read (Elt F) (resultW V c) := by
  have hN : cfg1.N = 16 := N_1
  have h3 : t.val = 15 := by have := (flush1_10 t).mp hf; have := t.isLt; omega
  obtain rfl : t = ⟨15, h15⟩ := Fin.ext h3
  show (cfg1.win 10).cut (grid1.coords ⟨15, h15⟩) ((dat1 V c).after 10 ⟨15, h15⟩) = _
  rw [after1_10, outsAt_eq]
  have hz' : (fun a => win1_10.index ⟨15, h15⟩ a * main_v53_2.ty.shape.size a) = fun _ => 0 :=
    funext fun a => by fin_cases a <;> decide +kernel
  exact (Memref.read_access_unit_zero (Elt F) main_v53_2 hz' (fun a => by rw [congrFun hz' a]; simp) (resultW V c)).symm

/-- The result array of the water total ends at the running total after point 15. -/
theorem finalW (c : Dev nD) : (dat1 V c).arrAt 10 cfg1.N = resultW V c :=
  (dat1 V c).arrAt_eq_of_cover 10 (resultW V c) (flushedW_eq V c) fun i =>
    ⟨⟨15, h15⟩, (flush1_10 ⟨15, h15⟩).mpr rfl, by
      show i ∈ ((View.whole main_v53_2).slice (win1_10.rect ⟨15, h15⟩)).set
      rw [View.set_slice_whole, Rect.mem_set_unit]
      intro a
      have h0 : (i 0 : Nat) < 1 := (i 0).isLt
      have h1 : (i 1 : Nat) < 1 := (i 1).isLt
      match a with
      | ⟨0, _⟩ => show win1_10.index ⟨15, h15⟩ 0 * win1_10.size 0 ≤ (i 0 : Nat) ∧ (i 0 : Nat) < win1_10.index ⟨15, h15⟩ 0 * win1_10.size 0 + win1_10.xsize (grid1.coords ⟨15, h15⟩) 0
                  rw [show win1_10.index ⟨15, h15⟩ 0 * win1_10.size 0 = 0 from by decide +kernel, show win1_10.xsize (grid1.coords ⟨15, h15⟩) 0 = 1 from by decide +kernel]; omega
      | ⟨1, _⟩ => show win1_10.index ⟨15, h15⟩ 1 * win1_10.size 1 ≤ (i 1 : Nat) ∧ (i 1 : Nat) < win1_10.index ⟨15, h15⟩ 1 * win1_10.size 1 + win1_10.xsize (grid1.coords ⟨15, h15⟩) 1
                  rw [show win1_10.index ⟨15, h15⟩ 1 * win1_10.size 1 = 0 from by decide +kernel, show win1_10.xsize (grid1.coords ⟨15, h15⟩) 1 = 1 from by decide +kernel]; omega⟩

end Cert.KernelIdeal.Final

end
-- ==== Proof.KerCodes.lean ====
/-
  The equation codes as an array: what the third result holds after the main pass.

  Each grid point writes one block of 64 rows: cell by cell the boundary code if it is one of 0, 2, …, 11 and 0
  otherwise (a chain of selects on equality tests). The blocks of the sixteen points tile the 1024 rows, so the array
  ends holding that function of the boundary-code array, index by index.
-/
import proofs.«161081_j59665685676148_2_alg».proof.Proof.KerAcc
import proofs.«161081_j59665685676148_2_alg».proof.Proof.Spec
import Idealize.ShloMosaic.Lib.ValueIdx

set_option maxRecDepth 16384

noncomputable section

namespace Cert.KernelIdeal.Codes

open Cert.KernelIdeal Cert.KernelIdeal.Gen Cert.KernelIdeal.Tile Cert.KernelIdeal.Acc
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F] [Named F]

/-- A select on an equality test is the `if` on the equality. -/
theorem select_cmpi_eq {α : Type} (x k : BitVec 32) (a b : α) :
    Scalar.select (IntOp.cmpi .eq x k) a b = if x = k then a else b := by
  unfold Scalar.select IntOp.cmpi
  by_cases h : x = k
  · simp [h]
  · have hb : (x == k) = false := beq_false_of_ne h
    simp [hb, h]

/-- The block's codes, cell by cell: the chain of selects is the specification's fold over the codes. -/
theorem codeT_apply (b : Vec F S64x2048 .i32) (y : S64x2048.Idx) : codeT b y = Cert.Spec.eqcode (b y) := by
  unfold codeT bT k1_pay43 k1_pay42 k1_pay41 k1_pay39 k1_pay37 k1_pay36 k1_pay35 k1_pay34 k1_pay32 k1_pay30 k1_pay28
    k1_pay27 k1_pay26 k1_pay25 k1_pay24 k1_pay8
  simp only [select_apply, broadcast_apply, shapeCast_self, cmpi, select_cmpi_eq, Cert.Spec.eqcode, Cert.Spec.codes,
    List.foldl]

variable (V : (c : Dev nD) → (b : Ref sig .tc) → Buf (Elt F) ((c : Thread nD τ).loc b))

/-- The codes array the run ends with: the specification's code of the boundary code, index by index. -/
abbrev G8 (c : Dev nD) : Buf (Elt F) ((c : Thread nD τ).loc main_v53_0) :=
  fun i => Cert.Spec.eqcode (V c main_v36 i)

/-- The printed index maps, decided over the grid: the block of the boundary codes and the block of the result both
    sit at block row `t`, block column 0. -/
theorem idx_facts : ∀ t : Fin cfg1.N, win1_5.index t (0 : Fin 2) = t.val ∧ win1_5.index t (1 : Fin 2) = 0
    ∧ win1_8.index t (0 : Fin 2) = t.val ∧ win1_8.index t (1 : Fin 2) = 0 :=
  (by decide +kernel : ∀ t : Fin grid1.N, _)

/-- An element of the boundary codes' block at point `t` is the array's element under it. -/
theorem iblk5_apply (c : Dev nD) (t : Fin cfg1.N) (y : ((cfg1.win 5).xblock (cfg1.grid.coords t)).Idx) :
    iblk1 V c 5 t y = V c main_v36 (((cfg1.win 5).blk t).view.emb y) := by
  unfold iblk1
  rw [View.read_apply, cast_eq]

/-- What point `t` writes back is block `t` of that array. -/
theorem flushed8_eq (c : Dev nD) (t : Fin cfg1.N) :
    (dat1 V c).flushed 8 t = ((cfg1.win 8).blk t).view.read (Elt F) (G8 V c) := by
  show (cfg1.win 8).cut (grid1.coords t) ((dat1 V c).after 8 t) = _
  rw [after1_8, outsAt_eq]
  obtain ⟨e0, e1, e2, e3⟩ := idx_facts t
  funext j
  rw [View.read_apply]
  dsimp only
  simp only [Pipeline.Window.cut]
  rw [codeT_apply, cast_eq]
  refine (congrArg Cert.Spec.eqcode (iblk5_apply V c t _)).trans ?_
  refine congrArg (fun i => Cert.Spec.eqcode (V c main_v36 i)) ?_
  funext a; apply Fin.ext
  match a with
  | ⟨0, _⟩ => show win1_5.index t (0 : Fin 2) * 64 + 1 * (j 0).val = win1_8.index t (0 : Fin 2) * 64 + 1 * (j 0).val; omega
  | ⟨1, _⟩ => show win1_5.index t (1 : Fin 2) * 2048 + 1 * (j 1).val = win1_8.index t (1 : Fin 2) * 2048 + 1 * (j 1).val; omega

/-- An index of the array is in point `t`'s block iff each coordinate is in the block's range on its axis. -/
theorem mem_blk8 (t : Fin cfg1.N) (i : S1024x2048.Idx) :
    i ∈ ((cfg1.win 8).blk t).view.set ↔ ∀ a : Fin 2, win1_8.index t a * S64x2048.size a ≤ (i a).val ∧ (i a).val < win1_8.index t a * S64x2048.size a + S64x2048.size a := by
  show i ∈ ((View.whole main_v53_0).slice (win1_8.rect t)).set ↔ _
  rw [View.set_slice_whole, Rect.mem_set_unit]
  exact Iff.rfl

/-- The codes array after the run. -/
theorem final8 (c : Dev nD) : (dat1 V c).arrAt 8 cfg1.N = G8 V c :=
  (dat1 V c).arrAt_eq_of_cover 8 (G8 V c) (fun t _ => flushed8_eq V c t) fun i => by
    have hN : cfg1.N = 16 := N_1
    have hi0 : (i 0).val < 1024 := (i 0).isLt
    have hi1 : (i 1).val < 2048 := (i 1).isLt
    refine ⟨⟨(i 0).val / 64, by omega⟩, flush1_8 _, ?_⟩
    obtain ⟨e0, e1, e2, e3⟩ := idx_facts ⟨(i 0).val / 64, by omega⟩
    rw [mem_blk8]
    intro a
    match a with
    | ⟨0, _⟩ => show win1_8.index _ (0 : Fin 2) * 64 ≤ (i 0).val ∧ (i 0).val < win1_8.index _ (0 : Fin 2) * 64 + 64; rw [e2]; dsimp only; omega
    | ⟨1, _⟩ => show win1_8.index _ (1 : Fin 2) * 2048 ≤ (i 1).val ∧ (i 1).val < win1_8.index _ (1 : Fin 2) * 2048 + 2048; rw [e3]; omega

end Cert.KernelIdeal.Codes

end
-- ==== Proof.KerTail.lean ====
/-
  The three results at the end of the idealized kernel's program, in terms of what the main pass leaves.

  After the main pass the host reshapes each total to a scalar, divides it by the number of cells 2^21 and adds the
  two quotients: the loss. The masked temperature, an input of the main pass and so unchanged by it, is reshaped to
  four axes: the second result. The codes array is the third result as it is.
-/
import proofs.«161081_j59665685676148_2_alg».proof.Proof.KerFinal
import proofs.«161081_j59665685676148_2_alg».proof.Proof.KerCodes
import Idealize.ShloMosaic.Lib.StableHlo.Run

set_option maxRecDepth 16384

noncomputable section

namespace Cert.KernelIdeal.Tail

open Cert.KernelIdeal Cert.KernelIdeal.Gen Cert.KernelIdeal.Tile Cert.KernelIdeal.Acc Cert.KernelIdeal.Final Cert.KernelIdeal.Codes
open Idealize.ShloMosaic Idealize.ShloMosaic.TcCoe Idealize.ShloMosaic.Tactic Idealize.ShloMosaic.StableHlo
open Idealize.SL Idealize.SL.Sem
open Idealize.ShloMosaic.Pipeline (Dat)

variable {F : FTy → Type} [FloatOps F] [Named F]
variable (m : (ℓ : Loc nD τ sig) → Buf (Elt F) ℓ) (ρ : Dev nD → PrngReg)

/-- The host tail leaves the codes array alone. -/
theorem W24_codes (c : Dev nD) :
    W24 m ρ c (Proc.devRef .tc main_v53_0) = W23 m ρ c (Proc.devRef .tc main_v53_0) := by
  dsimp only [W24]; after_results

/-- The second result is the reshaped masked temperature. -/
theorem W24_heat (c : Dev nD) :
    W24 m ρ c (Proc.devRef .tc main_v59)
      = shapeCast S1x1x1024x2048 (W23 m ρ c (Proc.devRef .tc main_v47)) shapeCasts_S1024x2048_S1x1x1024x2048 := by
  dsimp only [W24]; after_results; rfl

/-- The first result is the sum of the two totals' quotients by 2^21. -/
theorem W24_loss (c : Dev nD) :
    W24 m ρ c (Proc.devRef .tc main_v58)
      = addf (Host.divf (shapeCast S_ (W23 m ρ c (Proc.devRef .tc main_v53_1)) shapeCasts_S1x1_S_) (constant S_ .f32 0x4A000000#32))
          (Host.divf (shapeCast S_ (W23 m ρ c (Proc.devRef .tc main_v53_2)) shapeCasts_S1x1_S_) (constant S_ .f32 0x4A000000#32)) := by
  dsimp only [W24]; after_results; rfl

/-- The arrays the main pass leaves: the codes, the two totals, and its untouched input. -/
theorem W23_codes (c : Dev nD) : W23 m ρ c (Proc.devRef .tc main_v53_0) = G8 (V22 m ρ) c :=
  (W23_arr m ρ c 8).trans (final8 (V22 m ρ) c)

theorem W23_totalE (c : Dev nD) : W23 m ρ c (Proc.devRef .tc main_v53_1) = resultE (V22 m ρ) c :=
  (W23_arr m ρ c 9).trans (finalE (V22 m ρ) c)

theorem W23_totalW (c : Dev nD) : W23 m ρ c (Proc.devRef .tc main_v53_2) = resultW (V22 m ρ) c :=
  (W23_arr m ρ c 10).trans (finalW (V22 m ρ) c)

theorem W23_heat (c : Dev nD) : W23 m ρ c (Proc.devRef .tc main_v47) = V22 m ρ c main_v47 :=
  (W23_arr m ρ c 0).trans ((dat1 (V22 m ρ) c).arrAt_in 0 rfl _)

end Cert.KernelIdeal.Tail

end
-- ==== Proof.LibKerTileFold.lean ====
import Mathlib.Data.EReal.Basic
import Mathlib.Algebra.BigOperators.Fin
import Mathlib.Tactic

/-!
# Sums accumulated tile by tile, with one term taken back

General facts about finite sums on the extended reals, used to read a column that a kernel carries across a row of
tiles: reset at the first tile, a tile's partial sum added at every tile, one distinguished term subtracted on one
tile. On the extended reals addition is commutative and associative without any finiteness, so the column ends at
the sum of all the partial sums plus the negated term; cancelling that term against its own copy inside the sum is the
one step that needs it finite.
-/

namespace Cert.LibTileFold

open Finset

/-- A column carried across rows of `n` tiles, at the positions below `M`. Position `t` is tile `t % n` of row `t / n`. At the
    first tile of a row the column restarts from `z + T`; at every other tile it gains `T`; on the tile `t % n = t / n` it also
    gains `N` (the negated distinguished term). Then at every position the column is `z` plus the partial sums so far plus,
    once the diagonal tile is passed, `N`. -/
theorem fold_tiles {n : ℕ} (hn : 0 < n) (M : ℕ) (z : EReal) (T : ℕ → ℕ → EReal) (N : ℕ → EReal) (acc : ℕ → EReal)
    (h0 : ∀ t, t < M → t % n = 0 → acc t = (z + T (t / n) 0) + (if t / n = t % n then N (t / n) else 0))
    (hs : ∀ t, t < M → t % n ≠ 0 → acc t = (acc (t - 1) + T (t / n) (t % n)) + (if t / n = t % n then N (t / n) else 0)) :
    ∀ t, t < M → acc t = (z + ∑ k ∈ range (t % n + 1), T (t / n) k) + (if t / n ≤ t % n then N (t / n) else 0) := by
  suffices H : ∀ q r, r < n → n * q + r < M → acc (n * q + r) = (z + ∑ k ∈ range (r + 1), T q k) + (if q ≤ r then N q else 0) by
    intro t ht
    have h := H (t / n) (t % n) (Nat.mod_lt t hn) (by rw [Nat.div_add_mod]; exact ht)
    rwa [Nat.div_add_mod] at h
  intro q r
  induction r with
  | zero =>
    intro _ hM
    have hd : (n * q + 0) / n = q := by rw [Nat.add_zero, Nat.mul_div_cancel_left q hn]
    have hm : (n * q + 0) % n = 0 := by rw [Nat.add_zero, Nat.mul_mod_right]
    rw [h0 _ hM hm, hd, hm]
    simp only [zero_add, range_one, sum_singleton, Nat.le_zero]
  | succ r ih =>
    intro hr hM
    have hr' : r < n := Nat.lt_of_succ_lt hr
    have hM' : n * q + r < M := Nat.lt_of_succ_lt hM
    have hd : (n * q + (r + 1)) / n = q := by rw [Nat.mul_add_div hn, Nat.div_eq_of_lt hr, Nat.add_zero]
    have hm : (n * q + (r + 1)) % n = r + 1 := by rw [Nat.mul_add_mod, Nat.mod_eq_of_lt hr]
    have hp : n * q + (r + 1) - 1 = n * q + r := rfl
    rw [hs _ hM (by rw [hm]; exact Nat.succ_ne_zero r), hd, hm, hp, ih hr' hM', sum_range_succ (fun k => T q k) (r + 1)]
    by_cases hq : q = r + 1
    · have h1 : ¬ q ≤ r := by omega
      have h2 : q ≤ r + 1 := by omega
      rw [if_neg h1, if_pos hq, if_pos h2, add_zero]
      ac_rfl
    · by_cases hle : q ≤ r
      · have h2 : q ≤ r + 1 := by omega
        rw [if_pos hle, if_neg hq, if_pos h2, add_zero]
        ac_rfl
      · have h2 : ¬ q ≤ r + 1 := by omega
        rw [if_neg hle, if_neg hq, if_neg h2, add_zero, add_zero, add_zero]
        ac_rfl

/-- A sum over `m` tiles of `n` is the sum over `m * n`, position `k` of tile `j` being `n * j + k`. -/
theorem sum_tiles {M : Type*} [AddCommMonoid M] (m n : ℕ) (f : ℕ → M) :
    ∑ j ∈ range m, ∑ k ∈ range n, f (n * j + k) = ∑ i ∈ range (m * n), f i := by
  induction m with
  | zero => simp
  | succ m ih =>
    rw [sum_range_succ, ih, Nat.succ_mul, sum_range_add, Nat.mul_comm m n]

/-- A finite term inside a sum cancels against its negation: the sum over all indices plus the negated term at `i` is
    the sum over the other indices. -/
theorem sum_add_neg_eq_sum_erase {ι : Type*} [DecidableEq ι] (s : Finset ι) (f : ι → EReal) {i : ι} (hi : i ∈ s)
    (r : ℝ) (hr : f i = (r : EReal)) : (∑ j ∈ s, f j) + -(f i) = ∑ j ∈ s.erase i, f j := by
  rw [← add_sum_erase s f hi, hr, add_comm ((r : EReal)) _, add_assoc]
  have : ((r : EReal)) + -((r : EReal)) = 0 := by
    rw [← EReal.coe_neg, ← EReal.coe_add, add_neg_cancel, EReal.coe_zero]
  rw [this, add_zero]

end Cert.LibTileFold
-- ==== Proof.KerTotal.lean ====
/-
  The idealized kernel's three results in the specification's terms, given what the main pass is entered with.

  The running totals are zero plus the block sums of the points so far; sixteen blocks of 64 rows are the 1024 rows,
  so after the last point each total is zero plus the sum of its squared residual over the whole grid. The host tail
  divides each by 2^21 and adds: the specification's loss. The second result is the masked temperature with two
  unit axes in front; the third the codes array.
-/
import proofs.«161081_j59665685676148_2_alg».proof.Proof.KerValue
import proofs.«161081_j59665685676148_2_alg».proof.Proof.KerTail
import proofs.«161081_j59665685676148_2_alg».proof.Proof.LibKerTileFold

set_option maxRecDepth 16384

noncomputable section

namespace Cert.KernelIdeal.Value

open Cert.KernelIdeal Cert.KernelIdeal.Gen Cert.KernelIdeal.Tile Cert.KernelIdeal.Acc Cert.KernelIdeal.Blocks
  Cert.KernelIdeal.Cell Cert.KernelIdeal.Sum Cert.KernelIdeal.Final Cert.KernelIdeal.Codes Cert.KernelIdeal.Tail
open Idealize.ShloMosaic Idealize.ShloMosaic.TcCoe Idealize.ShloMosaic.ValueIdx
open Finset

/-- A function on the grid's rows extended by zero to all naturals. -/
def ext (f : Fin 1024 → EReal) (i : ℕ) : EReal := if h : i < 1024 then f ⟨i, h⟩ else 0

theorem ext_row (f : Fin 1024 → EReal) (t : Fin cfg1.N) (p : Fin 64) : ext f (64 * t.val + p.val) = f (rowOf t p) := by
  have := t_lt t
  unfold ext
  rw [dif_pos (by omega)]

/-- Sixteen blocks of 64 rows are the 1024 rows. -/
theorem sum_blocks (f : Fin 1024 → EReal) :
    ∑ t ∈ range 16, ∑ p ∈ range 64, ext f (64 * t + p) = ∑ r : Fin 1024, f r := by
  rw [Cert.LibTileFold.sum_tiles 16 64 (ext f), show 16 * 64 = 1024 from rfl, ← Fin.sum_univ_eq_sum_range (ext f) 1024]
  exact Finset.sum_congr rfl fun r _ => by unfold ext; rw [dif_pos r.isLt]

variable {lay : Cert.Spec.S2.Idx → BitVec 32} {hini wc heat : Cert.Spec.S1.Idx → EReal} {flow : Cert.Spec.S2.Idx → EReal}
variable {V : (c : Dev nD) → (b : Ref sig .tc) → Buf (Elt Ideal) ((c : Thread nD τ).loc b)} {c : Dev nD}

/-- A grid row's sum of the squared energy residual, and of the squared water residual. -/
def rowE (lay : Cert.Spec.S2.Idx → BitVec 32) (hini wc heat : Cert.Spec.S1.Idx → EReal) (flow : Cert.Spec.S2.Idx → EReal)
    (r : Fin 1024) : EReal := ∑ q : Fin 2048, Cert.Spec.esq lay hini wc heat flow r q
def rowW (lay : Cert.Spec.S2.Idx → BitVec 32) (wc heat : Cert.Spec.S1.Idx → EReal) (r : Fin 1024) : EReal :=
  ∑ q : Fin 2048, Cert.Spec.wsq lay wc heat r q

theorem eAt_range (E : Entry lay hini wc heat flow V c) (t : Fin cfg1.N) (acc : Vec Ideal S1x1 .f32) :
    eAt V c t acc (ix2 0 0) = acc (ix2 0 0) + ∑ p ∈ range 64, ext (rowE lay hini wc heat flow) (64 * t.val + p) := by
  rw [eAt_apply E, ← Fin.sum_univ_eq_sum_range (fun p => ext (rowE lay hini wc heat flow) (64 * t.val + p)) 64]
  exact congrArg (acc (ix2 0 0) + ·) (Finset.sum_congr rfl fun p _ => (ext_row (rowE lay hini wc heat flow) t p).symm)

theorem wAt_range (E : Entry lay hini wc heat flow V c) (t : Fin cfg1.N) (acc : Vec Ideal S1x1 .f32) :
    wAt V c t acc (ix2 0 0) = acc (ix2 0 0) + ∑ p ∈ range 64, ext (rowW lay wc heat) (64 * t.val + p) := by
  rw [wAt_apply E, ← Fin.sum_univ_eq_sum_range (fun p => ext (rowW lay wc heat) (64 * t.val + p)) 64]
  exact congrArg (acc (ix2 0 0) + ·) (Finset.sum_congr rfl fun p _ => (ext_row (rowW lay wc heat) t p).symm)

/-- The zero the totals start from. -/
theorem zeroE : k1_pay3 (F := Ideal) (ix2 0 0) = 0 := by
  show Ideal.ofBits .f32 0x00000000#32 = 0
  exact Ideal.ofBits_zero_f32
theorem zeroW : k1_pay4 (F := Ideal) (ix2 0 0) = 0 := by
  show Ideal.ofBits .f32 0x00000000#32 = 0
  exact Ideal.ofBits_zero_f32

/-- The energy total after point `n`: zero plus the block sums of the points `0 … n`. -/
theorem chainE_apply (E : Entry lay hini wc heat flow V c) : ∀ (n : ℕ) (h : n < cfg1.N),
    chainE V c n h (ix2 0 0) = 0 + ∑ t ∈ range (n + 1), ∑ p ∈ range 64, ext (rowE lay hini wc heat flow) (64 * t + p)
  | 0, h => by
    show eAt V c ⟨0, h⟩ (k1_pay3 (F := Ideal)) (ix2 0 0) = _
    rw [eAt_range E, zeroE, Finset.sum_range_one]
  | n + 1, h => by
    show eAt V c ⟨n + 1, h⟩ (chainE V c n (Nat.lt_of_succ_lt h)) (ix2 0 0) = _
    rw [eAt_range E, chainE_apply E n, Finset.sum_range_succ _ (n + 1), add_assoc]

/-- The water total after point `n`. -/
theorem chainW_apply (E : Entry lay hini wc heat flow V c) : ∀ (n : ℕ) (h : n < cfg1.N),
    chainW V c n h (ix2 0 0) = 0 + ∑ t ∈ range (n + 1), ∑ p ∈ range 64, ext (rowW lay wc heat) (64 * t + p)
  | 0, h => by
    show wAt V c ⟨0, h⟩ (k1_pay4 (F := Ideal)) (ix2 0 0) = _
    rw [wAt_range E, zeroW, Finset.sum_range_one]
  | n + 1, h => by
    show wAt V c ⟨n + 1, h⟩ (chainW V c n (Nat.lt_of_succ_lt h)) (ix2 0 0) = _
    rw [wAt_range E, chainW_apply E n, Finset.sum_range_succ _ (n + 1), add_assoc]

/-- After the last point each total is zero plus its squared residual summed over the whole grid. -/
theorem totalE (E : Entry lay hini wc heat flow V c) :
    resultE V c (ix2 0 0) = 0 + ∑ r : Fin 1024, ∑ q : Fin 2048, Cert.Spec.esq lay hini wc heat flow r q := by
  show chainE V c 15 h15 (ix2 0 0) = _
  rw [chainE_apply E 15 h15, sum_blocks]
  rfl

theorem totalW (E : Entry lay hini wc heat flow V c) :
    resultW V c (ix2 0 0) = 0 + ∑ r : Fin 1024, ∑ q : Fin 2048, Cert.Spec.wsq lay wc heat r q := by
  show chainW V c 15 h15 (ix2 0 0) = _
  rw [chainW_apply E 15 h15, sum_blocks]
  rfl

/-- A one-element array cast to a scalar reads its element. -/
theorem scalar_cast (x : FVec Ideal S1x1 .f32) (j : S_.Idx) : shapeCast S_ x shapeCasts_S1x1_S_ j = x (ix2 0 0) :=
  shapeCast_apply x _ j (ix2 0 0) (by
    rw [Shape.rowMajor_val_two]
    have h1 : S_.numel = 1 := rfl
    have h2 := (S_.rowMajor j).isLt
    show 0 * 1 + 0 = (S_.rowMajor j).val
    omega)

/-- The grid with two unit axes in front reads the grid at the last two coordinates. -/
theorem grid_cast (x : S1024x2048.Idx → EReal) (j : S1x1x1024x2048.Idx) :
    shapeCast S1x1x1024x2048 x shapeCasts_S1024x2048_S1x1x1024x2048 j = x (ix2 (j 2) (j 3)) :=
  shapeCast_apply x _ j (ix2 (j 2) (j 3)) (by
    rw [Shape.rowMajor_val_two, Shape.rowMajor_val_four]
    have h0 : (j 0).val < 1 := (j 0).isLt
    have h1 : (j 1).val < 1 := (j 1).isLt
    show (j 2).val * 2048 + (j 3).val = (((j 0).val * 1 + (j 1).val) * 1024 + (j 2).val) * 2048 + (j 3).val
    omega)

section Results

variable (m : (ℓ : Loc nD τ sig) → Buf (Elt Ideal) ℓ) (ρ : Dev nD → PrngReg) (c : Dev nD)

/-- The first result is the specification's loss. -/
theorem loss_value (E : Entry lay hini wc heat flow (V22 m ρ) c) :
    (W24 m ρ c (Proc.devRef .tc main_v58) : S_.Idx → EReal) = Cert.Spec.out0 lay hini wc heat flow := by
  rw [W24_loss, W23_totalE, W23_totalW]
  funext j
  show Ideal.div (shapeCast S_ (resultE (V22 m ρ) c) shapeCasts_S1x1_S_ j) (Ideal.ofBits .f32 0x4A000000#32)
      + Ideal.div (shapeCast S_ (resultW (V22 m ρ) c) shapeCasts_S1x1_S_ j) (Ideal.ofBits .f32 0x4A000000#32) = _
  rw [scalar_cast, scalar_cast, totalE E, totalW E]
  rfl

/-- The second result is the masked temperature. -/
theorem heat_value (E : Entry lay hini wc heat flow (V22 m ρ) c) :
    (W24 m ρ c (Proc.devRef .tc main_v59) : S1x1x1024x2048.Idx → EReal) = Cert.Spec.out1 lay heat := by
  rw [W24_heat, W23_heat]
  funext j
  rw [grid_cast, E.hb]
  rfl

/-- The third result is the equation codes. -/
theorem codes_value (E : Entry lay hini wc heat flow (V22 m ρ) c) :
    (W24 m ρ c (Proc.devRef .tc main_v53_0) : S1024x2048.Idx → BitVec 32) = Cert.Spec.out2 lay := by
  rw [W24_codes, W23_codes]
  funext i
  show Cert.Spec.eqcode ((V22 m ρ c main_v36 : S1024x2048.Idx → BitVec 32) i) = _
  rw [E.b]
  rfl

end Results

end Cert.KernelIdeal.Value

end
-- ==== Proof.KerHostKeep.lean ====
/-
  The host stretches of the kernel's program, one by one: which buffers each writes, and that a buffer a
  stretch does not write holds after it what it held before.

  Every tensor value of the program has a buffer of its own, written by exactly one operation; so the contents
  of a buffer at a later boundary are the contents right after the stretch that wrote it.
-/
import proofs.«161081_j59665685676148_2_alg».proof.Proof.Gen.KernelIdeal.Frame

noncomputable section

namespace Cert.KernelIdeal.HostValue

open Cert.KernelIdeal Cert.KernelIdeal.Gen Idealize.ShloMosaic Idealize.ShloMosaic.TcCoe Idealize.SL.Sem Idealize.ShloMosaic.StableHlo

/-- The buffers stretch 0 writes. -/
abbrev wr0 : List (Ref sig .tc) := [main_v0, main_v1, main_v2, main_v3, main_v4, main_v5, main_v6, main_v7, main_v8, main_v9, main_v10, main_v11, main_v12, main_c, main_v13, main_v14, main_c_0, main_v15, main_v16, main_v17, main_c_1]
set_option maxRecDepth 16384 in
theorem wr0_sub : (hostOps0 : List (HloOp τ sig (Elt Ideal))).Forall fun op => op.writes ⊆ (wr0.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 0 does not write holds after it what it held before. -/
theorem keep0 (V : Valuation τ sig (Elt Ideal)) (r : Ref sig .tc) (h : r ∉ wr0) :
    after hostOps0 V (Proc.devRef .tc r) = V (Proc.devRef .tc r) :=
  after_of_writes_sub hostOps0 V wr0_sub h

/-- The buffers stretch 1 writes. -/
abbrev wr1 : List (Ref sig .tc) := [main_call0_v0, main_call0_v1, main_v18]
set_option maxRecDepth 16384 in
theorem wr1_sub : (hostOps0_1 : List (HloOp τ sig (Elt Ideal))).Forall fun op => op.writes ⊆ (wr1.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 1 does not write holds after it what it held before. -/
theorem keep1 (V : Valuation τ sig (Elt Ideal)) (r : Ref sig .tc) (h : r ∉ wr1) :
    after hostOps0_1 V (Proc.devRef .tc r) = V (Proc.devRef .tc r) :=
  after_of_writes_sub hostOps0_1 V wr1_sub h

/-- The buffers stretch 2 writes. -/
abbrev wr2 : List (Ref sig .tc) := [main_c_2, main_v19, main_v20, main_c_3, main_v21, main_v22, main_v23, main_c_4]
set_option maxRecDepth 16384 in
theorem wr2_sub : (hostOps0_2 : List (HloOp τ sig (Elt Ideal))).Forall fun op => op.writes ⊆ (wr2.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 2 does not write holds after it what it held before. -/
theorem keep2 (V : Valuation τ sig (Elt Ideal)) (r : Ref sig .tc) (h : r ∉ wr2) :
    after hostOps0_2 V (Proc.devRef .tc r) = V (Proc.devRef .tc r) :=
  after_of_writes_sub hostOps0_2 V wr2_sub h

/-- The buffers stretch 3 writes. -/
abbrev wr3 : List (Ref sig .tc) := [main_call1_v0, main_call1_v1, main_v24]
set_option maxRecDepth 16384 in
theorem wr3_sub : (hostOps0_3 : List (HloOp τ sig (Elt Ideal))).Forall fun op => op.writes ⊆ (wr3.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 3 does not write holds after it what it held before. -/
theorem keep3 (V : Valuation τ sig (Elt Ideal)) (r : Ref sig .tc) (h : r ∉ wr3) :
    after hostOps0_3 V (Proc.devRef .tc r) = V (Proc.devRef .tc r) :=
  after_of_writes_sub hostOps0_3 V wr3_sub h

/-- The buffers stretch 4 writes. -/
abbrev wr4 : List (Ref sig .tc) := [main_c_5, main_v25, main_v26, main_c_6]
set_option maxRecDepth 16384 in
theorem wr4_sub : (hostOps0_4 : List (HloOp τ sig (Elt Ideal))).Forall fun op => op.writes ⊆ (wr4.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 4 does not write holds after it what it held before. -/
theorem keep4 (V : Valuation τ sig (Elt Ideal)) (r : Ref sig .tc) (h : r ∉ wr4) :
    after hostOps0_4 V (Proc.devRef .tc r) = V (Proc.devRef .tc r) :=
  after_of_writes_sub hostOps0_4 V wr4_sub h

/-- The buffers stretch 5 writes. -/
abbrev wr5 : List (Ref sig .tc) := [main_call2_v0, main_call2_v1, main_v27]
set_option maxRecDepth 16384 in
theorem wr5_sub : (hostOps0_5 : List (HloOp τ sig (Elt Ideal))).Forall fun op => op.writes ⊆ (wr5.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 5 does not write holds after it what it held before. -/
theorem keep5 (V : Valuation τ sig (Elt Ideal)) (r : Ref sig .tc) (h : r ∉ wr5) :
    after hostOps0_5 V (Proc.devRef .tc r) = V (Proc.devRef .tc r) :=
  after_of_writes_sub hostOps0_5 V wr5_sub h

/-- The buffers stretch 6 writes. -/
abbrev wr6 : List (Ref sig .tc) := [main_c_7, main_v28, main_v29, main_c_8]
set_option maxRecDepth 16384 in
theorem wr6_sub : (hostOps0_6 : List (HloOp τ sig (Elt Ideal))).Forall fun op => op.writes ⊆ (wr6.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 6 does not write holds after it what it held before. -/
theorem keep6 (V : Valuation τ sig (Elt Ideal)) (r : Ref sig .tc) (h : r ∉ wr6) :
    after hostOps0_6 V (Proc.devRef .tc r) = V (Proc.devRef .tc r) :=
  after_of_writes_sub hostOps0_6 V wr6_sub h

/-- The buffers stretch 7 writes. -/
abbrev wr7 : List (Ref sig .tc) := [main_call3_v0, main_call3_v1, main_v30]
set_option maxRecDepth 16384 in
theorem wr7_sub : (hostOps0_7 : List (HloOp τ sig (Elt Ideal))).Forall fun op => op.writes ⊆ (wr7.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 7 does not write holds after it what it held before. -/
theorem keep7 (V : Valuation τ sig (Elt Ideal)) (r : Ref sig .tc) (h : r ∉ wr7) :
    after hostOps0_7 V (Proc.devRef .tc r) = V (Proc.devRef .tc r) :=
  after_of_writes_sub hostOps0_7 V wr7_sub h

/-- The buffers stretch 8 writes. -/
abbrev wr8 : List (Ref sig .tc) := [main_c_9, main_v31, main_v32, main_c_10]
set_option maxRecDepth 16384 in
theorem wr8_sub : (hostOps0_8 : List (HloOp τ sig (Elt Ideal))).Forall fun op => op.writes ⊆ (wr8.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 8 does not write holds after it what it held before. -/
theorem keep8 (V : Valuation τ sig (Elt Ideal)) (r : Ref sig .tc) (h : r ∉ wr8) :
    after hostOps0_8 V (Proc.devRef .tc r) = V (Proc.devRef .tc r) :=
  after_of_writes_sub hostOps0_8 V wr8_sub h

/-- The buffers stretch 9 writes. -/
abbrev wr9 : List (Ref sig .tc) := [main_call4_v0, main_call4_v1, main_v33]
set_option maxRecDepth 16384 in
theorem wr9_sub : (hostOps0_9 : List (HloOp τ sig (Elt Ideal))).Forall fun op => op.writes ⊆ (wr9.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 9 does not write holds after it what it held before. -/
theorem keep9 (V : Valuation τ sig (Elt Ideal)) (r : Ref sig .tc) (h : r ∉ wr9) :
    after hostOps0_9 V (Proc.devRef .tc r) = V (Proc.devRef .tc r) :=
  after_of_writes_sub hostOps0_9 V wr9_sub h

/-- The buffers stretch 10 writes. -/
abbrev wr10 : List (Ref sig .tc) := [main_c_11, main_v34, main_v35, main_c_12]
set_option maxRecDepth 16384 in
theorem wr10_sub : (hostOps0_10 : List (HloOp τ sig (Elt Ideal))).Forall fun op => op.writes ⊆ (wr10.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 10 does not write holds after it what it held before. -/
theorem keep10 (V : Valuation τ sig (Elt Ideal)) (r : Ref sig .tc) (h : r ∉ wr10) :
    after hostOps0_10 V (Proc.devRef .tc r) = V (Proc.devRef .tc r) :=
  after_of_writes_sub hostOps0_10 V wr10_sub h

/-- The buffers stretch 11 writes. -/
abbrev wr11 : List (Ref sig .tc) := [main_call5_v0, main_call5_v1, main_v36]
set_option maxRecDepth 16384 in
theorem wr11_sub : (hostOps0_11 : List (HloOp τ sig (Elt Ideal))).Forall fun op => op.writes ⊆ (wr11.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 11 does not write holds after it what it held before. -/
theorem keep11 (V : Valuation τ sig (Elt Ideal)) (r : Ref sig .tc) (h : r ∉ wr11) :
    after hostOps0_11 V (Proc.devRef .tc r) = V (Proc.devRef .tc r) :=
  after_of_writes_sub hostOps0_11 V wr11_sub h

/-- The buffers stretch 12 writes. -/
abbrev wr12 : List (Ref sig .tc) := [main_v37, main_c_13, main_v38, main_v39, main_cst]
set_option maxRecDepth 16384 in
theorem wr12_sub : (hostOps0_12 : List (HloOp τ sig (Elt Ideal))).Forall fun op => op.writes ⊆ (wr12.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 12 does not write holds after it what it held before. -/
theorem keep12 (V : Valuation τ sig (Elt Ideal)) (r : Ref sig .tc) (h : r ∉ wr12) :
    after hostOps0_12 V (Proc.devRef .tc r) = V (Proc.devRef .tc r) :=
  after_of_writes_sub hostOps0_12 V wr12_sub h

/-- The buffers stretch 13 writes. -/
abbrev wr13 : List (Ref sig .tc) := [main_call6_v0, main_call6_v1, main_v40]
set_option maxRecDepth 16384 in
theorem wr13_sub : (hostOps0_13 : List (HloOp τ sig (Elt Ideal))).Forall fun op => op.writes ⊆ (wr13.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 13 does not write holds after it what it held before. -/
theorem keep13 (V : Valuation τ sig (Elt Ideal)) (r : Ref sig .tc) (h : r ∉ wr13) :
    after hostOps0_13 V (Proc.devRef .tc r) = V (Proc.devRef .tc r) :=
  after_of_writes_sub hostOps0_13 V wr13_sub h

/-- The buffers stretch 14 writes. -/
abbrev wr14 : List (Ref sig .tc) := [main_c_14, main_v41, main_v42, main_cst_15]
set_option maxRecDepth 16384 in
theorem wr14_sub : (hostOps0_14 : List (HloOp τ sig (Elt Ideal))).Forall fun op => op.writes ⊆ (wr14.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 14 does not write holds after it what it held before. -/
theorem keep14 (V : Valuation τ sig (Elt Ideal)) (r : Ref sig .tc) (h : r ∉ wr14) :
    after hostOps0_14 V (Proc.devRef .tc r) = V (Proc.devRef .tc r) :=
  after_of_writes_sub hostOps0_14 V wr14_sub h

/-- The buffers stretch 15 writes. -/
abbrev wr15 : List (Ref sig .tc) := [main_call7_v0, main_call7_v1, main_v43]
set_option maxRecDepth 16384 in
theorem wr15_sub : (hostOps0_15 : List (HloOp τ sig (Elt Ideal))).Forall fun op => op.writes ⊆ (wr15.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 15 does not write holds after it what it held before. -/
theorem keep15 (V : Valuation τ sig (Elt Ideal)) (r : Ref sig .tc) (h : r ∉ wr15) :
    after hostOps0_15 V (Proc.devRef .tc r) = V (Proc.devRef .tc r) :=
  after_of_writes_sub hostOps0_15 V wr15_sub h

/-- The buffers stretch 16 writes. -/
abbrev wr16 : List (Ref sig .tc) := [main_c_16, main_v44, main_v45, main_v46, main_v47, main_c_17]
set_option maxRecDepth 16384 in
theorem wr16_sub : (hostOps0_16 : List (HloOp τ sig (Elt Ideal))).Forall fun op => op.writes ⊆ (wr16.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 16 does not write holds after it what it held before. -/
theorem keep16 (V : Valuation τ sig (Elt Ideal)) (r : Ref sig .tc) (h : r ∉ wr16) :
    after hostOps0_16 V (Proc.devRef .tc r) = V (Proc.devRef .tc r) :=
  after_of_writes_sub hostOps0_16 V wr16_sub h

/-- The buffers stretch 17 writes. -/
abbrev wr17 : List (Ref sig .tc) := [main_call8_v0, main_call8_v1, main_call8_v2, main_call8_v3, main_call8_v4, main_call8_v5, main_call8_v6, main_call8_v7, main_call8_v8, main_call8_v9, main_call8_v10, main_call8_v11, main_call8_v12, main_call8_v13, main_call8_v14, main_v48]
set_option maxRecDepth 16384 in
theorem wr17_sub : (hostOps0_17 : List (HloOp τ sig (Elt Ideal))).Forall fun op => op.writes ⊆ (wr17.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 17 does not write holds after it what it held before. -/
theorem keep17 (V : Valuation τ sig (Elt Ideal)) (r : Ref sig .tc) (h : r ∉ wr17) :
    after hostOps0_17 V (Proc.devRef .tc r) = V (Proc.devRef .tc r) :=
  after_of_writes_sub hostOps0_17 V wr17_sub h

/-- The buffers stretch 18 writes. -/
abbrev wr18 : List (Ref sig .tc) := [main_c_18]
set_option maxRecDepth 16384 in
theorem wr18_sub : (hostOps0_18 : List (HloOp τ sig (Elt Ideal))).Forall fun op => op.writes ⊆ (wr18.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 18 does not write holds after it what it held before. -/
theorem keep18 (V : Valuation τ sig (Elt Ideal)) (r : Ref sig .tc) (h : r ∉ wr18) :
    after hostOps0_18 V (Proc.devRef .tc r) = V (Proc.devRef .tc r) :=
  after_of_writes_sub hostOps0_18 V wr18_sub h

/-- The buffers stretch 19 writes. -/
abbrev wr19 : List (Ref sig .tc) := [main_call9_v0, main_v49]
set_option maxRecDepth 16384 in
theorem wr19_sub : (hostOps0_19 : List (HloOp τ sig (Elt Ideal))).Forall fun op => op.writes ⊆ (wr19.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 19 does not write holds after it what it held before. -/
theorem keep19 (V : Valuation τ sig (Elt Ideal)) (r : Ref sig .tc) (h : r ∉ wr19) :
    after hostOps0_19 V (Proc.devRef .tc r) = V (Proc.devRef .tc r) :=
  after_of_writes_sub hostOps0_19 V wr19_sub h

/-- The buffers stretch 20 writes. -/
abbrev wr20 : List (Ref sig .tc) := [main_cst_19, main_v51, main_v52]
set_option maxRecDepth 16384 in
theorem wr20_sub : (hostOps1 : List (HloOp τ sig (Elt Ideal))).Forall fun op => op.writes ⊆ (wr20.map (Proc.devRef (τ := τ) .tc)).toFinset := by
  simp only [List.Forall]
  repeat' constructor
  all_goals (simp only [nullary_writes, unary_writes, binary_writes, ternary_writes, quaternary_writes, reshape_writes, Finset.singleton_subset_iff, List.mem_toFinset]; exact List.mem_map_of_mem (by decide))
/-- A buffer stretch 20 does not write holds after it what it held before. -/
theorem keep20 (V : Valuation τ sig (Elt Ideal)) (r : Ref sig .tc) (h : r ∉ wr20) :
    after hostOps1 V (Proc.devRef .tc r) = V (Proc.devRef .tc r) :=
  after_of_writes_sub hostOps1 V wr20_sub h

end Cert.KernelIdeal.HostValue

end
-- ==== Proof.KerHostWalk.lean ====
import proofs.«161081_j59665685676148_2_alg».proof.Proof.KerHostKeep
import Idealize.ShloMosaic.Lib.ValueIdx

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## From a later stretch up to the first region -/

/-- The buffers written from stretch 19 on, before the first region. -/
abbrev wrFrom19 : List (Ref sig .tc) := wr19
theorem up19 (r : Ref sig .tc) (h : r ∉ wrFrom19) : W20 m ρ c (Proc.devRef .tc r) = W19 m ρ c (Proc.devRef .tc r) :=
  keep19 _ r h
/-- The buffers written from stretch 18 on, before the first region. -/
abbrev wrFrom18 : List (Ref sig .tc) := wr18 ++ wrFrom19
theorem up18 (r : Ref sig .tc) (h : r ∉ wrFrom18) : W20 m ρ c (Proc.devRef .tc r) = W18 m ρ c (Proc.devRef .tc r) :=
  (up19 m ρ c r fun hm => h (List.mem_append_right _ hm)).trans (keep18 _ r fun hm => h (List.mem_append_left _ hm))
/-- The buffers written from stretch 17 on, before the first region. -/
abbrev wrFrom17 : List (Ref sig .tc) := wr17 ++ wrFrom18
theorem up17 (r : Ref sig .tc) (h : r ∉ wrFrom17) : W20 m ρ c (Proc.devRef .tc r) = W17 m ρ c (Proc.devRef .tc r) :=
  (up18 m ρ c r fun hm => h (List.mem_append_right _ hm)).trans (keep17 _ r fun hm => h (List.mem_append_left _ hm))
/-- The buffers written from stretch 16 on, before the first region. -/
abbrev wrFrom16 : List (Ref sig .tc) := wr16 ++ wrFrom17
theorem up16 (r : Ref sig .tc) (h : r ∉ wrFrom16) : W20 m ρ c (Proc.devRef .tc r) = W16 m ρ c (Proc.devRef .tc r) :=
  (up17 m ρ c r fun hm => h (List.mem_append_right _ hm)).trans (keep16 _ r fun hm => h (List.mem_append_left _ hm))
/-- The buffers written from stretch 15 on, before the first region. -/
abbrev wrFrom15 : List (Ref sig .tc) := wr15 ++ wrFrom16
theorem up15 (r : Ref sig .tc) (h : r ∉ wrFrom15) : W20 m ρ c (Proc.devRef .tc r) = W15 m ρ c (Proc.devRef .tc r) :=
  (up16 m ρ c r fun hm => h (List.mem_append_right _ hm)).trans (keep15 _ r fun hm => h (List.mem_append_left _ hm))
/-- The buffers written from stretch 14 on, before the first region. -/
abbrev wrFrom14 : List (Ref sig .tc) := wr14 ++ wrFrom15
theorem up14 (r : Ref sig .tc) (h : r ∉ wrFrom14) : W20 m ρ c (Proc.devRef .tc r) = W14 m ρ c (Proc.devRef .tc r) :=
  (up15 m ρ c r fun hm => h (List.mem_append_right _ hm)).trans (keep14 _ r fun hm => h (List.mem_append_left _ hm))
/-- The buffers written from stretch 13 on, before the first region. -/
abbrev wrFrom13 : List (Ref sig .tc) := wr13 ++ wrFrom14
theorem up13 (r : Ref sig .tc) (h : r ∉ wrFrom13) : W20 m ρ c (Proc.devRef .tc r) = W13 m ρ c (Proc.devRef .tc r) :=
  (up14 m ρ c r fun hm => h (List.mem_append_right _ hm)).trans (keep13 _ r fun hm => h (List.mem_append_left _ hm))
/-- The buffers written from stretch 12 on, before the first region. -/
abbrev wrFrom12 : List (Ref sig .tc) := wr12 ++ wrFrom13
theorem up12 (r : Ref sig .tc) (h : r ∉ wrFrom12) : W20 m ρ c (Proc.devRef .tc r) = W12 m ρ c (Proc.devRef .tc r) :=
  (up13 m ρ c r fun hm => h (List.mem_append_right _ hm)).trans (keep12 _ r fun hm => h (List.mem_append_left _ hm))
/-- The buffers written from stretch 11 on, before the first region. -/
abbrev wrFrom11 : List (Ref sig .tc) := wr11 ++ wrFrom12
theorem up11 (r : Ref sig .tc) (h : r ∉ wrFrom11) : W20 m ρ c (Proc.devRef .tc r) = W11 m ρ c (Proc.devRef .tc r) :=
  (up12 m ρ c r fun hm => h (List.mem_append_right _ hm)).trans (keep11 _ r fun hm => h (List.mem_append_left _ hm))
/-- The buffers written from stretch 10 on, before the first region. -/
abbrev wrFrom10 : List (Ref sig .tc) := wr10 ++ wrFrom11
theorem up10 (r : Ref sig .tc) (h : r ∉ wrFrom10) : W20 m ρ c (Proc.devRef .tc r) = W10 m ρ c (Proc.devRef .tc r) :=
  (up11 m ρ c r fun hm => h (List.mem_append_right _ hm)).trans (keep10 _ r fun hm => h (List.mem_append_left _ hm))
/-- The buffers written from stretch 9 on, before the first region. -/
abbrev wrFrom9 : List (Ref sig .tc) := wr9 ++ wrFrom10
theorem up9 (r : Ref sig .tc) (h : r ∉ wrFrom9) : W20 m ρ c (Proc.devRef .tc r) = W9 m ρ c (Proc.devRef .tc r) :=
  (up10 m ρ c r fun hm => h (List.mem_append_right _ hm)).trans (keep9 _ r fun hm => h (List.mem_append_left _ hm))
/-- The buffers written from stretch 8 on, before the first region. -/
abbrev wrFrom8 : List (Ref sig .tc) := wr8 ++ wrFrom9
theorem up8 (r : Ref sig .tc) (h : r ∉ wrFrom8) : W20 m ρ c (Proc.devRef .tc r) = W8 m ρ c (Proc.devRef .tc r) :=
  (up9 m ρ c r fun hm => h (List.mem_append_right _ hm)).trans (keep8 _ r fun hm => h (List.mem_append_left _ hm))
/-- The buffers written from stretch 7 on, before the first region. -/
abbrev wrFrom7 : List (Ref sig .tc) := wr7 ++ wrFrom8
theorem up7 (r : Ref sig .tc) (h : r ∉ wrFrom7) : W20 m ρ c (Proc.devRef .tc r) = W7 m ρ c (Proc.devRef .tc r) :=
  (up8 m ρ c r fun hm => h (List.mem_append_right _ hm)).trans (keep7 _ r fun hm => h (List.mem_append_left _ hm))
/-- The buffers written from stretch 6 on, before the first region. -/
abbrev wrFrom6 : List (Ref sig .tc) := wr6 ++ wrFrom7
theorem up6 (r : Ref sig .tc) (h : r ∉ wrFrom6) : W20 m ρ c (Proc.devRef .tc r) = W6 m ρ c (Proc.devRef .tc r) :=
  (up7 m ρ c r fun hm => h (List.mem_append_right _ hm)).trans (keep6 _ r fun hm => h (List.mem_append_left _ hm))
/-- The buffers written from stretch 5 on, before the first region. -/
abbrev wrFrom5 : List (Ref sig .tc) := wr5 ++ wrFrom6
theorem up5 (r : Ref sig .tc) (h : r ∉ wrFrom5) : W20 m ρ c (Proc.devRef .tc r) = W5 m ρ c (Proc.devRef .tc r) :=
  (up6 m ρ c r fun hm => h (List.mem_append_right _ hm)).trans (keep5 _ r fun hm => h (List.mem_append_left _ hm))
/-- The buffers written from stretch 4 on, before the first region. -/
abbrev wrFrom4 : List (Ref sig .tc) := wr4 ++ wrFrom5
theorem up4 (r : Ref sig .tc) (h : r ∉ wrFrom4) : W20 m ρ c (Proc.devRef .tc r) = W4 m ρ c (Proc.devRef .tc r) :=
  (up5 m ρ c r fun hm => h (List.mem_append_right _ hm)).trans (keep4 _ r fun hm => h (List.mem_append_left _ hm))
/-- The buffers written from stretch 3 on, before the first region. -/
abbrev wrFrom3 : List (Ref sig .tc) := wr3 ++ wrFrom4
theorem up3 (r : Ref sig .tc) (h : r ∉ wrFrom3) : W20 m ρ c (Proc.devRef .tc r) = W3 m ρ c (Proc.devRef .tc r) :=
  (up4 m ρ c r fun hm => h (List.mem_append_right _ hm)).trans (keep3 _ r fun hm => h (List.mem_append_left _ hm))
/-- The buffers written from stretch 2 on, before the first region. -/
abbrev wrFrom2 : List (Ref sig .tc) := wr2 ++ wrFrom3
theorem up2 (r : Ref sig .tc) (h : r ∉ wrFrom2) : W20 m ρ c (Proc.devRef .tc r) = W2 m ρ c (Proc.devRef .tc r) :=
  (up3 m ρ c r fun hm => h (List.mem_append_right _ hm)).trans (keep2 _ r fun hm => h (List.mem_append_left _ hm))
/-- The buffers written from stretch 1 on, before the first region. -/
abbrev wrFrom1 : List (Ref sig .tc) := wr1 ++ wrFrom2
theorem up1 (r : Ref sig .tc) (h : r ∉ wrFrom1) : W20 m ρ c (Proc.devRef .tc r) = W1 m ρ c (Proc.devRef .tc r) :=
  (up2 m ρ c r fun hm => h (List.mem_append_right _ hm)).trans (keep1 _ r fun hm => h (List.mem_append_left _ hm))

/-! ## From the first stretch down to a later one -/

/-- The buffers written from stretch 1 up to stretch 1. -/
abbrev wrTo2 : List (Ref sig .tc) := wr1
theorem dn2 (r : Ref sig .tc) (h : r ∉ wrTo2) : W2 m ρ c (Proc.devRef .tc r) = W1 m ρ c (Proc.devRef .tc r) :=
  keep1 _ r h
/-- The buffers written from stretch 1 up to stretch 2. -/
abbrev wrTo3 : List (Ref sig .tc) := wrTo2 ++ wr2
theorem dn3 (r : Ref sig .tc) (h : r ∉ wrTo3) : W3 m ρ c (Proc.devRef .tc r) = W1 m ρ c (Proc.devRef .tc r) :=
  (keep2 _ r fun hm => h (List.mem_append_right _ hm)).trans (dn2 m ρ c r fun hm => h (List.mem_append_left _ hm))
/-- The buffers written from stretch 1 up to stretch 3. -/
abbrev wrTo4 : List (Ref sig .tc) := wrTo3 ++ wr3
theorem dn4 (r : Ref sig .tc) (h : r ∉ wrTo4) : W4 m ρ c (Proc.devRef .tc r) = W1 m ρ c (Proc.devRef .tc r) :=
  (keep3 _ r fun hm => h (List.mem_append_right _ hm)).trans (dn3 m ρ c r fun hm => h (List.mem_append_left _ hm))
/-- The buffers written from stretch 1 up to stretch 4. -/
abbrev wrTo5 : List (Ref sig .tc) := wrTo4 ++ wr4
theorem dn5 (r : Ref sig .tc) (h : r ∉ wrTo5) : W5 m ρ c (Proc.devRef .tc r) = W1 m ρ c (Proc.devRef .tc r) :=
  (keep4 _ r fun hm => h (List.mem_append_right _ hm)).trans (dn4 m ρ c r fun hm => h (List.mem_append_left _ hm))
/-- The buffers written from stretch 1 up to stretch 5. -/
abbrev wrTo6 : List (Ref sig .tc) := wrTo5 ++ wr5
theorem dn6 (r : Ref sig .tc) (h : r ∉ wrTo6) : W6 m ρ c (Proc.devRef .tc r) = W1 m ρ c (Proc.devRef .tc r) :=
  (keep5 _ r fun hm => h (List.mem_append_right _ hm)).trans (dn5 m ρ c r fun hm => h (List.mem_append_left _ hm))
/-- The buffers written from stretch 1 up to stretch 6. -/
abbrev wrTo7 : List (Ref sig .tc) := wrTo6 ++ wr6
theorem dn7 (r : Ref sig .tc) (h : r ∉ wrTo7) : W7 m ρ c (Proc.devRef .tc r) = W1 m ρ c (Proc.devRef .tc r) :=
  (keep6 _ r fun hm => h (List.mem_append_right _ hm)).trans (dn6 m ρ c r fun hm => h (List.mem_append_left _ hm))
/-- The buffers written from stretch 1 up to stretch 7. -/
abbrev wrTo8 : List (Ref sig .tc) := wrTo7 ++ wr7
theorem dn8 (r : Ref sig .tc) (h : r ∉ wrTo8) : W8 m ρ c (Proc.devRef .tc r) = W1 m ρ c (Proc.devRef .tc r) :=
  (keep7 _ r fun hm => h (List.mem_append_right _ hm)).trans (dn7 m ρ c r fun hm => h (List.mem_append_left _ hm))
/-- The buffers written from stretch 1 up to stretch 8. -/
abbrev wrTo9 : List (Ref sig .tc) := wrTo8 ++ wr8
theorem dn9 (r : Ref sig .tc) (h : r ∉ wrTo9) : W9 m ρ c (Proc.devRef .tc r) = W1 m ρ c (Proc.devRef .tc r) :=
  (keep8 _ r fun hm => h (List.mem_append_right _ hm)).trans (dn8 m ρ c r fun hm => h (List.mem_append_left _ hm))
/-- The buffers written from stretch 1 up to stretch 9. -/
abbrev wrTo10 : List (Ref sig .tc) := wrTo9 ++ wr9
theorem dn10 (r : Ref sig .tc) (h : r ∉ wrTo10) : W10 m ρ c (Proc.devRef .tc r) = W1 m ρ c (Proc.devRef .tc r) :=
  (keep9 _ r fun hm => h (List.mem_append_right _ hm)).trans (dn9 m ρ c r fun hm => h (List.mem_append_left _ hm))
/-- The buffers written from stretch 1 up to stretch 10. -/
abbrev wrTo11 : List (Ref sig .tc) := wrTo10 ++ wr10
theorem dn11 (r : Ref sig .tc) (h : r ∉ wrTo11) : W11 m ρ c (Proc.devRef .tc r) = W1 m ρ c (Proc.devRef .tc r) :=
  (keep10 _ r fun hm => h (List.mem_append_right _ hm)).trans (dn10 m ρ c r fun hm => h (List.mem_append_left _ hm))
/-- The buffers written from stretch 1 up to stretch 11. -/
abbrev wrTo12 : List (Ref sig .tc) := wrTo11 ++ wr11
theorem dn12 (r : Ref sig .tc) (h : r ∉ wrTo12) : W12 m ρ c (Proc.devRef .tc r) = W1 m ρ c (Proc.devRef .tc r) :=
  (keep11 _ r fun hm => h (List.mem_append_right _ hm)).trans (dn11 m ρ c r fun hm => h (List.mem_append_left _ hm))
/-- The buffers written from stretch 1 up to stretch 12. -/
abbrev wrTo13 : List (Ref sig .tc) := wrTo12 ++ wr12
theorem dn13 (r : Ref sig .tc) (h : r ∉ wrTo13) : W13 m ρ c (Proc.devRef .tc r) = W1 m ρ c (Proc.devRef .tc r) :=
  (keep12 _ r fun hm => h (List.mem_append_right _ hm)).trans (dn12 m ρ c r fun hm => h (List.mem_append_left _ hm))
/-- The buffers written from stretch 1 up to stretch 13. -/
abbrev wrTo14 : List (Ref sig .tc) := wrTo13 ++ wr13
theorem dn14 (r : Ref sig .tc) (h : r ∉ wrTo14) : W14 m ρ c (Proc.devRef .tc r) = W1 m ρ c (Proc.devRef .tc r) :=
  (keep13 _ r fun hm => h (List.mem_append_right _ hm)).trans (dn13 m ρ c r fun hm => h (List.mem_append_left _ hm))
/-- The buffers written from stretch 1 up to stretch 14. -/
abbrev wrTo15 : List (Ref sig .tc) := wrTo14 ++ wr14
theorem dn15 (r : Ref sig .tc) (h : r ∉ wrTo15) : W15 m ρ c (Proc.devRef .tc r) = W1 m ρ c (Proc.devRef .tc r) :=
  (keep14 _ r fun hm => h (List.mem_append_right _ hm)).trans (dn14 m ρ c r fun hm => h (List.mem_append_left _ hm))
/-- The buffers written from stretch 1 up to stretch 15. -/
abbrev wrTo16 : List (Ref sig .tc) := wrTo15 ++ wr15
theorem dn16 (r : Ref sig .tc) (h : r ∉ wrTo16) : W16 m ρ c (Proc.devRef .tc r) = W1 m ρ c (Proc.devRef .tc r) :=
  (keep15 _ r fun hm => h (List.mem_append_right _ hm)).trans (dn15 m ρ c r fun hm => h (List.mem_append_left _ hm))
/-- The buffers written from stretch 1 up to stretch 16. -/
abbrev wrTo17 : List (Ref sig .tc) := wrTo16 ++ wr16
theorem dn17 (r : Ref sig .tc) (h : r ∉ wrTo17) : W17 m ρ c (Proc.devRef .tc r) = W1 m ρ c (Proc.devRef .tc r) :=
  (keep16 _ r fun hm => h (List.mem_append_right _ hm)).trans (dn16 m ρ c r fun hm => h (List.mem_append_left _ hm))

/-! ## Through the first region and the stretch after it -/

/-- A buffer that is no array of the first region's windows and that the stretch after the region does not write holds
    at the second region's entry what it held before the first. -/
theorem through (r : Ref sig .tc) (hreg : ∀ w, Pipeline.arrRef spec0 w ≠ r) (h : r ∉ wr20) :
    W22 m ρ c (Proc.devRef .tc r) = W20 m ρ c (Proc.devRef .tc r) :=
  (keep20 _ r h).trans (W21_of_ne m ρ c r hreg)

/-- An input array of the first region holds at its exit what it held at its entry. -/
theorem region0_in (w : Fin cfg0.W) (hin : (cfg0.win w).isOut = false) :
    W21 m ρ c (Proc.devRef .tc (Pipeline.arrRef spec0 w)) = W20 m ρ c (Proc.devRef .tc (Pipeline.arrRef spec0 w)) :=
  (W21_arr m ρ c w).trans (((dat0 (V20 m ρ) c).arrAt_in w hin _).trans (A_eq0 (V20 m ρ) c w))

end Cert.KernelIdeal.HostValue

end
-- ==== Proof.KerHostArgs.lean ====
/-
  The first host stretch: the argument arrays cut into channels and read as 1024 x 2048 grids, and the two
  coordinate grids. Each is stated at a cell (r, q); the four that the second region reads unchanged are then
  carried to its entry.
-/
import proofs.«161081_j59665685676148_2_alg».proof.Proof.KerHostWalk
import proofs.«161081_j59665685676148_2_alg».proof.Proof.Spec
import Idealize.ShloMosaic.Lib.ValueLayout
import Idealize.ShloMosaic.Lib.Pipeline.Value
import Idealize.ShloMosaic.Lib.IdealHost

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-! ## The five argument arrays -/

variable (m : (ℓ : Loc nD τ sig) → Buf (Elt Ideal) ℓ) (ρ : Dev nD → PrngReg) (c : Dev nD)

/-- The layout: two integer channels. -/
abbrev lay : Cert.Spec.S2.Idx → BitVec 32 := m ((c.tc : Thread nD τ).loc main_arg0)
/-- The initial temperature. -/
abbrev hini : Cert.Spec.S1.Idx → EReal := m ((c.tc : Thread nD τ).loc main_arg1)
/-- The water content. -/
abbrev wc : Cert.Spec.S1.Idx → EReal := m ((c.tc : Thread nD τ).loc main_arg2)
/-- The temperature. -/
abbrev heat : Cert.Spec.S1.Idx → EReal := m ((c.tc : Thread nD τ).loc main_arg3)
/-- The flow: two channels. -/
abbrev flow : Cert.Spec.S2.Idx → EReal := m ((c.tc : Thread nD τ).loc main_arg4)

/-! ## The first stretch at a cell, over any contents -/

section Stretch0
variable (V : Valuation τ sig (Elt Ideal)) (r : Fin 1024) (q : Fin 2048)

/-- A one-channel argument reshaped to the grid. -/
theorem s0_v4 : (after hostOps0 V (Proc.devRef .tc main_v4) : S1024x2048.Idx → EReal) (ix2 r q)
    = (V (Proc.devRef .tc main_arg1) : S1x1x1024x2048.Idx → EReal) (ix4 0 0 r q) := by
  have e : after hostOps0 V (Proc.devRef .tc main_v4)
      = shapeCast S1024x2048 (V (Proc.devRef .tc main_arg1)) shapeCasts_S1x1x1024x2048_S1024x2048 := by
    after_results; rfl
  rw [e]; exact shapeCast_11ab_ab_apply _ _ r q
theorem s0_v5 : (after hostOps0 V (Proc.devRef .tc main_v5) : S1024x2048.Idx → EReal) (ix2 r q)
    = (V (Proc.devRef .tc main_arg2) : S1x1x1024x2048.Idx → EReal) (ix4 0 0 r q) := by
  have e : after hostOps0 V (Proc.devRef .tc main_v5)
      = shapeCast S1024x2048 (V (Proc.devRef .tc main_arg2)) shapeCasts_S1x1x1024x2048_S1024x2048 := by
    after_results; rfl
  rw [e]; exact shapeCast_11ab_ab_apply _ _ r q
theorem s0_v6 : (after hostOps0 V (Proc.devRef .tc main_v6) : S1024x2048.Idx → EReal) (ix2 r q)
    = (V (Proc.devRef .tc main_arg3) : S1x1x1024x2048.Idx → EReal) (ix4 0 0 r q) := by
  have e : after hostOps0 V (Proc.devRef .tc main_v6)
      = shapeCast S1024x2048 (V (Proc.devRef .tc main_arg3)) shapeCasts_S1x1x1024x2048_S1024x2048 := by
    after_results; rfl
  rw [e]; exact shapeCast_11ab_ab_apply _ _ r q

/-- Channel 0 of a two-channel argument, reshaped to the grid. -/
theorem s0_v8 : (after hostOps0 V (Proc.devRef .tc main_v8) : S1024x2048.Idx → EReal) (ix2 r q)
    = (V (Proc.devRef .tc main_arg4) : S1x2x1024x2048.Idx → EReal) (ix4 0 0 r q) := by
  have e : after hostOps0 V (Proc.devRef .tc main_v8)
      = shapeCast S1024x2048 (extractStridedSlice S1x1x1024x2048 ![0, 0, 0, 0] (V (Proc.devRef .tc main_arg4))
          slices_S1x2x1024x2048_S1x1x1024x2048_0_0_0_0) shapeCasts_S1x1x1024x2048_S1024x2048 := by
    after_results; rfl
  rw [e]
  refine (shapeCast_11ab_ab_apply _ _ r q).trans ?_
  exact slice4_axis1_apply 0 _ _ (0 : Fin 1) (0 : Fin 1) r q (0 : Fin 2) rfl
/-- Channel 1 of a two-channel argument, reshaped to the grid. -/
theorem s0_v10 : (after hostOps0 V (Proc.devRef .tc main_v10) : S1024x2048.Idx → EReal) (ix2 r q)
    = (V (Proc.devRef .tc main_arg4) : S1x2x1024x2048.Idx → EReal) (ix4 0 1 r q) := by
  have e : after hostOps0 V (Proc.devRef .tc main_v10)
      = shapeCast S1024x2048 (extractStridedSlice S1x1x1024x2048 ![0, 1, 0, 0] (V (Proc.devRef .tc main_arg4))
          slices_S1x2x1024x2048_S1x1x1024x2048_0_1_0_0) shapeCasts_S1x1x1024x2048_S1024x2048 := by
    after_results; rfl
  rw [e]
  refine (shapeCast_11ab_ab_apply _ _ r q).trans ?_
  exact slice4_axis1_apply 1 _ _ (0 : Fin 1) (0 : Fin 1) r q (1 : Fin 2) rfl
theorem s0_v1 : (after hostOps0 V (Proc.devRef .tc main_v1) : S1024x2048.Idx → BitVec 32) (ix2 r q)
    = (V (Proc.devRef .tc main_arg0) : S1x2x1024x2048.Idx → BitVec 32) (ix4 0 0 r q) := by
  have e : after hostOps0 V (Proc.devRef .tc main_v1)
      = shapeCast S1024x2048 (extractStridedSlice S1x1x1024x2048 ![0, 0, 0, 0] (V (Proc.devRef .tc main_arg0))
          slices_S1x2x1024x2048_S1x1x1024x2048_0_0_0_0) shapeCasts_S1x1x1024x2048_S1024x2048 := by
    after_results; rfl
  rw [e]
  refine (shapeCast_11ab_ab_apply _ _ r q).trans ?_
  exact slice4_axis1_apply 0 _ _ (0 : Fin 1) (0 : Fin 1) r q (0 : Fin 2) rfl
theorem s0_v3 : (after hostOps0 V (Proc.devRef .tc main_v3) : S1024x2048.Idx → BitVec 32) (ix2 r q)
    = (V (Proc.devRef .tc main_arg0) : S1x2x1024x2048.Idx → BitVec 32) (ix4 0 1 r q) := by
  have e : after hostOps0 V (Proc.devRef .tc main_v3)
      = shapeCast S1024x2048 (extractStridedSlice S1x1x1024x2048 ![0, 1, 0, 0] (V (Proc.devRef .tc main_arg0))
          slices_S1x2x1024x2048_S1x1x1024x2048_0_1_0_0) shapeCasts_S1x1x1024x2048_S1024x2048 := by
    after_results; rfl
  rw [e]
  refine (shapeCast_11ab_ab_apply _ _ r q).trans ?_
  exact slice4_axis1_apply 1 _ _ (0 : Fin 1) (0 : Fin 1) r q (1 : Fin 2) rfl

/-- The row coordinate as a word. -/
theorem s0_v11 : (after hostOps0 V (Proc.devRef .tc main_v11) : S1024x2048.Idx → BitVec 32) (ix2 r q)
    = BitVec.ofNat 32 r.val := by
  have e : after hostOps0 V (Proc.devRef .tc main_v11) = iotaInDim S1024x2048 32 0 := by
    after_results
  rw [e]; rfl
/-- The column coordinate as a word. -/
theorem s0_v12 : (after hostOps0 V (Proc.devRef .tc main_v12) : S1024x2048.Idx → BitVec 32) (ix2 r q)
    = BitVec.ofNat 32 q.val := by
  have e : after hostOps0 V (Proc.devRef .tc main_v12) = iotaInDim S1024x2048 32 1 := by
    after_results
  rw [e]; rfl

end Stretch0

/-! ## After the first stretch, over the launch memory -/

section AtW1
variable (r : Fin 1024) (q : Fin 2048)

theorem W1_v4 : (W1 m ρ c (Proc.devRef .tc main_v4) : S1024x2048.Idx → EReal) (ix2 r q) = hini m c (ix4 0 0 r q) :=
  s0_v4 (W0 m ρ c) r q
theorem W1_v5 : (W1 m ρ c (Proc.devRef .tc main_v5) : S1024x2048.Idx → EReal) (ix2 r q) = wc m c (ix4 0 0 r q) :=
  s0_v5 (W0 m ρ c) r q
theorem W1_v6 : (W1 m ρ c (Proc.devRef .tc main_v6) : S1024x2048.Idx → EReal) (ix2 r q) = heat m c (ix4 0 0 r q) :=
  s0_v6 (W0 m ρ c) r q
theorem W1_v8 : (W1 m ρ c (Proc.devRef .tc main_v8) : S1024x2048.Idx → EReal) (ix2 r q) = flow m c (ix4 0 0 r q) :=
  s0_v8 (W0 m ρ c) r q
theorem W1_v10 : (W1 m ρ c (Proc.devRef .tc main_v10) : S1024x2048.Idx → EReal) (ix2 r q) = flow m c (ix4 0 1 r q) :=
  s0_v10 (W0 m ρ c) r q
theorem W1_v1 : (W1 m ρ c (Proc.devRef .tc main_v1) : S1024x2048.Idx → BitVec 32) (ix2 r q) = lay m c (ix4 0 0 r q) :=
  s0_v1 (W0 m ρ c) r q
theorem W1_v3 : (W1 m ρ c (Proc.devRef .tc main_v3) : S1024x2048.Idx → BitVec 32) (ix2 r q) = lay m c (ix4 0 1 r q) :=
  s0_v3 (W0 m ρ c) r q
theorem W1_v11 : (W1 m ρ c (Proc.devRef .tc main_v11) : S1024x2048.Idx → BitVec 32) (ix2 r q) = BitVec.ofNat 32 r.val :=
  s0_v11 (W0 m ρ c) r q
theorem W1_v12 : (W1 m ρ c (Proc.devRef .tc main_v12) : S1024x2048.Idx → BitVec 32) (ix2 r q) = BitVec.ofNat 32 q.val :=
  s0_v12 (W0 m ρ c) r q

end AtW1

/-! ## The four grids the second region reads as the first stretch left them -/

/-- An array stated cell by cell is the function of its two coordinates. -/
theorem funext_ix2 {n0 n1 : ℕ} {β : Type} (f : (⟨2, ![n0, n1]⟩ : Shape).Idx → β) (g : Fin n0 → Fin n1 → β)
    (h : ∀ r q, f (ix2 r q) = g r q) : f = fun j => g (j 0) (j 1) :=
  funext fun j => by rw [eq_ix2 j]; exact h (j 0) (j 1)

theorem entry1_v4 : (V22 m ρ c main_v4 : S1024x2048.Idx → EReal) = fun j => hini m c (ix4 0 0 (j 0) (j 1)) :=
  funext_ix2 _ (fun r q => hini m c (ix4 0 0 r q)) fun r q => by
    rw [show V22 m ρ c main_v4 = W1 m ρ c (Proc.devRef .tc main_v4) from
      (through m ρ c main_v4 (by decide) (by decide)).trans (up1 m ρ c main_v4 (by decide))]
    exact W1_v4 m ρ c r q
theorem entry1_v8 : (V22 m ρ c main_v8 : S1024x2048.Idx → EReal) = fun j => flow m c (ix4 0 0 (j 0) (j 1)) :=
  funext_ix2 _ (fun r q => flow m c (ix4 0 0 r q)) fun r q => by
    rw [show V22 m ρ c main_v8 = W1 m ρ c (Proc.devRef .tc main_v8) from
      (through m ρ c main_v8 (by decide) (by decide)).trans (up1 m ρ c main_v8 (by decide))]
    exact W1_v8 m ρ c r q
theorem entry1_v10 : (V22 m ρ c main_v10 : S1024x2048.Idx → EReal) = fun j => flow m c (ix4 0 1 (j 0) (j 1)) :=
  funext_ix2 _ (fun r q => flow m c (ix4 0 1 r q)) fun r q => by
    rw [show V22 m ρ c main_v10 = W1 m ρ c (Proc.devRef .tc main_v10) from
      (through m ρ c main_v10 (by decide) (by decide)).trans (up1 m ρ c main_v10 (by decide))]
    exact W1_v10 m ρ c r q
/-- The water content is also the first region's first input: the region leaves it as entered. -/
theorem W20_v5 : W20 m ρ c (Proc.devRef .tc main_v5) = W1 m ρ c (Proc.devRef .tc main_v5) := up1 m ρ c main_v5 (by decide)
theorem entry1_v5 : (V22 m ρ c main_v5 : S1024x2048.Idx → EReal) = fun j => wc m c (ix4 0 0 (j 0) (j 1)) :=
  funext_ix2 _ (fun r q => wc m c (ix4 0 0 r q)) fun r q => by
    rw [show V22 m ρ c main_v5 = W1 m ρ c (Proc.devRef .tc main_v5) from
      (keep20 _ main_v5 (by decide)).trans ((region0_in m ρ c 0 rfl).trans (W20_v5 m ρ c))]
    exact W1_v5 m ρ c r q

end Cert.KernelIdeal.HostValue

end
-- ==== Proof.LibKerWords.lean ====
/-
  Words at a cell: comparisons of small naturals read as 32-bit words, the conjunction and the selection on a
  decided bit, and a bit or the zero word as a float.
-/
import Idealize.ShloMosaic.PureOps.Ideal
import Idealize.ShloMosaic.Lib.ValueIdx
import Idealize.ShloMosaic.Lib.ValueLayout
import Idealize.ShloMosaic.Lib.IdealHost

noncomputable section

namespace Cert.KernelIdeal.HostValue

open Idealize.ShloMosaic Idealize.ShloMosaic.ValueIdx

/-- Equality of two small naturals read as 32-bit words. -/
theorem cmpi_eq_ofNat (n k : ℕ) (hn : n < 2 ^ 32) (hk : k < 2 ^ 32) :
    IntOp.cmpi .eq (BitVec.ofNat 32 n) (BitVec.ofNat 32 k) = if n = k then 1#1 else 0#1 := by
  unfold IntOp.cmpi
  by_cases h : n = k
  · subst h; simp
  · have : BitVec.ofNat 32 n ≠ BitVec.ofNat 32 k := fun e => h (by
      have := congrArg BitVec.toNat e
      simp only [BitVec.toNat_ofNat] at this
      rwa [Nat.mod_eq_of_lt hn, Nat.mod_eq_of_lt hk] at this)
    rw [if_neg h, beq_eq_false_iff_ne.mpr this]; rfl

theorem cmpi_ne_ofNat (x y : BitVec 32) :
    IntOp.cmpi .ne x y = if x ≠ y then 1#1 else 0#1 := by
  unfold IntOp.cmpi
  by_cases h : x = y
  · subst h; simp
  · rw [if_pos h, bne_iff_ne.mpr h]; rfl

/-- Signed "at least" of two naturals below 2^31 read as words. -/
theorem cmpi_sge_ofNat (n k : ℕ) (hn : n < 2 ^ 31) (hk : k < 2 ^ 31) :
    IntOp.cmpi .sge (BitVec.ofNat 32 n) (BitVec.ofNat 32 k) = if k ≤ n then 1#1 else 0#1 := by
  unfold IntOp.cmpi
  have e : (BitVec.ofNat 32 k).sle (BitVec.ofNat 32 n) = decide (k ≤ n) := by
    have h1 : (BitVec.ofNat 32 k).toInt = (k : Int) := by
      rw [BitVec.toInt_eq_toNat_cond, BitVec.toNat_ofNat, Nat.mod_eq_of_lt (by omega)]
      rw [if_pos (by omega)]
    have h2 : (BitVec.ofNat 32 n).toInt = (n : Int) := by
      rw [BitVec.toInt_eq_toNat_cond, BitVec.toNat_ofNat, Nat.mod_eq_of_lt (by omega)]
      rw [if_pos (by omega)]
    rw [BitVec.sle, h1, h2]; simp
  simp only [e]
  by_cases h : k ≤ n <;> simp [h]

theorem andi_bit (p q : Prop) [Decidable p] [Decidable q] :
    IntOp.andi (if p then 1#1 else 0#1) (if q then 1#1 else 0#1) = if p ∧ q then 1#1 else 0#1 := by
  unfold IntOp.andi
  by_cases hp : p <;> by_cases hq : q <;> simp [hp, hq]

theorem select_bit {α : Type} (p : Prop) [Decidable p] (a b : α) :
    Scalar.select (if p then 1#1 else 0#1) a b = if p then a else b := by
  by_cases hp : p
  · rw [if_pos hp, if_pos hp]; exact select_one a b
  · rw [if_neg hp, if_neg hp]; exact select_zero a b

theorem uitofp_bit (p : Prop) [Decidable p] :
    FloatOps.uitofp (F := Ideal) .f32 (if p then 1#1 else 0#1) = if p then (1 : EReal) else 0 := by
  by_cases hp : p
  · rw [if_pos hp, if_pos hp]; show ((BitVec.toNat (1#1) : ℝ) : EReal) = 1; simp
  · rw [if_neg hp, if_neg hp]; show ((BitVec.toNat (0#1) : ℝ) : EReal) = 0; simp

theorem sitofp_zero : FloatOps.sitofp (F := Ideal) .f32 (0#32) = (0 : EReal) := by
  show ((BitVec.toInt (0#32) : ℝ) : EReal) = 0; simp

end Cert.KernelIdeal.HostValue
end
-- ==== Proof.KerHostCode.lean ====
/-
  The boundary code: the second layout channel after six overwrites, each a selection on a condition read off
  the cell's coordinates. Each stretch is stated at a cell over any contents it starts from; then the stretches
  are composed from the launch memory.
-/
import proofs.«161081_j59665685676148_2_alg».proof.Proof.KerHostArgs
import proofs.«161081_j59665685676148_2_alg».proof.Proof.LibKerWords

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

/-! ## The stretches, each over any contents -/

theorem s0_v17 (V : Valuation τ sig (Elt Ideal)) (r : Fin 1024) (q : Fin 2048) :
    (after hostOps0 V (Proc.devRef .tc main_v17) : S1024x2048.Idx → BitVec 1) (ix2 r q) = if r.val = 1 ∧ 1 ≤ q.val then 1#1 else 0#1 := by
  have e : after hostOps0 V (Proc.devRef .tc main_v17)
      = andi (cmpi .eq (iotaInDim S1024x2048 32 0) (broadcastInDim S1024x2048 ![] bcast_S_S1024x2048 (constantI S_ 32 1#32)))
          (cmpi .sge (iotaInDim S1024x2048 32 1) (broadcastInDim S1024x2048 ![] bcast_S_S1024x2048 (constantI S_ 32 1#32))) := by
    after_results <;> rfl
  rw [e]
  show IntOp.andi (IntOp.cmpi .eq (BitVec.ofNat 32 r.val) (broadcastInDim S1024x2048 ![] bcast_S_S1024x2048 (constantI S_ 32 1#32) (ix2 r q)))
      (IntOp.cmpi .sge (BitVec.ofNat 32 q.val) (broadcastInDim S1024x2048 ![] bcast_S_S1024x2048 (constantI S_ 32 1#32) (ix2 r q))) = _
  simp only [broadcastInDim_scalar_apply]
  have := r.isLt; have := q.isLt
  show IntOp.andi (IntOp.cmpi .eq (BitVec.ofNat 32 r.val) (BitVec.ofNat 32 1)) (IntOp.cmpi .sge (BitVec.ofNat 32 q.val) (BitVec.ofNat 32 1)) = _
  rw [cmpi_eq_ofNat r.val 1 (by omega) (by norm_num), cmpi_sge_ofNat q.val 1 (by omega) (by norm_num), andi_bit]

theorem s0_c1 (V : Valuation τ sig (Elt Ideal)) :
    (after hostOps0 V (Proc.devRef .tc main_c_1) : S_.Idx → BitVec 32) ix0 = 0#32 := by
  have e : after hostOps0 V (Proc.devRef .tc main_c_1) = constantI S_ 32 0#32 := by after_results
  rw [e]; rfl

theorem s1_v18 (V : Valuation τ sig (Elt Ideal)) (r : Fin 1024) (q : Fin 2048) :
    (after hostOps0_1 V (Proc.devRef .tc main_v18) : S1024x2048.Idx → BitVec 32) (ix2 r q)
      = Scalar.select ((V (Proc.devRef .tc main_v17) : S1024x2048.Idx → BitVec 1) (ix2 r q)) ((V (Proc.devRef .tc main_c_1) : S_.Idx → BitVec 32) ix0)
          ((V (Proc.devRef .tc main_v3) : S1024x2048.Idx → BitVec 32) (ix2 r q)) := by
  have e : after hostOps0_1 V (Proc.devRef .tc main_v18)
      = select (V (Proc.devRef .tc main_v17)) (broadcastInDim S1024x2048 ![] bcast_S_S1024x2048 (V (Proc.devRef .tc main_c_1))) (V (Proc.devRef .tc main_v3)) := by
    after_results <;> rfl
  rw [e]
  show Scalar.select _ (broadcastInDim S1024x2048 ![] bcast_S_S1024x2048 (V (Proc.devRef .tc main_c_1)) (ix2 r q)) _ = _
  rw [broadcastInDim_scalar_apply]

theorem s2_v23 (V : Valuation τ sig (Elt Ideal)) (r : Fin 1024) (q : Fin 2048)
    (h11 : (V (Proc.devRef .tc main_v11) : S1024x2048.Idx → BitVec 32) (ix2 r q) = BitVec.ofNat 32 r.val)
    (h12 : (V (Proc.devRef .tc main_v12) : S1024x2048.Idx → BitVec 32) (ix2 r q) = BitVec.ofNat 32 q.val) :
    (after hostOps0_2 V (Proc.devRef .tc main_v23) : S1024x2048.Idx → BitVec 1) (ix2 r q) = if r.val = 1022 ∧ 1 ≤ q.val then 1#1 else 0#1 := by
  have e : after hostOps0_2 V (Proc.devRef .tc main_v23)
      = andi (cmpi .eq (V (Proc.devRef .tc main_v11)) (broadcastInDim S1024x2048 ![] bcast_S_S1024x2048 (constantI S_ 32 1022#32)))
          (cmpi .sge (V (Proc.devRef .tc main_v12)) (broadcastInDim S1024x2048 ![] bcast_S_S1024x2048 (constantI S_ 32 1#32))) := by
    after_results <;> rfl
  rw [e]
  show IntOp.andi (IntOp.cmpi .eq ((V (Proc.devRef .tc main_v11) : S1024x2048.Idx → BitVec 32) (ix2 r q)) (broadcastInDim S1024x2048 ![] bcast_S_S1024x2048 (constantI S_ 32 1022#32) (ix2 r q)))
      (IntOp.cmpi .sge ((V (Proc.devRef .tc main_v12) : S1024x2048.Idx → BitVec 32) (ix2 r q)) (broadcastInDim S1024x2048 ![] bcast_S_S1024x2048 (constantI S_ 32 1#32) (ix2 r q))) = _
  rw [h11, h12]
  simp only [broadcastInDim_scalar_apply]
  have := r.isLt; have := q.isLt
  show IntOp.andi (IntOp.cmpi .eq (BitVec.ofNat 32 r.val) (BitVec.ofNat 32 1022)) (IntOp.cmpi .sge (BitVec.ofNat 32 q.val) (BitVec.ofNat 32 1)) = _
  rw [cmpi_eq_ofNat r.val 1022 (by omega) (by norm_num), cmpi_sge_ofNat q.val 1 (by omega) (by norm_num), andi_bit]

theorem s2_c4 (V : Valuation τ sig (Elt Ideal)) :
    (after hostOps0_2 V (Proc.devRef .tc main_c_4) : S_.Idx → BitVec 32) ix0 = 0#32 := by
  have e : after hostOps0_2 V (Proc.devRef .tc main_c_4) = constantI S_ 32 0#32 := by after_results
  rw [e]; rfl

theorem s3_v24 (V : Valuation τ sig (Elt Ideal)) (r : Fin 1024) (q : Fin 2048) :
    (after hostOps0_3 V (Proc.devRef .tc main_v24) : S1024x2048.Idx → BitVec 32) (ix2 r q)
      = Scalar.select ((V (Proc.devRef .tc main_v23) : S1024x2048.Idx → BitVec 1) (ix2 r q)) ((V (Proc.devRef .tc main_c_4) : S_.Idx → BitVec 32) ix0)
          ((V (Proc.devRef .tc main_v18) : S1024x2048.Idx → BitVec 32) (ix2 r q)) := by
  have e : after hostOps0_3 V (Proc.devRef .tc main_v24)
      = select (V (Proc.devRef .tc main_v23)) (broadcastInDim S1024x2048 ![] bcast_S_S1024x2048 (V (Proc.devRef .tc main_c_4))) (V (Proc.devRef .tc main_v18)) := by
    after_results <;> rfl
  rw [e]
  show Scalar.select _ (broadcastInDim S1024x2048 ![] bcast_S_S1024x2048 (V (Proc.devRef .tc main_c_4)) (ix2 r q)) _ = _
  rw [broadcastInDim_scalar_apply]

theorem s4_v26 (V : Valuation τ sig (Elt Ideal)) (r : Fin 1024) (q : Fin 2048)
    (h : (V (Proc.devRef .tc main_v12) : S1024x2048.Idx → BitVec 32) (ix2 r q) = BitVec.ofNat 32 q.val) :
    (after hostOps0_4 V (Proc.devRef .tc main_v26) : S1024x2048.Idx → BitVec 1) (ix2 r q) = if q.val = 1 then 1#1 else 0#1 := by
  have e : after hostOps0_4 V (Proc.devRef .tc main_v26)
      = cmpi .eq (V (Proc.devRef .tc main_v12)) (broadcastInDim S1024x2048 ![] bcast_S_S1024x2048 (constantI S_ 32 1#32)) := by
    after_results <;> rfl
  rw [e]
  show IntOp.cmpi .eq ((V (Proc.devRef .tc main_v12) : S1024x2048.Idx → BitVec 32) (ix2 r q)) (broadcastInDim S1024x2048 ![] bcast_S_S1024x2048 (constantI S_ 32 1#32) (ix2 r q)) = _
  rw [h]
  simp only [broadcastInDim_scalar_apply]
  have := r.isLt; have := q.isLt
  exact cmpi_eq_ofNat q.val 1 (by omega) (by norm_num)

theorem s4_c6 (V : Valuation τ sig (Elt Ideal)) :
    (after hostOps0_4 V (Proc.devRef .tc main_c_6) : S_.Idx → BitVec 32) ix0 = 0#32 := by
  have e : after hostOps0_4 V (Proc.devRef .tc main_c_6) = constantI S_ 32 0#32 := by after_results
  rw [e]; rfl

theorem s5_v27 (V : Valuation τ sig (Elt Ideal)) (r : Fin 1024) (q : Fin 2048) :
    (after hostOps0_5 V (Proc.devRef .tc main_v27) : S1024x2048.Idx → BitVec 32) (ix2 r q)
      = Scalar.select ((V (Proc.devRef .tc main_v26) : S1024x2048.Idx → BitVec 1) (ix2 r q)) ((V (Proc.devRef .tc main_c_6) : S_.Idx → BitVec 32) ix0)
          ((V (Proc.devRef .tc main_v24) : S1024x2048.Idx → BitVec 32) (ix2 r q)) := by
  have e : after hostOps0_5 V (Proc.devRef .tc main_v27)
      = select (V (Proc.devRef .tc main_v26)) (broadcastInDim S1024x2048 ![] bcast_S_S1024x2048 (V (Proc.devRef .tc main_c_6))) (V (Proc.devRef .tc main_v24)) := by
    after_results <;> rfl
  rw [e]
  show Scalar.select _ (broadcastInDim S1024x2048 ![] bcast_S_S1024x2048 (V (Proc.devRef .tc main_c_6)) (ix2 r q)) _ = _
  rw [broadcastInDim_scalar_apply]

theorem s6_v29 (V : Valuation τ sig (Elt Ideal)) (r : Fin 1024) (q : Fin 2048)
    (h : (V (Proc.devRef .tc main_v12) : S1024x2048.Idx → BitVec 32) (ix2 r q) = BitVec.ofNat 32 q.val) :
    (after hostOps0_6 V (Proc.devRef .tc main_v29) : S1024x2048.Idx → BitVec 1) (ix2 r q) = if q.val = 2047 then 1#1 else 0#1 := by
  have e : after hostOps0_6 V (Proc.devRef .tc main_v29)
      = cmpi .eq (V (Proc.devRef .tc main_v12)) (broadcastInDim S1024x2048 ![] bcast_S_S1024x2048 (constantI S_ 32 2047#32)) := by
    after_results <;> rfl
  rw [e]
  show IntOp.cmpi .eq ((V (Proc.devRef .tc main_v12) : S1024x2048.Idx → BitVec 32) (ix2 r q)) (broadcastInDim S1024x2048 ![] bcast_S_S1024x2048 (constantI S_ 32 2047#32) (ix2 r q)) = _
  rw [h]
  simp only [broadcastInDim_scalar_apply]
  have := r.isLt; have := q.isLt
  exact cmpi_eq_ofNat q.val 2047 (by omega) (by norm_num)

theorem s6_c8 (V : Valuation τ sig (Elt Ideal)) :
    (after hostOps0_6 V (Proc.devRef .tc main_c_8) : S_.Idx → BitVec 32) ix0 = 3#32 := by
  have e : after hostOps0_6 V (Proc.devRef .tc main_c_8) = constantI S_ 32 3#32 := by after_results
  rw [e]; rfl

theorem s7_v30 (V : Valuation τ sig (Elt Ideal)) (r : Fin 1024) (q : Fin 2048) :
    (after hostOps0_7 V (Proc.devRef .tc main_v30) : S1024x2048.Idx → BitVec 32) (ix2 r q)
      = Scalar.select ((V (Proc.devRef .tc main_v29) : S1024x2048.Idx → BitVec 1) (ix2 r q)) ((V (Proc.devRef .tc main_c_8) : S_.Idx → BitVec 32) ix0)
          ((V (Proc.devRef .tc main_v27) : S1024x2048.Idx → BitVec 32) (ix2 r q)) := by
  have e : after hostOps0_7 V (Proc.devRef .tc main_v30)
      = select (V (Proc.devRef .tc main_v29)) (broadcastInDim S1024x2048 ![] bcast_S_S1024x2048 (V (Proc.devRef .tc main_c_8))) (V (Proc.devRef .tc main_v27)) := by
    after_results <;> rfl
  rw [e]
  show Scalar.select _ (broadcastInDim S1024x2048 ![] bcast_S_S1024x2048 (V (Proc.devRef .tc main_c_8)) (ix2 r q)) _ = _
  rw [broadcastInDim_scalar_apply]

theorem s8_v32 (V : Valuation τ sig (Elt Ideal)) (r : Fin 1024) (q : Fin 2048)
    (h : (V (Proc.devRef .tc main_v11) : S1024x2048.Idx → BitVec 32) (ix2 r q) = BitVec.ofNat 32 r.val) :
    (after hostOps0_8 V (Proc.devRef .tc main_v32) : S1024x2048.Idx → BitVec 1) (ix2 r q) = if r.val = 0 then 1#1 else 0#1 := by
  have e : after hostOps0_8 V (Proc.devRef .tc main_v32)
      = cmpi .eq (V (Proc.devRef .tc main_v11)) (broadcastInDim S1024x2048 ![] bcast_S_S1024x2048 (constantI S_ 32 0#32)) := by
    after_results <;> rfl
  rw [e]
  show IntOp.cmpi .eq ((V (Proc.devRef .tc main_v11) : S1024x2048.Idx → BitVec 32) (ix2 r q)) (broadcastInDim S1024x2048 ![] bcast_S_S1024x2048 (constantI S_ 32 0#32) (ix2 r q)) = _
  rw [h]
  simp only [broadcastInDim_scalar_apply]
  have := r.isLt; have := q.isLt
  exact cmpi_eq_ofNat r.val 0 (by omega) (by norm_num)

theorem s8_c10 (V : Valuation τ sig (Elt Ideal)) :
    (after hostOps0_8 V (Proc.devRef .tc main_c_10) : S_.Idx → BitVec 32) ix0 = 3#32 := by
  have e : after hostOps0_8 V (Proc.devRef .tc main_c_10) = constantI S_ 32 3#32 := by after_results
  rw [e]; rfl

theorem s9_v33 (V : Valuation τ sig (Elt Ideal)) (r : Fin 1024) (q : Fin 2048) :
    (after hostOps0_9 V (Proc.devRef .tc main_v33) : S1024x2048.Idx → BitVec 32) (ix2 r q)
      = Scalar.select ((V (Proc.devRef .tc main_v32) : S1024x2048.Idx → BitVec 1) (ix2 r q)) ((V (Proc.devRef .tc main_c_10) : S_.Idx → BitVec 32) ix0)
          ((V (Proc.devRef .tc main_v30) : S1024x2048.Idx → BitVec 32) (ix2 r q)) := by
  have e : after hostOps0_9 V (Proc.devRef .tc main_v33)
      = select (V (Proc.devRef .tc main_v32)) (broadcastInDim S1024x2048 ![] bcast_S_S1024x2048 (V (Proc.devRef .tc main_c_10))) (V (Proc.devRef .tc main_v30)) := by
    after_results <;> rfl
  rw [e]
  show Scalar.select _ (broadcastInDim S1024x2048 ![] bcast_S_S1024x2048 (V (Proc.devRef .tc main_c_10)) (ix2 r q)) _ = _
  rw [broadcastInDim_scalar_apply]

theorem s10_v35 (V : Valuation τ sig (Elt Ideal)) (r : Fin 1024) (q : Fin 2048)
    (h : (V (Proc.devRef .tc main_v11) : S1024x2048.Idx → BitVec 32) (ix2 r q) = BitVec.ofNat 32 r.val) :
    (after hostOps0_10 V (Proc.devRef .tc main_v35) : S1024x2048.Idx → BitVec 1) (ix2 r q) = if r.val = 1023 then 1#1 else 0#1 := by
  have e : after hostOps0_10 V (Proc.devRef .tc main_v35)
      = cmpi .eq (V (Proc.devRef .tc main_v11)) (broadcastInDim S1024x2048 ![] bcast_S_S1024x2048 (constantI S_ 32 1023#32)) := by
    after_results <;> rfl
  rw [e]
  show IntOp.cmpi .eq ((V (Proc.devRef .tc main_v11) : S1024x2048.Idx → BitVec 32) (ix2 r q)) (broadcastInDim S1024x2048 ![] bcast_S_S1024x2048 (constantI S_ 32 1023#32) (ix2 r q)) = _
  rw [h]
  simp only [broadcastInDim_scalar_apply]
  have := r.isLt; have := q.isLt
  exact cmpi_eq_ofNat r.val 1023 (by omega) (by norm_num)

theorem s10_c12 (V : Valuation τ sig (Elt Ideal)) :
    (after hostOps0_10 V (Proc.devRef .tc main_c_12) : S_.Idx → BitVec 32) ix0 = 3#32 := by
  have e : after hostOps0_10 V (Proc.devRef .tc main_c_12) = constantI S_ 32 3#32 := by after_results
  rw [e]; rfl

theorem s11_v36 (V : Valuation τ sig (Elt Ideal)) (r : Fin 1024) (q : Fin 2048) :
    (after hostOps0_11 V (Proc.devRef .tc main_v36) : S1024x2048.Idx → BitVec 32) (ix2 r q)
      = Scalar.select ((V (Proc.devRef .tc main_v35) : S1024x2048.Idx → BitVec 1) (ix2 r q)) ((V (Proc.devRef .tc main_c_12) : S_.Idx → BitVec 32) ix0)
          ((V (Proc.devRef .tc main_v33) : S1024x2048.Idx → BitVec 32) (ix2 r q)) := by
  have e : after hostOps0_11 V (Proc.devRef .tc main_v36)
      = select (V (Proc.devRef .tc main_v35)) (broadcastInDim S1024x2048 ![] bcast_S_S1024x2048 (V (Proc.devRef .tc main_c_12))) (V (Proc.devRef .tc main_v33)) := by
    after_results <;> rfl
  rw [e]
  show Scalar.select _ (broadcastInDim S1024x2048 ![] bcast_S_S1024x2048 (V (Proc.devRef .tc main_c_12)) (ix2 r q)) _ = _
  rw [broadcastInDim_scalar_apply]

end Cert.KernelIdeal.HostValue

end
-- ==== Proof.KerHostGeom.lean ====
/-
  The geometry (the first layout channel as a float, its first and last row overwritten by 1) and the masked
  temperature (the temperature times the bit "the code is not 1"): each stretch stated at a cell over any contents
  it starts from.
-/
import proofs.«161081_j59665685676148_2_alg».proof.Proof.KerHostArgs
import proofs.«161081_j59665685676148_2_alg».proof.Proof.LibKerWords

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

/-! ## The geometry's stretches -/

theorem s12_v37 (V : Valuation τ sig (Elt Ideal)) (r : Fin 1024) (q : Fin 2048) :
    (after hostOps0_12 V (Proc.devRef .tc main_v37) : S1024x2048.Idx → EReal) (ix2 r q)
      = FloatOps.sitofp (F := Ideal) .f32 ((V (Proc.devRef .tc main_v1) : S1024x2048.Idx → BitVec 32) (ix2 r q)) := by
  have e : after hostOps0_12 V (Proc.devRef .tc main_v37) = sitofp (F := Ideal) .f32 (V (Proc.devRef .tc main_v1)) := by
    after_results <;> rfl
  rw [e]; rfl
theorem s12_v39 (V : Valuation τ sig (Elt Ideal)) (r : Fin 1024) (q : Fin 2048)
    (h : (V (Proc.devRef .tc main_v11) : S1024x2048.Idx → BitVec 32) (ix2 r q) = BitVec.ofNat 32 r.val) :
    (after hostOps0_12 V (Proc.devRef .tc main_v39) : S1024x2048.Idx → BitVec 1) (ix2 r q) = if r.val = 0 then 1#1 else 0#1 := by
  have e : after hostOps0_12 V (Proc.devRef .tc main_v39)
      = cmpi .eq (V (Proc.devRef .tc main_v11)) (broadcastInDim S1024x2048 ![] bcast_S_S1024x2048 (constantI S_ 32 0#32)) := by
    after_results <;> rfl
  rw [e]
  show IntOp.cmpi .eq ((V (Proc.devRef .tc main_v11) : S1024x2048.Idx → BitVec 32) (ix2 r q)) (broadcastInDim S1024x2048 ![] bcast_S_S1024x2048 (constantI S_ 32 0#32) (ix2 r q)) = _
  rw [h]
  simp only [broadcastInDim_scalar_apply]
  have := r.isLt; have := q.isLt
  exact cmpi_eq_ofNat r.val 0 (by omega) (by norm_num)

theorem s12_cst (V : Valuation τ sig (Elt Ideal)) :
    (after hostOps0_12 V (Proc.devRef .tc main_cst) : S_.Idx → EReal) ix0 = Cert.Spec.lit 0x3F800000#32 := by
  have e : after hostOps0_12 V (Proc.devRef .tc main_cst) = constant (F := Ideal) S_ .f32 0x3F800000#32 := by after_results
  rw [e]; rfl

theorem s13_v40 (V : Valuation τ sig (Elt Ideal)) (r : Fin 1024) (q : Fin 2048) :
    (after hostOps0_13 V (Proc.devRef .tc main_v40) : S1024x2048.Idx → EReal) (ix2 r q)
      = Scalar.select ((V (Proc.devRef .tc main_v39) : S1024x2048.Idx → BitVec 1) (ix2 r q)) ((V (Proc.devRef .tc main_cst) : S_.Idx → EReal) ix0)
          ((V (Proc.devRef .tc main_v37) : S1024x2048.Idx → EReal) (ix2 r q)) := by
  have e : after hostOps0_13 V (Proc.devRef .tc main_v40)
      = select (V (Proc.devRef .tc main_v39)) (broadcastInDim S1024x2048 ![] bcast_S_S1024x2048 (V (Proc.devRef .tc main_cst))) (V (Proc.devRef .tc main_v37)) := by
    after_results <;> rfl
  rw [e]
  show Scalar.select _ (broadcastInDim S1024x2048 ![] bcast_S_S1024x2048 (V (Proc.devRef .tc main_cst)) (ix2 r q)) _ = _
  rw [broadcastInDim_scalar_apply]

theorem s14_v42 (V : Valuation τ sig (Elt Ideal)) (r : Fin 1024) (q : Fin 2048)
    (h : (V (Proc.devRef .tc main_v11) : S1024x2048.Idx → BitVec 32) (ix2 r q) = BitVec.ofNat 32 r.val) :
    (after hostOps0_14 V (Proc.devRef .tc main_v42) : S1024x2048.Idx → BitVec 1) (ix2 r q) = if r.val = 1023 then 1#1 else 0#1 := by
  have e : after hostOps0_14 V (Proc.devRef .tc main_v42)
      = cmpi .eq (V (Proc.devRef .tc main_v11)) (broadcastInDim S1024x2048 ![] bcast_S_S1024x2048 (constantI S_ 32 1023#32)) := by
    after_results <;> rfl
  rw [e]
  show IntOp.cmpi .eq ((V (Proc.devRef .tc main_v11) : S1024x2048.Idx → BitVec 32) (ix2 r q)) (broadcastInDim S1024x2048 ![] bcast_S_S1024x2048 (constantI S_ 32 1023#32) (ix2 r q)) = _
  rw [h]
  simp only [broadcastInDim_scalar_apply]
  have := r.isLt; have := q.isLt
  exact cmpi_eq_ofNat r.val 1023 (by omega) (by norm_num)

theorem s14_cst15 (V : Valuation τ sig (Elt Ideal)) :
    (after hostOps0_14 V (Proc.devRef .tc main_cst_15) : S_.Idx → EReal) ix0 = Cert.Spec.lit 0x3F800000#32 := by
  have e : after hostOps0_14 V (Proc.devRef .tc main_cst_15) = constant (F := Ideal) S_ .f32 0x3F800000#32 := by after_results
  rw [e]; rfl

theorem s15_v43 (V : Valuation τ sig (Elt Ideal)) (r : Fin 1024) (q : Fin 2048) :
    (after hostOps0_15 V (Proc.devRef .tc main_v43) : S1024x2048.Idx → EReal) (ix2 r q)
      = Scalar.select ((V (Proc.devRef .tc main_v42) : S1024x2048.Idx → BitVec 1) (ix2 r q)) ((V (Proc.devRef .tc main_cst_15) : S_.Idx → EReal) ix0)
          ((V (Proc.devRef .tc main_v40) : S1024x2048.Idx → EReal) (ix2 r q)) := by
  have e : after hostOps0_15 V (Proc.devRef .tc main_v43)
      = select (V (Proc.devRef .tc main_v42)) (broadcastInDim S1024x2048 ![] bcast_S_S1024x2048 (V (Proc.devRef .tc main_cst_15))) (V (Proc.devRef .tc main_v40)) := by
    after_results <;> rfl
  rw [e]
  show Scalar.select _ (broadcastInDim S1024x2048 ![] bcast_S_S1024x2048 (V (Proc.devRef .tc main_cst_15)) (ix2 r q)) _ = _
  rw [broadcastInDim_scalar_apply]

/-! ## The masked temperature's stretch -/

theorem s16_v47 (V : Valuation τ sig (Elt Ideal)) (r : Fin 1024) (q : Fin 2048) (t : EReal)
    (ht : (V (Proc.devRef .tc main_v6) : S1024x2048.Idx → EReal) (ix2 r q) = t) :
    (after hostOps0_16 V (Proc.devRef .tc main_v47) : S1024x2048.Idx → EReal) (ix2 r q)
      = t * Cert.Spec.ind ((V (Proc.devRef .tc main_v36) : S1024x2048.Idx → BitVec 32) (ix2 r q) ≠ 1#32) := by
  have e : after hostOps0_16 V (Proc.devRef .tc main_v47)
      = mulf (F := Ideal) (V (Proc.devRef .tc main_v6)) (uitofp (F := Ideal) .f32 (cmpi .ne (V (Proc.devRef .tc main_v36))
          (broadcastInDim S1024x2048 ![] bcast_S_S1024x2048 (constantI S_ 32 1#32)))) := by
    after_results <;> rfl
  rw [e, mulf_apply, ht]
  show t * FloatOps.uitofp (F := Ideal) .f32 (IntOp.cmpi .ne ((V (Proc.devRef .tc main_v36) : S1024x2048.Idx → BitVec 32) (ix2 r q))
      (broadcastInDim S1024x2048 ![] bcast_S_S1024x2048 (constantI S_ 32 1#32) (ix2 r q))) = _
  simp only [broadcastInDim_scalar_apply]
  show t * FloatOps.uitofp (F := Ideal) .f32 (IntOp.cmpi .ne ((V (Proc.devRef .tc main_v36) : S1024x2048.Idx → BitVec 32) (ix2 r q)) 1#32) = _
  rw [cmpi_ne_ofNat, uitofp_bit]
  rfl

end Cert.KernelIdeal.HostValue

end
-- ==== Proof.KerHostCells.lean ====
/-
  The host grids from the launch memory: the stretches composed. The boundary code after its six overwrites is the
  specification's; so are the geometry and the masked temperature. The code and the geometry are then carried to
  the second region's entry.
-/
import proofs.«161081_j59665685676148_2_alg».proof.Proof.KerHostCode
import proofs.«161081_j59665685676148_2_alg».proof.Proof.KerHostGeom

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD) (r : Fin 1024) (q : Fin 2048)

/-! ## The coordinate grids at the stretches that read them -/

theorem W2_v11 : (W2 m ρ c (Proc.devRef .tc main_v11) : S1024x2048.Idx → BitVec 32) (ix2 r q) = BitVec.ofNat 32 r.val := by
  rw [dn2 m ρ c main_v11 (by decide)]; exact W1_v11 m ρ c r q
theorem W8_v11 : (W8 m ρ c (Proc.devRef .tc main_v11) : S1024x2048.Idx → BitVec 32) (ix2 r q) = BitVec.ofNat 32 r.val := by
  rw [dn8 m ρ c main_v11 (by decide)]; exact W1_v11 m ρ c r q
theorem W10_v11 : (W10 m ρ c (Proc.devRef .tc main_v11) : S1024x2048.Idx → BitVec 32) (ix2 r q) = BitVec.ofNat 32 r.val := by
  rw [dn10 m ρ c main_v11 (by decide)]; exact W1_v11 m ρ c r q
theorem W12_v11 : (W12 m ρ c (Proc.devRef .tc main_v11) : S1024x2048.Idx → BitVec 32) (ix2 r q) = BitVec.ofNat 32 r.val := by
  rw [dn12 m ρ c main_v11 (by decide)]; exact W1_v11 m ρ c r q
theorem W14_v11 : (W14 m ρ c (Proc.devRef .tc main_v11) : S1024x2048.Idx → BitVec 32) (ix2 r q) = BitVec.ofNat 32 r.val := by
  rw [dn14 m ρ c main_v11 (by decide)]; exact W1_v11 m ρ c r q
theorem W2_v12 : (W2 m ρ c (Proc.devRef .tc main_v12) : S1024x2048.Idx → BitVec 32) (ix2 r q) = BitVec.ofNat 32 q.val := by
  rw [dn2 m ρ c main_v12 (by decide)]; exact W1_v12 m ρ c r q
theorem W4_v12 : (W4 m ρ c (Proc.devRef .tc main_v12) : S1024x2048.Idx → BitVec 32) (ix2 r q) = BitVec.ofNat 32 q.val := by
  rw [dn4 m ρ c main_v12 (by decide)]; exact W1_v12 m ρ c r q
theorem W6_v12 : (W6 m ρ c (Proc.devRef .tc main_v12) : S1024x2048.Idx → BitVec 32) (ix2 r q) = BitVec.ofNat 32 q.val := by
  rw [dn6 m ρ c main_v12 (by decide)]; exact W1_v12 m ρ c r q

/-! ## The code after each overwrite -/

variable (L : Cert.Spec.S2.Idx → BitVec 32)
/-- After the first overwrite: row 1 from column 1 on gets 0. -/
abbrev b1 : BitVec 32 := if r.val = 1 ∧ 1 ≤ q.val then 0#32 else L (ix4 0 1 r q)
/-- After the second: row 1022 from column 1 on gets 0. -/
abbrev b2 : BitVec 32 := if r.val = 1022 ∧ 1 ≤ q.val then 0#32 else b1 r q L
/-- After the third: column 1 gets 0. -/
abbrev b3 : BitVec 32 := if q.val = 1 then 0#32 else b2 r q L
/-- After the fourth: column 2047 gets 3. -/
abbrev b4 : BitVec 32 := if q.val = 2047 then 3#32 else b3 r q L
/-- After the fifth: row 0 gets 3. -/
abbrev b5 : BitVec 32 := if r.val = 0 then 3#32 else b4 r q L
/-- After the sixth, row 1023 gets 3: the specification's code. -/
theorem bcode_eq : Cert.Spec.bcode L r q = if r.val = 1023 then 3#32 else b5 r q L := rfl

theorem W2_v18 : (W2 m ρ c (Proc.devRef .tc main_v18) : S1024x2048.Idx → BitVec 32) (ix2 r q) = b1 r q (lay m c) := by
  have hc : (W1 m ρ c (Proc.devRef .tc main_v17) : S1024x2048.Idx → BitVec 1) (ix2 r q) = if r.val = 1 ∧ 1 ≤ q.val then 1#1 else 0#1 := s0_v17 (W0 m ρ c) r q
  have hk : (W1 m ρ c (Proc.devRef .tc main_c_1) : S_.Idx → BitVec 32) ix0 = 0#32 := s0_c1 (W0 m ρ c)
  have ho : (W1 m ρ c (Proc.devRef .tc main_v3) : S1024x2048.Idx → BitVec 32) (ix2 r q) = lay m c (ix4 0 1 r q) := W1_v3 m ρ c r q
  refine (s1_v18 (W1 m ρ c) r q).trans ?_
  rw [hc, hk, ho, select_bit]
theorem W4_v24 : (W4 m ρ c (Proc.devRef .tc main_v24) : S1024x2048.Idx → BitVec 32) (ix2 r q) = b2 r q (lay m c) := by
  have hc : (W3 m ρ c (Proc.devRef .tc main_v23) : S1024x2048.Idx → BitVec 1) (ix2 r q) = if r.val = 1022 ∧ 1 ≤ q.val then 1#1 else 0#1 := s2_v23 (W2 m ρ c) r q (W2_v11 m ρ c r q) (W2_v12 m ρ c r q)
  have hk : (W3 m ρ c (Proc.devRef .tc main_c_4) : S_.Idx → BitVec 32) ix0 = 0#32 := s2_c4 (W2 m ρ c)
  have ho : (W3 m ρ c (Proc.devRef .tc main_v18) : S1024x2048.Idx → BitVec 32) (ix2 r q) = b1 r q (lay m c) := (congrFun (keep2 (W2 m ρ c) main_v18 (by decide)) (ix2 r q)).trans (W2_v18 m ρ c r q)
  refine (s3_v24 (W3 m ρ c) r q).trans ?_
  rw [hc, hk, ho, select_bit]
theorem W6_v27 : (W6 m ρ c (Proc.devRef .tc main_v27) : S1024x2048.Idx → BitVec 32) (ix2 r q) = b3 r q (lay m c) := by
  have hc : (W5 m ρ c (Proc.devRef .tc main_v26) : S1024x2048.Idx → BitVec 1) (ix2 r q) = if q.val = 1 then 1#1 else 0#1 := s4_v26 (W4 m ρ c) r q (W4_v12 m ρ c r q)
  have hk : (W5 m ρ c (Proc.devRef .tc main_c_6) : S_.Idx → BitVec 32) ix0 = 0#32 := s4_c6 (W4 m ρ c)
  have ho : (W5 m ρ c (Proc.devRef .tc main_v24) : S1024x2048.Idx → BitVec 32) (ix2 r q) = b2 r q (lay m c) := (congrFun (keep4 (W4 m ρ c) main_v24 (by decide)) (ix2 r q)).trans (W4_v24 m ρ c r q)
  refine (s5_v27 (W5 m ρ c) r q).trans ?_
  rw [hc, hk, ho, select_bit]
theorem W8_v30 : (W8 m ρ c (Proc.devRef .tc main_v30) : S1024x2048.Idx → BitVec 32) (ix2 r q) = b4 r q (lay m c) := by
  have hc : (W7 m ρ c (Proc.devRef .tc main_v29) : S1024x2048.Idx → BitVec 1) (ix2 r q) = if q.val = 2047 then 1#1 else 0#1 := s6_v29 (W6 m ρ c) r q (W6_v12 m ρ c r q)
  have hk : (W7 m ρ c (Proc.devRef .tc main_c_8) : S_.Idx → BitVec 32) ix0 = 3#32 := s6_c8 (W6 m ρ c)
  have ho : (W7 m ρ c (Proc.devRef .tc main_v27) : S1024x2048.Idx → BitVec 32) (ix2 r q) = b3 r q (lay m c) := (congrFun (keep6 (W6 m ρ c) main_v27 (by decide)) (ix2 r q)).trans (W6_v27 m ρ c r q)
  refine (s7_v30 (W7 m ρ c) r q).trans ?_
  rw [hc, hk, ho, select_bit]
theorem W10_v33 : (W10 m ρ c (Proc.devRef .tc main_v33) : S1024x2048.Idx → BitVec 32) (ix2 r q) = b5 r q (lay m c) := by
  have hc : (W9 m ρ c (Proc.devRef .tc main_v32) : S1024x2048.Idx → BitVec 1) (ix2 r q) = if r.val = 0 then 1#1 else 0#1 := s8_v32 (W8 m ρ c) r q (W8_v11 m ρ c r q)
  have hk : (W9 m ρ c (Proc.devRef .tc main_c_10) : S_.Idx → BitVec 32) ix0 = 3#32 := s8_c10 (W8 m ρ c)
  have ho : (W9 m ρ c (Proc.devRef .tc main_v30) : S1024x2048.Idx → BitVec 32) (ix2 r q) = b4 r q (lay m c) := (congrFun (keep8 (W8 m ρ c) main_v30 (by decide)) (ix2 r q)).trans (W8_v30 m ρ c r q)
  refine (s9_v33 (W9 m ρ c) r q).trans ?_
  rw [hc, hk, ho, select_bit]
/-- The boundary code, right after the stretch that completes it. -/
theorem W12_v36 : (W12 m ρ c (Proc.devRef .tc main_v36) : S1024x2048.Idx → BitVec 32) (ix2 r q) = Cert.Spec.bcode (lay m c) r q := by
  have hc : (W11 m ρ c (Proc.devRef .tc main_v35) : S1024x2048.Idx → BitVec 1) (ix2 r q) = if r.val = 1023 then 1#1 else 0#1 := s10_v35 (W10 m ρ c) r q (W10_v11 m ρ c r q)
  have hk : (W11 m ρ c (Proc.devRef .tc main_c_12) : S_.Idx → BitVec 32) ix0 = 3#32 := s10_c12 (W10 m ρ c)
  have ho : (W11 m ρ c (Proc.devRef .tc main_v33) : S1024x2048.Idx → BitVec 32) (ix2 r q) = b5 r q (lay m c) := (congrFun (keep10 (W10 m ρ c) main_v33 (by decide)) (ix2 r q)).trans (W10_v33 m ρ c r q)
  refine (s11_v36 (W11 m ρ c) r q).trans ?_
  rw [hc, hk, ho, select_bit]
  rfl

/-! ## The geometry -/

theorem W13_v37 : (W13 m ρ c (Proc.devRef .tc main_v37) : S1024x2048.Idx → EReal) (ix2 r q) = FloatOps.sitofp (F := Ideal) .f32 (lay m c (ix4 0 0 r q)) := by
  have h1 : (W12 m ρ c (Proc.devRef .tc main_v1) : S1024x2048.Idx → BitVec 32) (ix2 r q) = lay m c (ix4 0 0 r q) :=
    (congrFun (dn12 m ρ c main_v1 (by decide)) (ix2 r q)).trans (W1_v1 m ρ c r q)
  refine (s12_v37 (W12 m ρ c) r q).trans ?_
  rw [h1]
theorem W14_v40 : (W14 m ρ c (Proc.devRef .tc main_v40) : S1024x2048.Idx → EReal) (ix2 r q) = (if r.val = 0 then Cert.Spec.lit 0x3F800000#32 else FloatOps.sitofp (F := Ideal) .f32 (lay m c (ix4 0 0 r q))) := by
  have hc : (W13 m ρ c (Proc.devRef .tc main_v39) : S1024x2048.Idx → BitVec 1) (ix2 r q) = if r.val = 0 then 1#1 else 0#1 := s12_v39 (W12 m ρ c) r q (W12_v11 m ρ c r q)
  have hk : (W13 m ρ c (Proc.devRef .tc main_cst) : S_.Idx → EReal) ix0 = Cert.Spec.lit 0x3F800000#32 := s12_cst (W12 m ρ c)
  have ho : (W13 m ρ c (Proc.devRef .tc main_v37) : S1024x2048.Idx → EReal) (ix2 r q) = FloatOps.sitofp (F := Ideal) .f32 (lay m c (ix4 0 0 r q)) := W13_v37 m ρ c r q
  refine (s13_v40 (W13 m ρ c) r q).trans ?_
  rw [hc, hk, ho, select_bit]
/-- The geometry, right after the stretch that completes it. -/
theorem W16_v43 : (W16 m ρ c (Proc.devRef .tc main_v43) : S1024x2048.Idx → EReal) (ix2 r q) = Cert.Spec.geom (lay m c) r q := by
  have hc : (W15 m ρ c (Proc.devRef .tc main_v42) : S1024x2048.Idx → BitVec 1) (ix2 r q) = if r.val = 1023 then 1#1 else 0#1 := s14_v42 (W14 m ρ c) r q (W14_v11 m ρ c r q)
  have hk : (W15 m ρ c (Proc.devRef .tc main_cst_15) : S_.Idx → EReal) ix0 = Cert.Spec.lit 0x3F800000#32 := s14_cst15 (W14 m ρ c)
  have ho : (W15 m ρ c (Proc.devRef .tc main_v40) : S1024x2048.Idx → EReal) (ix2 r q) = (if r.val = 0 then Cert.Spec.lit 0x3F800000#32 else FloatOps.sitofp (F := Ideal) .f32 (lay m c (ix4 0 0 r q))) := (congrFun (keep14 (W14 m ρ c) main_v40 (by decide)) (ix2 r q)).trans (W14_v40 m ρ c r q)
  refine (s15_v43 (W15 m ρ c) r q).trans ?_
  rw [hc, hk, ho, select_bit]
  rfl

/-! ## The masked temperature -/

/-- The code at the stretch that masks the temperature with it. -/
theorem W16_v36 : (W16 m ρ c (Proc.devRef .tc main_v36) : S1024x2048.Idx → BitVec 32) (ix2 r q) = Cert.Spec.bcode (lay m c) r q :=
  (congrFun ((keep15 (W15 m ρ c) main_v36 (by decide)).trans ((keep14 (W14 m ρ c) main_v36 (by decide)).trans
      ((keep13 (W13 m ρ c) main_v36 (by decide)).trans (keep12 (W12 m ρ c) main_v36 (by decide))))) (ix2 r q)).trans
    (W12_v36 m ρ c r q)
/-- The masked temperature, right after the stretch that computes it. -/
theorem W17_v47 : (W17 m ρ c (Proc.devRef .tc main_v47) : S1024x2048.Idx → EReal) (ix2 r q) = Cert.Spec.hbc (lay m c) (heat m c) r q := by
  have h6 : (W16 m ρ c (Proc.devRef .tc main_v6) : S1024x2048.Idx → EReal) (ix2 r q) = heat m c (ix4 0 0 r q) :=
    (congrFun (dn16 m ρ c main_v6 (by decide)) (ix2 r q)).trans (W1_v6 m ρ c r q)
  refine (s16_v47 (W16 m ρ c) r q _ h6).trans ?_
  rw [W16_v36 m ρ c r q]
  rfl

/-! ## At the second region's entry -/

/-- The code is also the first region's second input: the region leaves it as entered. -/
theorem entry1_v36 : (V22 m ρ c main_v36 : S1024x2048.Idx → BitVec 32) = fun j => Cert.Spec.bcode (lay m c) (j 0) (j 1) :=
  funext_ix2 _ (fun r q => Cert.Spec.bcode (lay m c) r q) fun r q =>
    (congrFun ((keep20 _ main_v36 (by decide)).trans ((region0_in m ρ c 1 rfl).trans (up12 m ρ c main_v36 (by decide)))) (ix2 r q)).trans
      (W12_v36 m ρ c r q)
theorem entry1_v43 : (V22 m ρ c main_v43 : S1024x2048.Idx → EReal) = fun j => Cert.Spec.geom (lay m c) (j 0) (j 1) :=
  funext_ix2 _ (fun r q => Cert.Spec.geom (lay m c) r q) fun r q =>
    (congrFun ((through m ρ c main_v43 (by decide) (by decide)).trans (up16 m ρ c main_v43 (by decide))) (ix2 r q)).trans
      (W16_v43 m ρ c r q)
/-- The masked temperature at the second region's entry. -/
theorem v47_at_entry : (V22 m ρ c main_v47 : S1024x2048.Idx → EReal) = fun j => Cert.Spec.hbc (lay m c) (heat m c) (j 0) (j 1) :=
  funext_ix2 _ (fun r q => Cert.Spec.hbc (lay m c) (heat m c) r q) fun r q =>
    (congrFun ((through m ρ c main_v47 (by decide) (by decide)).trans (up17 m ρ c main_v47 (by decide))) (ix2 r q)).trans
      (W17_v47 m ρ c r q)

end Cert.KernelIdeal.HostValue

end
-- ==== Proof.LibKerLayout.lean ====
/-
  Rank-2 layout operations of the host read at a cell: a two-piece concatenation along either axis, a reversal
  along either axis, and zero-or-value padding on the right.
-/
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostValue

open Idealize.ShloMosaic Idealize.ShloMosaic.ValueIdx

variable {α : Type}

/-- Two blocks of rows stacked: a row of the first block. -/
theorem concat2_d0_left {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hlt : i.val < a1) :
    concatenate ⟨2, ![n, b]⟩ (0 : Fin 2) [⟨⟨2, ![a1, b]⟩, x₁⟩, ⟨⟨2, ![a2, b]⟩, x₂⟩] h (ix2 i q) = x₁ (ix2 ⟨i.val, hlt⟩ q) :=
  concatenate_pair_apply_left (0 : Fin 2) x₁ x₂ h (ix2 i q) rfl (ix2 ⟨i.val, hlt⟩ q) (fun b => by
    match b with
    | ⟨0, _⟩ => rfl
    | ⟨1, _⟩ => rfl)

/-- Two blocks of rows stacked: a row of the second block. -/
theorem concat2_d0_right {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hge : a1 ≤ i.val)
    (hlt : i.val - a1 < a2) :
    concatenate ⟨2, ![n, b]⟩ (0 : Fin 2) [⟨⟨2, ![a1, b]⟩, x₁⟩, ⟨⟨2, ![a2, b]⟩, x₂⟩] h (ix2 i q) = x₂ (ix2 ⟨i.val - a1, hlt⟩ q) :=
  concatenate_pair_apply_right (0 : Fin 2) x₁ x₂ h (ix2 i q) rfl rfl (ix2 ⟨i.val - a1, hlt⟩ q) (fun b hb => by
    match b with
    | ⟨0, _⟩ => exact absurd rfl hb
    | ⟨1, _⟩ => rfl) (by show (i.val - a1) + a1 = i.val; omega)

/-- Two blocks of columns side by side: a column of the first block. -/
theorem concat2_d1_left {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hlt : q.val < b1) :
    concatenate ⟨2, ![a, n]⟩ (1 : Fin 2) [⟨⟨2, ![a, b1]⟩, x₁⟩, ⟨⟨2, ![a, b2]⟩, x₂⟩] h (ix2 i q) = x₁ (ix2 i ⟨q.val, hlt⟩) :=
  concatenate_pair_apply_left (1 : Fin 2) x₁ x₂ h (ix2 i q) rfl (ix2 i ⟨q.val, hlt⟩) (fun b => by
    match b with
    | ⟨0, _⟩ => rfl
    | ⟨1, _⟩ => rfl)

/-- Two blocks of columns side by side: a column of the second block. -/
theorem concat2_d1_right {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hge : b1 ≤ q.val)
    (hlt : q.val - b1 < b2) :
    concatenate ⟨2, ![a, n]⟩ (1 : Fin 2) [⟨⟨2, ![a, b1]⟩, x₁⟩, ⟨⟨2, ![a, b2]⟩, x₂⟩] h (ix2 i q) = x₂ (ix2 i ⟨q.val - b1, hlt⟩) :=
  concatenate_pair_apply_right (1 : Fin 2) x₁ x₂ h (ix2 i q) rfl rfl (ix2 i ⟨q.val - b1, hlt⟩) (fun b hb => by
    match b with
    | ⟨0, _⟩ => rfl
    | ⟨1, _⟩ => exact absurd rfl hb) (by show (q.val - b1) + b1 = q.val; omega)

/-- The rows in reverse order. -/
theorem reverse2_d0 {a b : ℕ} (x : (⟨2, ![a, b]⟩ : Shape).Idx → α) (i : Fin a) (q : Fin b) :
    Host.reverse (s := ⟨2, ![a, b]⟩) [(0 : Fin 2)] x (ix2 i q) = x (ix2 i.rev q) := by
  unfold Host.reverse
  refine congrArg x (funext fun ax => ?_)
  match ax with
  | ⟨0, _⟩ => exact if_pos (List.mem_singleton.mpr (Fin.ext rfl))
  | ⟨1, _⟩ => exact if_neg (fun hm => absurd (congrArg Fin.val (List.mem_singleton.mp hm)) Nat.one_ne_zero)

/-- The columns in reverse order. -/
theorem reverse2_d1 {a b : ℕ} (x : (⟨2, ![a, b]⟩ : Shape).Idx → α) (i : Fin a) (q : Fin b) :
    Host.reverse (s := ⟨2, ![a, b]⟩) [(1 : Fin 2)] x (ix2 i q) = x (ix2 i q.rev) := by
  unfold Host.reverse
  refine congrArg x (funext fun ax => ?_)
  match ax with
  | ⟨0, _⟩ => exact if_neg (fun hm => absurd (congrArg Fin.val (List.mem_singleton.mp hm)) Nat.zero_ne_one)
  | ⟨1, _⟩ => exact if_pos (List.mem_singleton.mpr (Fin.ext rfl))

/-- Padding on the right by `p` columns: a column of the operand. -/
theorem pad2_right_inside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hlt : q.val < b) :
    pad ⟨2, ![a, n]⟩ ![0, 0] ![0, p] ![0, 0] x v h hu (ix2 i q) = x (ix2 i ⟨q.val, hlt⟩) :=
  pad_apply_of_inside _ _ _ x v h hu (ix2 i q) (ix2 i ⟨q.val, hlt⟩) (fun ax => by
    match ax with
    | ⟨0, _⟩ => show i.val = 0 + i.val * (0 + 1); omega
    | ⟨1, _⟩ => show q.val = 0 + q.val * (0 + 1); omega)

/-- Padding on the right by `p` columns: a padding column holds the padding value. -/
theorem pad2_right_outside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hge : b ≤ q.val) :
    pad ⟨2, ![a, n]⟩ ![0, 0] ![0, p] ![0, 0] x v h hu (ix2 i q) = v (Shape.Idx.first hu) :=
  pad_apply_of_not_inside _ _ _ x v h hu (ix2 i q) (1 : Fin 2) (fun hin => by
    have h3 : (q.val - 0) / (0 + 1) < b := hin.2.2
    simp at h3; omega)

end Cert.KernelIdeal.HostValue

end
-- ==== Proof.KerHostPad.lean ====
/-
  The padded temperature field: the masked temperature reflected by eight rows above and below and by one column
  left and right (each side a slice, reversed, concatenated), then 126 zero columns appended on the right.
  The program's chain is named as two functions, the rows' and the columns', each read at a cell.
-/
import proofs.«161081_j59665685676148_2_alg».proof.Proof.KerHostArgs
import proofs.«161081_j59665685676148_2_alg».proof.Proof.LibKerWords
import proofs.«161081_j59665685676148_2_alg».proof.Proof.LibKerLayout

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

/-! ## The rows: eight reflected above, eight below -/

/-- Rows 1 … 8 reversed on top, then the grid: 1032 rows. -/
def rowsTop (H : S1024x2048.Idx → EReal) : S1032x2048.Idx → EReal :=
  concatenate S1032x2048 0 [⟨S8x2048, Host.reverse [0] (extractStridedSlice S8x2048 ![1, 0] H slices_S1024x2048_S8x2048_1_0)⟩,
    ⟨S1024x2048, H⟩] concatenates_S8x2048_S1024x2048_S1032x2048_d0

/-- Then its rows 1023 … 1030 reversed below: 1040 rows. -/
def rowsAll (H : S1024x2048.Idx → EReal) : S1040x2048.Idx → EReal :=
  concatenate S1040x2048 0 [⟨S1032x2048, rowsTop H⟩,
    ⟨S8x2048, Host.reverse [0] (extractStridedSlice S8x2048 ![1023, 0] (rowsTop H) slices_S1032x2048_S8x2048_1023_0)⟩]
    concatenates_S1032x2048_S8x2048_S1040x2048_d0

/-- Column 1 put in front: 2049 columns. -/
def colsLeft (X : S1040x2048.Idx → EReal) : S1040x2049.Idx → EReal :=
  concatenate S1040x2049 1 [⟨S1040x1, Host.reverse [1] (extractStridedSlice S1040x1 ![0, 1] X slices_S1040x2048_S1040x1_0_1)⟩,
    ⟨S1040x2048, X⟩] concatenates_S1040x1_S1040x2048_S1040x2049_d1

/-- Then its column 2047 put behind: 2050 columns. -/
def colsAll (X : S1040x2048.Idx → EReal) : S1040x2050.Idx → EReal :=
  concatenate S1040x2050 1 [⟨S1040x2049, colsLeft X⟩,
    ⟨S1040x1, Host.reverse [1] (extractStridedSlice S1040x1 ![0, 2047] (colsLeft X) slices_S1040x2049_S1040x1_0_2047)⟩]
    concatenates_S1040x2049_S1040x1_S1040x2050_d1

/-- The reflecting stretch computes the columns' function of the rows' function of the masked temperature. -/
theorem s17_v48 (V : Valuation τ sig (Elt Ideal)) :
    after hostOps0_17 V (Proc.devRef .tc main_v48) = colsAll (rowsAll (V (Proc.devRef .tc main_v47))) := by
  after_results
  simp only [TRef.toBuf, TRef.ofBuf, cast_eq]
  unfold colsAll colsLeft rowsAll rowsTop
  rfl

/-- The zero-padding stretch, over the padding value the stretch before it set. -/
theorem s19_v49 (V : Valuation τ sig (Elt Ideal)) :
    after hostOps0_19 V (Proc.devRef .tc main_v49)
      = pad S1040x2176 ![0, 0] ![0, 126] ![0, 0] (V (Proc.devRef .tc main_v48) : S1040x2050.Idx → EReal)
          (sitofp (F := Ideal) .f32 (V (Proc.devRef .tc main_c_18) : S_.Idx → BitVec 32)) pads_S1040x2050_S1040x2176_000_01260 h_S_ := by
  after_results
  simp only [TRef.toBuf, TRef.ofBuf, cast_eq]
  try rfl

theorem s18_c18 (V : Valuation τ sig (Elt Ideal)) :
    (after hostOps0_18 V (Proc.devRef .tc main_c_18) : S_.Idx → BitVec 32) = constantI S_ 32 0#32 := by
  after_results

/-! ## Read at a cell -/

section Cells
variable (H : S1024x2048.Idx → EReal)

theorem rowsTop_apply (i : Fin 1032) (q : Fin 2048) :
    rowsTop H (ix2 i q) = H (ix2 (if h : i.val < 8 then ⟨8 - i.val, by omega⟩ else ⟨i.val - 8, by omega⟩ : Fin 1024) q) := by
  unfold rowsTop
  by_cases h : i.val < 8
  · rw [dif_pos h]
    refine (concat2_d0_left _ _ concatenates_S8x2048_S1024x2048_S1032x2048_d0 i q h).trans ?_
    refine (reverse2_d0 _ ⟨i.val, h⟩ q).trans ?_
    exact slice2_axis0_apply 1 H slices_S1024x2048_S8x2048_1_0 _ q ⟨8 - i.val, by omega⟩ (by
      show 8 - i.val = 1 + (8 - (i.val + 1)); omega)
  · rw [dif_neg h]
    exact concat2_d0_right _ _ concatenates_S8x2048_S1024x2048_S1032x2048_d0 i q (by omega) (by omega)

theorem rowsAll_apply (i : Fin 1040) (q : Fin 2048) :
    rowsAll H (ix2 i q) = H (ix2 (Cert.Spec.rowR8 i.val) q) := by
  unfold rowsAll
  by_cases h : i.val < 1032
  · refine (concat2_d0_left _ _ concatenates_S1032x2048_S8x2048_S1040x2048_d0 i q h).trans ?_
    rw [rowsTop_apply]
    refine congrArg (fun k => H (ix2 k q)) ?_
    unfold Cert.Spec.rowR8
    by_cases h8 : i.val < 8
    · rw [dif_pos h8, dif_pos h8]
    · rw [dif_neg h8, dif_neg h8, dif_pos (by omega)]
  · refine (concat2_d0_right _ _ concatenates_S1032x2048_S8x2048_S1040x2048_d0 i q (by omega) (by omega)).trans ?_
    refine (reverse2_d0 _ _ q).trans ?_
    refine (slice2_axis0_apply 1023 (rowsTop H) slices_S1032x2048_S8x2048_1023_0 _ q ⟨2062 - i.val, by omega⟩ (by
      show 2062 - i.val = 1023 + (8 - ((i.val - 1032) + 1)); omega)).trans ?_
    rw [rowsTop_apply]
    refine congrArg (fun k => H (ix2 k q)) ?_
    unfold Cert.Spec.rowR8
    rw [dif_neg (by show ¬ (2062 - i.val < 8); omega), dif_neg (by omega), dif_neg (by omega)]
    exact Fin.ext (by show 2062 - i.val - 8 = 2054 - i.val; omega)

variable (X : S1040x2048.Idx → EReal)

theorem colsLeft_apply (i : Fin 1040) (j : Fin 2049) :
    colsLeft X (ix2 i j) = X (ix2 i (if h : j.val = 0 then (1 : Fin 2048) else ⟨j.val - 1, by omega⟩)) := by
  unfold colsLeft
  by_cases h : j.val = 0
  · rw [dif_pos h]
    refine (concat2_d1_left _ _ concatenates_S1040x1_S1040x2048_S1040x2049_d1 i j (by omega)).trans ?_
    refine (reverse2_d1 _ i _).trans ?_
    exact slice2_axis1_apply 1 X slices_S1040x2048_S1040x1_0_1 i _ (1 : Fin 2048) (by
      show 1 = 1 + (1 - (j.val + 1)); omega)
  · rw [dif_neg h]
    exact concat2_d1_right _ _ concatenates_S1040x1_S1040x2048_S1040x2049_d1 i j (by omega) (by omega)

theorem colsAll_apply (i : Fin 1040) (j : Fin 2050) :
    colsAll X (ix2 i j) = X (ix2 i (Cert.Spec.colR j.val)) := by
  unfold colsAll
  by_cases h : j.val < 2049
  · refine (concat2_d1_left _ _ concatenates_S1040x2049_S1040x1_S1040x2050_d1 i j h).trans ?_
    rw [colsLeft_apply]
    refine congrArg (fun k => X (ix2 i k)) ?_
    unfold Cert.Spec.colR
    by_cases h0 : j.val = 0
    · rw [dif_pos h0, if_pos h0]
    · rw [dif_neg h0, if_neg h0, dif_pos (by omega)]
  · refine (concat2_d1_right _ _ concatenates_S1040x2049_S1040x1_S1040x2050_d1 i j (by omega) (by omega)).trans ?_
    refine (reverse2_d1 _ i _).trans ?_
    refine (slice2_axis1_apply 2047 (colsLeft X) slices_S1040x2049_S1040x1_0_2047 i _ ⟨2047, by omega⟩ (by
      show 2047 = 2047 + (1 - ((j.val - 2049) + 1)); omega)).trans ?_
    rw [colsLeft_apply]
    refine congrArg (fun k => X (ix2 i k)) ?_
    unfold Cert.Spec.colR
    rw [dif_neg (by show ¬ (2047 = 0); omega), if_neg (by omega), dif_neg (by omega)]
    rfl

end Cells

end Cert.KernelIdeal.HostValue

end
-- ==== Proof.KerRedBody.lean ====
/-
  The reducing kernel's body, read as a value: at the first grid point it leaves, in its one-cell output block, zero plus
  the block's sum of the water content times the bit "the code exceeds 3"; at every later point what the block held
  plus that sum.
-/
import proofs.«161081_j59665685676148_2_alg».proof.Proof.KerHostWalk
import proofs.«161081_j59665685676148_2_alg».proof.Proof.Spec
import Idealize.ShloMosaic.Lib.Pipeline.Value
import Idealize.ShloMosaic.Lib.Tactic
import Idealize.ShloMosaic.PureOps.Ideal.Laws

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

open Idealize.ShloMosaic.Pipeline (Dat)

theorem hz : (![0, 0] : Fin 2 → Nat) = fun _ => 0 := funext fun a => by fin_cases a <;> rfl

/-- At a later point the body leaves the accumulation payload over the block held before. -/
theorem out_B (c : Dev nD) (i : grid0.Coords) (a1 : Memref sig .tc .vmem S128x2048 .f32) (h1 : a1.IsWhole)
    (a2 : Memref sig .tc .vmem S128x2048 .i32) (h2 : a2.IsWhole) (a3 : Memref sig .tc .vmem S1x1 .f32) (h3 : a3.IsWhole)
    (hc : ¬cond0_0 i) (x0 : Vec Ideal S128x2048 .f32) (x1 : Vec Ideal S128x2048 .i32) (xo : Vec Ideal S1x1 .f32) :
    out0_B_2 c i a1 h1 a2 h2 a3 h3 hc x0 x1 xo = k0_pay2 x1 x0 xo := by
  unfold out0_B_2
  rw [View.read_writes_eq_canon _ _ _ (cover0_B_2 c i a1 h1 a2 h2 a3 h3 hc x0 x1 xo)]
  unfold kernelRun0_B
  dsimp only
  rw [View.canon_unit_zero hz]
  simp only [View.readAt_eq_ld, h1.read_unread, h2.read_unread, h3.read_unread, View.ld_unit_zero (S := S128x2048) hz, View.ld_unit_zero (S := S1x1) hz, shapeCast_self]

/-- At the first point the body stores the zero block, reads it back, and leaves the accumulation payload over it. -/
theorem out_A (c : Dev nD) (i : grid0.Coords) (a1 : Memref sig .tc .vmem S128x2048 .f32) (h1 : a1.IsWhole)
    (a2 : Memref sig .tc .vmem S128x2048 .i32) (h2 : a2.IsWhole) (a3 : Memref sig .tc .vmem S1x1 .f32) (h3 : a3.IsWhole)
    (hc : cond0_0 i) (x0 : Vec Ideal S128x2048 .f32) (x1 : Vec Ideal S128x2048 .i32) :
    out0_A_2 c i a1 h1 a2 h2 a3 h3 hc x0 x1 = k0_pay2 x1 x0 (k0_pay1 (F := Ideal)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S128x2048) hz, shapeCast_self]

/-! ## The payloads as values -/

/-- The bit "the word exceeds 3, signed", widened and read as a float: 1 or 0. -/
theorem sitofp_extui_sgt (x : BitVec 32) :
    FloatOps.sitofp (F := Ideal) .f32 ((IntOp.cmpi .sgt x 3#32).setWidth 32) = Cert.Spec.ind ((3#32).slt x = true) := by
  unfold Cert.Spec.ind IntOp.cmpi
  by_cases h : (3#32).slt x = true
  · rw [if_pos h]
    show (((BitVec.setWidth 32 (BitVec.ofBool ((3#32).slt x))).toInt : ℝ) : EReal) = 1
    rw [h]; simp
  · rw [if_neg h]
    have h' : (3#32).slt x = false := by simpa using h
    show (((BitVec.setWidth 32 (BitVec.ofBool ((3#32).slt x))).toInt : ℝ) : EReal) = 0
    rw [h']; simp

/-- The zero block. -/
theorem pay1_apply (j : S1x1.Idx) : k0_pay1 (F := Ideal) j = 0 := by
  show Ideal.ofBits .f32 0x00000000#32 = 0
  simp [Ideal.ofBits, Ideal.ieee]

/-- The block's sum of the first operand times the bit of the second. -/
def blockSum (x0 : Vec Ideal S128x2048 .f32) (x1 : Vec Ideal S128x2048 .i32) : EReal :=
  ∑ k : Fin 128, ∑ l : Fin 2048, x0 (ix2 k l) * Cert.Spec.ind ((3#32).slt (x1 (ix2 k l)) = true)

/-- The accumulation payload: what the block held plus the block's sum. -/
theorem pay2_apply (x1 : Vec Ideal S128x2048 .i32) (x0 : Vec Ideal S128x2048 .f32) (acc : Vec Ideal S1x1 .f32) (j : S1x1.Idx) :
    k0_pay2 x1 x0 acc j = acc j + blockSum x0 x1 := by
  unfold k0_pay2
  dsimp only
  simp only [shapeCast_self]
  rw [addf_apply]
  refine congrArg (fun z => acc j + z) ?_
  refine (shapeCast_apply _ shapeCasts_S1_S1x1 j (ix1 (0 : Fin 1)) (by
    have h1 := (S1.rowMajor (ix1 (0 : Fin 1))).isLt; have h2 := (S1x1.rowMajor j).isLt
    have e1 : S1.numel = 1 := by decide
    have e2 : S1x1.numel = 1 := by decide
    omega)).trans ?_
  refine (Ideal.multiReduction_add_single _ 0x00000000#32 reduces_S128x1_S1 _ _ (ix1 (0 : Fin 1))).trans ?_
  unfold blockSum
  refine Finset.sum_congr rfl fun (k : Fin 128) _ => ?_
  have e0 : reduces_S128x1_S1.lift (ix1 (0 : Fin 1)) k = ix2 k (0 : Fin 1) := by
    funext a
    match a with
    | ⟨0, _⟩ => exact Fin.ext rfl
    | ⟨1, _⟩ => exact Fin.ext rfl
  rw [e0]
  refine (shapeCast_apply _ shapeCasts_S128_S128x1 (ix2 k (0 : Fin 1)) (ix1 k) (by
    rw [Shape.rowMajor_val_one, Shape.rowMajor_val_two]; show k.val = k.val * 1 + 0; omega)).trans ?_
  refine (Ideal.multiReduction_add_single _ 0x00000000#32 reduces_S128x2048_S128 _ _ (ix1 k)).trans ?_
  refine Finset.sum_congr rfl fun (l : Fin 2048) _ => ?_
  have e1 : reduces_S128x2048_S128.lift (ix1 k) l = ix2 k l := by
    funext a
    match a with
    | ⟨0, _⟩ => exact Fin.ext rfl
    | ⟨1, _⟩ => exact Fin.ext rfl
  rw [e1]
  show x0 (ix2 k l) * FloatOps.sitofp (F := Ideal) .f32 ((IntOp.cmpi .sgt (x1 (ix2 k l)) 3#32).setWidth 32) = _
  rw [sitofp_extui_sgt]

end Cert.KernelIdeal.HostValue

end
-- ==== Proof.KerRedSum.lean ====
/-
  The reducing kernel's result: after its eight grid points the one-cell output array holds zero plus the eight blocks'
  sums, which is the sum over the whole grid of the masked water content; the stretch after the kernel divides it by
  the number of cells.
-/
import proofs.«161081_j59665685676148_2_alg».proof.Proof.KerRedBody
import proofs.«161081_j59665685676148_2_alg».proof.Proof.KerHostCells
import Idealize.ShloMosaic.Lib.IdealHost

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

open Idealize.ShloMosaic.Pipeline (Dat)
open Finset

/-! ## The running sum over the grid points -/

section Chain
variable (V : (c : Dev nD) → (b : Ref sig .tc) → Buf (Elt Ideal) ((c : Thread nD τ).loc b))

/-- What the output block holds after point `n`: the payloads applied in point order. -/
def chain (c : Dev nD) : (n : ℕ) → n < cfg0.N → Vec Ideal S1x1 .f32
  | 0, h => k0_pay2 (iblk0 V c 1 ⟨0, h⟩) (iblk0 V c 0 ⟨0, h⟩) (k0_pay1 (F := Ideal))
  | n + 1, h => k0_pay2 (iblk0 V c 1 ⟨n + 1, h⟩) (iblk0 V c 0 ⟨n + 1, h⟩) (chain c n (Nat.lt_of_succ_lt h))

/-- The generated accumulation is that chain: by induction on the point. -/
theorem outsAt_eq (c : Dev nD) : ∀ (n : ℕ) (h : n < cfg0.N), outsAt0 V c n h = chain V c n h
  | 0, h => (outsAt0_A V c ⟨0, h⟩ rfl).trans (out_A ..)
  | n + 1, h => by
    have hN : cfg0.N = 8 := N_0
    have hB : ¬(⟨n + 1, h⟩ : Fin cfg0.N).val % 8 = 0 := by dsimp only; omega
    rw [outsAt0_B V c ⟨n + 1, h⟩ hB, out_B]
    show k0_pay2 _ _ (outsAt0 V c n _) = k0_pay2 _ _ (chain V c n _)
    rw [outsAt_eq c n]

/-- The sum of block `t` (zero past the grid). -/
def P (c : Dev nD) (t : ℕ) : EReal :=
  if ht : t < cfg0.N then blockSum (iblk0 V c 0 ⟨t, ht⟩) (iblk0 V c 1 ⟨t, ht⟩) else 0

/-- The chain in closed form: zero plus the blocks' sums so far. -/
theorem chain_apply (c : Dev nD) (j : S1x1.Idx) : ∀ (n : ℕ) (h : n < cfg0.N), chain V c n h j = 0 + ∑ t ∈ range (n + 1), P V c t
  | 0, h => by
    show k0_pay2 _ _ _ j = _
    rw [pay2_apply, pay1_apply, sum_range_one, P, dif_pos h]
  | n + 1, h => by
    show k0_pay2 _ _ _ j = _
    rw [pay2_apply, chain_apply c j n, sum_range_succ (fun t => P V c t) (n + 1), add_assoc]
    congr 2
    rw [P, dif_pos h]

/-- The result: the chain after the last point, as contents of the result array (its one block is the array). -/
abbrev result (c : Dev nD) : Buf (Elt Ideal) ((c : Thread nD τ).loc main_v50) :=
  chain V c 7 (by rw [show cfg0.N = 8 from N_0]; decide)

/-- The one write-back, after the last point, writes it. -/
theorem flushed_eq (c : Dev nD) (t : Fin cfg0.N) (hf : (cfg0.win 2).flush t = true) :
    (dat0 V c).flushed 2 t = ((cfg0.win 2).blk t).view.read (Elt Ideal) (result V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2, outsAt_eq]
  have hz' : (fun a => win0_2.index t0_7 a * main_v50.ty.shape.size a) = fun _ => 0 := funext fun a => by fin_cases a <;> decide
  exact (Memref.read_access_unit_zero (Elt Ideal) main_v50 hz' (fun a => by rw [congrFun hz' a]; simp) (result V c)).symm

/-- So the result array ends holding the chain after the last point. -/
theorem final_o (c : Dev nD) : (dat0 V c).arrAt 2 cfg0.N = result V c :=
  (dat0 V c).arrAt_eq_of_cover 2 (result V c) (flushed_eq V c) fun i =>
    ⟨t0_7, (flush0_2 t0_7).mpr rfl, by
      show i ∈ ((View.whole main_v50).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-! ## A block read at a cell -/

theorem iblk0_0_apply (c : Dev nD) (t : Fin cfg0.N) (k : Fin 128) (l : Fin 2048) (hr : 128 * t.val + k.val < 1024) :
    (iblk0 V c 0 t : Vec Ideal S128x2048 .f32) (ix2 k l) = (V c main_v5 : S1024x2048.Idx → EReal) (ix2 ⟨128 * t.val + k.val, hr⟩ l) := by
  have hi : win0_0.index t 0 = t.val ∧ win0_0.index t 1 = 0 := by
    rcases fin_N0 t with rfl | rfl | rfl | rfl | rfl | rfl | rfl | rfl <;> decide
  unfold iblk0
  rw [View.read_apply]
  refine congrArg (V c main_v5 : S1024x2048.Idx → EReal) (funext fun a => Fin.ext ?_)
  match a with
  | ⟨0, _⟩ => show win0_0.index t 0 * 128 + 1 * k.val = 128 * t.val + k.val; rw [hi.1]; omega
  | ⟨1, _⟩ => show win0_0.index t 1 * 2048 + 1 * l.val = l.val; rw [hi.2]; omega

theorem iblk0_1_apply (c : Dev nD) (t : Fin cfg0.N) (k : Fin 128) (l : Fin 2048) (hr : 128 * t.val + k.val < 1024) :
    (iblk0 V c 1 t : Vec Ideal S128x2048 .i32) (ix2 k l) = (V c main_v36 : S1024x2048.Idx → BitVec 32) (ix2 ⟨128 * t.val + k.val, hr⟩ l) := by
  have hi : win0_1.index t 0 = t.val ∧ win0_1.index t 1 = 0 := by
    rcases fin_N0 t with rfl | rfl | rfl | rfl | rfl | rfl | rfl | rfl <;> decide
  unfold iblk0
  rw [View.read_apply]
  refine congrArg (V c main_v36 : S1024x2048.Idx → BitVec 32) (funext fun a => Fin.ext ?_)
  match a with
  | ⟨0, _⟩ => show win0_1.index t 0 * 128 + 1 * k.val = 128 * t.val + k.val; rw [hi.1]; omega
  | ⟨1, _⟩ => show win0_1.index t 1 * 2048 + 1 * l.val = l.val; rw [hi.2]; omega

end Chain

end Cert.KernelIdeal.HostValue

end
-- ==== Proof.KerHostEntry.lean ====
/-
  The contents of the nine arrays the second region reads, when it is entered: the padded temperature field, the
  mean of the masked water content, and the seven grids of the earlier modules, together.
-/
import proofs.«161081_j59665685676148_2_alg».proof.Proof.KerHostCells
import proofs.«161081_j59665685676148_2_alg».proof.Proof.KerHostPad
import proofs.«161081_j59665685676148_2_alg».proof.Proof.KerRedSum
import proofs.«161081_j59665685676148_2_alg».proof.Proof.LibKerTileFold

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

open Finset

variable (m : (ℓ : Loc nD τ sig) → Buf (Elt Ideal) ℓ) (ρ : Dev nD → PrngReg) (c : Dev nD)

/-! ## The padded temperature field -/

theorem W20_v49 (i : Fin 1040) (j : Fin 2176) :
    (W20 m ρ c (Proc.devRef .tc main_v49) : S1040x2176.Idx → EReal) (ix2 i j) = Cert.Spec.xpbig (lay m c) (heat m c) i j := by
  have e48 : (W19 m ρ c (Proc.devRef .tc main_v48) : S1040x2050.Idx → EReal) = colsAll (rowsAll (W17 m ρ c (Proc.devRef .tc main_v47))) :=
    (keep18 (W18 m ρ c) main_v48 (by decide)).trans (s17_v48 (W17 m ρ c))
  have e18 : (W19 m ρ c (Proc.devRef .tc main_c_18) : S_.Idx → BitVec 32) = constantI S_ 32 0#32 := s18_c18 (W18 m ρ c)
  have e49 := s19_v49 (W19 m ρ c)
  rw [e48, e18] at e49
  rw [show W20 m ρ c (Proc.devRef .tc main_v49) = after hostOps0_19 (W19 m ρ c) (Proc.devRef .tc main_v49) from rfl, e49]
  unfold Cert.Spec.xpbig
  by_cases h : j.val < 2050
  · rw [if_pos h]
    refine (pad2_right_inside _ _ pads_S1040x2050_S1040x2176_000_01260 h_S_ i j h).trans ?_
    rw [colsAll_apply, rowsAll_apply]
    exact W17_v47 m ρ c _ _
  · rw [if_neg h]
    refine (pad2_right_outside _ _ pads_S1040x2050_S1040x2176_000_01260 h_S_ i j (by omega)).trans ?_
    exact sitofp_zero

theorem entry1_v49 : (V22 m ρ c main_v49 : S1040x2176.Idx → EReal) = fun j => Cert.Spec.xpbig (lay m c) (heat m c) (j 0) (j 1) :=
  funext_ix2 _ (fun i j => Cert.Spec.xpbig (lay m c) (heat m c) i j) fun i j =>
    (congrFun (through m ρ c main_v49 (by decide) (by decide)) (ix2 i j)).trans (W20_v49 m ρ c i j)

/-! ## The mean of the masked water content -/

/-- The two inputs of the reducing kernel, as it finds them. -/
theorem V20_v5 (r : Fin 1024) (q : Fin 2048) :
    (V20 m ρ c main_v5 : S1024x2048.Idx → EReal) (ix2 r q) = wc m c (ix4 0 0 r q) :=
  (congrFun (W20_v5 m ρ c) (ix2 r q)).trans (W1_v5 m ρ c r q)
theorem V20_v36 (r : Fin 1024) (q : Fin 2048) :
    (V20 m ρ c main_v36 : S1024x2048.Idx → BitVec 32) (ix2 r q) = Cert.Spec.bcode (lay m c) r q :=
  (congrFun (up12 m ρ c main_v36 (by decide)) (ix2 r q)).trans (W12_v36 m ρ c r q)

/-- The masked water content of a row, summed over the columns (zero past the grid). -/
def rowSum (r : ℕ) : EReal := if h : r < 1024 then ∑ q : Fin 2048, Cert.Spec.wcbc (lay m c) (wc m c) ⟨r, h⟩ q else 0

/-- A block's sum is the sum of its 128 rows' sums. -/
theorem P_eq (t : ℕ) (ht : t < 8) : P (V20 m ρ) c t = ∑ k ∈ range 128, rowSum m c (128 * t + k) := by
  have hN : cfg0.N = 8 := N_0
  have ht' : t < cfg0.N := by omega
  rw [P, dif_pos ht', blockSum, ← Fin.sum_univ_eq_sum_range (fun k => rowSum m c (128 * t + k)) 128]
  refine sum_congr rfl fun k _ => ?_
  have hk := k.isLt
  have hr : 128 * t + k.val < 1024 := by omega
  rw [rowSum, dif_pos hr]
  refine sum_congr rfl fun l _ => ?_
  rw [iblk0_0_apply (V20 m ρ) c ⟨t, ht'⟩ k l hr, iblk0_1_apply (V20 m ρ) c ⟨t, ht'⟩ k l hr, V20_v5, V20_v36]
  rfl

/-- The sum over eight blocks of 128 rows is the sum over the 1024 rows. -/
theorem sum_blocks (f : ℕ → EReal) : ∑ t ∈ range 8, ∑ k ∈ range 128, f (128 * t + k) = ∑ i ∈ range 1024, f i :=
  Cert.LibTileFold.sum_tiles 8 128 f

/-- The reducing kernel's result array: the sum of the masked water content over the grid, from 0. -/
theorem W21_v50 (j : S1x1.Idx) : (W21 m ρ c (Proc.devRef .tc main_v50) : S1x1.Idx → EReal) j = Cert.Spec.wsum (lay m c) (wc m c) := by
  rw [show W21 m ρ c (Proc.devRef .tc main_v50) = result (V20 m ρ) c from (W21_arr m ρ c 2).trans (final_o (V20 m ρ) c)]
  show chain (V20 m ρ) c 7 _ j = _
  rw [chain_apply, Cert.Spec.wsum]
  refine congrArg (fun z => (0 : EReal) + z) ?_
  rw [sum_congr rfl (fun t ht => P_eq m ρ c t (by have := mem_range.mp ht; omega)), sum_blocks (rowSum m c),
    ← Fin.sum_univ_eq_sum_range (rowSum m c) 1024]
  refine sum_congr rfl fun r _ => ?_
  rw [rowSum, dif_pos r.isLt]

/-- The stretch after the kernel divides by the number of cells. -/
theorem entry1_v52 : (V22 m ρ c main_v52 : S1x1.Idx → EReal) = fun _ => Cert.Spec.wmean (lay m c) (wc m c) := by
  funext j
  have e : after hostOps1 (W21 m ρ c) (Proc.devRef .tc main_v52)
      = Host.divf (F := Ideal) (W21 m ρ c (Proc.devRef .tc main_v50)) (broadcastInDim S1x1 ![] bcast_S_S1x1 (constant (F := Ideal) S_ .f32 0x4A000000#32)) := by
    after_results <;> rfl
  show (after hostOps1 (W21 m ρ c) (Proc.devRef .tc main_v52) : S1x1.Idx → EReal) j = _
  rw [e, hostDivf_apply, W21_v50 m ρ c j, broadcastInDim_scalar_apply]
  rfl

/-! ## Together -/

/-- The second region's nine operands, when it is entered. -/
theorem entry1 :
    (V22 m ρ c main_v49 : S1040x2176.Idx → EReal) = (fun j => Cert.Spec.xpbig (lay m c) (heat m c) (j 0) (j 1))
    ∧ (V22 m ρ c main_v47 : S1024x2048.Idx → EReal) = (fun j => Cert.Spec.hbc (lay m c) (heat m c) (j 0) (j 1))
    ∧ (V22 m ρ c main_v4 : S1024x2048.Idx → EReal) = (fun j => hini m c (ix4 0 0 (j 0) (j 1)))
    ∧ (V22 m ρ c main_v8 : S1024x2048.Idx → EReal) = (fun j => flow m c (ix4 0 0 (j 0) (j 1)))
    ∧ (V22 m ρ c main_v10 : S1024x2048.Idx → EReal) = (fun j => flow m c (ix4 0 1 (j 0) (j 1)))
    ∧ (V22 m ρ c main_v5 : S1024x2048.Idx → EReal) = (fun j => wc m c (ix4 0 0 (j 0) (j 1)))
    ∧ (V22 m ρ c main_v36 : S1024x2048.Idx → BitVec 32) = (fun j => Cert.Spec.bcode (lay m c) (j 0) (j 1))
    ∧ (V22 m ρ c main_v43 : S1024x2048.Idx → EReal) = (fun j => Cert.Spec.geom (lay m c) (j 0) (j 1))
    ∧ (V22 m ρ c main_v52 : S1x1.Idx → EReal) = (fun _ => Cert.Spec.wmean (lay m c) (wc m c)) :=
  ⟨entry1_v49 m ρ c, v47_at_entry m ρ c, entry1_v4 m ρ c, entry1_v8 m ρ c, entry1_v10 m ρ c, entry1_v5 m ρ c,
    entry1_v36 m ρ c, entry1_v43 m ρ c, entry1_v52 m ρ c⟩

end Cert.KernelIdeal.HostValue

end
-- ==== Proof.KerAll.lean ====
/-
  The idealized kernel's three results are the specification's, at the launch arguments.
-/
import proofs.«161081_j59665685676148_2_alg».proof.Proof.KerTotal
import proofs.«161081_j59665685676148_2_alg».proof.Proof.KerHostEntry

noncomputable section

namespace Cert.KernelIdeal.Value

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

/-- What the main pass is entered with, in the specification's terms. -/
theorem entry : Entry (HostValue.lay m c) (HostValue.hini m c) (HostValue.wc m c) (HostValue.heat m c) (HostValue.flow m c)
    (V22 m ρ) c :=
  have h := HostValue.entry1 m ρ c
  ⟨h.1, h.2.1, h.2.2.1, h.2.2.2.1, h.2.2.2.2.1, h.2.2.2.2.2.1, h.2.2.2.2.2.2.1, h.2.2.2.2.2.2.2.1, h.2.2.2.2.2.2.2.2⟩

/-- The three results at the end of the run. -/
theorem kernel_values :
    (W24 m ρ c (Proc.devRef .tc main_v58) : S_.Idx → EReal)
        = Cert.Spec.out0 (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
    ∧ (W24 m ρ c (Proc.devRef .tc main_v59) : S1x1x1024x2048.Idx → EReal)
        = Cert.Spec.out1 (m ((c.tc : Thread nD τ).loc main_arg0)) (m ((c.tc : Thread nD τ).loc main_arg3))
    ∧ (W24 m ρ c (Proc.devRef .tc main_v53_0) : S1024x2048.Idx → BitVec 32)
        = Cert.Spec.out2 (m ((c.tc : Thread nD τ).loc main_arg0)) :=
  ⟨loss_value m ρ c (entry m ρ c), heat_value m ρ c (entry m ρ c), codes_value m ρ c (entry m ρ c)⟩

end Cert.KernelIdeal.Value

end
-- ==== Proof.LibRefScatter.lean ====
/-
  A scatter whose body returns the update and whose updates are all one value ("set these cells to c"), read at an
  index: the value where some update lands, the operand elsewhere. Then the four index patterns of a grid's edits:
  one whole row, one whole column, a span of one row from a start column, and one row of a one-channel slab.
-/
import Idealize.ShloMosaic.Lib.ValueIdx
import Idealize.ShloMosaic.Lib.Pipeline.Value

namespace Cert.LibRefScatter

open Idealize.ShloMosaic Idealize.ShloMosaic.ValueIdx

/-- An update lands on operand index `i` exactly when, on every axis, its start (read signed, not clamped) plus its
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- A left fold of "set the cell the step names to c": a cell some step names ends at c. -/
theorem foldl_set_const {ι κ α : Type} [DecidableEq ι] (g : κ → Option ι) (c : α) (step : (ι → α) → κ → (ι → α))
    (hstep : ∀ r n i, step r n i = if g n = some i then c else r i) :
    ∀ (l : List κ) (x : ι → α) (i : ι), (∃ n ∈ l, g n = some i) → (l.foldl step x) i = c := by
  intro l
  induction l using List.reverseRecOn with
  | nil => intro x i h; simp at h
  | append_singleton l n ih =>
    intro x i h
    rw [List.foldl_append, List.foldl_cons, List.foldl_nil, hstep]
    by_cases hn : g n = some i
    · rw [if_pos hn]
    · rw [if_neg hn]
      refine ih x i ?_
      obtain ⟨m, hm, hg⟩ := h
      rcases List.mem_append.mp hm with hm | hm
      · exact ⟨m, hm, hg⟩
      · rw [List.mem_singleton] at hm; subst hm; exact absurd hg hn

theorem foldl_set_const_not {ι κ α : Type} [DecidableEq ι] (g : κ → Option ι) (c : α) (step : (ι → α) → κ → (ι → α))
    (hstep : ∀ r n i, step r n i = if g n = some i then c else r i) :
    ∀ (l : List κ) (x : ι → α) (i : ι), (¬ ∃ n ∈ l, g n = some i) → (l.foldl step x) i = x i := by
  intro l
  induction l using List.reverseRecOn with
  | nil => intro x i h; rfl
  | append_singleton l n ih =>
    intro x i h
    rw [List.foldl_append, List.foldl_cons, List.foldl_nil, hstep]
    have hn : ¬ g n = some i := fun hg => h ⟨n, by simp, hg⟩
    rw [if_neg hn]
    exact ih x i fun ⟨m, hm, hg⟩ => h ⟨m, List.mem_append_left _ hm, hg⟩

theorem scatter_step {s si u : Shape} {w : ℕ} {α : Type} (d : ScatterDims s si u) (idx : IVec si w) (c : α)
    (r : s.Idx → α) (n : Fin u.numel) (i : s.Idx) :
    (match d.resultIdx? (u.rowMajor.symm n) idx with
      | some i0 => fun i' => if i' = i0 then (fun (_ b : α) => b) (r i0) ((fun _ => c) (u.rowMajor.symm n)) else r i'
      | none => r) i = if d.resultIdx? (u.rowMajor.symm n) idx = some i then c else r i := by
  cases h : d.resultIdx? (u.rowMajor.symm n) idx with
  | none => simp
  | some i0 =>
    simp only [Option.some.injEq]
    by_cases e : i = i0
    · subst e; simp
    · rw [if_neg e, if_neg (fun e' => e e'.symm)]

/-- A scatter that overwrites with one value: the value where some update lands, the operand elsewhere. -/
theorem scatter_set_const_pos {s si u : Shape} {w : ℕ} {α : Type} (d : ScatterDims s si u) (x : s.Idx → α) (idx : IVec si w)
    (upd : u.Idx → α) (c : α) (hc : ∀ j, upd j = c) (i : s.Idx) (h : ∃ j : u.Idx, d.resultIdx? j idx = some i) :
    Host.scatter d (fun _ b => b) x idx upd i = c := by
  obtain rfl : upd = fun _ => c := funext hc
  unfold Host.scatter
  refine foldl_set_const (fun n => d.resultIdx? (u.rowMajor.symm n) idx) c _ (fun r n i => scatter_step d idx c r n i) _ x i ?_
  obtain ⟨j, h⟩ := h
  exact ⟨u.rowMajor j, List.mem_finRange _, by rw [Equiv.symm_apply_apply]; exact h⟩

theorem scatter_set_const_neg {s si u : Shape} {w : ℕ} {α : Type} (d : ScatterDims s si u) (x : s.Idx → α) (idx : IVec si w)
    (upd : u.Idx → α) (c : α) (hc : ∀ j, upd j = c) (i : s.Idx) (h : ¬ ∃ j : u.Idx, d.resultIdx? j idx = some i) :
    Host.scatter d (fun _ b => b) x idx upd i = x i := by
  obtain rfl : upd = fun _ => c := funext hc
  unfold Host.scatter
  refine foldl_set_const_not (fun n => d.resultIdx? (u.rowMajor.symm n) idx) c _ (fun r n i => scatter_step d idx c r n i) _ x i ?_
  rintro ⟨n, _, hn⟩
  exact h ⟨_, hn⟩

/-! ## One whole row -/

section Row
variable {n0 n1 w : Nat} {α : Type} (wf : ScatterDims.WF ⟨2, ![n0, n1]⟩ ⟨1, ![1]⟩ ⟨1, ![n1]⟩ [0] [0] [0] 0)

/-- `x.at[r, :].set(c)`: the start index names the row, the updates' axis is the window over the columns. -/
abbrev rowDims (n0 n1 : Nat) (wf : ScatterDims.WF ⟨2, ![n0, n1]⟩ ⟨1, ![1]⟩ ⟨1, ![n1]⟩ [0] [0] [0] 0) :
    ScatterDims ⟨2, ![n0, n1]⟩ ⟨1, ![1]⟩ ⟨1, ![n1]⟩ where
  updateWindowDims := [0]
  insertedWindowDims := [0]
  scatterDimsToOperandDims := [0]
  indexVectorDim := 0
  wf := wf

theorem row_start0 (j : (⟨1, ![n1]⟩ : Shape).Idx) (idx : IVec ⟨1, ![1]⟩ w) :
    (rowDims n0 n1 wf).start j idx 0 = (idx (ix1 0)).toInt := by
  unfold ScatterDims.start
  rw [dif_pos (show (0 : Fin 2) ∈ ([0] : List (Fin 2)) from by decide)]
  congr 2
  funext b; match b with | ⟨0, _⟩ => rfl

theorem row_resultIdx?_iff (j : (⟨1, ![n1]⟩ : Shape).Idx) (idx : IVec ⟨1, ![1]⟩ w) (i : (⟨2, ![n0, n1]⟩ : Shape).Idx) :
    (rowDims n0 n1 wf).resultIdx? j idx = some i ↔ (idx (ix1 0)).toInt = ((i 0).val : ℤ) ∧ (j 0).val = (i 1).val := by
  rw [resultIdx?_eq_some_iff]
  constructor
  · intro h
    have h0 := h 0
    have h1 := h 1
    rw [row_start0] at h0
    change (idx (ix1 0)).toInt + ((0 : ℕ) : ℤ) = _ at h0
    change (0 : ℤ) + (((j 0).val : ℕ) : ℤ) = _ at h1
    exact ⟨by omega, by omega⟩
  · rintro ⟨h0, h1⟩ a
    match a with
    | ⟨0, _⟩ =>
      show (rowDims n0 n1 wf).start j idx 0 + ((0 : ℕ) : ℤ) = ((i 0).val : ℤ)
      rw [row_start0]; omega
    | ⟨1, _⟩ =>
      show (0 : ℤ) + (((j 0).val : ℕ) : ℤ) = ((i 1).val : ℤ)
      omega

/-- The row set read at `i`: `c` on the named row, the operand elsewhere. -/
theorem scatter_row_apply (x : (⟨2, ![n0, n1]⟩ : Shape).Idx → α) (idx : IVec ⟨1, ![1]⟩ w) (upd : (⟨1, ![n1]⟩ : Shape).Idx → α)
    (c : α) (hc : ∀ j, upd j = c) (i : (⟨2, ![n0, n1]⟩ : Shape).Idx) :
    Host.scatter (rowDims n0 n1 wf) (fun _ b => b) x idx upd i
      = if (idx (ix1 0)).toInt = ((i 0).val : ℤ) then c else x i := by
  by_cases h : (idx (ix1 0)).toInt = ((i 0).val : ℤ)
  · rw [if_pos h]
    exact scatter_set_const_pos _ x idx upd c hc i ⟨ix1 (i 1), (row_resultIdx?_iff wf _ idx i).mpr ⟨h, rfl⟩⟩
  · rw [if_neg h]
    exact scatter_set_const_neg _ x idx upd c hc i fun ⟨j, hj⟩ => h ((row_resultIdx?_iff wf j idx i).mp hj).1

end Row

/-! ## One whole column -/

section Col
variable {n0 n1 w : Nat} {α : Type} (wf : ScatterDims.WF ⟨2, ![n0, n1]⟩ ⟨1, ![1]⟩ ⟨1, ![n0]⟩ [0] [1] [1] 0)

/-- `x.at[:, c].set(v)`: the start index names the column, the updates' axis is the window over the rows. -/
abbrev colDims (n0 n1 : Nat) (wf : ScatterDims.WF ⟨2, ![n0, n1]⟩ ⟨1, ![1]⟩ ⟨1, ![n0]⟩ [0] [1] [1] 0) :
    ScatterDims ⟨2, ![n0, n1]⟩ ⟨1, ![1]⟩ ⟨1, ![n0]⟩ where
  updateWindowDims := [0]
  insertedWindowDims := [1]
  scatterDimsToOperandDims := [1]
  indexVectorDim := 0
  wf := wf

theorem col_start1 (j : (⟨1, ![n0]⟩ : Shape).Idx) (idx : IVec ⟨1, ![1]⟩ w) :
    (colDims n0 n1 wf).start j idx 1 = (idx (ix1 0)).toInt := by
  unfold ScatterDims.start
  rw [dif_pos (show (1 : Fin 2) ∈ ([1] : List (Fin 2)) from by decide)]
  congr 2
  funext b; match b with | ⟨0, _⟩ => rfl

theorem col_resultIdx?_iff (j : (⟨1, ![n0]⟩ : Shape).Idx) (idx : IVec ⟨1, ![1]⟩ w) (i : (⟨2, ![n0, n1]⟩ : Shape).Idx) :
    (colDims n0 n1 wf).resultIdx? j idx = some i ↔ (idx (ix1 0)).toInt = ((i 1).val : ℤ) ∧ (j 0).val = (i 0).val := by
  rw [resultIdx?_eq_some_iff]
  constructor
  · intro h
    have h0 := h 0
    have h1 := h 1
    rw [col_start1] at h1
    change (idx (ix1 0)).toInt + ((0 : ℕ) : ℤ) = _ at h1
    change (0 : ℤ) + (((j 0).val : ℕ) : ℤ) = _ at h0
    exact ⟨by omega, by omega⟩
  · rintro ⟨h0, h1⟩ a
    match a with
    | ⟨0, _⟩ =>
      show (0 : ℤ) + (((j 0).val : ℕ) : ℤ) = ((i 0).val : ℤ)
      omega
    | ⟨1, _⟩ =>
      show (colDims n0 n1 wf).start j idx 1 + ((0 : ℕ) : ℤ) = ((i 1).val : ℤ)
      rw [col_start1]; omega

/-- The column set read at `i`: `c` on the named column, the operand elsewhere. -/
theorem scatter_col_apply (x : (⟨2, ![n0, n1]⟩ : Shape).Idx → α) (idx : IVec ⟨1, ![1]⟩ w) (upd : (⟨1, ![n0]⟩ : Shape).Idx → α)
    (c : α) (hc : ∀ j, upd j = c) (i : (⟨2, ![n0, n1]⟩ : Shape).Idx) :
    Host.scatter (colDims n0 n1 wf) (fun _ b => b) x idx upd i
      = if (idx (ix1 0)).toInt = ((i 1).val : ℤ) then c else x i := by
  by_cases h : (idx (ix1 0)).toInt = ((i 1).val : ℤ)
  · rw [if_pos h]
    exact scatter_set_const_pos _ x idx upd c hc i ⟨ix1 (i 0), (col_resultIdx?_iff wf _ idx i).mpr ⟨h, rfl⟩⟩
  · rw [if_neg h]
    exact scatter_set_const_neg _ x idx upd c hc i fun ⟨j, hj⟩ => h ((col_resultIdx?_iff wf j idx i).mp hj).1

end Col

/-! ## A span of one row -/

section Span
variable {n0 n1 m w : Nat} {α : Type} (wf : ScatterDims.WF ⟨2, ![n0, n1]⟩ ⟨1, ![2]⟩ ⟨1, ![m]⟩ [0] [0] [0, 1] 0)

/-- `x.at[r, c0:c0+m].set(v)`: the start index is the pair (row, first column), the updates' axis the window over the
    columns from there. -/
abbrev spanDims (n0 n1 m : Nat) (wf : ScatterDims.WF ⟨2, ![n0, n1]⟩ ⟨1, ![2]⟩ ⟨1, ![m]⟩ [0] [0] [0, 1] 0) :
    ScatterDims ⟨2, ![n0, n1]⟩ ⟨1, ![2]⟩ ⟨1, ![m]⟩ where
  updateWindowDims := [0]
  insertedWindowDims := [0]
  scatterDimsToOperandDims := [0, 1]
  indexVectorDim := 0
  wf := wf

theorem span_start0 (j : (⟨1, ![m]⟩ : Shape).Idx) (idx : IVec ⟨1, ![2]⟩ w) :
    (spanDims n0 n1 m wf).start j idx 0 = (idx (ix1 0)).toInt := by
  unfold ScatterDims.start
  rw [dif_pos (show (0 : Fin 2) ∈ ([0, 1] : List (Fin 2)) from by decide)]
  congr 2
  funext b; match b with | ⟨0, _⟩ => rfl

theorem span_start1 (j : (⟨1, ![m]⟩ : Shape).Idx) (idx : IVec ⟨1, ![2]⟩ w) :
    (spanDims n0 n1 m wf).start j idx 1 = (idx (ix1 1)).toInt := by
  unfold ScatterDims.start
  rw [dif_pos (show (1 : Fin 2) ∈ ([0, 1] : List (Fin 2)) from by decide)]
  congr 2
  funext b; match b with | ⟨0, _⟩ => rfl

theorem span_resultIdx?_iff (j : (⟨1, ![m]⟩ : Shape).Idx) (idx : IVec ⟨1, ![2]⟩ w) (i : (⟨2, ![n0, n1]⟩ : Shape).Idx) :
    (spanDims n0 n1 m wf).resultIdx? j idx = some i
      ↔ (idx (ix1 0)).toInt = ((i 0).val : ℤ) ∧ (idx (ix1 1)).toInt + ((j 0).val : ℤ) = ((i 1).val : ℤ) := by
  rw [resultIdx?_eq_some_iff]
  constructor
  · intro h
    have h0 := h 0
    have h1 := h 1
    rw [span_start0] at h0
    rw [span_start1] at h1
    change (idx (ix1 0)).toInt + ((0 : ℕ) : ℤ) = _ at h0
    change (idx (ix1 1)).toInt + (((j 0).val : ℕ) : ℤ) = _ at h1
    exact ⟨by omega, by omega⟩
  · rintro ⟨h0, h1⟩ a
    match a with
    | ⟨0, _⟩ =>
      show (spanDims n0 n1 m wf).start j idx 0 + ((0 : ℕ) : ℤ) = ((i 0).val : ℤ)
      rw [span_start0]; omega
    | ⟨1, _⟩ =>
      show (spanDims n0 n1 m wf).start j idx 1 + (((j 0).val : ℕ) : ℤ) = ((i 1).val : ℤ)
      rw [span_start1]; omega

/-- The span set read at `i`: `c` on the named row from the first column for `m` columns, the operand elsewhere. -/
theorem scatter_span_apply (x : (⟨2, ![n0, n1]⟩ : Shape).Idx → α) (idx : IVec ⟨1, ![2]⟩ w) (upd : (⟨1, ![m]⟩ : Shape).Idx → α)
    (c : α) (hc : ∀ j, upd j = c) (i : (⟨2, ![n0, n1]⟩ : Shape).Idx) :
    Host.scatter (spanDims n0 n1 m wf) (fun _ b => b) x idx upd i
      = if (idx (ix1 0)).toInt = ((i 0).val : ℤ) ∧ (idx (ix1 1)).toInt ≤ ((i 1).val : ℤ)
          ∧ ((i 1).val : ℤ) < (idx (ix1 1)).toInt + (m : ℤ) then c else x i := by
  by_cases h : (idx (ix1 0)).toInt = ((i 0).val : ℤ) ∧ (idx (ix1 1)).toInt ≤ ((i 1).val : ℤ)
          ∧ ((i 1).val : ℤ) < (idx (ix1 1)).toInt + (m : ℤ)
  · rw [if_pos h]
    obtain ⟨h0, h1, h2⟩ := h
    refine scatter_set_const_pos _ x idx upd c hc i ⟨ix1 ⟨(((i 1).val : ℤ) - (idx (ix1 1)).toInt).toNat, by omega⟩, ?_⟩
    refine (span_resultIdx?_iff wf _ idx i).mpr ⟨h0, ?_⟩
    show (idx (ix1 1)).toInt + (((((i 1).val : ℤ) - (idx (ix1 1)).toInt).toNat : ℕ) : ℤ) = ((i 1).val : ℤ)
    omega
  · rw [if_neg h]
    refine scatter_set_const_neg _ x idx upd c hc i fun ⟨j, hj⟩ => h ?_
    obtain ⟨h0, h1⟩ := (span_resultIdx?_iff wf j idx i).mp hj
    have := (j 0).isLt
    change (j 0).val < m at this
    exact ⟨h0, by omega, by omega⟩

end Span

/-! ## One row of a one-channel slab -/

section Slab
variable {n0 n1 w : Nat} {α : Type} (wf : ScatterDims.WF ⟨3, ![1, n0, n1]⟩ ⟨1, ![1]⟩ ⟨2, ![1, n1]⟩ [0, 1] [1] [1] 0)

/-- `x.at[:, r, :].set(v)` on a `[1, n0, n1]` array: the start index names the row, the updates' two axes are the
    windows over the channel and the columns. -/
abbrev slabDims (n0 n1 : Nat) (wf : ScatterDims.WF ⟨3, ![1, n0, n1]⟩ ⟨1, ![1]⟩ ⟨2, ![1, n1]⟩ [0, 1] [1] [1] 0) :
    ScatterDims ⟨3, ![1, n0, n1]⟩ ⟨1, ![1]⟩ ⟨2, ![1, n1]⟩ where
  updateWindowDims := [0, 1]
  insertedWindowDims := [1]
  scatterDimsToOperandDims := [1]
  indexVectorDim := 0
  wf := wf

theorem slab_start1 (j : (⟨2, ![1, n1]⟩ : Shape).Idx) (idx : IVec ⟨1, ![1]⟩ w) :
    (slabDims n0 n1 wf).start j idx 1 = (idx (ix1 0)).toInt := by
  unfold ScatterDims.start
  rw [dif_pos (show (1 : Fin 3) ∈ ([1] : List (Fin 3)) from by decide)]
  congr 2
  funext b; match b with | ⟨0, _⟩ => rfl

theorem slab_resultIdx?_iff (j : (⟨2, ![1, n1]⟩ : Shape).Idx) (idx : IVec ⟨1, ![1]⟩ w) (i : (⟨3, ![1, n0, n1]⟩ : Shape).Idx) :
    (slabDims n0 n1 wf).resultIdx? j idx = some i
      ↔ (idx (ix1 0)).toInt = ((i 1).val : ℤ) ∧ (j 0).val = (i 0).val ∧ (j 1).val = (i 2).val := by
  rw [resultIdx?_eq_some_iff]
  constructor
  · intro h
    have h0 := h 0
    have h1 := h 1
    have h2 := h 2
    rw [slab_start1] at h1
    change (0 : ℤ) + (((j 0).val : ℕ) : ℤ) = _ at h0
    change (idx (ix1 0)).toInt + ((0 : ℕ) : ℤ) = _ at h1
    change (0 : ℤ) + (((j 1).val : ℕ) : ℤ) = _ at h2
    exact ⟨by omega, by omega, by omega⟩
  · rintro ⟨h0, h1, h2⟩ a
    match a with
    | ⟨0, _⟩ =>
      show (0 : ℤ) + (((j 0).val : ℕ) : ℤ) = ((i 0).val : ℤ)
      omega
    | ⟨1, _⟩ =>
      show (slabDims n0 n1 wf).start j idx 1 + ((0 : ℕ) : ℤ) = ((i 1).val : ℤ)
      rw [slab_start1]; omega
    | ⟨2, _⟩ =>
      show (0 : ℤ) + (((j 1).val : ℕ) : ℤ) = ((i 2).val : ℤ)
      omega

/-- The slab's row set read at `i`: `c` on the named row, the operand elsewhere. -/
theorem scatter_slab_apply (x : (⟨3, ![1, n0, n1]⟩ : Shape).Idx → α) (idx : IVec ⟨1, ![1]⟩ w)
    (upd : (⟨2, ![1, n1]⟩ : Shape).Idx → α) (c : α) (hc : ∀ j, upd j = c) (i : (⟨3, ![1, n0, n1]⟩ : Shape).Idx) :
    Host.scatter (slabDims n0 n1 wf) (fun _ b => b) x idx upd i
      = if (idx (ix1 0)).toInt = ((i 1).val : ℤ) then c else x i := by
  by_cases h : (idx (ix1 0)).toInt = ((i 1).val : ℤ)
  · rw [if_pos h]
    exact scatter_set_const_pos _ x idx upd c hc i ⟨ix2 (i 0) (i 2), (slab_resultIdx?_iff wf _ idx i).mpr ⟨h, rfl, rfl⟩⟩
  · rw [if_neg h]
    exact scatter_set_const_neg _ x idx upd c hc i fun ⟨j, hj⟩ => h ((slab_resultIdx?_iff wf j idx i).mp hj).1

end Slab

end Cert.LibRefScatter
-- ==== Proof.LibRefSum.lean ====
/-
  A sum over the index set of an array with two leading unit axes is the double sum over its last two coordinates.
-/
import Idealize.ShloMosaic.Lib.ValueIdx

open scoped BigOperators

namespace Cert.LibRefSum

open Idealize.ShloMosaic Idealize.ShloMosaic.ValueIdx

/-- An index of a `[1, 1, n0, n1]` array is `(0, 0, r, c)`. -/
theorem eq_ix4_11 {n0 n1 : Nat} (j : (⟨4, ![1, 1, n0, n1]⟩ : Shape).Idx) : j = ix4 0 0 (j 2) (j 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- The index set of a `[1, 1, n0, n1]` array is the product of the last two coordinate ranges. -/
def idxEquiv11 {n0 n1 : Nat} : (⟨4, ![1, 1, n0, n1]⟩ : Shape).Idx ≃ Fin n0 × Fin n1 where
  toFun i := (i 2, i 3)
  invFun p := ix4 0 0 p.1 p.2
  left_inv i := (eq_ix4_11 i).symm
  right_inv _ := rfl

theorem sum_idx11 {M : Type*} [AddCommMonoid M] {n0 n1 : Nat} (f : (⟨4, ![1, 1, n0, n1]⟩ : Shape).Idx → M) :
    ∑ i, f i = ∑ a : Fin n0, ∑ b : Fin n1, f (ix4 0 0 a b) := by
  rw [← Equiv.sum_comp (idxEquiv11 (n0 := n0) (n1 := n1)).symm f, Fintype.sum_prod_type]
  rfl

end Cert.LibRefSum
-- ==== Proof.PreVal.lean ====
/-
  The precondition's last conjunct says the masked water content sums to a number that is not negative: its mask is
  the reference's own (the second layout channel after the six overwrites, compared with 3), so the sum is the
  specification's.
-/
import proofs.«161081_j59665685676148_2_alg».proof.Proof.Gen.Pre_finite_inputs
import proofs.«161081_j59665685676148_2_alg».proof.Proof.Spec
import proofs.«161081_j59665685676148_2_alg».proof.Proof.LibRefScatter
import proofs.«161081_j59665685676148_2_alg».proof.Proof.LibRefSum
import Idealize.ShloMosaic.Lib.ValueIdx
import Idealize.ShloMosaic.Lib.ValueLayout
import Idealize.ShloMosaic.Lib.Pipeline.Value
import Idealize.ShloMosaic.Lib.Affine
import Idealize.ShloMosaic.Lib.IdealHost
import Idealize.ShloMosaic.PureOps.Ideal.Laws

noncomputable section

open scoped BigOperators

namespace Cert.ReferenceIdeal.RefValue

namespace Pre

open Cert.Pre_finite_inputs Cert.Pre_finite_inputs.Gen
open Idealize.ShloMosaic Idealize.ShloMosaic.ValueIdx

theorem set_row (x : S1024x2048.Idx → BitVec 32) (k c : BitVec 32) (n : ℕ) (hn : k.toInt = (n : ℤ)) (j : S1024x2048.Idx) :
    Host.scatter scatter_S1024x2048_S1_S2048_0_0_0_0 (fun _ b => b) x
        (broadcastInDim S1 ![] bcast_S_S1 (constantI S_ 32 k)) (broadcastInDim S2048 ![] bcast_S_S2048 (constantI S_ 32 c)) j
      = if (j 0).val = n then c else x j := by
  refine (LibRefScatter.scatter_row_apply scatter_S1024x2048_S1_S2048_0_0_0_0_wf x _ _ c (fun _ => rfl) j).trans ?_
  refine if_congr ?_ rfl rfl
  show k.toInt = ((j 0).val : ℤ) ↔ _
  rw [hn]; omega

theorem set_col (x : S1024x2048.Idx → BitVec 32) (k c : BitVec 32) (n : ℕ) (hn : k.toInt = (n : ℤ)) (j : S1024x2048.Idx) :
    Host.scatter scatter_S1024x2048_S1_S1024_0_1_1_0 (fun _ b => b) x
        (broadcastInDim S1 ![] bcast_S_S1 (constantI S_ 32 k)) (broadcastInDim S1024 ![] bcast_S_S1024 (constantI S_ 32 c)) j
      = if (j 1).val = n then c else x j := by
  refine (LibRefScatter.scatter_col_apply scatter_S1024x2048_S1_S1024_0_1_1_0_wf x _ _ c (fun _ => rfl) j).trans ?_
  refine if_congr ?_ rfl rfl
  show k.toInt = ((j 1).val : ℤ) ↔ _
  rw [hn]; omega

theorem set_span (x : S1024x2048.Idx → BitVec 32) (k0 k1 c : BitVec 32) (n0 n1 : ℕ)
    (h0 : k0.toInt = (n0 : ℤ)) (h1 : k1.toInt = (n1 : ℤ)) (j : S1024x2048.Idx) :
    Host.scatter scatter_S1024x2048_S2_S2047_0_0_01_0 (fun _ b => b) x
        (concatenate S2 0 [⟨S1, broadcastInDim S1 ![] bcast_S_S1 (constantI S_ 32 k0)⟩, ⟨S1, broadcastInDim S1 ![] bcast_S_S1 (constantI S_ 32 k1)⟩]
          concatenates_S1_S1_S2_d0) (broadcastInDim S2047 ![] bcast_S_S2047 (constantI S_ 32 c)) j
      = if (j 0).val = n0 ∧ n1 ≤ (j 1).val ∧ (j 1).val < n1 + 2047 then c else x j := by
  refine (LibRefScatter.scatter_span_apply scatter_S1024x2048_S2_S2047_0_0_01_0_wf x _ _ c (fun _ => rfl) j).trans ?_
  have e0 : concatenate S2 0 [⟨S1, broadcastInDim S1 ![] bcast_S_S1 (constantI S_ 32 k0)⟩, ⟨S1, broadcastInDim S1 ![] bcast_S_S1 (constantI S_ 32 k1)⟩]
      concatenates_S1_S1_S2_d0 (ix1 0) = k0 :=
    (concatenate_pair_apply_left (t := S2) (s₁ := S1) (s₂ := S1) (0 : Fin 1) _ _ concatenates_S1_S1_S2_d0 (ix1 0) rfl (ix1 0) (fun b => by
      obtain rfl : b = 0 := Subsingleton.elim _ _; rfl))
  have e1 : concatenate S2 0 [⟨S1, broadcastInDim S1 ![] bcast_S_S1 (constantI S_ 32 k0)⟩, ⟨S1, broadcastInDim S1 ![] bcast_S_S1 (constantI S_ 32 k1)⟩]
      concatenates_S1_S1_S2_d0 (ix1 1) = k1 :=
    (concatenate_pair_apply_right (t := S2) (s₁ := S1) (s₂ := S1) (0 : Fin 1) _ _ concatenates_S1_S1_S2_d0 (ix1 1) rfl rfl (ix1 0) (fun b hb => by
      obtain rfl : b = 0 := Subsingleton.elim _ _; exact absurd rfl hb) rfl)
  refine if_congr ?_ rfl rfl
  rw [e0, e1, h0, h1]
  constructor
  · rintro ⟨p, q, r⟩; exact ⟨by omega, by omega, by omega⟩
  · rintro ⟨p, q, r⟩; exact ⟨by omega, by omega, by omega⟩

theorem chan2 {α : Type} (x : S1x2x1024x2048.Idx → α) (r : Fin 1024) (c : Fin 2048) :
    shapeCast S1024x2048 (shapeCast S1x1024x2048 (extractStridedSlice S1x1x1024x2048 ![0, 1, 0, 0] x slices_S1x2x1024x2048_S1x1x1024x2048_0_1_0_0)
        shapeCasts_S1x1x1024x2048_S1x1024x2048) shapeCasts_S1x1024x2048_S1024x2048 (ix2 r c) = x (ix4 0 1 r c) :=
  (shapeCast_1ab_ab_apply _ _ r c).trans ((shapeCast_1abc_abc_apply _ _ 0 r c).trans
    (extractStridedSlice_apply _ _ _ _ (ix4 0 1 r c) fun a => match a with
      | ⟨0, _⟩ => rfl | ⟨1, _⟩ => rfl | ⟨2, _⟩ => (Nat.zero_add _).symm | ⟨3, _⟩ => (Nat.zero_add _).symm))

theorem bcast23 {α : Type} (x : S1024x2048.Idx → α) (j : S1x1x1024x2048.Idx) :
    broadcastInDim S1x1x1024x2048 ![2, 3] bcast_S1024x2048_S1x1x1024x2048_2_3 x j = x (ix2 (j 2) (j 3)) :=
  broadcastInDim_apply _ _ x j _ (fun a => match a with | ⟨0, _⟩ => rfl | ⟨1, _⟩ => rfl)

theorem uitofp_bool (c : Bool) : FloatOps.uitofp (F := Ideal) .f32 (BitVec.ofBool c) = if c = true then 1 else 0 := by
  cases c
  · show (((0 : ℕ) : ℝ) : EReal) = _
    simp
  · show (((1 : ℕ) : ℝ) : EReal) = _
    simp

theorem cmp_oge_eq_one {x y : EReal} (h : Ideal.cmp .oge x y = 1#1) : y ≤ x := by
  change BitVec.ofBool (decide (y ≤ x)) = 1#1 at h
  cases hd : decide (y ≤ x) with
  | false => rw [hd] at h; exact absurd h (by decide)
  | true => exact of_decide_eq_true hd

/-- The precondition is a conjunction whose last conjunct compares with 0 the sum, from 0, of an array that is the
    specification's masked water content cell by cell. -/
theorem fn_shape (a0 : IVec S1x2x1024x2048 32) (a1 a2 a3 : FVec Ideal S1x1x1024x2048 .f32) (a4 : FVec Ideal S1x2x1024x2048 .f32) :
    ∃ (X : FVec Ideal S1x1x1024x2048 .f32) (p : IVec S_ 1),
      fn (F := Ideal) a0 a1 a2 a3 a4
        = andi p (cmpf .oge (Host.reduceAdd X (constant S_ .f32 0x00000000#32) reducesTo_S1x1x1024x2048_S_d0_1_2_3 h_S_)
            (constant S_ .f32 0x00000000#32))
      ∧ ∀ (r : Fin 1024) (c : Fin 2048), X (ix4 0 0 r c) = Cert.Spec.wcbc a0 a2 r c := by
  refine ⟨_, _, rfl, fun r c => ?_⟩
  refine (mulf_apply _ _ _).trans ?_
  unfold Cert.Spec.wcbc
  refine congrArg (a2 (ix4 0 0 r c) * ·) ?_
  refine (bcast23 _ _).trans ?_
  unfold Cert.Spec.wmask
  refine (uitofp_bool _).trans ?_
  unfold Cert.Spec.ind
  refine if_congr ?_ rfl rfl
  show (3#32).slt (Host.scatter _ _ _ _ _ (ix2 r c)) = true ↔ _
  dsimp only
  rw [set_row _ 1023#32 3#32 1023 (by decide), set_row _ 0#32 3#32 0 (by decide), set_col _ 2047#32 3#32 2047 (by decide),
    set_col _ 1#32 0#32 1 (by decide), set_span _ 1022#32 1#32 0#32 1022 1 (by decide) (by decide),
    set_span _ 1#32 1#32 0#32 1 1 (by decide) (by decide)]
  have hc : (ix2 r c (1 : Fin 2)).val = c.val := rfl
  have hr : (ix2 r c (0 : Fin 2)).val = r.val := rfl
  have hb := chan2 a0 r c
  simp only [hc, hr]
  unfold Cert.Spec.bcode
  have := c.isLt
  have e : (if r.val = 1023 then 3#32 else if r.val = 0 then 3#32 else if c.val = 2047 then 3#32 else if c.val = 1 then 0#32
      else if r.val = 1022 ∧ 1 ≤ c.val ∧ c.val < 1 + 2047 then 0#32 else if r.val = 1 ∧ 1 ≤ c.val ∧ c.val < 1 + 2047 then 0#32
      else shapeCast S1024x2048 (shapeCast S1x1024x2048 (extractStridedSlice S1x1x1024x2048 ![0, 1, 0, 0] a0 slices_S1x2x1024x2048_S1x1x1024x2048_0_1_0_0)
        shapeCasts_S1x1x1024x2048_S1x1024x2048) shapeCasts_S1x1024x2048_S1024x2048 (ix2 r c))
      = (if r.val = 1023 then 3#32 else if r.val = 0 then 3#32 else if c.val = 2047 then 3#32 else if c.val = 1 then 0#32
      else if r.val = 1022 ∧ 1 ≤ c.val then 0#32 else if r.val = 1 ∧ 1 ≤ c.val then 0#32 else a0 (ix4 0 1 r c)) :=
    if_congr Iff.rfl rfl (if_congr Iff.rfl rfl (if_congr Iff.rfl rfl (if_congr Iff.rfl rfl
      (if_congr ⟨fun h => ⟨h.1, h.2.1⟩, fun h => ⟨h.1, h.2, by omega⟩⟩ rfl (if_congr ⟨fun h => ⟨h.1, h.2.1⟩, fun h => ⟨h.1, h.2, by omega⟩⟩ rfl hb)))))
  rw [e]

end Pre

open Cert.Pre_finite_inputs Cert.Pre_finite_inputs.Gen Idealize.ShloMosaic Idealize.ShloMosaic.ValueIdx in
/-- Under the precondition the masked water content's sum is not negative. -/
theorem pre_nonneg (a0 : IVec Cert.Pre_finite_inputs.S1x2x1024x2048 32) (a1 a2 a3 : FVec Ideal Cert.Pre_finite_inputs.S1x1x1024x2048 .f32)
    (a4 : FVec Ideal Cert.Pre_finite_inputs.S1x2x1024x2048 .f32)
    (h : Cert.Pre_finite_inputs.fn (F := Ideal) a0 a1 a2 a3 a4 = fun _ => 1#1) : 0 ≤ Cert.Spec.wsum a0 a2 := by
  obtain ⟨X, p, hfn, hX⟩ := Pre.fn_shape a0 a1 a2 a3 a4
  have h0 := congrFun (hfn.symm.trans h) ix0
  obtain ⟨-, h50⟩ := IntOp.andi_eq_one.mp h0
  have hle := Pre.cmp_oge_eq_one h50
  have hz : (constant (F := Ideal) S_ .f32 0x00000000#32 ix0 : EReal) = 0 := Ideal.ofBits_zero_f32
  have hsum : Host.reduceAdd X (constant (F := Ideal) S_ .f32 0x00000000#32) reducesTo_S1x1x1024x2048_S_d0_1_2_3 h_S_ ix0
      = 0 + ∑ i, X i := by
    rw [hostReduceAdd_apply, Ideal.hostReduceAdd_total _ (fun b => b.elim0)]
    exact congrArg (· + ∑ i, X i) Ideal.ofBits_zero_f32
  rw [hz, hsum, LibRefSum.sum_idx11] at hle
  unfold Cert.Spec.wsum
  refine le_of_le_of_eq hle ?_
  refine congrArg (0 + ·) ?_
  exact Finset.sum_congr rfl fun r _ => Finset.sum_congr rfl fun c _ => hX r c

end Cert.ReferenceIdeal.RefValue

end
-- ==== Proof.RefVal0.lean ====
/-
  The reference's first window read index by index: the two flow channels, the geometry channel with its first and
  last row set to 1, the boundary code after its six overwrites, and the water mask.
-/
import proofs.«161081_j59665685676148_2_alg».proof.Proof.RefRun
import proofs.«161081_j59665685676148_2_alg».proof.Proof.Spec
import proofs.«161081_j59665685676148_2_alg».proof.Proof.LibRefScatter
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

/-- The buffer contents of the reference's device. -/
abbrev Vals := Valuation τ sig (Elt Ideal)

/-- The contents after the first window. -/
def val1 (V : Vals) : Vals := after (ops_part0 (F := Ideal)) V

theorem val1_keep (V : Vals) (r : Ref sig .tc) (h : r ∉ ops_part0_W) :
    val1 V (Proc.devRef .tc r) = V (Proc.devRef .tc r) :=
  after_of_writes_sub ops_part0 V ops_part0_writes h

/-! ## The overwrites at the program's dimension numbers -/

theorem set_row (x : S1024x2048.Idx → BitVec 32) (k c : BitVec 32) (n : ℕ) (hn : k.toInt = (n : ℤ)) (j : S1024x2048.Idx) :
    Host.scatter scatter_S1024x2048_S1_S2048_0_0_0_0 (fun _ b => b) x
        (broadcastInDim S1 ![] bcast_S_S1 (constantI S_ 32 k)) (broadcastInDim S2048 ![] bcast_S_S2048 (constantI S_ 32 c)) j
      = if (j 0).val = n then c else x j := by
  refine (LibRefScatter.scatter_row_apply scatter_S1024x2048_S1_S2048_0_0_0_0_wf x _ _ c (fun _ => rfl) j).trans ?_
  refine if_congr ?_ rfl rfl
  show k.toInt = ((j 0).val : ℤ) ↔ _
  rw [hn]; omega

theorem set_col (x : S1024x2048.Idx → BitVec 32) (k c : BitVec 32) (n : ℕ) (hn : k.toInt = (n : ℤ)) (j : S1024x2048.Idx) :
    Host.scatter scatter_S1024x2048_S1_S1024_0_1_1_0 (fun _ b => b) x
        (broadcastInDim S1 ![] bcast_S_S1 (constantI S_ 32 k)) (broadcastInDim S1024 ![] bcast_S_S1024 (constantI S_ 32 c)) j
      = if (j 1).val = n then c else x j := by
  refine (LibRefScatter.scatter_col_apply scatter_S1024x2048_S1_S1024_0_1_1_0_wf x _ _ c (fun _ => rfl) j).trans ?_
  refine if_congr ?_ rfl rfl
  show k.toInt = ((j 1).val : ℤ) ↔ _
  rw [hn]; omega

theorem set_span (x : S1024x2048.Idx → BitVec 32) (a b : S1.Idx → BitVec 32) (k0 k1 c : BitVec 32) (n0 n1 : ℕ)
    (ha : ∀ i, a i = k0) (hb : ∀ i, b i = k1)
    (h0 : k0.toInt = (n0 : ℤ)) (h1 : k1.toInt = (n1 : ℤ)) (j : S1024x2048.Idx) :
    Host.scatter scatter_S1024x2048_S2_S2047_0_0_01_0 (fun _ b => b) x
        (concatenate S2 0 [⟨S1, a⟩, ⟨S1, b⟩] concatenates_S1_S1_S2_d0) (broadcastInDim S2047 ![] bcast_S_S2047 (constantI S_ 32 c)) j
      = if (j 0).val = n0 ∧ n1 ≤ (j 1).val ∧ (j 1).val < n1 + 2047 then c else x j := by
  refine (LibRefScatter.scatter_span_apply scatter_S1024x2048_S2_S2047_0_0_01_0_wf x _ _ c (fun _ => rfl) j).trans ?_
  have e0 : concatenate S2 0 [⟨S1, a⟩, ⟨S1, b⟩] concatenates_S1_S1_S2_d0 (ix1 0) = k0 :=
    (concatenate_pair_apply_left (t := S2) (s₁ := S1) (s₂ := S1) (0 : Fin 1) a b concatenates_S1_S1_S2_d0 (ix1 0) rfl (ix1 0) (fun b => by
      obtain rfl : b = 0 := Subsingleton.elim _ _; rfl)).trans (ha _)
  have e1 : concatenate S2 0 [⟨S1, a⟩, ⟨S1, b⟩] concatenates_S1_S1_S2_d0 (ix1 1) = k1 :=
    (concatenate_pair_apply_right (t := S2) (s₁ := S1) (s₂ := S1) (0 : Fin 1) a b concatenates_S1_S1_S2_d0 (ix1 1) rfl rfl (ix1 0) (fun b hb => by
      obtain rfl : b = 0 := Subsingleton.elim _ _; exact absurd rfl hb) rfl).trans (hb _)
  refine if_congr ?_ rfl rfl
  rw [e0, e1, h0, h1]
  constructor
  · rintro ⟨p, q, r⟩; exact ⟨by omega, by omega, by omega⟩
  · rintro ⟨p, q, r⟩; exact ⟨by omega, by omega, by omega⟩

theorem set_slab (x : S1x1024x2048.Idx → EReal) (k : BitVec 32) (c : BitVec 32) (n : ℕ) (hn : k.toInt = (n : ℤ)) (j : S1x1024x2048.Idx) :
    Host.scatter scatter_S1x1024x2048_S1_S1x2048_01_1_1_0 (fun _ b => b) x
        (broadcastInDim S1 ![] bcast_S_S1 (constantI S_ 32 k)) (broadcastInDim S1x2048 ![] bcast_S_S1x2048 (constant (F := Ideal) S_ .f32 c)) j
      = if (j 1).val = n then Ideal.ofBits .f32 c else x j := by
  refine (LibRefScatter.scatter_slab_apply scatter_S1x1024x2048_S1_S1x2048_01_1_1_0_wf x _ _ (Ideal.ofBits .f32 c) (fun _ => rfl) j).trans ?_
  refine if_congr ?_ rfl rfl
  show k.toInt = ((j 1).val : ℤ) ↔ _
  rw [hn]; omega

/-! ## The channels of an argument -/

/-- Channel `ch` of a two-channel array, its two unit axes dropped. -/
theorem chan2 {α : Type} (x : S1x2x1024x2048.Idx → α) (r : Fin 1024) (c : Fin 2048) :
    shapeCast S1024x2048 (shapeCast S1x1024x2048 (extractStridedSlice S1x1x1024x2048 ![0, 1, 0, 0] x slices_S1x2x1024x2048_S1x1x1024x2048_0_1_0_0)
        shapeCasts_S1x1x1024x2048_S1x1024x2048) shapeCasts_S1x1024x2048_S1024x2048 (ix2 r c) = x (ix4 0 1 r c) :=
  (shapeCast_1ab_ab_apply _ _ r c).trans ((shapeCast_1abc_abc_apply _ _ 0 r c).trans
    (extractStridedSlice_apply _ _ _ _ (ix4 0 1 r c) fun a => match a with
      | ⟨0, _⟩ => rfl | ⟨1, _⟩ => rfl | ⟨2, _⟩ => (Nat.zero_add _).symm | ⟨3, _⟩ => (Nat.zero_add _).symm))

theorem chan3 {α : Type} (x : S1x2x1024x2048.Idx → α) (ch : Fin 2) (h : S1x2x1024x2048.Slices ![0, ch.val, 0, 0] S1x1x1024x2048)
    (u : Fin 1) (r : Fin 1024) (c : Fin 2048) :
    shapeCast S1x1024x2048 (extractStridedSlice S1x1x1024x2048 ![0, ch.val, 0, 0] x h)
        shapeCasts_S1x1x1024x2048_S1x1024x2048 (ix3 u r c) = x (ix4 0 ch r c) := by
  obtain rfl : u = 0 := Subsingleton.elim _ _
  exact (shapeCast_1abc_abc_apply _ _ 0 r c).trans
    (extractStridedSlice_apply _ _ _ _ (ix4 0 ch r c) fun a => match a with
      | ⟨0, _⟩ => rfl | ⟨1, _⟩ => (Nat.add_zero _).symm | ⟨2, _⟩ => (Nat.zero_add _).symm | ⟨3, _⟩ => (Nat.zero_add _).symm)

/-! ## The window's results -/

theorem val1_v37 (V : Vals) :
    val1 V (Proc.devRef .tc main_v37)
      = fun j : S1024x2048.Idx => Spec.bcode (V (Proc.devRef .tc main_arg0)) (j 0) (j 1) := by
  unfold val1
  simp only [ops_part0]
  after_results_simp
  funext j
  obtain ⟨r, c, rfl⟩ : ∃ r c, j = ix2 r c := ⟨j 0, j 1, eq_ix2 j⟩
  rw [set_row _ 1023#32 3#32 1023 (by decide), set_row _ 0#32 3#32 0 (by decide), set_col _ 2047#32 3#32 2047 (by decide),
    set_col _ 1#32 0#32 1 (by decide), set_span _ _ _ 1022#32 1#32 0#32 1022 1 (fun _ => by after_results_simp; rfl) (fun _ => by after_results_simp; rfl) (by decide) (by decide),
    set_span _ _ _ 1#32 1#32 0#32 1 1 (fun _ => by after_results_simp; rfl) (fun _ => by after_results_simp; rfl) (by decide) (by decide)]
  have hc : (ix2 r c (1 : Fin 2)).val = c.val := rfl
  have hr : (ix2 r c (0 : Fin 2)).val = r.val := rfl
  have hb := chan2 (V (Proc.devRef .tc main_arg0)) r c
  simp only [hc, hr]
  unfold Spec.bcode
  have := c.isLt
  refine if_congr Iff.rfl rfl (if_congr Iff.rfl rfl (if_congr Iff.rfl rfl (if_congr Iff.rfl rfl
    (if_congr ⟨fun h => ⟨h.1, h.2.1⟩, fun h => ⟨h.1, h.2, by omega⟩⟩ rfl (if_congr ⟨fun h => ⟨h.1, h.2.1⟩, fun h => ⟨h.1, h.2, by omega⟩⟩ rfl ?_)))))
  exact hb

/-- The results of a window's operations, in a hypothesis. -/
macro "after_results_simp_at " h:ident : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne'] at $h:ident))

/-! ## Bits as floats -/

theorem uitofp_bool (c : Bool) : FloatOps.uitofp (F := Ideal) .f32 (BitVec.ofBool c) = if c = true then 1 else 0 := by
  cases c
  · show (((0 : ℕ) : ℝ) : EReal) = _
    simp
  · show (((1 : ℕ) : ℝ) : EReal) = _
    simp

theorem uitofp_sgt (b k : BitVec 32) :
    FloatOps.uitofp (F := Ideal) .f32 (IntOp.cmpi .sgt b k) = Spec.ind (k.slt b = true) :=
  uitofp_bool _

theorem uitofp_ne (b k : BitVec 32) :
    FloatOps.uitofp (F := Ideal) .f32 (IntOp.cmpi .ne b k) = Spec.ind (b ≠ k) := by
  refine (uitofp_bool _).trans ?_
  unfold Spec.ind
  by_cases h : b = k
  · simp [h]
  · simp [h]

theorem uitofp_eq (b k : BitVec 32) :
    FloatOps.uitofp (F := Ideal) .f32 (IntOp.cmpi .eq b k) = Spec.ind (b = k) := by
  refine (uitofp_bool _).trans ?_
  unfold Spec.ind
  by_cases h : b = k
  · simp [h]
  · simp [h]

/-- A select on "the code is k". -/
theorem select_eq {α : Type} (b k : BitVec 32) (x y : α) :
    Scalar.select (IntOp.cmpi .eq b k) x y = if b = k then x else y := by
  unfold Scalar.select
  refine if_congr ?_ rfl rfl
  show BitVec.ofBool (b == k) = 1#1 ↔ _
  cases hb : (b == k)
  · have hne : ¬ b = k := by simpa using hb
    exact ⟨fun h => absurd h (by decide), fun h => absurd h hne⟩
  · have he : b = k := by simpa using hb
    exact ⟨fun _ => he, fun _ => rfl⟩

theorem val1_v40 (V : Vals) :
    val1 V (Proc.devRef .tc main_v40)
      = fun j : S1024x2048.Idx => Spec.wmask (V (Proc.devRef .tc main_arg0)) (j 0) (j 1) := by
  have h37 := val1_v37 V
  unfold val1 at h37 ⊢
  simp only [ops_part0] at h37 ⊢
  after_results_simp_at h37
  after_results_simp
  rw [h37]
  funext j
  exact uitofp_sgt _ _

/-! ## The windows' contents, and the whole line's -/

def val2 (V : Vals) : Vals := after (ops_part1 (F := Ideal)) (val1 V)
def val3 (V : Vals) : Vals := after (ops_part2 (F := Ideal)) (val2 V)
def val4 (V : Vals) : Vals := after (ops_part3 (F := Ideal)) (val3 V)
def val5 (V : Vals) : Vals := after (ops_part4 (F := Ideal)) (val4 V)
def val6 (V : Vals) : Vals := after (ops_part5 (F := Ideal)) (val5 V)
def val7 (V : Vals) : Vals := after (ops_part6 (F := Ideal)) (val6 V)

theorem val2_keep (V : Vals) (r : Ref sig .tc) (h : r ∉ ops_part1_W) :
    val2 V (Proc.devRef .tc r) = val1 V (Proc.devRef .tc r) :=
  after_of_writes_sub ops_part1 _ ops_part1_writes h
theorem val3_keep (V : Vals) (r : Ref sig .tc) (h : r ∉ ops_part2_W) :
    val3 V (Proc.devRef .tc r) = val2 V (Proc.devRef .tc r) :=
  after_of_writes_sub ops_part2 _ ops_part2_writes h
theorem val4_keep (V : Vals) (r : Ref sig .tc) (h : r ∉ ops_part3_W) :
    val4 V (Proc.devRef .tc r) = val3 V (Proc.devRef .tc r) :=
  after_of_writes_sub ops_part3 _ ops_part3_writes h
theorem val5_keep (V : Vals) (r : Ref sig .tc) (h : r ∉ ops_part4_W) :
    val5 V (Proc.devRef .tc r) = val4 V (Proc.devRef .tc r) :=
  after_of_writes_sub ops_part4 _ ops_part4_writes h
theorem val6_keep (V : Vals) (r : Ref sig .tc) (h : r ∉ ops_part5_W) :
    val6 V (Proc.devRef .tc r) = val5 V (Proc.devRef .tc r) :=
  after_of_writes_sub ops_part5 _ ops_part5_writes h
theorem val7_keep (V : Vals) (r : Ref sig .tc) (h : r ∉ ops_part6_W) :
    val7 V (Proc.devRef .tc r) = val6 V (Proc.devRef .tc r) :=
  after_of_writes_sub ops_part6 _ ops_part6_writes h

/-- The whole line is the seven windows in turn. -/
theorem after_ops_eq (V : Vals) : after (ops (F := Ideal)) V = val7 V := by
  simp only [ops, StableHlo.after_append]
  rfl

/-! ## Indices with unit axes, and a grid array broadcast over them -/

theorem idx11 (j : S1x1x1024x2048.Idx) : j = ix4 0 0 (j 2) (j 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem idx1 (j : S1x1024x2048.Idx) : j = ix3 0 (j 1) (j 2) := by
  funext a
  match a with
  | ⟨0, _⟩ => exact Subsingleton.elim (α := Fin 1) _ _
  | ⟨1, _⟩ => rfl
  | ⟨2, _⟩ => rfl

theorem bcast23 {α : Type} (x : S1024x2048.Idx → α) (j : S1x1x1024x2048.Idx) :
    broadcastInDim S1x1x1024x2048 ![2, 3] bcast_S1024x2048_S1x1x1024x2048_2_3 x j = x (ix2 (j 2) (j 3)) :=
  broadcastInDim_apply _ _ x j _ (fun a => match a with | ⟨0, _⟩ => rfl | ⟨1, _⟩ => rfl)

end Cert.ReferenceIdeal.RefValue

end
-- ==== Proof.RefVal1.lean ====
/-
  The reference's second window, first part: the masked water content and the masked temperature.
-/
import proofs.«161081_j59665685676148_2_alg».proof.Proof.RefVal0
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

/-! ## The five argument arrays at the types the specification reads them at -/

abbrev aLay (V : Vals) : Cert.Spec.S2.Idx → BitVec 32 := V (Proc.devRef .tc main_arg0)
abbrev aHini (V : Vals) : Cert.Spec.S1.Idx → EReal := V (Proc.devRef .tc main_arg1)
abbrev aWc (V : Vals) : Cert.Spec.S1.Idx → EReal := V (Proc.devRef .tc main_arg2)
abbrev aHeat (V : Vals) : Cert.Spec.S1.Idx → EReal := V (Proc.devRef .tc main_arg3)
abbrev aFlow (V : Vals) : Cert.Spec.S2.Idx → EReal := V (Proc.devRef .tc main_arg4)

theorem val2_v42 (V : Vals) :
    val2 V (Proc.devRef .tc main_v42)
      = fun j : S1x1x1024x2048.Idx => Spec.wcbc (V (Proc.devRef .tc main_arg0)) (V (Proc.devRef .tc main_arg2)) (j 2) (j 3) := by
  unfold val2
  simp only [ops_part1]
  after_results_simp
  rw [val1_v40, val1_keep V main_arg2 (by decide)]
  funext j
  refine (mulf_apply _ _ j).trans ?_
  rw [bcast23]
  unfold Spec.wcbc
  exact congrArg (fun t => aWc V t * Spec.wmask (aLay V) (j 2) (j 3)) (idx11 j)

theorem val2_v47 (V : Vals) :
    val2 V (Proc.devRef .tc main_v47)
      = fun j : S1x1x1024x2048.Idx => Spec.hbc (V (Proc.devRef .tc main_arg0)) (V (Proc.devRef .tc main_arg3)) (j 2) (j 3) := by
  unfold val2
  simp only [ops_part1]
  after_results_simp
  rw [val1_v37, val1_keep V main_arg3 (by decide)]
  funext j
  refine (mulf_apply _ _ j).trans ?_
  rw [bcast23]
  unfold Spec.hbc
  refine Eq.trans (congrArg (fun t => aHeat V t * FloatOps.uitofp (F := Ideal) .f32 (IntOp.cmpi .ne (Spec.bcode (aLay V) (j 2) (j 3)) 1#32)) (idx11 j)) ?_
  exact congrArg (aHeat V (ix4 0 0 (j 2) (j 3)) * ·) (uitofp_ne _ _)

/-! ## The boundary code, kept through the later windows -/

theorem val2_v37 (V : Vals) : val2 V (Proc.devRef .tc main_v37)
    = fun j : S1024x2048.Idx => Spec.bcode (V (Proc.devRef .tc main_arg0)) (j 0) (j 1) :=
  (val2_keep V main_v37 (by decide)).trans (val1_v37 V)
theorem val3_v37 (V : Vals) : val3 V (Proc.devRef .tc main_v37)
    = fun j : S1024x2048.Idx => Spec.bcode (V (Proc.devRef .tc main_arg0)) (j 0) (j 1) :=
  (val3_keep V main_v37 (by decide)).trans (val2_v37 V)
theorem val4_v37 (V : Vals) : val4 V (Proc.devRef .tc main_v37)
    = fun j : S1024x2048.Idx => Spec.bcode (V (Proc.devRef .tc main_arg0)) (j 0) (j 1) :=
  (val4_keep V main_v37 (by decide)).trans (val3_v37 V)
theorem val5_v37 (V : Vals) : val5 V (Proc.devRef .tc main_v37)
    = fun j : S1024x2048.Idx => Spec.bcode (V (Proc.devRef .tc main_arg0)) (j 0) (j 1) :=
  (val5_keep V main_v37 (by decide)).trans (val4_v37 V)
theorem val6_v37 (V : Vals) : val6 V (Proc.devRef .tc main_v37)
    = fun j : S1024x2048.Idx => Spec.bcode (V (Proc.devRef .tc main_arg0)) (j 0) (j 1) :=
  (val6_keep V main_v37 (by decide)).trans (val5_v37 V)

/-- The second result: the masked temperature, as the whole line leaves it. -/
theorem out1_eq (V : Vals) :
    after (ops (F := Ideal)) V (Proc.devRef .tc main_v47)
      = Spec.out1 (V (Proc.devRef .tc main_arg0)) (V (Proc.devRef .tc main_arg3)) := by
  rw [after_ops_eq, val7_keep V main_v47 (by decide), val6_keep V main_v47 (by decide), val5_keep V main_v47 (by decide),
    val4_keep V main_v47 (by decide), val3_keep V main_v47 (by decide), val2_v47]
  rfl

end Cert.ReferenceIdeal.RefValue

end
-- ==== Proof.RefVal2.lean ====
/-
  The flow channels and the geometry of the first window; then the second window's absolute temperature and the two
  heat capacities, each a cubic in it.
-/
import proofs.«161081_j59665685676148_2_alg».proof.Proof.RefVal1
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

/-! ## The first window's remaining results -/

theorem chan3' {α : Type} (x : S1x2x1024x2048.Idx → α) (ch : Fin 2) (h : S1x2x1024x2048.Slices ![0, ch.val, 0, 0] S1x1x1024x2048)
    (j : S1x1024x2048.Idx) :
    shapeCast S1x1024x2048 (extractStridedSlice S1x1x1024x2048 ![0, ch.val, 0, 0] x h)
        shapeCasts_S1x1x1024x2048_S1x1024x2048 j = x (ix4 0 ch (j 1) (j 2)) :=
  (congrArg (fun t => shapeCast S1x1024x2048 (extractStridedSlice S1x1x1024x2048 ![0, ch.val, 0, 0] x h)
    shapeCasts_S1x1x1024x2048_S1x1024x2048 t) (eq_ix3 j)).trans (chan3 x ch h (j 0) (j 1) (j 2))

theorem val1_v1 (V : Vals) :
    val1 V (Proc.devRef .tc main_v1) = fun j : S1x1024x2048.Idx => aFlow V (ix4 0 0 (j 1) (j 2)) := by
  unfold val1
  simp only [ops_part0]
  after_results_simp
  funext j
  exact chan3' (aFlow V) 0 slices_S1x2x1024x2048_S1x1x1024x2048_0_0_0_0 j

theorem val1_v3 (V : Vals) :
    val1 V (Proc.devRef .tc main_v3) = fun j : S1x1024x2048.Idx => aFlow V (ix4 0 1 (j 1) (j 2)) := by
  unfold val1
  simp only [ops_part0]
  after_results_simp
  funext j
  exact chan3' (aFlow V) 1 slices_S1x2x1024x2048_S1x1x1024x2048_0_1_0_0 j

theorem val1_v15 (V : Vals) :
    val1 V (Proc.devRef .tc main_v15) = fun j : S1x1024x2048.Idx => Spec.geom (aLay V) (j 1) (j 2) := by
  unfold val1
  simp only [ops_part0]
  after_results_simp
  funext j
  rw [set_slab _ 1023#32 0x3F800000#32 1023 (by decide), set_slab _ 0#32 0x3F800000#32 0 (by decide)]
  unfold Spec.geom
  refine if_congr Iff.rfl rfl (if_congr Iff.rfl rfl ?_)
  exact congrArg (FloatOps.sitofp (F := Ideal) .f32) (chan3' (aLay V) 0 slices_S1x2x1024x2048_S1x1x1024x2048_0_0_0_0 j)

/-! ## The second window's arrays as functions of the cell -/

section Pure
variable (lay : Cert.Spec.S2.Idx → BitVec 32) (heat : Cert.Spec.S1.Idx → EReal) (X T : S1x1x1024x2048.Idx → EReal)

theorem P_hbc :
    (mulf heat (broadcastInDim S1x1x1024x2048 ![2, 3] bcast_S1024x2048_S1x1x1024x2048_2_3 (uitofp (F := Ideal) .f32 (cmpi .ne (fun j : S1024x2048.Idx => Spec.bcode lay (j 0) (j 1)) (broadcastInDim S1024x2048 ![] bcast_S_S1024x2048 (constantI S_ 32 1#32))))))
      = fun j : S1x1x1024x2048.Idx => Spec.hbc lay heat (j 2) (j 3) := by
  funext j
  refine (mulf_apply _ _ j).trans ?_
  rw [bcast23]
  unfold Spec.hbc
  refine Eq.trans (congrArg (fun t => heat t * FloatOps.uitofp (F := Ideal) .f32 (IntOp.cmpi .ne (Spec.bcode lay (j 2) (j 3)) 1#32)) (idx11 j)) ?_
  exact congrArg (heat (ix4 0 0 (j 2) (j 3)) * ·) (uitofp_ne _ _)

theorem P_tabs :
    (addf X (broadcastInDim S1x1x1024x2048 ![] bcast_S_S1x1x1024x2048 (constant (F := Ideal) S_ .f32 0x43889333#32)))
      = fun j : S1x1x1024x2048.Idx => Spec.tabs (X j) := by
  funext j
  rfl

theorem P_cpa :
    (mulf (Host.divf (subf (addf (addf (broadcastInDim S1x1x1024x2048 ![] bcast_S_S1x1x1024x2048 (constant (F := Ideal) S_ .f32 0x41E0E148#32)) (mulf (broadcastInDim S1x1x1024x2048 ![] bcast_S_S1x1x1024x2048 (constant (F := Ideal) S_ .f32 0x3B00E8C9#32)) T)) (mulf (broadcastInDim S1x1x1024x2048 ![] bcast_S_S1x1x1024x2048 (constant (F := Ideal) S_ .f32 0x36A120DE#32)) (mulf T T))) (mulf (broadcastInDim S1x1x1024x2048 ![] bcast_S_S1x1x1024x2048 (constant (F := Ideal) S_ .f32 0x31071A3D#32)) (mulf (mulf T T) T))) (broadcastInDim S1x1x1024x2048 ![] bcast_S_S1x1x1024x2048 (constant (F := Ideal) S_ .f32 0x41E7C28F#32))) (broadcastInDim S1x1x1024x2048 ![] bcast_S_S1x1x1024x2048 (constant (F := Ideal) S_ .f32 0x447A0000#32)))
      = fun j : S1x1x1024x2048.Idx => Spec.cpa (T j) := by
  funext j
  show Ideal.div (((Spec.lit 0x41E0E148#32 + Spec.lit 0x3B00E8C9#32 * T j) + Spec.lit 0x36A120DE#32 * (T j * T j))
      - Spec.lit 0x31071A3D#32 * ((T j * T j) * T j)) (Spec.lit 0x41E7C28F#32) * Spec.lit 0x447A0000#32 = _
  unfold Spec.cpa
  simp only [mul_assoc]

theorem P_cpv :
    (mulf (Host.divf (subf (addf (addf (broadcastInDim S1x1x1024x2048 ![] bcast_S_S1x1x1024x2048 (constant (F := Ideal) S_ .f32 0x4200F5C3#32)) (mulf (broadcastInDim S1x1x1024x2048 ![] bcast_S_S1x1x1024x2048 (constant (F := Ideal) S_ .f32 0x3AFC0D2C#32)) T)) (mulf (broadcastInDim S1x1x1024x2048 ![] bcast_S_S1x1x1024x2048 (constant (F := Ideal) S_ .f32 0x3730FFE8#32)) (mulf T T))) (mulf (broadcastInDim S1x1x1024x2048 ![] bcast_S_S1x1x1024x2048 (constant (F := Ideal) S_ .f32 0x31770BE9#32)) (mulf (mulf T T) T))) (broadcastInDim S1x1x1024x2048 ![] bcast_S_S1x1x1024x2048 (constant (F := Ideal) S_ .f32 0x41901EB8#32))) (broadcastInDim S1x1x1024x2048 ![] bcast_S_S1x1x1024x2048 (constant (F := Ideal) S_ .f32 0x447A0000#32)))
      = fun j : S1x1x1024x2048.Idx => Spec.cpv (T j) := by
  funext j
  show Ideal.div (((Spec.lit 0x4200F5C3#32 + Spec.lit 0x3AFC0D2C#32 * T j) + Spec.lit 0x3730FFE8#32 * (T j * T j))
      - Spec.lit 0x31770BE9#32 * ((T j * T j) * T j)) (Spec.lit 0x41901EB8#32) * Spec.lit 0x447A0000#32 = _
  unfold Spec.cpv
  simp only [mul_assoc]

end Pure

/-! ## The second window's results -/

/-- The masked temperature of a cell. -/
abbrev hbAt (V : Vals) (j : S1x1x1024x2048.Idx) : EReal := Spec.hbc (V (Proc.devRef .tc main_arg0)) (V (Proc.devRef .tc main_arg3)) (j 2) (j 3)

theorem val2_v50 (V : Vals) :
    val2 V (Proc.devRef .tc main_v50) = fun j : S1x1x1024x2048.Idx => Spec.tabs (hbAt V j) := by
  unfold val2
  simp only [ops_part1]
  after_results_simp
  rw [val1_v37, val1_keep V main_arg3 (by decide), P_hbc, P_tabs]

theorem val2_v67 (V : Vals) :
    val2 V (Proc.devRef .tc main_v67) = fun j : S1x1x1024x2048.Idx => Spec.cpa (Spec.tabs (hbAt V j)) := by
  unfold val2
  simp only [ops_part1]
  after_results_simp
  rw [val1_v37, val1_keep V main_arg3 (by decide), P_hbc, P_tabs, P_cpa]

theorem val2_v84 (V : Vals) :
    val2 V (Proc.devRef .tc main_v84) = fun j : S1x1x1024x2048.Idx => Spec.cpv (Spec.tabs (hbAt V j)) := by
  unfold val2
  simp only [ops_part1]
  after_results_simp
  rw [val1_v37, val1_keep V main_arg3 (by decide), P_hbc, P_tabs, P_cpv]

theorem val2_cst32 (V : Vals) :
    val2 V (Proc.devRef .tc main_cst_32) = constant (F := Ideal) S_ .f32 0x42386666#32 := by
  unfold val2
  simp only [ops_part1]
  after_results_simp

end Cert.ReferenceIdeal.RefValue

end
-- ==== Proof.RefVal3.lean ====
/-
  The third window: the vapour fraction, the porosity factor of the mean water content (where the square root meets
  the power one half), the evaporation rate, and the two centred differences of the padded temperature.
-/
import proofs.«161081_j59665685676148_2_alg».proof.Proof.RefVal2
import proofs.«161081_j59665685676148_2_alg».proof.Proof.LibRefSum
import proofs.«161081_j59665685676148_2_alg».proof.Proof.LibSqrtPow
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

open scoped BigOperators

/-! ## Literals -/

theorem lit_D : Spec.lit 0x3AAB0B61#32 = ((11209569 / 8589934592 : ℝ) : EReal) := by
  show Ideal.ofBits .f32 0x3AAB0B61#32 = _
  simp [Ideal.ofBits, Ideal.ieee, -EReal.coe_mul]; norm_num
theorem lit_400 : Spec.lit 0x43C80000#32 = ((400 : ℝ) : EReal) := by
  show Ideal.ofBits .f32 0x43C80000#32 = _
  simp [Ideal.ofBits, Ideal.ieee, -EReal.coe_mul]; norm_num
theorem lit_one : Spec.lit 0x3F800000#32 = 1 := by
  show Ideal.ofBits .f32 0x3F800000#32 = _
  simp [Ideal.ofBits, Ideal.ieee, -EReal.coe_mul]; norm_num
theorem lit_2p21 : Spec.lit 0x4A000000#32 = ((2097152 : ℝ) : EReal) := by
  show Ideal.ofBits .f32 0x4A000000#32 = _
  simp [Ideal.ofBits, Ideal.ieee, -EReal.coe_mul]; norm_num
theorem lit_wc0 : Spec.lit 0x4283F02F#32 = ((8646703 / 131072 : ℝ) : EReal) := by
  show Ideal.ofBits .f32 0x4283F02F#32 = _
  simp [Ideal.ofBits, Ideal.ieee, -EReal.coe_mul]; norm_num
theorem lit_zero : Spec.lit 0x00000000#32 = 0 := Ideal.ofBits_zero_f32

/-- The porosity factor: the reference's `((D * base ^ (1/2)) * 400) * 1` is the named constant `400 * D` times the
    square root of the base, for a sum that is not negative. -/
theorem por_eq (s : EReal) (hs : 0 ≤ s) :
    ((Spec.lit 0x3AAB0B61#32 * Ideal.pow (Ideal.div (Ideal.div s (Spec.lit 0x4A000000#32)) (Spec.lit 0x4283F02F#32)) (Spec.lit 0x3F000000#32))
        * Spec.lit 0x43C80000#32) * Spec.lit 0x3F800000#32 = Spec.porous (Ideal.div s (Spec.lit 0x4A000000#32)) := by
  have hbase : 0 ≤ Ideal.div (Ideal.div s (Spec.lit 0x4A000000#32)) (Spec.lit 0x4283F02F#32) := by
    rw [lit_2p21, lit_wc0, Ideal.div_coe (by norm_num), Ideal.div_coe (by norm_num)]
    exact EReal.mul_nonneg (EReal.mul_nonneg hs (EReal.coe_nonneg.2 (by norm_num))) (EReal.coe_nonneg.2 (by norm_num))
  have hh : Spec.lit 0x3F000000#32 = ((1 / 2 : ℝ) : EReal) := Cert.LibSqrtPow.ofBits_half
  unfold Spec.porous
  rw [Cert.LibSqrtPow.sqrt_eq_pow_half _ hbase, hh, lit_one, mul_one, mul_comm (Spec.lit 0x3AAB0B61#32) _, mul_assoc, lit_D, lit_400,
    ← EReal.coe_mul, mul_comm, show (11209569 / 8589934592 * 400 : ℝ) = 280239225 / 536870912 by norm_num]

theorem rowR_succ (r : Fin 1024) : Spec.rowR (r.val + 1) = r := by
  unfold Spec.rowR
  rw [if_neg (Nat.succ_ne_zero _), dif_pos (by have := r.isLt; omega)]
  exact Fin.ext (show r.val + 1 - 1 = r.val by omega)

theorem colR_succ (c : Fin 2048) : Spec.colR (c.val + 1) = c := by
  unfold Spec.colR
  rw [if_neg (Nat.succ_ne_zero _), dif_pos (by have := c.isLt; omega)]
  exact Fin.ext (show c.val + 1 - 1 = c.val by omega)

theorem bcast123 {α : Type} (x : S1x1024x2048.Idx → α) (j : S1x1x1024x2048.Idx) :
    broadcastInDim S1x1x1024x2048 ![1, 2, 3] bcast_S1x1024x2048_S1x1x1024x2048_1_2_3 x j = x (ix3 0 (j 2) (j 3)) :=
  broadcastInDim_apply _ _ x j _ (fun a => match a with | ⟨0, _⟩ => rfl | ⟨1, _⟩ => rfl | ⟨2, _⟩ => rfl)

section Pure
variable (lay : Cert.Spec.S2.Idx → BitVec 32) (heat wc : Cert.Spec.S1.Idx → EReal)
variable (T W CA CV XV DX DY : S1x1x1024x2048.Idx → EReal) (P : S_.Idx → EReal) (U Vv : S1x1024x2048.Idx → EReal)
variable (XP : S1x1x1026x2050.Idx → EReal)

theorem P_xvap :
    (Host.divf (mulf (broadcastInDim S1x1x1024x2048 ![] bcast_S_S1x1x1024x2048 (constant (F := Ideal) S_ .f32 0x3F1F3A15#32)) (Host.exp (subf (broadcastInDim S1x1x1024x2048 ![] bcast_S_S1x1x1024x2048 (constant (F := Ideal) S_ .f32 0x41B9999A#32)) (Host.divf (broadcastInDim S1x1x1024x2048 ![] bcast_S_S1x1x1024x2048 (constant (F := Ideal) S_ .f32 0x456E8666#32)) (subf T (broadcastInDim S1x1x1024x2048 ![] bcast_S_S1x1x1024x2048 (constant (F := Ideal) S_ .f32 0x42386666#32))))))) (subf (broadcastInDim S1x1x1024x2048 ![] bcast_S_S1x1x1024x2048 (constant (F := Ideal) S_ .f32 0x47C5E680#32)) (Host.exp (subf (broadcastInDim S1x1x1024x2048 ![] bcast_S_S1x1x1024x2048 (constant (F := Ideal) S_ .f32 0x41B9999A#32)) (Host.divf (broadcastInDim S1x1x1024x2048 ![] bcast_S_S1x1x1024x2048 (constant (F := Ideal) S_ .f32 0x456E8666#32)) (subf T (broadcastInDim S1x1x1024x2048 ![] bcast_S_S1x1x1024x2048 (constant (F := Ideal) S_ .f32 0x42386666#32))))))))
      = fun j : S1x1x1024x2048.Idx => Spec.xvap (T j) := by
  funext j
  rfl

theorem P_por :
    (mulf (mulf (mulf (constant (F := Ideal) S_ .f32 0x3AAB0B61#32) (Host.powf (Host.divf (Host.divf (Host.reduceAdd W (constant (F := Ideal) S_ .f32 0x00000000#32) reducesTo_S1x1x1024x2048_S_d0_1_2_3 h_S_) (constant (F := Ideal) S_ .f32 0x4A000000#32)) (constant (F := Ideal) S_ .f32 0x4283F02F#32)) (constant (F := Ideal) S_ .f32 0x3F000000#32))) (constant (F := Ideal) S_ .f32 0x43C80000#32)) (constant (F := Ideal) S_ .f32 0x3F800000#32))
      = fun _ : S_.Idx => ((Spec.lit 0x3AAB0B61#32 * Ideal.pow (Ideal.div (Ideal.div (Spec.lit 0x00000000#32 + ∑ i, W i) (Spec.lit 0x4A000000#32))
          (Spec.lit 0x4283F02F#32)) (Spec.lit 0x3F000000#32)) * Spec.lit 0x43C80000#32) * Spec.lit 0x3F800000#32 := by
  funext k
  show ((Spec.lit 0x3AAB0B61#32 * Ideal.pow (Ideal.div (Ideal.div
      (Host.reduceAdd W (constant (F := Ideal) S_ .f32 0x00000000#32) reducesTo_S1x1x1024x2048_S_d0_1_2_3 h_S_ k) (Spec.lit 0x4A000000#32))
      (Spec.lit 0x4283F02F#32)) (Spec.lit 0x3F000000#32)) * Spec.lit 0x43C80000#32) * Spec.lit 0x3F800000#32 = _
  rw [hostReduceAdd_apply, Ideal.hostReduceAdd_total _ (fun b => b.elim0)]
  rfl

theorem P_mdot :
    (mulf (mulf (Host.divf (broadcastInDim S1x1x1024x2048 ![] bcast_S_S1x1x1024x2048 (constant (F := Ideal) S_ .f32 0x43960000#32)) (addf CA (mulf CV (broadcastInDim S1x1x1024x2048 ![] bcast_S_S1x1x1024x2048 (constant (F := Ideal) S_ .f32 0x3BED9168#32))))) (subf XV (broadcastInDim S1x1x1024x2048 ![] bcast_S_S1x1x1024x2048 (constant (F := Ideal) S_ .f32 0x3BED9168#32)))) (broadcastInDim S1x1x1024x2048 ![] bcast_S_S1x1x1024x2048 P))
      = fun j : S1x1x1024x2048.Idx =>
          (Ideal.div (Spec.lit 0x43960000#32) (CA j + CV j * Spec.lit 0x3BED9168#32) * (XV j - Spec.lit 0x3BED9168#32)) * P ix0 := by
  funext j
  show (Ideal.div (Spec.lit 0x43960000#32) (CA j + CV j * Spec.lit 0x3BED9168#32) * (XV j - Spec.lit 0x3BED9168#32))
    * broadcastInDim S1x1x1024x2048 ![] bcast_S_S1x1x1024x2048 P j = _
  rw [broadcastInDim_scalar_apply]

theorem P_dxh :
    (mulf (broadcastInDim S1x1x1024x2048 ![] bcast_S_S1x1x1024x2048 (constant (F := Ideal) S_ .f32 0x3F000000#32)) (subf (extractStridedSlice S1x1x1024x2048 ![0, 0, 1, 2] (fun j : S1x1x1026x2050.Idx => Spec.hbc lay heat (Spec.rowR (j 2).val) (Spec.colR (j 3).val)) slices_S1x1x1026x2050_S1x1x1024x2048_0_0_1_2) (extractStridedSlice S1x1x1024x2048 ![0, 0, 1, 0] (fun j : S1x1x1026x2050.Idx => Spec.hbc lay heat (Spec.rowR (j 2).val) (Spec.colR (j 3).val)) slices_S1x1x1026x2050_S1x1x1024x2048_0_0_1_0)))
      = fun j : S1x1x1024x2048.Idx => Spec.dxv lay heat (j 2) (j 3) := by
  funext j
  have h0 : (j 0).val = 0 := Fin.val_eq_zero (j 0 : Fin 1)
  have h1 : (j 1).val = 0 := Fin.val_eq_zero (j 1 : Fin 1)
  have h2 : (j 2).val < 1024 := (j 2).isLt
  have h3 : (j 3).val < 2048 := (j 3).isLt
  show Spec.lit 0x3F000000#32 * (extractStridedSlice (s := S1x1x1026x2050) S1x1x1024x2048 ![0, 0, 1, 2] _ slices_S1x1x1026x2050_S1x1x1024x2048_0_0_1_2 j
    - extractStridedSlice (s := S1x1x1026x2050) S1x1x1024x2048 ![0, 0, 1, 0] _ slices_S1x1x1026x2050_S1x1x1024x2048_0_0_1_0 j) = _
  rw [extractStridedSlice_apply _ _ _ j (ix4 (0 : Fin 1) (0 : Fin 1) (⟨(j 2).val + 1, by omega⟩ : Fin 1026) (⟨(j 3).val + 2, by omega⟩ : Fin 2050))
      (fun a => match a with
        | ⟨0, _⟩ => by show (0 : ℕ) = 0 + (j 0).val; omega
        | ⟨1, _⟩ => by show (0 : ℕ) = 0 + (j 1).val; omega
        | ⟨2, _⟩ => by show (j 2).val + 1 = 1 + (j 2).val; omega
        | ⟨3, _⟩ => by show (j 3).val + 2 = 2 + (j 3).val; omega),
    extractStridedSlice_apply _ _ _ j (ix4 (0 : Fin 1) (0 : Fin 1) (⟨(j 2).val + 1, by omega⟩ : Fin 1026) (⟨(j 3).val, by omega⟩ : Fin 2050))
      (fun a => match a with
        | ⟨0, _⟩ => by show (0 : ℕ) = 0 + (j 0).val; omega
        | ⟨1, _⟩ => by show (0 : ℕ) = 0 + (j 1).val; omega
        | ⟨2, _⟩ => by show (j 2).val + 1 = 1 + (j 2).val; omega
        | ⟨3, _⟩ => by show (j 3).val = 0 + (j 3).val; omega)]
  show Spec.lit 0x3F000000#32 * (Spec.hbc lay heat (Spec.rowR ((j 2).val + 1)) (Spec.colR ((j 3).val + 2))
    - Spec.hbc lay heat (Spec.rowR ((j 2).val + 1)) (Spec.colR (j 3).val)) = _
  exact congrArg (fun t => Spec.lit 0x3F000000#32 * (Spec.hbc lay heat t (Spec.colR ((j 3).val + 2)) - Spec.hbc lay heat t (Spec.colR (j 3).val)))
    (rowR_succ (j 2))

theorem P_dyh :
    (mulf (broadcastInDim S1x1x1024x2048 ![] bcast_S_S1x1x1024x2048 (constant (F := Ideal) S_ .f32 0x3F000000#32)) (subf (extractStridedSlice S1x1x1024x2048 ![0, 0, 2, 1] (fun j : S1x1x1026x2050.Idx => Spec.hbc lay heat (Spec.rowR (j 2).val) (Spec.colR (j 3).val)) slices_S1x1x1026x2050_S1x1x1024x2048_0_0_2_1) (extractStridedSlice S1x1x1024x2048 ![0, 0, 0, 1] (fun j : S1x1x1026x2050.Idx => Spec.hbc lay heat (Spec.rowR (j 2).val) (Spec.colR (j 3).val)) slices_S1x1x1026x2050_S1x1x1024x2048_0_0_0_1)))
      = fun j : S1x1x1024x2048.Idx => Spec.dyv lay heat (j 2) (j 3) := by
  funext j
  have h0 : (j 0).val = 0 := Fin.val_eq_zero (j 0 : Fin 1)
  have h1 : (j 1).val = 0 := Fin.val_eq_zero (j 1 : Fin 1)
  have h2 : (j 2).val < 1024 := (j 2).isLt
  have h3 : (j 3).val < 2048 := (j 3).isLt
  show Spec.lit 0x3F000000#32 * (extractStridedSlice (s := S1x1x1026x2050) S1x1x1024x2048 ![0, 0, 2, 1] _ slices_S1x1x1026x2050_S1x1x1024x2048_0_0_2_1 j
    - extractStridedSlice (s := S1x1x1026x2050) S1x1x1024x2048 ![0, 0, 0, 1] _ slices_S1x1x1026x2050_S1x1x1024x2048_0_0_0_1 j) = _
  rw [extractStridedSlice_apply _ _ _ j (ix4 (0 : Fin 1) (0 : Fin 1) (⟨(j 2).val + 2, by omega⟩ : Fin 1026) (⟨(j 3).val + 1, by omega⟩ : Fin 2050))
      (fun a => match a with
        | ⟨0, _⟩ => by show (0 : ℕ) = 0 + (j 0).val; omega
        | ⟨1, _⟩ => by show (0 : ℕ) = 0 + (j 1).val; omega
        | ⟨2, _⟩ => by show (j 2).val + 2 = 2 + (j 2).val; omega
        | ⟨3, _⟩ => by show (j 3).val + 1 = 1 + (j 3).val; omega),
    extractStridedSlice_apply _ _ _ j (ix4 (0 : Fin 1) (0 : Fin 1) (⟨(j 2).val, by omega⟩ : Fin 1026) (⟨(j 3).val + 1, by omega⟩ : Fin 2050))
      (fun a => match a with
        | ⟨0, _⟩ => by show (0 : ℕ) = 0 + (j 0).val; omega
        | ⟨1, _⟩ => by show (0 : ℕ) = 0 + (j 1).val; omega
        | ⟨2, _⟩ => by show (j 2).val = 0 + (j 2).val; omega
        | ⟨3, _⟩ => by show (j 3).val + 1 = 1 + (j 3).val; omega)]
  show Spec.lit 0x3F000000#32 * (Spec.hbc lay heat (Spec.rowR ((j 2).val + 2)) (Spec.colR ((j 3).val + 1))
    - Spec.hbc lay heat (Spec.rowR (j 2).val) (Spec.colR ((j 3).val + 1))) = _
  exact congrArg (fun t => Spec.lit 0x3F000000#32 * (Spec.hbc lay heat (Spec.rowR ((j 2).val + 2)) t - Spec.hbc lay heat (Spec.rowR (j 2).val) t))
    (colR_succ (j 3))

theorem P_128 :
    ((addf (mulf (broadcastInDim S1x1x1024x2048 ![1, 2, 3] bcast_S1x1024x2048_S1x1x1024x2048_1_2_3 U) DX) (mulf (broadcastInDim S1x1x1024x2048 ![1, 2, 3] bcast_S1x1024x2048_S1x1x1024x2048_1_2_3 Vv) DY)) : FVec Ideal S1x1x1024x2048 .f32)
      = fun j : S1x1x1024x2048.Idx => U (ix3 0 (j 2) (j 3)) * DX j + Vv (ix3 0 (j 2) (j 3)) * DY j := by
  funext j
  show broadcastInDim S1x1x1024x2048 ![1, 2, 3] bcast_S1x1024x2048_S1x1x1024x2048_1_2_3 U j * DX j
    + broadcastInDim S1x1x1024x2048 ![1, 2, 3] bcast_S1x1024x2048_S1x1x1024x2048_1_2_3 Vv j * DY j = _
  rw [bcast123, bcast123]

end Pure

/-! ## The third window's results -/

/-- The padded temperature field, as the reflecting pad leaves it. -/
def PadIs (V : Vals) : Prop :=
  val2 V (Proc.devRef .tc main_v48)
    = fun j : S1x1x1026x2050.Idx => Spec.hbc (V (Proc.devRef .tc main_arg0)) (V (Proc.devRef .tc main_arg3)) (Spec.rowR (j 2).val) (Spec.colR (j 3).val)

theorem val2_v1 (V : Vals) : val2 V (Proc.devRef .tc main_v1) = fun j : S1x1024x2048.Idx => aFlow V (ix4 0 0 (j 1) (j 2)) :=
  (val2_keep V main_v1 (by decide)).trans (val1_v1 V)
theorem val2_v3 (V : Vals) : val2 V (Proc.devRef .tc main_v3) = fun j : S1x1024x2048.Idx => aFlow V (ix4 0 1 (j 1) (j 2)) :=
  (val2_keep V main_v3 (by decide)).trans (val1_v3 V)

theorem val3_v118 (V : Vals) (hpad : PadIs V) :
    val3 V (Proc.devRef .tc main_v118)
      = fun j : S1x1x1024x2048.Idx => Spec.dxv (V (Proc.devRef .tc main_arg0)) (V (Proc.devRef .tc main_arg3)) (j 2) (j 3) := by
  unfold val3
  simp only [ops_part2]
  after_results_simp
  rw [hpad, P_dxh]

theorem val3_v123 (V : Vals) (hpad : PadIs V) :
    val3 V (Proc.devRef .tc main_v123)
      = fun j : S1x1x1024x2048.Idx => Spec.dyv (V (Proc.devRef .tc main_arg0)) (V (Proc.devRef .tc main_arg3)) (j 2) (j 3) := by
  unfold val3
  simp only [ops_part2]
  after_results_simp
  rw [hpad, P_dyh]

theorem val3_v128 (V : Vals) (hpad : PadIs V) :
    val3 V (Proc.devRef .tc main_v128)
      = fun j : S1x1x1024x2048.Idx =>
          aFlow V (ix4 0 0 (j 2) (j 3)) * Spec.dxv (V (Proc.devRef .tc main_arg0)) (V (Proc.devRef .tc main_arg3)) (j 2) (j 3)
          + aFlow V (ix4 0 1 (j 2) (j 3)) * Spec.dyv (V (Proc.devRef .tc main_arg0)) (V (Proc.devRef .tc main_arg3)) (j 2) (j 3) := by
  unfold val3
  simp only [ops_part2]
  after_results_simp
  rw [val2_v1, val2_v3, hpad, P_dxh, P_dyh, P_128]

theorem val3_v113 (V : Vals)
    (hpos : 0 ≤ Spec.wsum (V (Proc.devRef .tc main_arg0)) (V (Proc.devRef .tc main_arg2))) :
    val3 V (Proc.devRef .tc main_v113)
      = fun j : S1x1x1024x2048.Idx =>
          Spec.mdotAt (V (Proc.devRef .tc main_arg0)) (V (Proc.devRef .tc main_arg2)) (V (Proc.devRef .tc main_arg3)) (j 2) (j 3) := by
  unfold val3
  simp only [ops_part2]
  after_results_simp
  rw [val2_v67, val2_v84, val2_v50, val2_cst32, val2_v42, P_xvap, P_por, P_mdot]
  funext j
  unfold Spec.mdotAt Spec.mdot Spec.wmean
  refine congrArg₂ (fun a b : EReal => a * b) rfl ?_
  have hs : Spec.lit 0x00000000#32 + ∑ i : S1x1x1024x2048.Idx,
        Spec.wcbc (V (Proc.devRef .tc main_arg0)) (V (Proc.devRef .tc main_arg2)) (i 2) (i 3)
      = Spec.wsum (V (Proc.devRef .tc main_arg0)) (V (Proc.devRef .tc main_arg2)) := by
    rw [LibRefSum.sum_idx11, lit_zero]
    rfl
  show ((Spec.lit 0x3AAB0B61#32 * Ideal.pow (Ideal.div (Ideal.div (Spec.lit 0x00000000#32 + ∑ i : S1x1x1024x2048.Idx,
        Spec.wcbc (V (Proc.devRef .tc main_arg0)) (V (Proc.devRef .tc main_arg2)) (i 2) (i 3)) (Spec.lit 0x4A000000#32))
          (Spec.lit 0x4283F02F#32)) (Spec.lit 0x3F000000#32)) * Spec.lit 0x43C80000#32) * Spec.lit 0x3F800000#32 = _
  rw [hs]
  exact por_eq _ hpos

end Cert.ReferenceIdeal.RefValue

end
-- ==== Proof.RefVal4.lean ====
/-
  The fourth window: the advected initial temperature (the reference's extra Laplacian term is zero times a number,
  over a step that is not zero: nothing), the water term, and the boundary terms of codes 4 to 10.
-/
import proofs.«161081_j59665685676148_2_alg».proof.Proof.RefVal3
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

theorem lit_h : Spec.lit 0x3B400000#32 = ((3 / 1024 : ℝ) : EReal) := by
  show Ideal.ofBits .f32 0x3B400000#32 = _
  simp [Ideal.ofBits, Ideal.ieee, -EReal.coe_mul]; norm_num

section Pure
variable (HI S128 M DX DY Wv : S1x1x1024x2048.Idx → EReal) (XP : S1x1x1026x2050.Idx → EReal)

theorem P_147 :
    (subf HI (mulf (broadcastInDim S1x1x1024x2048 ![] bcast_S_S1x1x1024x2048 (constant (F := Ideal) S_ .f32 0x3A83126F#32)) (subf S128 (Host.divf (mulf (broadcastInDim S1x1x1024x2048 ![] bcast_S_S1x1x1024x2048 (constant (F := Ideal) S_ .f32 0x00000000#32)) (subf (addf (addf (addf (extractStridedSlice S1x1x1024x2048 ![0, 0, 1, 2] XP slices_S1x1x1026x2050_S1x1x1024x2048_0_0_1_2) (extractStridedSlice S1x1x1024x2048 ![0, 0, 1, 0] XP slices_S1x1x1026x2050_S1x1x1024x2048_0_0_1_0)) (extractStridedSlice S1x1x1024x2048 ![0, 0, 2, 1] XP slices_S1x1x1026x2050_S1x1x1024x2048_0_0_2_1)) (extractStridedSlice S1x1x1024x2048 ![0, 0, 0, 1] XP slices_S1x1x1026x2050_S1x1x1024x2048_0_0_0_1)) (mulf (broadcastInDim S1x1x1024x2048 ![] bcast_S_S1x1x1024x2048 (constant (F := Ideal) S_ .f32 0x40800000#32)) (extractStridedSlice S1x1x1024x2048 ![0, 0, 1, 1] XP slices_S1x1x1026x2050_S1x1x1024x2048_0_0_1_1)))) (broadcastInDim S1x1x1024x2048 ![] bcast_S_S1x1x1024x2048 (constant (F := Ideal) S_ .f32 0x3B400000#32))))))
      = fun j : S1x1x1024x2048.Idx => HI j - Spec.lit 0x3A83126F#32 * S128 j := by
  funext j
  show HI j - Spec.lit 0x3A83126F#32 * (S128 j - Ideal.div (Spec.lit 0x00000000#32 * _) (Spec.lit 0x3B400000#32)) = _
  rw [lit_zero, zero_mul, lit_h, Ideal.div_coe (by norm_num), zero_mul, sub_zero]

theorem P_151 :
    (subf (broadcastInDim S1x1x1024x2048 ![] bcast_S_S1x1x1024x2048 (constant (F := Ideal) S_ .f32 0x4283F02F#32)) (mulf (broadcastInDim S1x1x1024x2048 ![] bcast_S_S1x1x1024x2048 (constant (F := Ideal) S_ .f32 0x3A83126F#32)) M))
      = fun j : S1x1x1024x2048.Idx => Spec.wcv (M j) := by
  funext j
  rfl

theorem P_154 :
    (addf (mulf (broadcastInDim S1x1x1024x2048 ![] bcast_S_S1x1x1024x2048 (constant (F := Ideal) S_ .f32 0x3F610000#32)) DX) Wv)
      = fun j : S1x1x1024x2048.Idx => Spec.flux * DX j + Wv j := by
  funext j
  rfl

theorem P_157 :
    (addf (mulf (broadcastInDim S1x1x1024x2048 ![] bcast_S_S1x1x1024x2048 (constant (F := Ideal) S_ .f32 0xBF610000#32)) DY) Wv)
      = fun j : S1x1x1024x2048.Idx => Spec.nflux * DY j + Wv j := by
  funext j
  rfl

theorem P_160 :
    (addf (mulf (broadcastInDim S1x1x1024x2048 ![] bcast_S_S1x1x1024x2048 (constant (F := Ideal) S_ .f32 0xBF610000#32)) DX) Wv)
      = fun j : S1x1x1024x2048.Idx => Spec.nflux * DX j + Wv j := by
  funext j
  rfl

theorem P_163 :
    (addf (mulf (broadcastInDim S1x1x1024x2048 ![] bcast_S_S1x1x1024x2048 (constant (F := Ideal) S_ .f32 0x3F610000#32)) DY) Wv)
      = fun j : S1x1x1024x2048.Idx => Spec.flux * DY j + Wv j := by
  funext j
  rfl

theorem P_168 :
    (addf (mulf (broadcastInDim S1x1x1024x2048 ![] bcast_S_S1x1x1024x2048 (constant (F := Ideal) S_ .f32 0x3F610000#32)) (addf (Host.negf DX) DY)) Wv)
      = fun j : S1x1x1024x2048.Idx => Spec.flux * ((Spec.lit 0x00000000#32 - DX j) + DY j) + Wv j := by
  funext j
  show Spec.flux * (-(DX j) + DY j) + Wv j = Spec.flux * ((Spec.lit 0x00000000#32 - DX j) + DY j) + Wv j
  rw [lit_zero, zero_sub]

theorem P_172 :
    (addf (mulf (broadcastInDim S1x1x1024x2048 ![] bcast_S_S1x1x1024x2048 (constant (F := Ideal) S_ .f32 0x3F610000#32)) (addf DY DX)) Wv)
      = fun j : S1x1x1024x2048.Idx => Spec.flux * (DY j + DX j) + Wv j := by
  funext j
  rfl

theorem P_175 :
    (mulf (broadcastInDim S1x1x1024x2048 ![] bcast_S_S1x1x1024x2048 (constant (F := Ideal) S_ .f32 0x3F610000#32)) (subf DX DY))
      = fun j : S1x1x1024x2048.Idx => Spec.flux * (DX j - DY j) := by
  funext j
  rfl

end Pure

/-! ## The cell's quantities, named -/

abbrev dxAt (V : Vals) (j : S1x1x1024x2048.Idx) : EReal := Spec.dxv (V (Proc.devRef .tc main_arg0)) (V (Proc.devRef .tc main_arg3)) (j 2) (j 3)
abbrev dyAt (V : Vals) (j : S1x1x1024x2048.Idx) : EReal := Spec.dyv (V (Proc.devRef .tc main_arg0)) (V (Proc.devRef .tc main_arg3)) (j 2) (j 3)
abbrev mdAt (V : Vals) (j : S1x1x1024x2048.Idx) : EReal :=
  Spec.mdotAt (V (Proc.devRef .tc main_arg0)) (V (Proc.devRef .tc main_arg2)) (V (Proc.devRef .tc main_arg3)) (j 2) (j 3)
abbrev advAt (V : Vals) (j : S1x1x1024x2048.Idx) : EReal :=
  Spec.adv (aHini V j) (aFlow V (ix4 0 0 (j 2) (j 3))) (aFlow V (ix4 0 1 (j 2) (j 3))) (dxAt V j) (dyAt V j)
abbrev wAt (V : Vals) (j : S1x1x1024x2048.Idx) : EReal := Spec.wcv (mdAt V j)

theorem val3_arg1 (V : Vals) : val3 V (Proc.devRef .tc main_arg1) = V (Proc.devRef .tc main_arg1) :=
  (val3_keep V main_arg1 (by decide)).trans ((val2_keep V main_arg1 (by decide)).trans (val1_keep V main_arg1 (by decide)))

/-! ## The fourth window's results -/

theorem val4_v147 (V : Vals) (hpad : PadIs V) :
    val4 V (Proc.devRef .tc main_v147) = fun j : S1x1x1024x2048.Idx => advAt V j := by
  unfold val4
  simp only [ops_part3]
  after_results_simp
  rw [val3_arg1, val3_v128 V hpad, P_147]
  rfl

theorem val4_v151 (V : Vals) (hpos : 0 ≤ Spec.wsum (V (Proc.devRef .tc main_arg0)) (V (Proc.devRef .tc main_arg2))) :
    val4 V (Proc.devRef .tc main_v151) = fun j : S1x1x1024x2048.Idx => wAt V j := by
  unfold val4
  simp only [ops_part3]
  after_results_simp
  rw [val3_v113 V hpos, P_151]

theorem val4_v154 (V : Vals) (hpad : PadIs V) (hpos : 0 ≤ Spec.wsum (V (Proc.devRef .tc main_arg0)) (V (Proc.devRef .tc main_arg2))) :
    val4 V (Proc.devRef .tc main_v154) = fun j : S1x1x1024x2048.Idx => Spec.flux * dxAt V j + wAt V j := by
  unfold val4
  simp only [ops_part3]
  after_results_simp
  rw [val3_v118 V hpad, val3_v113 V hpos, P_151, P_154]

theorem val4_v157 (V : Vals) (hpad : PadIs V) (hpos : 0 ≤ Spec.wsum (V (Proc.devRef .tc main_arg0)) (V (Proc.devRef .tc main_arg2))) :
    val4 V (Proc.devRef .tc main_v157) = fun j : S1x1x1024x2048.Idx => Spec.nflux * dyAt V j + wAt V j := by
  unfold val4
  simp only [ops_part3]
  after_results_simp
  rw [val3_v123 V hpad, val3_v113 V hpos, P_151, P_157]

theorem val4_v160 (V : Vals) (hpad : PadIs V) (hpos : 0 ≤ Spec.wsum (V (Proc.devRef .tc main_arg0)) (V (Proc.devRef .tc main_arg2))) :
    val4 V (Proc.devRef .tc main_v160) = fun j : S1x1x1024x2048.Idx => Spec.nflux * dxAt V j + wAt V j := by
  unfold val4
  simp only [ops_part3]
  after_results_simp
  rw [val3_v118 V hpad, val3_v113 V hpos, P_151, P_160]

theorem val4_v163 (V : Vals) (hpad : PadIs V) (hpos : 0 ≤ Spec.wsum (V (Proc.devRef .tc main_arg0)) (V (Proc.devRef .tc main_arg2))) :
    val4 V (Proc.devRef .tc main_v163) = fun j : S1x1x1024x2048.Idx => Spec.flux * dyAt V j + wAt V j := by
  unfold val4
  simp only [ops_part3]
  after_results_simp
  rw [val3_v123 V hpad, val3_v113 V hpos, P_151, P_163]

theorem val4_v168 (V : Vals) (hpad : PadIs V) (hpos : 0 ≤ Spec.wsum (V (Proc.devRef .tc main_arg0)) (V (Proc.devRef .tc main_arg2))) :
    val4 V (Proc.devRef .tc main_v168) = fun j : S1x1x1024x2048.Idx => Spec.flux * ((Spec.lit 0x00000000#32 - dxAt V j) + dyAt V j) + wAt V j := by
  unfold val4
  simp only [ops_part3]
  after_results_simp
  rw [val3_v118 V hpad, val3_v123 V hpad, val3_v113 V hpos, P_151, P_168]

theorem val4_v172 (V : Vals) (hpad : PadIs V) (hpos : 0 ≤ Spec.wsum (V (Proc.devRef .tc main_arg0)) (V (Proc.devRef .tc main_arg2))) :
    val4 V (Proc.devRef .tc main_v172) = fun j : S1x1x1024x2048.Idx => Spec.flux * (dyAt V j + dxAt V j) + wAt V j := by
  unfold val4
  simp only [ops_part3]
  after_results_simp
  rw [val3_v118 V hpad, val3_v123 V hpad, val3_v113 V hpos, P_151, P_172]

theorem val4_v175 (V : Vals) (hpad : PadIs V) :
    val4 V (Proc.devRef .tc main_v175) = fun j : S1x1x1024x2048.Idx => Spec.flux * (dxAt V j - dyAt V j) := by
  unfold val4
  simp only [ops_part3]
  after_results_simp
  rw [val3_v118 V hpad, val3_v123 V hpad, P_175]

theorem val4_v118 (V : Vals) (hpad : PadIs V) : val4 V (Proc.devRef .tc main_v118) = fun j : S1x1x1024x2048.Idx => dxAt V j :=
  (val4_keep V main_v118 (by decide)).trans (val3_v118 V hpad)
theorem val4_v123 (V : Vals) (hpad : PadIs V) : val4 V (Proc.devRef .tc main_v123) = fun j : S1x1x1024x2048.Idx => dyAt V j :=
  (val4_keep V main_v123 (by decide)).trans (val3_v123 V hpad)

end Cert.ReferenceIdeal.RefValue

end
-- ==== Proof.RefValCode.lean ====
/-
  The equation codes: eleven selects, each putting the code k where the boundary code is k, over three windows.
-/
import proofs.«161081_j59665685676148_2_alg».proof.Proof.RefVal1
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

/-- The chain of selects at one cell, innermost first: codes 0, 2, 3, 4. -/
def code4 (b : BitVec 32) : BitVec 32 :=
  if b = 4#32 then 4#32 else if b = 3#32 then 3#32 else if b = 2#32 then 2#32 else if b = 0#32 then 0#32 else 0#32

/-- Codes 0, 2, …, 10. -/
def code10 (b : BitVec 32) : BitVec 32 :=
  if b = 10#32 then 10#32 else if b = 9#32 then 9#32 else if b = 8#32 then 8#32 else if b = 7#32 then 7#32
  else if b = 6#32 then 6#32 else if b = 5#32 then 5#32 else code4 b

theorem val5_v213 (V : Vals) :
    val5 V (Proc.devRef .tc main_v213)
      = fun j : S1024x2048.Idx => code4 (Spec.bcode (V (Proc.devRef .tc main_arg0)) (j 0) (j 1)) := by
  unfold val5
  simp only [ops_part4]
  after_results_simp
  rw [val4_v37]
  funext j
  show Scalar.select (IntOp.cmpi .eq _ 4#32) 4#32 (Scalar.select (IntOp.cmpi .eq _ 3#32) 3#32
    (Scalar.select (IntOp.cmpi .eq _ 2#32) 2#32 (Scalar.select (IntOp.cmpi .eq _ 0#32) 0#32 0#32))) = _
  simp only [select_eq]
  rfl

theorem val5_v220 (V : Vals) :
    val5 V (Proc.devRef .tc main_v220)
      = fun j : S1024x2048.Idx => IntOp.cmpi .eq (Spec.bcode (V (Proc.devRef .tc main_arg0)) (j 0) (j 1)) 5#32 := by
  unfold val5
  simp only [ops_part4]
  after_results_simp
  rw [val4_v37]
  rfl

theorem val6_v261 (V : Vals) :
    val6 V (Proc.devRef .tc main_v261)
      = fun j : S1024x2048.Idx => code10 (Spec.bcode (V (Proc.devRef .tc main_arg0)) (j 0) (j 1)) := by
  unfold val6
  simp only [ops_part5]
  after_results_simp
  rw [val5_v213, val5_v220, val5_v37]
  funext j
  show Scalar.select (IntOp.cmpi .eq _ 10#32) 10#32 (Scalar.select (IntOp.cmpi .eq _ 9#32) 9#32
    (Scalar.select (IntOp.cmpi .eq _ 8#32) 8#32 (Scalar.select (IntOp.cmpi .eq _ 7#32) 7#32
    (Scalar.select (IntOp.cmpi .eq _ 6#32) 6#32 (Scalar.select (IntOp.cmpi .eq _ 5#32) 5#32 (code4 _)))))) = _
  simp only [select_eq]
  rfl

theorem val6_v268 (V : Vals) :
    val6 V (Proc.devRef .tc main_v268)
      = fun j : S1024x2048.Idx => IntOp.cmpi .eq (Spec.bcode (V (Proc.devRef .tc main_arg0)) (j 0) (j 1)) 11#32 := by
  unfold val6
  simp only [ops_part5]
  after_results_simp
  rw [val5_v37]
  rfl

theorem val7_v269 (V : Vals) :
    val7 V (Proc.devRef .tc main_v269)
      = fun j : S1024x2048.Idx => Spec.eqcode (Spec.bcode (V (Proc.devRef .tc main_arg0)) (j 0) (j 1)) := by
  unfold val7
  simp only [ops_part6]
  after_results_simp
  rw [val6_v261, val6_v268]
  funext j
  show Scalar.select (IntOp.cmpi .eq _ 11#32) 11#32 (code10 _) = _
  rw [select_eq]
  simp only [Spec.eqcode, Spec.codes, List.foldl, code10, code4]

/-- The third result: the equation codes, as the whole line leaves them. -/
theorem out2_eq (V : Vals) :
    after (ops (F := Ideal)) V (Proc.devRef .tc main_v269) = Spec.out2 (V (Proc.devRef .tc main_arg0)) := by
  rw [after_ops_eq, val7_v269]
  rfl

end Cert.ReferenceIdeal.RefValue

end
-- ==== Proof.RefVal5.lean ====
/-
  The last three windows: the selected equation's left side, accumulated code by code; the source term; the two
  squared residuals, their sums over the grid, and the loss.
-/
import proofs.«161081_j59665685676148_2_alg».proof.Proof.RefVal4
import proofs.«161081_j59665685676148_2_alg».proof.Proof.RefValCode
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

open scoped BigOperators

theorem bcast023 {α : Type} (x : S1x1024x2048.Idx → α) (j : S1x1x1024x2048.Idx) :
    broadcastInDim S1x1x1024x2048 ![0, 2, 3] bcast_S1x1024x2048_S1x1x1024x2048_0_2_3 x j = x (ix3 0 (j 2) (j 3)) :=
  broadcastInDim_apply _ _ x j _ (fun a => match a with | ⟨0, _⟩ => rfl | ⟨1, _⟩ => rfl | ⟨2, _⟩ => rfl)

/-! ## The accumulated left side, in three stretches -/

/-- Codes 0, 2, 3, 4. -/
def le4 (b : BitVec 32) (ad e4 : EReal) : EReal :=
  (((Spec.lit 0x00000000#32 + Spec.ind (b = 0#32) * (ad + Spec.lit 0x00000000#32)) + Spec.ind (b = 2#32) * (ad + Spec.lit 0x00000000#32))
    + Spec.ind (b = 3#32) * (ad + Spec.lit 0x00000000#32)) + Spec.ind (b = 4#32) * (ad + e4)

/-- Codes 5 to 10. -/
def le10 (b : BitVec 32) (l4 ad e5 e6 e7 e8 e9 e10 : EReal) : EReal :=
  (((((l4 + Spec.ind (b = 5#32) * (ad + e5)) + Spec.ind (b = 6#32) * (ad + e6)) + Spec.ind (b = 7#32) * (ad + e7)) + Spec.ind (b = 8#32) * (ad + e8))
    + Spec.ind (b = 9#32) * (ad + e9)) + Spec.ind (b = 10#32) * (ad + e10)

/-- Code 11. -/
def le11 (b : BitVec 32) (l10 ad e11 : EReal) : EReal := l10 + Spec.ind (b = 11#32) * (ad + e11)

theorem lossEq_eq (b : BitVec 32) (ad dx dy w : EReal) :
    le11 b
      (le10 b (le4 b ad (Spec.flux * dx + w)) ad (Spec.nflux * dy + w) (Spec.nflux * dx + w) (Spec.flux * dy + w)
        (Spec.flux * ((Spec.lit 0x00000000#32 - dx) + dy) + w) (Spec.flux * (dy + dx) + w) (Spec.flux * (dx - dy) + w))
      ad (Spec.flux * ((Spec.lit 0x00000000#32 - dx) - dy) + w) = Spec.lossEq b ad dx dy w := by
  simp only [Spec.lossEq, Spec.codes, List.foldl, Spec.extra, le4, le10, le11]

section Pure
variable (B : S1024x2048.Idx → BitVec 32) (k : BitVec 32) (WM : S1024x2048.Idx → EReal)
variable (I0 I2 I3 I4 I5 I6 I7 I8 I9 I10 I11 : S1x1x1024x2048.Idx → EReal)
variable (AD E4 E5 E6 E7 E8 E9 E10 E11 L4 L10 LE SR WW F10 Wv DX DY M WCB ESQ WSQ : S1x1x1024x2048.Idx → EReal)
variable (G : S1x1024x2048.Idx → EReal)

/-- The indicator array of "the code is k", from a compare with a constant. -/
theorem P_ind :
    broadcastInDim S1x1x1024x2048 ![2, 3] bcast_S1024x2048_S1x1x1024x2048_2_3
      (uitofp (F := Ideal) .f32 (cmpi .eq B (broadcastInDim S1024x2048 ![] bcast_S_S1024x2048 (constantI S_ 32 k))))
      = fun j : S1x1x1024x2048.Idx => Spec.ind (B (ix2 (j 2) (j 3)) = k) := by
  funext j
  rw [bcast23]
  exact uitofp_eq _ _

/-- The same from a compare already read cell by cell. -/
theorem P_indC :
    broadcastInDim S1x1x1024x2048 ![2, 3] bcast_S1024x2048_S1x1x1024x2048_2_3
      (uitofp (F := Ideal) .f32 (fun j : S1024x2048.Idx => IntOp.cmpi .eq (B j) k))
      = fun j : S1x1x1024x2048.Idx => Spec.ind (B (ix2 (j 2) (j 3)) = k) := by
  funext j
  rw [bcast23]
  exact uitofp_eq _ _

theorem P_176 :
    ((addf F10 Wv) : FVec Ideal S1x1x1024x2048 .f32)
      = fun j : S1x1x1024x2048.Idx => F10 j + Wv j := by
  funext j
  rfl

theorem P_181 :
    (addf (mulf (broadcastInDim S1x1x1024x2048 ![] bcast_S_S1x1x1024x2048 (constant (F := Ideal) S_ .f32 0x3F610000#32)) (subf (Host.negf DX) DY)) Wv)
      = fun j : S1x1x1024x2048.Idx => Spec.flux * ((Spec.lit 0x00000000#32 - DX j) - DY j) + Wv j := by
  funext j
  show Spec.flux * (-(DX j) - DY j) + Wv j = Spec.flux * ((Spec.lit 0x00000000#32 - DX j) - DY j) + Wv j
  rw [lit_zero, zero_sub]

theorem P_218 :
    (addf (addf (addf (addf (broadcastInDim S1x1x1024x2048 ![] bcast_S_S1x1x1024x2048 (constant (F := Ideal) S_ .f32 0x00000000#32)) (mulf I0 (addf AD (broadcastInDim S1x1x1024x2048 ![] bcast_S_S1x1x1024x2048 (constant (F := Ideal) S_ .f32 0x00000000#32))))) (mulf I2 (addf AD (broadcastInDim S1x1x1024x2048 ![] bcast_S_S1x1x1024x2048 (constant (F := Ideal) S_ .f32 0x00000000#32))))) (mulf I3 (addf AD (broadcastInDim S1x1x1024x2048 ![] bcast_S_S1x1x1024x2048 (constant (F := Ideal) S_ .f32 0x00000000#32))))) (mulf I4 (addf AD E4)))
      = fun j : S1x1x1024x2048.Idx =>
          (((Spec.lit 0x00000000#32 + I0 j * (AD j + Spec.lit 0x00000000#32)) + I2 j * (AD j + Spec.lit 0x00000000#32))
            + I3 j * (AD j + Spec.lit 0x00000000#32)) + I4 j * (AD j + E4 j) := by
  funext j
  rfl

theorem P_266 :
    ((addf (addf (addf (addf (addf (addf L4 (mulf I5 (addf AD E5))) (mulf I6 (addf AD E6))) (mulf I7 (addf AD E7))) (mulf I8 (addf AD E8))) (mulf I9 (addf AD E9))) (mulf I10 (addf AD E10))) : FVec Ideal S1x1x1024x2048 .f32)
      = fun j : S1x1x1024x2048.Idx =>
          (((((L4 j + I5 j * (AD j + E5 j)) + I6 j * (AD j + E6 j)) + I7 j * (AD j + E7 j)) + I8 j * (AD j + E8 j))
            + I9 j * (AD j + E9 j)) + I10 j * (AD j + E10 j) := by
  funext j
  rfl

theorem P_274 :
    ((addf L10 (mulf I11 (addf AD E11))) : FVec Ideal S1x1x1024x2048 .f32)
      = fun j : S1x1x1024x2048.Idx => L10 j + I11 j * (AD j + E11 j) := by
  funext j
  rfl

theorem P_src :
    (broadcastInDim S1x1x1024x2048 ![0, 2, 3] bcast_S1x1024x2048_S1x1x1024x2048_0_2_3 (mulf (mulf (mulf (broadcastInDim S1x1024x2048 ![] bcast_S_S1x1024x2048 (constant (F := Ideal) S_ .f32 0x3F800000#32)) (Host.absf (subf G (broadcastInDim S1x1024x2048 ![] bcast_S_S1x1024x2048 (constant (F := Ideal) S_ .f32 0x3F800000#32))))) (broadcastInDim S1x1024x2048 ![] bcast_S_S1x1024x2048 (constant (F := Ideal) S_ .f32 0x3F610000#32))) (broadcastInDim S1x1024x2048 ![] bcast_S_S1x1024x2048 (constant (F := Ideal) S_ .f32 0x3B400000#32))))
      = fun j : S1x1x1024x2048.Idx => Spec.src (G (ix3 0 (j 2) (j 3))) := by
  funext j
  rw [bcast023]
  rfl

theorem P_286 :
    ((mulf (subf LE SR) (subf LE SR)) : FVec Ideal S1x1x1024x2048 .f32)
      = fun j : S1x1x1024x2048.Idx => (LE j - SR j) * (LE j - SR j) := by
  funext j
  rfl

theorem P_wm :
    (broadcastInDim S1x1x1024x2048 ![2, 3] bcast_S1024x2048_S1x1x1024x2048_2_3 (mulf (broadcastInDim S1024x2048 ![] bcast_S_S1024x2048 (constant (F := Ideal) S_ .f32 0x4283F02F#32)) WM))
      = fun j : S1x1x1024x2048.Idx => Spec.lit 0x4283F02F#32 * WM (ix2 (j 2) (j 3)) := by
  funext j
  rw [bcast23]
  rfl

theorem P_294 :
    ((mulf (subf (subf WW M) WCB) (subf (subf WW M) WCB)) : FVec Ideal S1x1x1024x2048 .f32)
      = fun j : S1x1x1024x2048.Idx => ((WW j - M j) - WCB j) * ((WW j - M j) - WCB j) := by
  funext j
  rfl

theorem P_297 :
    (addf (Host.divf (Host.reduceAdd ESQ (constant (F := Ideal) S_ .f32 0x00000000#32) reducesTo_S1x1x1024x2048_S_d0_1_2_3 h_S_) (constant (F := Ideal) S_ .f32 0x4A000000#32)) (Host.divf (Host.reduceAdd WSQ (constant (F := Ideal) S_ .f32 0x00000000#32) reducesTo_S1x1x1024x2048_S_d0_1_2_3 h_S_) (constant (F := Ideal) S_ .f32 0x4A000000#32)))
      = fun _ : S_.Idx => Ideal.div (0 + ∑ i, ESQ i) (Spec.lit 0x4A000000#32)
          + Ideal.div (0 + ∑ i, WSQ i) (Spec.lit 0x4A000000#32) := by
  funext k
  show Ideal.div (Host.reduceAdd ESQ (constant (F := Ideal) S_ .f32 0x00000000#32) reducesTo_S1x1x1024x2048_S_d0_1_2_3 h_S_ k) (Spec.lit 0x4A000000#32)
    + Ideal.div (Host.reduceAdd WSQ (constant (F := Ideal) S_ .f32 0x00000000#32) reducesTo_S1x1x1024x2048_S_d0_1_2_3 h_S_ k) (Spec.lit 0x4A000000#32) = _
  rw [hostReduceAdd_apply, hostReduceAdd_apply, Ideal.hostReduceAdd_total _ (fun b => b.elim0), Ideal.hostReduceAdd_total _ (fun b => b.elim0)]
  show Ideal.div (Spec.lit 0x00000000#32 + ∑ i, ESQ i) (Spec.lit 0x4A000000#32)
    + Ideal.div (Spec.lit 0x00000000#32 + ∑ i, WSQ i) (Spec.lit 0x4A000000#32) = _
  rw [lit_zero]

end Pure

/-! ## Earlier results, kept -/

theorem val5_v147 (V : Vals) (hpad : PadIs V) : val5 V (Proc.devRef .tc main_v147) = fun j : S1x1x1024x2048.Idx => advAt V j :=
  (val5_keep V main_v147 (by decide)).trans (val4_v147 V hpad)
theorem val6_v147 (V : Vals) (hpad : PadIs V) : val6 V (Proc.devRef .tc main_v147) = fun j : S1x1x1024x2048.Idx => advAt V j :=
  (val6_keep V main_v147 (by decide)).trans (val5_v147 V hpad)
theorem val5_v157 (V : Vals) (hpad : PadIs V) (hpos : 0 ≤ Spec.wsum (V (Proc.devRef .tc main_arg0)) (V (Proc.devRef .tc main_arg2))) : val5 V (Proc.devRef .tc main_v157) = fun j : S1x1x1024x2048.Idx => Spec.nflux * dyAt V j + wAt V j :=
  (val5_keep V main_v157 (by decide)).trans (val4_v157 V hpad hpos)
theorem val5_v160 (V : Vals) (hpad : PadIs V) (hpos : 0 ≤ Spec.wsum (V (Proc.devRef .tc main_arg0)) (V (Proc.devRef .tc main_arg2))) : val5 V (Proc.devRef .tc main_v160) = fun j : S1x1x1024x2048.Idx => Spec.nflux * dxAt V j + wAt V j :=
  (val5_keep V main_v160 (by decide)).trans (val4_v160 V hpad hpos)
theorem val5_v163 (V : Vals) (hpad : PadIs V) (hpos : 0 ≤ Spec.wsum (V (Proc.devRef .tc main_arg0)) (V (Proc.devRef .tc main_arg2))) : val5 V (Proc.devRef .tc main_v163) = fun j : S1x1x1024x2048.Idx => Spec.flux * dyAt V j + wAt V j :=
  (val5_keep V main_v163 (by decide)).trans (val4_v163 V hpad hpos)
theorem val5_v168 (V : Vals) (hpad : PadIs V) (hpos : 0 ≤ Spec.wsum (V (Proc.devRef .tc main_arg0)) (V (Proc.devRef .tc main_arg2))) : val5 V (Proc.devRef .tc main_v168) = fun j : S1x1x1024x2048.Idx => Spec.flux * ((Spec.lit 0x00000000#32 - dxAt V j) + dyAt V j) + wAt V j :=
  (val5_keep V main_v168 (by decide)).trans (val4_v168 V hpad hpos)
theorem val5_v172 (V : Vals) (hpad : PadIs V) (hpos : 0 ≤ Spec.wsum (V (Proc.devRef .tc main_arg0)) (V (Proc.devRef .tc main_arg2))) : val5 V (Proc.devRef .tc main_v172) = fun j : S1x1x1024x2048.Idx => Spec.flux * (dyAt V j + dxAt V j) + wAt V j :=
  (val5_keep V main_v172 (by decide)).trans (val4_v172 V hpad hpos)
theorem val2_v15 (V : Vals) : val2 V (Proc.devRef .tc main_v15) = fun j : S1x1024x2048.Idx => Spec.geom (aLay V) (j 1) (j 2) :=
  (val2_keep V main_v15 (by decide)).trans (val1_v15 V)
theorem val3_v15 (V : Vals) : val3 V (Proc.devRef .tc main_v15) = fun j : S1x1024x2048.Idx => Spec.geom (aLay V) (j 1) (j 2) :=
  (val3_keep V main_v15 (by decide)).trans (val2_v15 V)
theorem val4_v15 (V : Vals) : val4 V (Proc.devRef .tc main_v15) = fun j : S1x1024x2048.Idx => Spec.geom (aLay V) (j 1) (j 2) :=
  (val4_keep V main_v15 (by decide)).trans (val3_v15 V)
theorem val5_v15 (V : Vals) : val5 V (Proc.devRef .tc main_v15) = fun j : S1x1024x2048.Idx => Spec.geom (aLay V) (j 1) (j 2) :=
  (val5_keep V main_v15 (by decide)).trans (val4_v15 V)
theorem val6_v15 (V : Vals) : val6 V (Proc.devRef .tc main_v15) = fun j : S1x1024x2048.Idx => Spec.geom (aLay V) (j 1) (j 2) :=
  (val6_keep V main_v15 (by decide)).trans (val5_v15 V)
theorem val2_v40 (V : Vals) : val2 V (Proc.devRef .tc main_v40) = fun j : S1024x2048.Idx => Spec.wmask (V (Proc.devRef .tc main_arg0)) (j 0) (j 1) :=
  (val2_keep V main_v40 (by decide)).trans (val1_v40 V)
theorem val3_v40 (V : Vals) : val3 V (Proc.devRef .tc main_v40) = fun j : S1024x2048.Idx => Spec.wmask (V (Proc.devRef .tc main_arg0)) (j 0) (j 1) :=
  (val3_keep V main_v40 (by decide)).trans (val2_v40 V)
theorem val4_v40 (V : Vals) : val4 V (Proc.devRef .tc main_v40) = fun j : S1024x2048.Idx => Spec.wmask (V (Proc.devRef .tc main_arg0)) (j 0) (j 1) :=
  (val4_keep V main_v40 (by decide)).trans (val3_v40 V)
theorem val5_v40 (V : Vals) : val5 V (Proc.devRef .tc main_v40) = fun j : S1024x2048.Idx => Spec.wmask (V (Proc.devRef .tc main_arg0)) (j 0) (j 1) :=
  (val5_keep V main_v40 (by decide)).trans (val4_v40 V)
theorem val6_v40 (V : Vals) : val6 V (Proc.devRef .tc main_v40) = fun j : S1024x2048.Idx => Spec.wmask (V (Proc.devRef .tc main_arg0)) (j 0) (j 1) :=
  (val6_keep V main_v40 (by decide)).trans (val5_v40 V)
theorem val3_v42 (V : Vals) : val3 V (Proc.devRef .tc main_v42) = fun j : S1x1x1024x2048.Idx => Spec.wcbc (V (Proc.devRef .tc main_arg0)) (V (Proc.devRef .tc main_arg2)) (j 2) (j 3) :=
  (val3_keep V main_v42 (by decide)).trans (val2_v42 V)
theorem val4_v42 (V : Vals) : val4 V (Proc.devRef .tc main_v42) = fun j : S1x1x1024x2048.Idx => Spec.wcbc (V (Proc.devRef .tc main_arg0)) (V (Proc.devRef .tc main_arg2)) (j 2) (j 3) :=
  (val4_keep V main_v42 (by decide)).trans (val3_v42 V)
theorem val5_v42 (V : Vals) : val5 V (Proc.devRef .tc main_v42) = fun j : S1x1x1024x2048.Idx => Spec.wcbc (V (Proc.devRef .tc main_arg0)) (V (Proc.devRef .tc main_arg2)) (j 2) (j 3) :=
  (val5_keep V main_v42 (by decide)).trans (val4_v42 V)
theorem val6_v42 (V : Vals) : val6 V (Proc.devRef .tc main_v42) = fun j : S1x1x1024x2048.Idx => Spec.wcbc (V (Proc.devRef .tc main_arg0)) (V (Proc.devRef .tc main_arg2)) (j 2) (j 3) :=
  (val6_keep V main_v42 (by decide)).trans (val5_v42 V)
theorem val4_v113 (V : Vals) (hpos : 0 ≤ Spec.wsum (V (Proc.devRef .tc main_arg0)) (V (Proc.devRef .tc main_arg2))) : val4 V (Proc.devRef .tc main_v113) = fun j : S1x1x1024x2048.Idx => mdAt V j :=
  (val4_keep V main_v113 (by decide)).trans (val3_v113 V hpos)
theorem val5_v113 (V : Vals) (hpos : 0 ≤ Spec.wsum (V (Proc.devRef .tc main_arg0)) (V (Proc.devRef .tc main_arg2))) : val5 V (Proc.devRef .tc main_v113) = fun j : S1x1x1024x2048.Idx => mdAt V j :=
  (val5_keep V main_v113 (by decide)).trans (val4_v113 V hpos)
theorem val6_v113 (V : Vals) (hpos : 0 ≤ Spec.wsum (V (Proc.devRef .tc main_arg0)) (V (Proc.devRef .tc main_arg2))) : val6 V (Proc.devRef .tc main_v113) = fun j : S1x1x1024x2048.Idx => mdAt V j :=
  (val6_keep V main_v113 (by decide)).trans (val5_v113 V hpos)

/-- The boundary code of a cell. -/
abbrev bAt (V : Vals) (j : S1x1x1024x2048.Idx) : BitVec 32 := Spec.bcode (V (Proc.devRef .tc main_arg0)) (j 2) (j 3)

/-! ## The fifth window -/

theorem val5_v176 (V : Vals) (hpad : PadIs V) (hpos : 0 ≤ Spec.wsum (V (Proc.devRef .tc main_arg0)) (V (Proc.devRef .tc main_arg2))) :
    val5 V (Proc.devRef .tc main_v176) = fun j : S1x1x1024x2048.Idx => Spec.flux * (dxAt V j - dyAt V j) + wAt V j := by
  unfold val5
  simp only [ops_part4]
  after_results_simp
  rw [val4_v175 V hpad, val4_v151 V hpos, P_176]

theorem val5_v181 (V : Vals) (hpad : PadIs V) (hpos : 0 ≤ Spec.wsum (V (Proc.devRef .tc main_arg0)) (V (Proc.devRef .tc main_arg2))) :
    val5 V (Proc.devRef .tc main_v181)
      = fun j : S1x1x1024x2048.Idx => Spec.flux * ((Spec.lit 0x00000000#32 - dxAt V j) - dyAt V j) + wAt V j := by
  unfold val5
  simp only [ops_part4]
  after_results_simp
  rw [val4_v118 V hpad, val4_v123 V hpad, val4_v151 V hpos, P_181]

set_option maxHeartbeats 1000000 in
theorem val5_v218 (V : Vals) (hpad : PadIs V) (hpos : 0 ≤ Spec.wsum (V (Proc.devRef .tc main_arg0)) (V (Proc.devRef .tc main_arg2))) :
    val5 V (Proc.devRef .tc main_v218)
      = fun j : S1x1x1024x2048.Idx => le4 (bAt V j) (advAt V j) (Spec.flux * dxAt V j + wAt V j) := by
  unfold val5
  simp only [ops_part4]
  after_results_simp
  rw [val4_v37, val4_v147 V hpad, val4_v154 V hpad hpos, P_ind, P_ind, P_ind, P_ind, P_218]
  rfl

theorem val6_v181 (V : Vals) (hpad : PadIs V) (hpos : 0 ≤ Spec.wsum (V (Proc.devRef .tc main_arg0)) (V (Proc.devRef .tc main_arg2))) :
    val6 V (Proc.devRef .tc main_v181)
      = fun j : S1x1x1024x2048.Idx => Spec.flux * ((Spec.lit 0x00000000#32 - dxAt V j) - dyAt V j) + wAt V j :=
  (val6_keep V main_v181 (by decide)).trans (val5_v181 V hpad hpos)

/-! ## The sixth window -/

/-- The left side through code 10. -/
abbrev l10At (V : Vals) (j : S1x1x1024x2048.Idx) : EReal :=
  le10 (bAt V j) (le4 (bAt V j) (advAt V j) (Spec.flux * dxAt V j + wAt V j)) (advAt V j)
    (Spec.nflux * dyAt V j + wAt V j) (Spec.nflux * dxAt V j + wAt V j) (Spec.flux * dyAt V j + wAt V j)
    (Spec.flux * ((Spec.lit 0x00000000#32 - dxAt V j) + dyAt V j) + wAt V j) (Spec.flux * (dyAt V j + dxAt V j) + wAt V j)
    (Spec.flux * (dxAt V j - dyAt V j) + wAt V j)

set_option maxHeartbeats 4000000 in
theorem val6_v266 (V : Vals) (hpad : PadIs V) (hpos : 0 ≤ Spec.wsum (V (Proc.devRef .tc main_arg0)) (V (Proc.devRef .tc main_arg2))) :
    val6 V (Proc.devRef .tc main_v266) = fun j : S1x1x1024x2048.Idx => l10At V j := by
  unfold val6
  simp only [ops_part5]
  after_results_simp
  rw [val5_v218 V hpad hpos, val5_v220, val5_v37, val5_v147 V hpad, val5_v157 V hpad hpos, val5_v160 V hpad hpos,
    val5_v163 V hpad hpos, val5_v168 V hpad hpos, val5_v172 V hpad hpos, val5_v176 V hpad hpos,
    P_indC, P_ind, P_ind, P_ind, P_ind, P_ind, P_266]
  rfl

/-! ## The last window -/

set_option maxHeartbeats 4000000 in
theorem val7_v297 (V : Vals) (hpad : PadIs V) (hpos : 0 ≤ Spec.wsum (V (Proc.devRef .tc main_arg0)) (V (Proc.devRef .tc main_arg2))) :
    val7 V (Proc.devRef .tc main_v297)
      = Spec.out0 (V (Proc.devRef .tc main_arg0)) (V (Proc.devRef .tc main_arg1)) (V (Proc.devRef .tc main_arg2))
          (V (Proc.devRef .tc main_arg3)) (V (Proc.devRef .tc main_arg4)) := by
  unfold val7
  simp only [ops_part6]
  after_results_simp
  rw [val6_v266 V hpad hpos, val6_v268, val6_v147 V hpad, val6_v181 V hpad hpos, val6_v15, val6_v40, val6_v113 V hpos, val6_v42,
    P_indC, P_274, P_src, P_286, P_wm, P_294, P_297]
  funext k
  show _ = Spec.loss _ _ _ _ _
  unfold Spec.loss
  rw [LibRefSum.sum_idx11, LibRefSum.sum_idx11]
  refine congrArg₂ (fun a b : EReal => a + b)
    (congrArg (fun s : EReal => Ideal.div (0 + s) (Spec.lit 0x4A000000#32))
      (Finset.sum_congr rfl fun r _ => Finset.sum_congr rfl fun c _ => ?_))
    (congrArg (fun s : EReal => Ideal.div (0 + s) (Spec.lit 0x4A000000#32))
      (Finset.sum_congr rfl fun r _ => Finset.sum_congr rfl fun c _ => ?_))
  · show (_ - _) * (_ - _) = (Spec.lossEq _ _ _ _ _ - _) * (Spec.lossEq _ _ _ _ _ - _)
    rw [← lossEq_eq]
    rfl
  · rfl

end Cert.ReferenceIdeal.RefValue

end
-- ==== Proof.LibRefPad.lean ====
/-
  Reflect padding by one cell on the last two axes, read index by index.

  A field of 1024 rows and 2048 columns is padded to 1026 x 2050 in four steps, each a two-piece concatenation: row 1
  is put above row 0; the row that is then second from the end below (row 1022 of the field) is put below the last; the
  column at position 1 is put left of column 0; the column that is then second from the end (column 2046 of the field)
  is put right of the last. Each added piece is first reversed along the axis it has extent one on, which changes
  nothing. The result at (i, k) is therefore the field at row i - 1 and column k - 1, both reflected at the border.
-/
import Idealize.ShloMosaic.Lib.ValueIdx
import Idealize.ShloMosaic.Lib.ValueLayout
import Idealize.ShloMosaic.Lib.Pipeline.Value
import proofs.«161081_j59665685676148_2_alg».proof.Proof.Spec
import proofs.«161081_j59665685676148_2_alg».proof.Proof.Gen.ReferenceIdeal

noncomputable section

namespace Cert.LibRefPad

open Cert.ReferenceIdeal Cert.ReferenceIdeal.Gen
open Idealize.ShloMosaic Idealize.ShloMosaic.ValueIdx

variable {α : Type}

/-! ## The four steps -/

/-- Row 1 put above row 0. -/
def v3 (X : S1x1x1024x2048.Idx → α) : S1x1x1025x2048.Idx → α :=
  concatenate S1x1x1025x2048 2
    [⟨S1x1x1x2048, Host.reverse [2] (extractStridedSlice S1x1x1x2048 ![0, 0, 1, 0] X slices_S1x1x1024x2048_S1x1x1x2048_0_0_1_0)⟩,
      ⟨S1x1x1024x2048, X⟩]
    concatenates_S1x1x1x2048_S1x1x1024x2048_S1x1x1025x2048_d2

/-- The row at position 1023 of that (row 1022 of the field) put below the last. -/
def v7 (X : S1x1x1024x2048.Idx → α) : S1x1x1026x2048.Idx → α :=
  concatenate S1x1x1026x2048 2
    [⟨S1x1x1025x2048, v3 X⟩,
      ⟨S1x1x1x2048, Host.reverse [2] (extractStridedSlice S1x1x1x2048 ![0, 0, 1023, 0] (v3 X) slices_S1x1x1025x2048_S1x1x1x2048_0_0_1023_0)⟩]
    concatenates_S1x1x1025x2048_S1x1x1x2048_S1x1x1026x2048_d2

/-- The column at position 1 put left of column 0. -/
def v11 (X : S1x1x1024x2048.Idx → α) : S1x1x1026x2049.Idx → α :=
  concatenate S1x1x1026x2049 3
    [⟨S1x1x1026x1, Host.reverse [3] (extractStridedSlice S1x1x1026x1 ![0, 0, 0, 1] (v7 X) slices_S1x1x1026x2048_S1x1x1026x1_0_0_0_1)⟩,
      ⟨S1x1x1026x2048, v7 X⟩]
    concatenates_S1x1x1026x1_S1x1x1026x2048_S1x1x1026x2049_d3

/-- The column at position 2047 of that (column 2046 of the field) put right of the last. -/
def v15 (X : S1x1x1024x2048.Idx → α) : S1x1x1026x2050.Idx → α :=
  concatenate S1x1x1026x2050 3
    [⟨S1x1x1026x2049, v11 X⟩,
      ⟨S1x1x1026x1, Host.reverse [3] (extractStridedSlice S1x1x1026x1 ![0, 0, 0, 2047] (v11 X) slices_S1x1x1026x2049_S1x1x1026x1_0_0_0_2047)⟩]
    concatenates_S1x1x1026x2049_S1x1x1026x1_S1x1x1026x2050_d3

/-! ## Reversal along an axis of extent one -/

/-- A single row reversed along the row axis is itself. -/
theorem reverse_row_unit {n : Nat} (x : (⟨4, ![1, 1, 1, n]⟩ : Shape).Idx → α) (c : Fin n) :
    Host.reverse (s := ⟨4, ![1, 1, 1, n]⟩) [2] x (ix4 (0 : Fin 1) (0 : Fin 1) (0 : Fin 1) c)
      = x (ix4 (0 : Fin 1) (0 : Fin 1) (0 : Fin 1) c) := by
  show x _ = x _
  congr 1
  funext a
  match a with
  | ⟨0, _⟩ => rfl
  | ⟨1, _⟩ => rfl
  | ⟨2, _⟩ => rfl
  | ⟨3, _⟩ => rfl

/-- A single column reversed along the column axis is itself. -/
theorem reverse_col_unit {m : Nat} (x : (⟨4, ![1, 1, m, 1]⟩ : Shape).Idx → α) (i : Fin m) :
    Host.reverse (s := ⟨4, ![1, 1, m, 1]⟩) [3] x (ix4 (0 : Fin 1) (0 : Fin 1) i (0 : Fin 1))
      = x (ix4 (0 : Fin 1) (0 : Fin 1) i (0 : Fin 1)) := by
  show x _ = x _
  congr 1
  funext a
  match a with
  | ⟨0, _⟩ => rfl
  | ⟨1, _⟩ => rfl
  | ⟨2, _⟩ => rfl
  | ⟨3, _⟩ => rfl

/-- A rank-4 array cut along its last axis from o reads, at (a, b, c, j), the source at (a, b, c, k) with k = o + j. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-! ## The rows -/

/-- After the first step, position i holds row 1 of the field when i = 0 and row i - 1 otherwise. -/
theorem v3_apply (X : S1x1x1024x2048.Idx → α) (i : Fin 1025) (c : Fin 2048) (r : Fin 1024)
    (hr : r.val = if i.val = 0 then 1 else i.val - 1) :
    v3 X (ix4 (0 : Fin 1) (0 : Fin 1) i c) = X (ix4 (0 : Fin 1) (0 : Fin 1) r c) := by
  by_cases h0 : i.val = 0
  · rw [if_pos h0] at hr
    refine (concatenate_pair_apply_left (t := S1x1x1025x2048) (s₁ := S1x1x1x2048) (s₂ := S1x1x1024x2048) (2 : Fin 4) _ X
      concatenates_S1x1x1x2048_S1x1x1024x2048_S1x1x1025x2048_d2 (ix4 (0 : Fin 1) (0 : Fin 1) i c) rfl
      (ix4 (0 : Fin 1) (0 : Fin 1) (0 : Fin 1) c) (fun b => ?_)).trans ?_
    · match b with
      | ⟨0, _⟩ => rfl
      | ⟨1, _⟩ => rfl
      | ⟨2, _⟩ => exact h0.symm
      | ⟨3, _⟩ => rfl
    · refine (reverse_row_unit _ c).trans ?_
      exact slice4_axis2_apply 1 X _ (0 : Fin 1) (0 : Fin 1) (0 : Fin 1) c r hr
  · rw [if_neg h0] at hr
    refine concatenate_pair_apply_right (t := S1x1x1025x2048) (s₁ := S1x1x1x2048) (s₂ := S1x1x1024x2048) (2 : Fin 4) _ X
      concatenates_S1x1x1x2048_S1x1x1024x2048_S1x1x1025x2048_d2 (ix4 (0 : Fin 1) (0 : Fin 1) i c) rfl rfl
      (ix4 (0 : Fin 1) (0 : Fin 1) r c) (fun b hb => ?_) ?_
    · match b with
      | ⟨0, _⟩ => rfl
      | ⟨1, _⟩ => rfl
      | ⟨2, _⟩ => exact absurd rfl hb
      | ⟨3, _⟩ => rfl
    · show r.val + 1 = i.val
      omega

/-- After the second step, position i holds row i - 1 of the field reflected at the border. -/
theorem v7_apply (X : S1x1x1024x2048.Idx → α) (i : Fin 1026) (c : Fin 2048) :
    v7 X (ix4 (0 : Fin 1) (0 : Fin 1) i c) = X (ix4 (0 : Fin 1) (0 : Fin 1) (Cert.Spec.rowR i.val) c) := by
  by_cases h1 : i.val < 1025
  · refine (concatenate_pair_apply_left (t := S1x1x1026x2048) (s₁ := S1x1x1025x2048) (s₂ := S1x1x1x2048) (2 : Fin 4) (v3 X) _
      concatenates_S1x1x1025x2048_S1x1x1x2048_S1x1x1026x2048_d2 (ix4 (0 : Fin 1) (0 : Fin 1) i c) rfl
      (ix4 (0 : Fin 1) (0 : Fin 1) (⟨i.val, h1⟩ : Fin 1025) c) (fun b => ?_)).trans ?_
    · match b with
      | ⟨0, _⟩ => rfl
      | ⟨1, _⟩ => rfl
      | ⟨2, _⟩ => rfl
      | ⟨3, _⟩ => rfl
    · refine v3_apply X _ c _ ?_
      show (Cert.Spec.rowR i.val).val = if i.val = 0 then 1 else i.val - 1
      unfold Cert.Spec.rowR
      by_cases h0 : i.val = 0
      · rw [if_pos h0, if_pos h0]; rfl
      · rw [if_neg h0, if_neg h0, dif_pos (by omega)]
  · have h2 : i.val = 1025 := by have := i.isLt; omega
    refine (concatenate_pair_apply_right (t := S1x1x1026x2048) (s₁ := S1x1x1025x2048) (s₂ := S1x1x1x2048) (2 : Fin 4) (v3 X) _
      concatenates_S1x1x1025x2048_S1x1x1x2048_S1x1x1026x2048_d2 (ix4 (0 : Fin 1) (0 : Fin 1) i c) rfl rfl
      (ix4 (0 : Fin 1) (0 : Fin 1) (0 : Fin 1) c) (fun b hb => ?_) ?_).trans ?_
    · match b with
      | ⟨0, _⟩ => rfl
      | ⟨1, _⟩ => rfl
      | ⟨2, _⟩ => exact absurd rfl hb
      | ⟨3, _⟩ => rfl
    · show 0 + 1025 = i.val
      omega
    · refine (reverse_row_unit _ c).trans ?_
      refine (slice4_axis2_apply 1023 (v3 X) _ (0 : Fin 1) (0 : Fin 1) (0 : Fin 1) c (⟨1023, by omega⟩ : Fin 1025) rfl).trans ?_
      refine v3_apply X _ c _ ?_
      show (Cert.Spec.rowR i.val).val = if 1023 = 0 then 1 else 1023 - 1
      unfold Cert.Spec.rowR
      rw [h2, if_neg (by omega), dif_neg (by omega), if_neg (by omega)]
      rfl

/-! ## The columns -/

/-- After the third step, position k holds the column at position 1 when k = 0 and the one at k - 1 otherwise. -/
theorem v11_apply (X : S1x1x1024x2048.Idx → α) (i : Fin 1026) (k : Fin 2049) (q : Fin 2048)
    (hq : q.val = if k.val = 0 then 1 else k.val - 1) :
    v11 X (ix4 (0 : Fin 1) (0 : Fin 1) i k) = v7 X (ix4 (0 : Fin 1) (0 : Fin 1) i q) := by
  by_cases h0 : k.val = 0
  · rw [if_pos h0] at hq
    refine (concatenate_pair_apply_left (t := S1x1x1026x2049) (s₁ := S1x1x1026x1) (s₂ := S1x1x1026x2048) (3 : Fin 4) _ (v7 X)
      concatenates_S1x1x1026x1_S1x1x1026x2048_S1x1x1026x2049_d3 (ix4 (0 : Fin 1) (0 : Fin 1) i k) rfl
      (ix4 (0 : Fin 1) (0 : Fin 1) i (0 : Fin 1)) (fun b => ?_)).trans ?_
    · match b with
      | ⟨0, _⟩ => rfl
      | ⟨1, _⟩ => rfl
      | ⟨2, _⟩ => rfl
      | ⟨3, _⟩ => exact h0.symm
    · refine (reverse_col_unit _ i).trans ?_
      exact slice4_axis3_apply 1 (v7 X) _ (0 : Fin 1) (0 : Fin 1) i (0 : Fin 1) q hq
  · rw [if_neg h0] at hq
    refine concatenate_pair_apply_right (t := S1x1x1026x2049) (s₁ := S1x1x1026x1) (s₂ := S1x1x1026x2048) (3 : Fin 4) _ (v7 X)
      concatenates_S1x1x1026x1_S1x1x1026x2048_S1x1x1026x2049_d3 (ix4 (0 : Fin 1) (0 : Fin 1) i k) rfl rfl
      (ix4 (0 : Fin 1) (0 : Fin 1) i q) (fun b hb => ?_) ?_
    · match b with
      | ⟨0, _⟩ => rfl
      | ⟨1, _⟩ => rfl
      | ⟨2, _⟩ => rfl
      | ⟨3, _⟩ => exact absurd rfl hb
    · show q.val + 1 = k.val
      omega

/-- After the fourth step, position k holds column k - 1 of the second step's array reflected at the border. -/
theorem v15_apply (X : S1x1x1024x2048.Idx → α) (i : Fin 1026) (k : Fin 2050) :
    v15 X (ix4 (0 : Fin 1) (0 : Fin 1) i k) = v7 X (ix4 (0 : Fin 1) (0 : Fin 1) i (Cert.Spec.colR k.val)) := by
  by_cases h1 : k.val < 2049
  · refine (concatenate_pair_apply_left (t := S1x1x1026x2050) (s₁ := S1x1x1026x2049) (s₂ := S1x1x1026x1) (3 : Fin 4) (v11 X) _
      concatenates_S1x1x1026x2049_S1x1x1026x1_S1x1x1026x2050_d3 (ix4 (0 : Fin 1) (0 : Fin 1) i k) rfl
      (ix4 (0 : Fin 1) (0 : Fin 1) i (⟨k.val, h1⟩ : Fin 2049)) (fun b => ?_)).trans ?_
    · match b with
      | ⟨0, _⟩ => rfl
      | ⟨1, _⟩ => rfl
      | ⟨2, _⟩ => rfl
      | ⟨3, _⟩ => rfl
    · refine v11_apply X i _ _ ?_
      show (Cert.Spec.colR k.val).val = if k.val = 0 then 1 else k.val - 1
      unfold Cert.Spec.colR
      by_cases h0 : k.val = 0
      · rw [if_pos h0, if_pos h0]; rfl
      · rw [if_neg h0, if_neg h0, dif_pos (by omega)]
  · have h2 : k.val = 2049 := by have := k.isLt; omega
    refine (concatenate_pair_apply_right (t := S1x1x1026x2050) (s₁ := S1x1x1026x2049) (s₂ := S1x1x1026x1) (3 : Fin 4) (v11 X) _
      concatenates_S1x1x1026x2049_S1x1x1026x1_S1x1x1026x2050_d3 (ix4 (0 : Fin 1) (0 : Fin 1) i k) rfl rfl
      (ix4 (0 : Fin 1) (0 : Fin 1) i (0 : Fin 1)) (fun b hb => ?_) ?_).trans ?_
    · match b with
      | ⟨0, _⟩ => rfl
      | ⟨1, _⟩ => rfl
      | ⟨2, _⟩ => rfl
      | ⟨3, _⟩ => exact absurd rfl hb
    · show 0 + 2049 = k.val
      omega
    · refine (reverse_col_unit _ i).trans ?_
      refine (slice4_axis3_apply 2047 (v11 X) _ (0 : Fin 1) (0 : Fin 1) i (0 : Fin 1) (⟨2047, by omega⟩ : Fin 2049) rfl).trans ?_
      refine v11_apply X i _ _ ?_
      show (Cert.Spec.colR k.val).val = if 2047 = 0 then 1 else 2047 - 1
      unfold Cert.Spec.colR
      rw [h2, if_neg (by omega), dif_neg (by omega), if_neg (by omega)]
      rfl

/-! ## The padded field -/

/-- The padded field at (i, k) is the field at row i - 1 and column k - 1, both reflected at the border. -/
theorem pad_apply (X : S1x1x1024x2048.Idx → α) (j : S1x1x1026x2050.Idx) :
    v15 X j = X (ix4 (0 : Fin 1) (0 : Fin 1) (Cert.Spec.rowR (j 2).val) (Cert.Spec.colR (j 3).val)) := by
  obtain ⟨a, b, i, k, rfl⟩ : ∃ (a : Fin 1) (b : Fin 1) (i : Fin 1026) (k : Fin 2050), j = ix4 a b i k :=
    ⟨j 0, j 1, j 2, j 3, eq_ix4 j⟩
  obtain rfl : a = 0 := Subsingleton.elim _ _
  obtain rfl : b = 0 := Subsingleton.elim _ _
  exact (v15_apply X i k).trans (v7_apply X i _)

end Cert.LibRefPad

end
-- ==== Proof.RefValPad.lean ====
/-
  The padded temperature field: the reflecting pad's slices, reversals and concatenations read at an index. The
  window is read in two stretches, up to the field padded along the rows, and from there on.
-/
import proofs.«161081_j59665685676148_2_alg».proof.Proof.RefVal3
import proofs.«161081_j59665685676148_2_alg».proof.Proof.LibRefPad
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

/-- A two-piece concatenation with its pieces as arguments. -/
def cat2 {α : Type} (t : Shape) (a : Fin t.rank) (s₁ s₂ : Shape) (h : Shape.Concatenates [s₁, s₂] t a)
    (u : s₁.Idx → α) (v : s₂.Idx → α) : t.Idx → α := concatenate t a [⟨s₁, u⟩, ⟨s₂, v⟩] h

theorem cat2_fold {α : Type} (t : Shape) (a : Fin t.rank) (s₁ s₂ : Shape) (h : Shape.Concatenates [s₁, s₂] t a)
    (u : s₁.Idx → α) (v : s₂.Idx → α) : concatenate t a [⟨s₁, u⟩, ⟨s₂, v⟩] h = cat2 t a s₁ s₂ h u v := rfl

/-- Contents moved to a buffer's own type and back are the contents. -/
theorem cast_cast_self {α β : Type} (h : α = β) (v : β) : cast h (cast h.symm v) = v := by
  subst h; rfl

theorem ofBuf_toBuf {T : BufTy} (y : StableHlo.TRef sig T) (v : T.Contents (Elt Ideal)) : y.ofBuf (y.toBuf v) = v :=
  cast_cast_self (congrArg (fun U : BufTy => U.Contents (Elt Ideal)) y.ty_eq) v

theorem ofBuf_v47 (p1 p2 p3) (x : S1x1x1024x2048.Idx → EReal) :
    (StableHlo.TRef.of (T := ⟨S1x1x1024x2048, .f32⟩) main_v47 p1 p2 p3).ofBuf (Val := Elt Ideal) x = x := rfl
theorem toBuf_v7 (p1 p2 p3) (x : S1x1x1026x2048.Idx → EReal) :
    (StableHlo.TRef.of (T := ⟨S1x1x1026x2048, .f32⟩) main_call0_v7 p1 p2 p3).toBuf (Val := Elt Ideal) x = x := rfl
theorem ofBuf_v7 (p1 p2 p3) (x : S1x1x1026x2048.Idx → EReal) :
    (StableHlo.TRef.of (T := ⟨S1x1x1026x2048, .f32⟩) main_call0_v7 p1 p2 p3).ofBuf (Val := Elt Ideal) x = x := rfl
theorem toBuf_v48 (p1 p2 p3) (x : S1x1x1026x2050.Idx → EReal) :
    (StableHlo.TRef.of (T := ⟨S1x1x1026x2050, .f32⟩) main_v48 p1 p2 p3).toBuf (Val := Elt Ideal) x = x := rfl

/-- The second window's first seventeen operations, and the rest. -/
def ops1a : List (HloOp τ sig (Elt Ideal)) := List.take 17 (ops_part1 (F := Ideal))
def ops1b : List (HloOp τ sig (Elt Ideal)) := List.drop 17 (ops_part1 (F := Ideal))

/-- The contents after the first stretch. -/
def val2a (V : Vals) : Vals := after ops1a (val1 V)

theorem val2_eq (V : Vals) : val2 V = after ops1b (val2a V) := by
  unfold val2 val2a ops1a ops1b
  rw [← StableHlo.after_append, List.take_append_drop]

set_option maxHeartbeats 4000000 in
/-- The field padded along the rows. -/
theorem val2a_v7 (V : Vals) :
    val2a V (Proc.devRef .tc main_call0_v7) = Cert.LibRefPad.v7 (fun j : S1x1x1024x2048.Idx => Spec.hbc (V (Proc.devRef .tc main_arg0)) (V (Proc.devRef .tc main_arg3)) (j 2) (j 3)) := by
  unfold val2a ops1a
  simp only [ops_part1, List.take_succ_cons, List.take_zero]
  simp (disch := decide) only [after_cons, after_nil,
    nullary_result', unary_result', binary_result', ternary_result', quaternary_result', reshape_result',
    nullary_result_ne', unary_result_ne', binary_result_ne', ternary_result_ne', quaternary_result_ne', reshape_result_ne',
    cat2_fold]
  rw [val1_v37, val1_keep V main_arg3 (by decide), P_hbc]
  repeat rw [ofBuf_toBuf]
  rw [ofBuf_v47, toBuf_v7]
  rfl

set_option maxHeartbeats 4000000 in
/-- The padded field at (i, k) is the masked temperature at row i - 1 and column k - 1, reflected at the border. -/
theorem padIs (V : Vals) : PadIs V := by
  unfold PadIs
  rw [val2_eq]
  unfold ops1b
  simp only [ops_part1, List.drop_succ_cons, List.drop_zero]
  simp (disch := decide) only [after_cons, after_nil,
    nullary_result', unary_result', binary_result', ternary_result', quaternary_result', reshape_result',
    nullary_result_ne', unary_result_ne', binary_result_ne', ternary_result_ne', quaternary_result_ne', reshape_result_ne',
    cat2_fold]
  rw [val2a_v7]
  repeat rw [ofBuf_toBuf]
  rw [ofBuf_v7, toBuf_v48]
  funext j
  exact Cert.LibRefPad.pad_apply (fun j : S1x1x1024x2048.Idx => Spec.hbc (V (Proc.devRef .tc main_arg0)) (V (Proc.devRef .tc main_arg3)) (j 2) (j 3)) j

end Cert.ReferenceIdeal.RefValue

end
-- ==== Proof.RefValues.lean ====
/-
  The reference's three results as functions of its arguments: the loss, the masked temperature and the equation codes,
  each the specification's, for a masked water content whose sum is not negative.
-/
import proofs.«161081_j59665685676148_2_alg».proof.Proof.RefVal5
import proofs.«161081_j59665685676148_2_alg».proof.Proof.RefValPad
import proofs.«161081_j59665685676148_2_alg».proof.Proof.RefValCode

noncomputable section

open Cert.ReferenceIdeal Cert.ReferenceIdeal.RefRun Idealize.ShloMosaic Idealize.ShloMosaic.StableHlo in
/-- After the reference's whole line of operations its three result buffers hold the specification's results. -/
theorem Cert.ReferenceIdeal.RefValue.values (V : Valuation τ sig (Elt Ideal))
    (hpos : 0 ≤ Cert.Spec.wsum (V (Proc.devRef .tc main_arg0)) (V (Proc.devRef .tc main_arg2))) :
    after (ops (F := Ideal)) V (Proc.devRef .tc main_v297)
        = Cert.Spec.out0 (V (Proc.devRef .tc main_arg0)) (V (Proc.devRef .tc main_arg1)) (V (Proc.devRef .tc main_arg2)) (V (Proc.devRef .tc main_arg3)) (V (Proc.devRef .tc main_arg4))
    ∧ after (ops (F := Ideal)) V (Proc.devRef .tc main_v47) = Cert.Spec.out1 (V (Proc.devRef .tc main_arg0)) (V (Proc.devRef .tc main_arg3))
    ∧ after (ops (F := Ideal)) V (Proc.devRef .tc main_v269) = Cert.Spec.out2 (V (Proc.devRef .tc main_arg0)) :=
  ⟨(congrFun (Cert.ReferenceIdeal.RefValue.after_ops_eq V) _).trans
      (Cert.ReferenceIdeal.RefValue.val7_v297 V (Cert.ReferenceIdeal.RefValue.padIs V) hpos),
    Cert.ReferenceIdeal.RefValue.out1_eq V, Cert.ReferenceIdeal.RefValue.out2_eq V⟩

end
-- ==== Proof.lean ====
/-
  The kernel computes a physics loss over a 1024 x 2048 grid in two passes: a first pass sums the masked water
  content `wc * [b > 3]` tile by tile, and a second pass, tile by tile over 64 rows with a one-row halo of the
  reflect-padded temperature field, forms the centred differences, the evaporation rate, the residual of the
  boundary equation selected by the cell's code `b`, and accumulates the two sums of squares; the host divides
  the sums by the number of cells and adds them. The reference does the same on whole arrays.

  The claims. The two kernel programs' frames are the generated ones. The reference is a straight line of host
  operations, so it terminates and writes no argument (Proof/RefRun.lean). The idealized kernel differs from the
  printed one in one named constant: the kernel's folded literal `f32(C1*C2*400*1)` stands for `400 * D`, `D`
  the reference's own literal `f32(C1*C2)`, which is what makes `K * C3` and `((D * C3) * 400) * 1` the same
  extended real. The kernel takes `sqrt` where the reference takes the power `1/2`; the two agree on a base
  that is not negative (Proof/LibSqrtPow.lean), which the precondition states of the mean water content.
-/
import proofs.«161081_j59665685676148_2_alg».proof.Defs
import proofs.«161081_j59665685676148_2_alg».proof.Proof.Gen.Kernel
import proofs.«161081_j59665685676148_2_alg».proof.Proof.Gen.Kernel.Skeleton
import proofs.«161081_j59665685676148_2_alg».proof.Proof.Gen.Kernel.Launch
import proofs.«161081_j59665685676148_2_alg».proof.Proof.Gen.Kernel.Points
import proofs.«161081_j59665685676148_2_alg».proof.Proof.Gen.Kernel.Frame
import proofs.«161081_j59665685676148_2_alg».proof.Proof.Gen.KernelIdeal
import proofs.«161081_j59665685676148_2_alg».proof.Proof.Gen.KernelIdeal.Skeleton
import proofs.«161081_j59665685676148_2_alg».proof.Proof.Gen.KernelIdeal.Launch
import proofs.«161081_j59665685676148_2_alg».proof.Proof.Gen.KernelIdeal.Points
import proofs.«161081_j59665685676148_2_alg».proof.Proof.Gen.KernelIdeal.Frame
import proofs.«161081_j59665685676148_2_alg».proof.Proof.Gen.ReferenceIdeal
import proofs.«161081_j59665685676148_2_alg».proof.Proof.Gen.Pre_finite_inputs
import proofs.«161081_j59665685676148_2_alg».proof.Proof.RefRun
import proofs.«161081_j59665685676148_2_alg».proof.Proof.LibSqrtPow
import proofs.«161081_j59665685676148_2_alg».proof.Proof.KernelRun
import proofs.«161081_j59665685676148_2_alg».proof.Proof.KerAll
import proofs.«161081_j59665685676148_2_alg».proof.Proof.PreVal
import proofs.«161081_j59665685676148_2_alg».proof.Proof.RefValues
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernel_ideal : Cert.frame_KernelIdeal :=
  fun m ρ _ => Cert.KernelIdeal.Gen.frame m ρ

/-- The reference is a straight line of host operations none of which writes an argument. -/
theorem frame_reference : Cert.frame_ReferenceIdeal :=
  fun m ρ _ => Cert.ReferenceIdeal.RefRun.frame (F := Ideal) m ρ

/-- The one rewrite of the idealization: the literal `0x3F05A0E4` is named, and the name denotes `400 * D`. -/
theorem preserves : Cert.preserves_Kernel_KernelIdeal :=
  IdealRules.named_const.statement Cert.KernelIdeal.κ "c1_c2_times_400" .f32 0x3F05A0E4#32
    ((280239225 / 536870912 : ℝ) : EReal) rfl

/-- Both idealized programs end at the specification's three results (Proof/Spec.lean) of the launch arguments: the
    kernel's run read through its host stretches and its two passes, the reference's straight line read window by
    window. The reference's power `1/2` is the kernel's square root because the precondition makes the mean water
    content not negative. -/
theorem algebraic : Cert.algebraic_KernelIdeal_ReferenceIdeal := by
  intro m ρ m' ρ' hpre hagree
  refine ⟨fun c => Cert.Spec.out0 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Spec.out1 (m ((c.tc : Thread Cert.KernelIdeal.nD Cert.KernelIdeal.τ).loc Cert.KernelIdeal.main_arg0))
      (m ((c.tc : Thread Cert.KernelIdeal.nD Cert.KernelIdeal.τ).loc Cert.KernelIdeal.main_arg3)),
    fun c => Cert.Spec.out2 (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Run.run_values (F := Ideal) m ρ)
    obtain ⟨k0, k1, k2⟩ := Cert.KernelIdeal.Value.kernel_values m ρ c
    exact ⟨(h c).1.trans k0, (h c).2.1.trans k1, (h c).2.2.1.trans k2, (h c).2.2.2⟩
  · refine (θ_run Cert.ReferenceIdeal.defs _ _).mono (fun r h c => ?_) (Cert.ReferenceIdeal.RefRun.run (F := Ideal) m' ρ')
    obtain ⟨a0, a1, a2, a3, a4⟩ := hagree c
    have hpos := Cert.ReferenceIdeal.RefValue.pre_nonneg _ _ _ _ _ (hpre c)
    rw [← a0, ← a2] at hpos
    obtain ⟨v0, v1, v2⟩ := Cert.ReferenceIdeal.RefValue.values (StableHlo.launchContents m' c) hpos
    refine ⟨(h c _).trans (v0.trans ?_), (h c _).trans (v1.trans ?_), (h c _).trans (v2.trans ?_),
      (h c _).trans (Cert.ReferenceIdeal.RefRun.after_ops_keep _ Cert.ReferenceIdeal.main_arg0 (by decide) (by decide) (by decide) (by decide) (by decide) (by decide) (by decide)),
      (h c _).trans (Cert.ReferenceIdeal.RefRun.after_ops_keep _ Cert.ReferenceIdeal.main_arg1 (by decide) (by decide) (by decide) (by decide) (by decide) (by decide) (by decide)),
      (h c _).trans (Cert.ReferenceIdeal.RefRun.after_ops_keep _ Cert.ReferenceIdeal.main_arg2 (by decide) (by decide) (by decide) (by decide) (by decide) (by decide) (by decide)),
      (h c _).trans (Cert.ReferenceIdeal.RefRun.after_ops_keep _ Cert.ReferenceIdeal.main_arg3 (by decide) (by decide) (by decide) (by decide) (by decide) (by decide) (by decide)),
      (h c _).trans (Cert.ReferenceIdeal.RefRun.after_ops_keep _ Cert.ReferenceIdeal.main_arg4 (by decide) (by decide) (by decide) (by decide) (by decide) (by decide) (by decide))⟩
    · dsimp only; rw [← a0, ← a1, ← a2, ← a3, ← a4]
    · dsimp only; rw [← a0, ← a3]
    · dsimp only; rw [← a0]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
